-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x64x64 : Shape := ⟨4, ![1, 512, 64, 64]⟩
abbrev S4096x4096 : Shape := ⟨2, ![4096, 4096]⟩
abbrev S4096 : Shape := ⟨1, ![4096]⟩
abbrev S21x4096 : Shape := ⟨2, ![21, 4096]⟩
abbrev S21 : Shape := ⟨1, ![21]⟩
abbrev S1x2048x4 : Shape := ⟨3, ![1, 2048, 4]⟩
abbrev S_ : Shape := ⟨0, ![]⟩

class Facts : Prop where
  bcast_S_S1x512x64x64 : S_.BroadcastsInDim S1x512x64x64 (![] : Fin 0 → Fin S1x512x64x64.rank)
  reducesTo_S1x512x64x64_S_d0_1_2_3 : S1x512x64x64.ReducesTo [0, 1, 2, 3] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S21x4096 : S_.BroadcastsInDim S21x4096 (![] : Fin 0 → Fin S21x4096.rank)
  reducesTo_S21x4096_S_d0_1 : S21x4096.ReducesTo [0, 1] S_
  bcast_S_S21 : S_.BroadcastsInDim S21 (![] : Fin 0 → Fin S21.rank)
  reducesTo_S21_S_d0 : S21.ReducesTo [0] S_

variable [Facts]

def fn_part2 {F : FTy → Type} [FloatOps F] (main_arg7 : FVec F S21x4096 .f32) (main_arg8 : FVec F S21 .f32) (main_v33 : IVec S_ 1) : IVec S_ 1 :=
  let main_v34 : FVec F S21x4096 .f32 := Host.absf main_arg7
  let main_cst_12 : FVec F S_ .f32 := constant S_ .f32 0x7F800000#32
  let main_v35 : FVec F S21x4096 .f32 := broadcastInDim S21x4096 ![] bcast_S_S21x4096 main_cst_12
  let main_v36 : IVec S21x4096 1 := cmpf .olt main_v34 main_v35
  let main_c_13 : IVec S_ 1 := constantI S_ 1 1#1
  let main_v37 : IVec S_ 1 := (fun x v => Host.reduce IntOp.andi x v reducesTo_S21x4096_S_d0_1 h_S_) main_v36 main_c_13
  let main_v38 : IVec S_ 1 := andi main_v33 main_v37
  let main_v39 : FVec F S21 .f32 := Host.absf main_arg8
  let main_cst_14 : FVec F S_ .f32 := constant S_ .f32 0x7F800000#32
  let main_v40 : FVec F S21 .f32 := broadcastInDim S21 ![] bcast_S_S21 main_cst_14
  let main_v41 : IVec S21 1 := cmpf .olt main_v39 main_v40
  let main_c_15 : IVec S_ 1 := constantI S_ 1 1#1
  let main_v42 : IVec S_ 1 := (fun x v => Host.reduce IntOp.andi x v reducesTo_S21_S_d0 h_S_) main_v41 main_c_15
  let main_v43 : IVec S_ 1 := andi main_v38 main_v42
  main_v43

def fn_part1 {F : FTy → Type} [FloatOps F] (main_arg4 : FVec F S4096 .f32) (main_arg5 : FVec F S21x4096 .f32) (main_arg6 : FVec F S21 .f32) (main_arg7 : FVec F S21x4096 .f32) (main_arg8 : FVec F S21 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S21x4096 .f32 := Host.absf main_arg5
  let main_cst_8 : FVec F S_ .f32 := constant S_ .f32 0x7F800000#32
  let main_v25 : FVec F S21x4096 .f32 := broadcastInDim S21x4096 ![] bcast_S_S21x4096 main_cst_8
  let main_v26 : IVec S21x4096 1 := cmpf .olt main_v24 main_v25
  let main_c_9 : IVec S_ 1 := constantI S_ 1 1#1
  let main_v27 : IVec S_ 1 := (fun x v => Host.reduce IntOp.andi x v reducesTo_S21x4096_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  fn_part2 (F := F) main_arg7 main_arg8 main_v33

def fn {F : FTy → Type} [FloatOps F] (main_arg0 : FVec F S1x512x64x64 .f32) (main_arg1 : FVec F S4096x4096 .f32) (main_arg2 : FVec F S4096 .f32) (main_arg3 : FVec F S4096x4096 .f32) (main_arg4 : FVec F S4096 .f32) (main_arg5 : FVec F S21x4096 .f32) (main_arg6 : FVec F S21 .f32) (main_arg7 : FVec F S21x4096 .f32) (main_arg8 : FVec F S21 .f32) (main_arg9 : IVec S1x2048x4 32) : IVec S_ 1 :=
  let main_v0 : FVec F S1x512x64x64 .f32 := Host.absf main_arg0
  let main_cst : FVec F S_ .f32 := constant S_ .f32 0x7F800000#32
  let main_v1 : FVec F S1x512x64x64 .f32 := broadcastInDim S1x512x64x64 ![] bcast_S_S1x512x64x64 main_cst
  let main_v2 : IVec S1x512x64x64 1 := cmpf .olt main_v0 main_v1
  let main_c : IVec S_ 1 := constantI S_ 1 1#1
  let main_v3 : IVec S_ 1 := (fun x v => Host.reduce IntOp.andi x v reducesTo_S1x512x64x64_S_d0_1_2_3 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S1x512x64x64 : Shape := ⟨4, ![1, 512, 64, 64]⟩
abbrev S4096x4096 : Shape := ⟨2, ![4096, 4096]⟩
abbrev S4096 : Shape := ⟨1, ![4096]⟩
abbrev S21x4096 : Shape := ⟨2, ![21, 4096]⟩
abbrev S21 : Shape := ⟨1, ![21]⟩
abbrev S1x2048x4 : Shape := ⟨3, ![1, 2048, 4]⟩
abbrev S512x64x64 : Shape := ⟨3, ![512, 64, 64]⟩
abbrev S2048x4 : Shape := ⟨2, ![2048, 4]⟩
abbrev S2048x1 : Shape := ⟨2, ![2048, 1]⟩
abbrev S2048 : Shape := ⟨1, ![2048]⟩
abbrev S_ : Shape := ⟨0, ![]⟩
abbrev S2048x3 : Shape := ⟨2, ![2048, 3]⟩
abbrev S2048x512x14x14 : Shape := ⟨4, ![2048, 512, 14, 14]⟩
abbrev S2048x512x2x7x2x7 : Shape := ⟨6, ![2048, 512, 2, 7, 2, 7]⟩
abbrev S2048x512x2x2 : Shape := ⟨4, ![2048, 512, 2, 2]⟩
abbrev S2048x2048 : Shape := ⟨2, ![2048, 2048]⟩
abbrev S2048x4096 : Shape := ⟨2, ![2048, 4096]⟩
abbrev S1x2048x4096 : Shape := ⟨3, ![1, 2048, 4096]⟩
abbrev S4096x21 : Shape := ⟨2, ![4096, 21]⟩
abbrev S1x4096 : Shape := ⟨2, ![1, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S1x21 : Shape := ⟨2, ![1, 21]⟩
abbrev S2048x21 : Shape := ⟨2, ![2048, 21]⟩
abbrev S1024x21 : Shape := ⟨2, ![1024, 21]⟩
abbrev S512x21 : Shape := ⟨2, ![512, 21]⟩
abbrev S1x2048x21 : Shape := ⟨3, ![1, 2048, 21]⟩
abbrev S1x2048 : Shape := ⟨2, ![1, 2048]⟩
abbrev S1x2048x1 : Shape := ⟨3, ![1, 2048, 1]⟩
abbrev S1x1x21 : Shape := ⟨3, ![1, 1, 21]⟩

abbrev nBuf : Space → Nat
  | .hbm => 100
  | .vmem => 32
  | .smem => 0
  | _ => 0

abbrev bufTy : (tb : Table) → Fin (tcTables nBuf tb) → BufTy
  | .hbm, ⟨0, _⟩ => ⟨S1x512x64x64, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S21x4096, .f32⟩
  | .hbm, ⟨6, _⟩ => ⟨S21, .f32⟩
  | .hbm, ⟨7, _⟩ => ⟨S21x4096, .f32⟩
  | .hbm, ⟨8, _⟩ => ⟨S21, .f32⟩
  | .hbm, ⟨9, _⟩ => ⟨S1x2048x4, .i32⟩
  | .hbm, ⟨10, _⟩ => ⟨S512x64x64, .f32⟩
  | .hbm, ⟨11, _⟩ => ⟨S2048x4, .i32⟩
  | .hbm, ⟨12, _⟩ => ⟨S2048x1, .i32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x1, .i32⟩
  | .hbm, ⟨41, _⟩ => ⟨S2048x3, .i32⟩
  | .hbm, ⟨42, _⟩ => ⟨S2048x512x14x14, .f32⟩
  | .hbm, ⟨43, _⟩ => ⟨S2048x512x2x7x2x7, .f32⟩
  | .hbm, ⟨44, _⟩ => ⟨S_, .f32⟩
  | .hbm, ⟨45, _⟩ => ⟨S2048x512x2x2, .f32⟩
  | .hbm, ⟨46, _⟩ => ⟨S2048x2048, .f32⟩
  | .hbm, ⟨47, _⟩ => ⟨S2048x4096, .f32⟩
  | .hbm, ⟨48, _⟩ => ⟨S1x2048x4096, .f32⟩
  | .hbm, ⟨49, _⟩ => ⟨S2048x4096, .f32⟩
  | .hbm, ⟨50, _⟩ => ⟨S2048x4096, .bf16⟩
  | .hbm, ⟨51, _⟩ => ⟨S4096x4096, .f32⟩
  | .hbm, ⟨52, _⟩ => ⟨S4096x4096, .bf16⟩
  | .hbm, ⟨53, _⟩ => ⟨S4096x4096, .f32⟩
  | .hbm, ⟨54, _⟩ => ⟨S4096x4096, .bf16⟩
  | .hbm, ⟨55, _⟩ => ⟨S4096x21, .f32⟩
  | .hbm, ⟨56, _⟩ => ⟨S4096x21, .bf16⟩
  | .hbm, ⟨57, _⟩ => ⟨S4096x21, .f32⟩
  | .hbm, ⟨58, _⟩ => ⟨S4096x21, .bf16⟩
  | .hbm, ⟨59, _⟩ => ⟨S1x4096, .f32⟩
  | .hbm, ⟨60, _⟩ => ⟨S2048x4096, .bf16⟩
  | .hbm, ⟨61, _⟩ => ⟨S1x4096, .f32⟩
  | .hbm, ⟨62, _⟩ => ⟨S2048x4096, .bf16⟩
  | .hbm, ⟨63, _⟩ => ⟨S1x21, .f32⟩
  | .hbm, ⟨64, _⟩ => ⟨S1x21, .f32⟩
  | .hbm, ⟨65, _⟩ => ⟨S2048x21, .f32⟩
  | .hbm, ⟨66, _⟩ => ⟨S2048x21, .f32⟩
  | .hbm, ⟨67, _⟩ => ⟨S1x2048x21, .f32⟩
  | .hbm, ⟨68, _⟩ => ⟨S1x2048x21, .f32⟩
  | .hbm, ⟨69, _⟩ => ⟨S_, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | .hbm, ⟨74, _⟩ => ⟨S1x2048x1, .f32⟩
  | .hbm, ⟨75, _⟩ => ⟨S1x2048x21, .f32⟩
  | .hbm, ⟨76, _⟩ => ⟨S1x2048x21, .f32⟩
  | .hbm, ⟨77, _⟩ => ⟨S1x2048x21, .f32⟩
  | .hbm, ⟨78, _⟩ => ⟨S_, .f32⟩
  | .hbm, ⟨79, _⟩ => ⟨S1x2048, .f32⟩
  | .hbm, ⟨80, _⟩ => ⟨S1x2048x1, .f32⟩
  | .hbm, ⟨81, _⟩ => ⟨S1x2048x21, .f32⟩
  | .hbm, ⟨82, _⟩ => ⟨S1x2048x21, .f32⟩
  | .hbm, ⟨83, _⟩ => ⟨S_, .f32⟩
  | .hbm, ⟨84, _⟩ => ⟨S1x21, .f32⟩
  | .hbm, ⟨85, _⟩ => ⟨S_, .f32⟩
  | .hbm, ⟨86, _⟩ => ⟨S1x21, .f32⟩
  | .hbm, ⟨87, _⟩ => ⟨S1x21, .f32⟩
  | .hbm, ⟨88, _⟩ => ⟨S1x1x21, .f32⟩
  | .hbm, ⟨89, _⟩ => ⟨S1x2048x21, .f32⟩
  | .hbm, ⟨90, _⟩ => ⟨S1x2048x21, .f32⟩
  | .hbm, ⟨91, _⟩ => ⟨S1x2048x21, .f32⟩
  | .hbm, ⟨92, _⟩ => ⟨S_, .f32⟩
  | .hbm, ⟨93, _⟩ => ⟨S1x21, .f32⟩
  | .hbm, ⟨94, _⟩ => ⟨S1x1x21, .f32⟩
  | .hbm, ⟨95, _⟩ => ⟨S1x2048x21, .f32⟩
  | .hbm, ⟨96, _⟩ => ⟨S1x2048x21, .f32⟩
  | .hbm, ⟨97, _⟩ => ⟨S1x2048x21, .f32⟩
  | .hbm, ⟨98, _⟩ => ⟨S_, .f32⟩
  | .hbm, ⟨99, _⟩ => ⟨S1x21, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S2048x1024, .bf16⟩
  | .local _ .vmem, ⟨12, _⟩ => ⟨S2048x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x21, .bf16⟩
  | .local _ .vmem, ⟨21, _⟩ => ⟨S1024x21, .bf16⟩
  | .local _ .vmem, ⟨22, _⟩ => ⟨S1024x21, .bf16⟩
  | .local _ .vmem, ⟨23, _⟩ => ⟨S1024x21, .bf16⟩
  | .local _ .vmem, ⟨24, _⟩ => ⟨S1x21, .f32⟩
  | .local _ .vmem, ⟨25, _⟩ => ⟨S1x21, .f32⟩
  | .local _ .vmem, ⟨26, _⟩ => ⟨S512x21, .f32⟩
  | .local _ .vmem, ⟨27, _⟩ => ⟨S512x21, .f32⟩
  | .local _ .vmem, ⟨28, _⟩ => ⟨S512x21, .f32⟩
  | .local _ .vmem, ⟨29, _⟩ => ⟨S512x21, .f32⟩
  | .local _ .vmem, ⟨30, _⟩ => ⟨S512x21, .f32⟩
  | .local _ .vmem, ⟨31, _⟩ => ⟨S512x21, .f32⟩
  | _, _ => ⟨S1x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_v6 : Ref sig .tc := ⟨.hbm, 18, rfl⟩
abbrev main_c_1 : Ref sig .tc := ⟨.hbm, 19, rfl⟩
abbrev main_c_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_c_7 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_17 : BitVec 32 := 0#32
  let v25 : BitVec 1 := Scalar.cmpi .ne v24 c0_i32_17
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x21 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x21 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x21 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x21 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x21 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x21 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S1x512x64x64_S512x64x64 : S1x512x64x64.ShapeCasts S512x64x64
  shapeCasts_S1x2048x4_S2048x4 : S1x2048x4.ShapeCasts S2048x4
  slices_S2048x4_S2048x1_0_0 : S2048x4.Slices ![0, 0] S2048x1
  shapeCasts_S2048x1_S2048 : S2048x1.ShapeCasts S2048
  slices_S2048x4_S2048x1_0_1 : S2048x4.Slices ![0, 1] S2048x1
  bcast_S_S2048 : S_.BroadcastsInDim S2048 (![] : Fin 0 → Fin S2048.rank)
  bcast_S_S2048x1 : S_.BroadcastsInDim S2048x1 (![] : Fin 0 → Fin S2048x1.rank)
  bcast_S2048_S2048x1_0 : S2048.BroadcastsInDim S2048x1 (![0] : Fin 1 → Fin S2048x1.rank)
  concatenates_S2048x1_S2048x1_S2048x1_S2048x3_d1 : Shape.Concatenates [S2048x1, S2048x1, S2048x1] S2048x3 1
  shapeCasts_S2048x512x14x14_S2048x512x2x7x2x7 : S2048x512x14x14.ShapeCasts S2048x512x2x7x2x7
  reducesTo_S2048x512x2x7x2x7_S2048x512x2x2_d3_5 : S2048x512x2x7x2x7.ReducesTo [3, 5] S2048x512x2x2
  h_S_ : 0 < S_.numel
  shapeCasts_S2048x512x2x2_S2048x2048 : S2048x512x2x2.ShapeCasts S2048x2048
  concatenates_S2048x2048_S2048x2048_S2048x4096_d1 : Shape.Concatenates [S2048x2048, S2048x2048] S2048x4096 1
  bcast_S2048x4096_S1x2048x4096_1_2 : S2048x4096.BroadcastsInDim S1x2048x4096 (![1, 2] : Fin 2 → Fin S1x2048x4096.rank)
  shapeCasts_S1x2048x4096_S2048x4096 : S1x2048x4096.ShapeCasts S2048x4096
  bitsLt_bf16_f32 : FTy.bits .bf16 < FTy.bits .f32
  transposes_S4096x4096_S4096x4096_1_0 : S4096x4096.Transposes [1, 0] S4096x4096
  transposes_S21x4096_S4096x21_1_0 : S21x4096.Transposes [1, 0] S4096x21
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S21_S1x21 : S21.ShapeCasts S1x21
  inb_S512x21_S512x21_0_0 : ∀ a, (![0, 0] : Fin 2 → Nat) a + S512x21.size a ≤ S512x21.size a
  h_S512x21 : 0 < S512x21.numel
  shapeCasts_S512x21_S512x21 : S512x21.ShapeCasts S512x21
  inb_S1024x21_S1024x21_0_0 : ∀ a, (![0, 0] : Fin 2 → Nat) a + S1024x21.size a ≤ S1024x21.size a
  h_S1024x21 : 0 < S1024x21.numel
  shapeCasts_S1024x21_S1024x21 : S1024x21.ShapeCasts S1024x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S512x21 : S1x21.Broadcasts S512x21
  shapeCasts_S2048x21_S1x2048x21 : S2048x21.ShapeCasts S1x2048x21
  reducesTo_S1x2048x21_S1x2048_d2 : S1x2048x21.ReducesTo [2] S1x2048
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x21_0_1_2 : S1x2048x1.BroadcastsInDim S1x2048x21 (![0, 1, 2] : Fin 3 → Fin S1x2048x21.rank)
  reducesTo_S1x2048x21_S1x21_d1 : S1x2048x21.ReducesTo [1] S1x21
  bcast_S_S1x21 : S_.BroadcastsInDim S1x21 (![] : Fin 0 → Fin S1x21.rank)
  bcast_S1x21_S1x1x21_0_2 : S1x21.BroadcastsInDim S1x1x21 (![0, 2] : Fin 2 → Fin S1x1x21.rank)
  bcast_S1x1x21_S1x2048x21_0_1_2 : S1x1x21.BroadcastsInDim S1x2048x21 (![0, 1, 2] : Fin 3 → Fin S1x2048x21.rank)
  gather_S512x64x64_S2048x3_S2048x512x14x14_123_n_n_n_012_1_5121414_wf : GatherDims.WF S512x64x64 S2048x3 S2048x512x14x14 [1, 2, 3] [] [] [0, 1, 2] [] 1 ![512, 14, 14]
  dot_S512x2048_S2048x1024_S512x1024_1_0_0_1_n_n_wf : DotDims.WF S512x2048 S2048x1024 S512x1024 [1] [0] [0] [1] [] []
  dot_S512x1024_S1024x21_S512x21_1_0_0_1_n_n_wf : DotDims.WF S512x1024 S1024x21 S512x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x4096.size a
  hwx0_0 : ∀ i : grid0.Coords, EltTy.bits .bf16 = 32 ∨ (Rect.block (s := S2048x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .bf16 = 32 ∨ (Rect.block (s := S2048x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x4096.size a
  hwx1_0 : ∀ i : grid1.Coords, EltTy.bits .bf16 = 32 ∨ (Rect.block (s := S2048x4096) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x4096.size a
  hwx1_3 : ∀ i : grid1.Coords, EltTy.bits .bf16 = 32 ∨ (Rect.block (s := S2048x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x4096.size a
  hwx2_0 : ∀ i : grid2.Coords, EltTy.bits .bf16 = 32 ∨ (Rect.block (s := S2048x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x21.size a ≤ S4096x21.size a
  hwx2_1 : ∀ i : grid2.Coords, EltTy.bits .bf16 = 32 ∨ (Rect.block (s := S4096x21) S1024x21.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x21.size a ≤ S4096x21.size a
  hwx2_2 : ∀ i : grid2.Coords, EltTy.bits .bf16 = 32 ∨ (Rect.block (s := S4096x21) S1024x21.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x21.size a ≤ S1x21.size a
  hwx2_3 : ∀ i : grid2.Coords, EltTy.bits .f32 = 32 ∨ (Rect.block (s := S1x21) S1x21.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x21.size a ≤ S1x21.size a
  hwx2_4 : ∀ i : grid2.Coords, EltTy.bits .f32 = 32 ∨ (Rect.block (s := S1x21) S1x21.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x21.size a ≤ S2048x21.size a
  hwx2_5 : ∀ i : grid2.Coords, EltTy.bits .f32 = 32 ∨ (Rect.block (s := S2048x21) S512x21.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x21.size a ≤ S2048x21.size a
  hwx2_6 : ∀ i : grid2.Coords, EltTy.bits .f32 = 32 ∨ (Rect.block (s := S2048x21) S512x21.size (cc2_transform_6 i) (hinb2_6 i)).WholeWords (EltTy.packing .f32)

variable [Facts₀]

def gather_S512x64x64_S2048x3_S2048x512x14x14_123_n_n_n_012_1_5121414 : GatherDims S512x64x64 S2048x3 S2048x512x14x14 where
  offsetDims := [1, 2, 3]
  collapsedSliceDims := []
  operandBatchingDims := []
  startIndicesBatchingDims := []
  startIndexMap := [0, 1, 2]
  indexVectorDim := 1
  sliceSizes := ![512, 14, 14]
  wf := gather_S512x64x64_S2048x3_S2048x512x14x14_123_n_n_n_012_1_5121414_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x21_S512x21_1_0_0_1_n_n : DotDims S512x1024 S1024x21 S512x21 where
  lhsContracting := [1]
  rhsContracting := [0]
  lhsNonContracting := [0]
  rhsNonContracting := [1]
  lhsBatch := []
  rhsBatch := []
  wf := dot_S512x1024_S1024x21_S512x21_1_0_0_1_n_n_wf

abbrev win0_0 : Pipeline.Window sig grid0 :=
  Pipeline.Window.ofSpec (Memref.whole main_v30) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v40) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v42) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1024x21.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1024x21.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x21.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x21.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S512x21.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S512x21.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S1x512x64x64 : Shape := ⟨4, ![1, 512, 64, 64]⟩
abbrev S4096x4096 : Shape := ⟨2, ![4096, 4096]⟩
abbrev S4096 : Shape := ⟨1, ![4096]⟩
abbrev S21x4096 : Shape := ⟨2, ![21, 4096]⟩
abbrev S21 : Shape := ⟨1, ![21]⟩
abbrev S1x2048x4 : Shape := ⟨3, ![1, 2048, 4]⟩
abbrev S512x64x64 : Shape := ⟨3, ![512, 64, 64]⟩
abbrev S2048x4 : Shape := ⟨2, ![2048, 4]⟩
abbrev S2048x1 : Shape := ⟨2, ![2048, 1]⟩
abbrev S2048 : Shape := ⟨1, ![2048]⟩
abbrev S_ : Shape := ⟨0, ![]⟩
abbrev S2048x3 : Shape := ⟨2, ![2048, 3]⟩
abbrev S2048x512x14x14 : Shape := ⟨4, ![2048, 512, 14, 14]⟩
abbrev S2048x512x2x7x2x7 : Shape := ⟨6, ![2048, 512, 2, 7, 2, 7]⟩
abbrev S2048x512x2x2 : Shape := ⟨4, ![2048, 512, 2, 2]⟩
abbrev S2048x2048 : Shape := ⟨2, ![2048, 2048]⟩
abbrev S2048x4096 : Shape := ⟨2, ![2048, 4096]⟩
abbrev S1x2048x4096 : Shape := ⟨3, ![1, 2048, 4096]⟩
abbrev S1x1x4096 : Shape := ⟨3, ![1, 1, 4096]⟩
abbrev S1x2048x21 : Shape := ⟨3, ![1, 2048, 21]⟩
abbrev S1x1x21 : Shape := ⟨3, ![1, 1, 21]⟩
abbrev S1x2048 : Shape := ⟨2, ![1, 2048]⟩
abbrev S1x2048x1 : Shape := ⟨3, ![1, 2048, 1]⟩
abbrev S1x21 : Shape := ⟨2, ![1, 21]⟩

abbrev nBuf : Space → Nat
  | .hbm => 108
  | .vmem => 0
  | .smem => 0
  | _ => 0

abbrev bufTy : (tb : Table) → Fin (tcTables nBuf tb) → BufTy
  | .hbm, ⟨0, _⟩ => ⟨S1x512x64x64, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S21x4096, .f32⟩
  | .hbm, ⟨6, _⟩ => ⟨S21, .f32⟩
  | .hbm, ⟨7, _⟩ => ⟨S21x4096, .f32⟩
  | .hbm, ⟨8, _⟩ => ⟨S21, .f32⟩
  | .hbm, ⟨9, _⟩ => ⟨S1x2048x4, .i32⟩
  | .hbm, ⟨10, _⟩ => ⟨S512x64x64, .f32⟩
  | .hbm, ⟨11, _⟩ => ⟨S2048x4, .i32⟩
  | .hbm, ⟨12, _⟩ => ⟨S2048x1, .i32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x1, .i32⟩
  | .hbm, ⟨41, _⟩ => ⟨S2048x3, .i32⟩
  | .hbm, ⟨42, _⟩ => ⟨S2048x512x14x14, .f32⟩
  | .hbm, ⟨43, _⟩ => ⟨S2048x512x2x7x2x7, .f32⟩
  | .hbm, ⟨44, _⟩ => ⟨S_, .f32⟩
  | .hbm, ⟨45, _⟩ => ⟨S2048x512x2x2, .f32⟩
  | .hbm, ⟨46, _⟩ => ⟨S2048x2048, .f32⟩
  | .hbm, ⟨47, _⟩ => ⟨S2048x4096, .f32⟩
  | .hbm, ⟨48, _⟩ => ⟨S1x2048x4096, .f32⟩
  | .hbm, ⟨49, _⟩ => ⟨S1x2048x4096, .f32⟩
  | .hbm, ⟨50, _⟩ => ⟨S1x1x4096, .f32⟩
  | .hbm, ⟨51, _⟩ => ⟨S1x2048x4096, .f32⟩
  | .hbm, ⟨52, _⟩ => ⟨S1x2048x4096, .f32⟩
  | .hbm, ⟨53, _⟩ => ⟨S_, .f32⟩
  | .hbm, ⟨54, _⟩ => ⟨S1x2048x4096, .f32⟩
  | .hbm, ⟨55, _⟩ => ⟨S1x2048x4096, .f32⟩
  | .hbm, ⟨56, _⟩ => ⟨S1x2048x4096, .f32⟩
  | .hbm, ⟨57, _⟩ => ⟨S1x1x4096, .f32⟩
  | .hbm, ⟨58, _⟩ => ⟨S1x2048x4096, .f32⟩
  | .hbm, ⟨59, _⟩ => ⟨S1x2048x4096, .f32⟩
  | .hbm, ⟨60, _⟩ => ⟨S_, .f32⟩
  | .hbm, ⟨61, _⟩ => ⟨S1x2048x4096, .f32⟩
  | .hbm, ⟨62, _⟩ => ⟨S1x2048x4096, .f32⟩
  | .hbm, ⟨63, _⟩ => ⟨S1x2048x21, .f32⟩
  | .hbm, ⟨64, _⟩ => ⟨S1x1x21, .f32⟩
  | .hbm, ⟨65, _⟩ => ⟨S1x2048x21, .f32⟩
  | .hbm, ⟨66, _⟩ => ⟨S1x2048x21, .f32⟩
  | .hbm, ⟨67, _⟩ => ⟨S_, .f32⟩
  | .hbm, ⟨68, _⟩ => ⟨S1x2048x21, .f32⟩
  | .hbm, ⟨69, _⟩ => ⟨S1x2048x21, .f32⟩
  | .hbm, ⟨70, _⟩ => ⟨S1x2048x21, .f32⟩
  | .hbm, ⟨71, _⟩ => ⟨S1x1x21, .f32⟩
  | .hbm, ⟨72, _⟩ => ⟨S1x2048x21, .f32⟩
  | .hbm, ⟨73, _⟩ => ⟨S1x2048x21, .f32⟩
  | .hbm, ⟨74, _⟩ => ⟨S_, .f32⟩
  | .hbm, ⟨75, _⟩ => ⟨S1x2048x21, .f32⟩
  | .hbm, ⟨76, _⟩ => ⟨S1x2048x21, .f32⟩
  | .hbm, ⟨77, _⟩ => ⟨S_, .f32⟩
  | .hbm, ⟨78, _⟩ => ⟨S1x2048, .f32⟩
  | .hbm, ⟨79, _⟩ => ⟨S_, .f32⟩
  | .hbm, ⟨80, _⟩ => ⟨S1x2048, .f32⟩
  | .hbm, ⟨81, _⟩ => ⟨S1x2048, .f32⟩
  | .hbm, ⟨82, _⟩ => ⟨S1x2048x1, .f32⟩
  | .hbm, ⟨83, _⟩ => ⟨S1x2048x21, .f32⟩
  | .hbm, ⟨84, _⟩ => ⟨S1x2048x21, .f32⟩
  | .hbm, ⟨85, _⟩ => ⟨S1x2048x21, .f32⟩
  | .hbm, ⟨86, _⟩ => ⟨S_, .f32⟩
  | .hbm, ⟨87, _⟩ => ⟨S1x2048, .f32⟩
  | .hbm, ⟨88, _⟩ => ⟨S1x2048x1, .f32⟩
  | .hbm, ⟨89, _⟩ => ⟨S1x2048x21, .f32⟩
  | .hbm, ⟨90, _⟩ => ⟨S1x2048x21, .f32⟩
  | .hbm, ⟨91, _⟩ => ⟨S_, .f32⟩
  | .hbm, ⟨92, _⟩ => ⟨S1x21, .f32⟩
  | .hbm, ⟨93, _⟩ => ⟨S_, .f32⟩
  | .hbm, ⟨94, _⟩ => ⟨S1x21, .f32⟩
  | .hbm, ⟨95, _⟩ => ⟨S1x21, .f32⟩
  | .hbm, ⟨96, _⟩ => ⟨S1x1x21, .f32⟩
  | .hbm, ⟨97, _⟩ => ⟨S1x2048x21, .f32⟩
  | .hbm, ⟨98, _⟩ => ⟨S1x2048x21, .f32⟩
  | .hbm, ⟨99, _⟩ => ⟨S1x2048x21, .f32⟩
  | .hbm, ⟨100, _⟩ => ⟨S_, .f32⟩
  | .hbm, ⟨101, _⟩ => ⟨S1x21, .f32⟩
  | .hbm, ⟨102, _⟩ => ⟨S1x1x21, .f32⟩
  | .hbm, ⟨103, _⟩ => ⟨S1x2048x21, .f32⟩
  | .hbm, ⟨104, _⟩ => ⟨S1x2048x21, .f32⟩
  | .hbm, ⟨105, _⟩ => ⟨S1x2048x21, .f32⟩
  | .hbm, ⟨106, _⟩ => ⟨S_, .f32⟩
  | .hbm, ⟨107, _⟩ => ⟨S1x21, .f32⟩
  | _, _ => ⟨S1x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_c_0 : Ref sig .tc := ⟨.hbm, 17, rfl⟩
abbrev main_v6 : Ref sig .tc := ⟨.hbm, 18, rfl⟩
abbrev main_c_1 : Ref sig .tc := ⟨.hbm, 19, rfl⟩
abbrev main_c_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_c_7 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_cst : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call3_cst : Ref sig .tc := ⟨.hbm, 74, rfl⟩
abbrev main_call3_v0 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩

abbrev nD : Nat := 1
abbrev τ : Topo := Topo.v7x

variable {F : FTy → Type} [FloatOps F]

class Facts₀ : Prop where
  shapeCasts_S1x512x64x64_S512x64x64 : S1x512x64x64.ShapeCasts S512x64x64
  shapeCasts_S1x2048x4_S2048x4 : S1x2048x4.ShapeCasts S2048x4
  slices_S2048x4_S2048x1_0_0 : S2048x4.Slices ![0, 0] S2048x1
  shapeCasts_S2048x1_S2048 : S2048x1.ShapeCasts S2048
  slices_S2048x4_S2048x1_0_1 : S2048x4.Slices ![0, 1] S2048x1
  bcast_S_S2048 : S_.BroadcastsInDim S2048 (![] : Fin 0 → Fin S2048.rank)
  bcast_S_S2048x1 : S_.BroadcastsInDim S2048x1 (![] : Fin 0 → Fin S2048x1.rank)
  bcast_S2048_S2048x1_0 : S2048.BroadcastsInDim S2048x1 (![0] : Fin 1 → Fin S2048x1.rank)
  concatenates_S2048x1_S2048x1_S2048x1_S2048x3_d1 : Shape.Concatenates [S2048x1, S2048x1, S2048x1] S2048x3 1
  shapeCasts_S2048x512x14x14_S2048x512x2x7x2x7 : S2048x512x14x14.ShapeCasts S2048x512x2x7x2x7
  reducesTo_S2048x512x2x7x2x7_S2048x512x2x2_d3_5 : S2048x512x2x7x2x7.ReducesTo [3, 5] S2048x512x2x2
  h_S_ : 0 < S_.numel
  shapeCasts_S2048x512x2x2_S2048x2048 : S2048x512x2x2.ShapeCasts S2048x2048
  concatenates_S2048x2048_S2048x2048_S2048x4096_d1 : Shape.Concatenates [S2048x2048, S2048x2048] S2048x4096 1
  bcast_S2048x4096_S1x2048x4096_1_2 : S2048x4096.BroadcastsInDim S1x2048x4096 (![1, 2] : Fin 2 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x4096 : S_.BroadcastsInDim S1x2048x4096 (![] : Fin 0 → Fin S1x2048x4096.rank)
  bcast_S21_S1x1x21_2 : S21.BroadcastsInDim S1x1x21 (![2] : Fin 1 → Fin S1x1x21.rank)
  bcast_S1x1x21_S1x2048x21_0_1_2 : S1x1x21.BroadcastsInDim S1x2048x21 (![0, 1, 2] : Fin 3 → Fin S1x2048x21.rank)
  bcast_S_S1x2048x21 : S_.BroadcastsInDim S1x2048x21 (![] : Fin 0 → Fin S1x2048x21.rank)
  reducesTo_S1x2048x21_S1x2048_d2 : S1x2048x21.ReducesTo [2] S1x2048
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x21_0_1_2 : S1x2048x1.BroadcastsInDim S1x2048x21 (![0, 1, 2] : Fin 3 → Fin S1x2048x21.rank)
  reducesTo_S1x2048x21_S1x21_d1 : S1x2048x21.ReducesTo [1] S1x21
  bcast_S_S1x21 : S_.BroadcastsInDim S1x21 (![] : Fin 0 → Fin S1x21.rank)
  bcast_S1x21_S1x1x21_0_2 : S1x21.BroadcastsInDim S1x1x21 (![0, 2] : Fin 2 → Fin S1x1x21.rank)
  gather_S512x64x64_S2048x3_S2048x512x14x14_123_n_n_n_012_1_5121414_wf : GatherDims.WF S512x64x64 S2048x3 S2048x512x14x14 [1, 2, 3] [] [] [0, 1, 2] [] 1 ![512, 14, 14]
  dot_S1x2048x4096_S4096x4096_S1x2048x4096_2_1_01_0_n_n_wf : DotDims.WF S1x2048x4096 S4096x4096 S1x2048x4096 [2] [1] [0, 1] [0] [] []
  dot_S1x2048x4096_S21x4096_S1x2048x21_2_1_01_0_n_n_wf : DotDims.WF S1x2048x4096 S21x4096 S1x2048x21 [2] [1] [0, 1] [0] [] []

variable [Facts₀]

def gather_S512x64x64_S2048x3_S2048x512x14x14_123_n_n_n_012_1_5121414 : GatherDims S512x64x64 S2048x3 S2048x512x14x14 where
  offsetDims := [1, 2, 3]
  collapsedSliceDims := []
  operandBatchingDims := []
  startIndicesBatchingDims := []
  startIndexMap := [0, 1, 2]
  indexVectorDim := 1
  sliceSizes := ![512, 14, 14]
  wf := gather_S512x64x64_S2048x3_S2048x512x14x14_123_n_n_n_012_1_5121414_wf
def dot_S1x2048x4096_S4096x4096_S1x2048x4096_2_1_01_0_n_n : DotDims S1x2048x4096 S4096x4096 S1x2048x4096 where
  lhsContracting := [2]
  rhsContracting := [1]
  lhsNonContracting := [0, 1]
  rhsNonContracting := [0]
  lhsBatch := []
  rhsBatch := []
  wf := dot_S1x2048x4096_S4096x4096_S1x2048x4096_2_1_01_0_n_n_wf
def dot_S1x2048x4096_S21x4096_S1x2048x21_2_1_01_0_n_n : DotDims S1x2048x4096 S21x4096 S1x2048x21 where
  lhsContracting := [2]
  rhsContracting := [1]
  lhsNonContracting := [0, 1]
  rhsNonContracting := [0]
  lhsBatch := []
  rhsBatch := []
  wf := dot_S1x2048x4096_S21x4096_S1x2048x21_2_1_01_0_n_n_wf

class Facts : Prop extends Facts₀ where

variable [Facts]
-- ==== Proof.KB.Body0.lean ====
/-
  The body of the first dense layer's kernel on whole staging memrefs, one statement per position of the point on
  the contraction axis k of its grid (4, 4, 2). The kernel keeps a 512×1024 f32 accumulator in a scratch buffer:
  at k = 0 it stores zeros there, at every k it adds the product of the point's 512×2048 and 2048×1024 blocks, and
  at the last k (= 1) it stores relu(accumulator + bias row) into the output block. So after the point at k = 0 the
  scratch holds  0 + A₀·B₀  (`k0_pay2 k0_pay1 x0 x1`) and the output buffer is as it was; after the point at k = 1 the
  scratch holds  s + A₁·B₁  (`k0_pay2 s x0 x1`, `s` what it held) and the output buffer relu of that plus the bias
  (`k0_pay3 (k0_pay2 s x0 x1) x2`). The input buffers are only read.
-/
import proofs.«142348_j11536282157274_1_alg».proof.Proof.Gen.Kernel
import proofs.«142348_j11536282157274_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The point at k = 0: the accumulator is reset and the first product added; the output buffer is not touched. -/
theorem run0_first (c : Dev nD) (E : Set ℕ) (i : grid0.Coords) (hk : (i 2).val = 0)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (d6 : Vec F S512x1024 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ (∃ s, owns (c : Thread nD τ) arg7 fullShare s)
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (k0_pay2 (k0_pay1 (F := F)) x0 x1)) -∗ K ⟨⟩))
      ⊢ wp frame (wpE (defs₀ (F := F)) Variants.none c none) E
          (cc0__matmul_bias_relu_kernel i arg3 harg3 arg4 harg4 arg5 harg5 arg6 harg6 arg7 harg7) K := by
  -- the two conditions at k = 0: the reset is taken, the output store is not
  have hc0 : Scalar.cmpi .ne (Scalar.extui (Scalar.cmpi .eq (BitVec.ofNat 32 (i 2).val) 0#32)) 0#32 = 1#1 := by
    rw [hk]; decide
  have hc1 : ¬ k0_cond2 i = 1#1 := by
    unfold k0_cond2; rw [hk]; decide
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%f3, %hf3, H3⟩, ⟨%s, %fs, %hfs, HS⟩, Hk⟩
  obtain rfl := harg3.eq_unread hf0; obtain rfl := harg4.eq_unread hf1; obtain rfl := harg5.eq_unread hf2
  sl_exec (disch := first | exact hc0 | exact hc1)
  sl_step
  -- the inputs and the output buffer are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- the accumulator: the later whole-block store covers the zero fill, and the load between them reads the zeros
  iexists _; isplitr
  swap
  · iexact HS
  ipureintro
  sl_unfold_run_names
  have hz : (![0, 0] : Fin 2 → Nat) = fun _ => 0 := by funext a; fin_cases a <;> rfl
  rw [View.read_writes_eq_canon _ _ _ (fun y => ⟨_, List.mem_cons_self, View.mem_set_unit_zero hz inb_S512x1024_S512x1024_0_0 y⟩)]
  rw [View.canon_cons_unit_zero hz, View.readCov_unit_zero _ hz]
  simp only [View.readAt_eq_ld, harg3.read_unread, harg4.read_unread, View.ld_unit_zero (S := S512x2048) hz,
    View.ld_unit_zero (S := S2048x1024) hz]

set_option maxHeartbeats 1000000 in
/-- The point at k = 1 (the last): the second product is added and the output block stored. -/
theorem run0_last (c : Dev nD) (E : Set ℕ) (i : grid0.Coords) (hk : (i 2).val = 1)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (s : Vec F S512x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 s x0 x1) x2)
            ∗ owns (c : Thread nD τ) arg7 fullShare (k0_pay2 s x0 x1)) -∗ K ⟨⟩))
      ⊢ wp frame (wpE (defs₀ (F := F)) Variants.none c none) E
          (cc0__matmul_bias_relu_kernel i arg3 harg3 arg4 harg4 arg5 harg5 arg6 harg6 arg7 harg7) K := by
  -- the two conditions at k = 1: the reset is not taken, the output store is
  have hc0 : ¬ Scalar.cmpi .ne (Scalar.extui (Scalar.cmpi .eq (BitVec.ofNat 32 (i 2).val) 0#32)) 0#32 = 1#1 := by
    rw [hk]; decide
  have hc1 : k0_cond2 i = 1#1 := by
    unfold k0_cond2; rw [hk]; decide
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d, %f3, %hf3, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  -- the inputs are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz : (![0, 0] : Fin 2 → Nat) = fun _ => 0 := by funext a; fin_cases a <;> rfl
  -- the output block: one whole-block store of relu(accumulator + bias), the accumulator read back from its own store
  isplitl [H3]
  · iexists _; isplitr
    swap
    · iexact H3
    ipureintro
    sl_unfold_run_names
    rw [View.read_writes_eq_canon _ _ _ (fun y => ⟨_, List.mem_cons_self, View.mem_set_unit_zero hz inb_S512x1024_S512x1024_0_0 y⟩)]
    rw [View.canon_cons_unit_zero hz, View.readCov_unit_zero _ hz]
    simp only [View.readAt_eq_ld, harg3.read_unread, harg4.read_unread, harg5.read_unread, harg7.read_unread,
      View.ld_unit_zero (S := S512x1024) hz, View.ld_unit_zero (S := S512x2048) hz, View.ld_unit_zero (S := S2048x1024) hz,
      View.ld_unit_zero (S := S1x1024) hz]
  -- the accumulator: one whole-block store of what it held plus the product
  iexists _; isplitr
  swap
  · iexact HS
  ipureintro
  sl_unfold_run_names
  rw [View.read_writes_eq_canon _ _ _ (fun y => ⟨_, List.mem_cons_self, View.mem_set_unit_zero hz inb_S512x1024_S512x1024_0_0 y⟩)]
  rw [View.canon_cons_unit_zero hz]
  simp only [View.readAt_eq_ld, harg3.read_unread, harg4.read_unread, harg7.read_unread,
    View.ld_unit_zero (S := S512x1024) hz, View.ld_unit_zero (S := S512x2048) hz, View.ld_unit_zero (S := S2048x1024) hz]

end Cert.Kernel.Hand

end
-- ==== Proof.KB.Region0.lean ====
/-
  The first dense layer's region (pipeline 0), at a PARAMETER `V`: the core's buffer contents when the region is entered.
  Its grid is (4, 4, 2): point t has row-block i = t / 8, column-block j = (t / 2) % 4 and contraction step k = t % 2.
  The windows: 0 — the 512×2048 block (i, k) of the 2048×4096 activations; 1 — the 2048×1024 block (k, j) of the
  4096×4096 transposed weights; 2 — the 1×1024 block (0, j) of the bias row; 3 — the 512×1024 output block (i, j),
  written back after the points with k = 1. A 512×1024 f32 accumulator lives in a scratch buffer across the two steps
  of k: after the point t it holds `acc0 V c t` — at k = 0 the zeros plus the product of the point's two blocks, at
  k = 1 that of the point before plus this point's product —, and the output block left at a point with k = 1 is
  relu(accumulator + bias row) (`k0_pay3`). The region's invariant holds the scratch buffer at those contents (at
  anything before the first point), and every other scoped buffer and the generator register at some state.
-/
import proofs.«142348_j11536282157274_1_alg».proof.Proof.KB.Body0
import proofs.«142348_j11536282157274_1_alg».proof.Proof.Gen.Kernel.Launch
import proofs.«142348_j11536282157274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before `t` (the point itself at the first one). -/
def prev0 (t : Fin cfg0.N) : Fin cfg0.N := ⟨t.val - 1, Nat.lt_of_le_of_lt (Nat.sub_le _ _) t.isLt⟩

/-- The contraction step of a point is its position's parity. -/
theorem kstep0 : ∀ t : Fin cfg0.N, ((grid0.coords t) 2).val = t.val % 2 :=
  (by decide +kernel : ∀ t : Fin grid0.N, ((grid0.coords t) 2).val = t.val % 2)

/-- The output window is idle exactly at the points with k = 0, -/
theorem idle0_3 : ∀ t : Fin cfg0.N, cfg0.idle 3 (grid0.coords t) = true ↔ t.val % 2 = 0 :=
  (by decide +kernel : ∀ t : Fin grid0.N, cfg0.idle 3 (grid0.coords t) = true ↔ t.val % 2 = 0)

/-! ## The accumulator -/

/-- What the scratch accumulator holds after the body at point `t`. -/
def acc0 (c : Dev nD) (t : Fin cfg0.N) : Vec F S512x1024 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

/-! ## The invariant -/

/-- The scratch accumulator as a memref: the whole scoped buffer the kernel is passed beside its windows. -/
abbrev scM0 : Memref sig .tc .vmem S512x1024 .f32 := Memref.whole cc0_scratch0

/-- What the region's invariant holds beside the accumulator: every other scoped buffer that is no staging buffer of
    this call, at some contents each, and the generator register at some state. -/
def restA0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The scoped buffers that are no staging buffer of this call: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant hands over the accumulator at some contents, -/
theorem PhiA0_split (c : Dev nD) :
    (Pipeline.ΦA spec0 c : sProp 𝕄) ⊢ iprop((∃ d, owns (c : Thread nD τ) scM0 fullShare d) ∗ restA0 (F := F) c) := by
  unfold Pipeline.ΦA restA0
  rw [scopedRest0_split]
  simp only [scM0, owns_whole]
  iintro ⟨⟨⟨%f, H⟩, Hr⟩, Hp⟩
  isplitl [H]; · iexists f; iexact H
  isplitl [Hr]; · iexact Hr
  iexact Hp

/-- and takes it back at any. -/
theorem PhiA0_join (c : Dev nD) :
    iprop((∃ d, owns (c : Thread nD τ) scM0 fullShare d) ∗ restA0 (F := F) c) ⊢ (Pipeline.ΦA spec0 c : sProp 𝕄) := by
  unfold Pipeline.ΦA restA0
  rw [scopedRest0_split]
  simp only [scM0, owns_whole]
  iintro ⟨⟨%f, H⟩, Hr, Hp⟩
  isplitr [Hp]
  · isplitl [H]; · iexists f; iexact H
    iexact Hr
  iexact Hp

/-- The invariant before point `t` (after point `t - 1`): before the first point the class's; after a point the
    accumulator at that point's contents beside the rest. -/
def Phi0 (c : Dev nD) (t : Fin (cfg0.N + 1)) : sProp 𝕄 :=
  if h : t.val = 0 then Pipeline.ΦA spec0 c
  else iprop(owns (c : Thread nD τ) scM0 fullShare (acc0 V c ⟨t.val - 1, by have := t.isLt; omega⟩) ∗ restA0 c)

/-! ## The proof data -/

/-- The proof data of pipeline 0 on core `c`: the arrays as the region finds them; after the body each input's buffer
    at its block and the output's at relu(accumulator + bias) of the point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t) (iblk0 V c 2 t)
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t) (iblk0 V c 2 t) := by dsimp only [dat0]

/-- Each input's current staging buffer holds its block at every point, fetched there or not: unfetched, the block
    index has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The invariant around a point -/

theorem Phi0_succ (c : Dev nD) (t : Fin cfg0.N) :
    Phi0 V c t.succ = iprop(owns (c : Thread nD τ) scM0 fullShare (acc0 V c t) ∗ restA0 c) := by
  unfold Phi0
  rw [dif_neg (by simp : ¬ (t.succ).val = 0)]
  have e : (⟨(t.succ).val - 1, by rw [Fin.val_succ]; have := t.isLt; omega⟩ : Fin cfg0.N) = t := Fin.ext (by simp)
  rw [e]

theorem Phi0_castSucc_pos (c : Dev nD) (t : Fin cfg0.N) (ht : t.val ≠ 0) :
    Phi0 V c t.castSucc = iprop(owns (c : Thread nD τ) scM0 fullShare (acc0 V c (prev0 t)) ∗ restA0 c) := by
  unfold Phi0
  rw [dif_neg (by simpa using ht : ¬ (t.castSucc).val = 0)]
  rfl

/-- At any position the invariant holds the accumulator at SOME contents beside the rest. -/
theorem Phi0_weaken (c : Dev nD) (t : Fin (cfg0.N + 1)) :
    Phi0 V c t ⊢ iprop((∃ d, owns (c : Thread nD τ) scM0 fullShare d) ∗ restA0 (F := F) c) := by
  unfold Phi0
  split
  · exact PhiA0_split c
  · iintro ⟨H, Hr⟩
    isplitl [H]; · iexists _; iexact H
    iexact Hr

theorem acc0_even (c : Dev nD) (t : Fin cfg0.N) (hk : t.val % 2 = 0) :
    acc0 V c t = k0_pay2 (k0_pay1 (F := F)) (iblk0 V c 0 t) (iblk0 V c 1 t) := by
  unfold acc0; rw [if_pos hk]

theorem acc0_odd (c : Dev nD) (t : Fin cfg0.N) (hk : ¬ t.val % 2 = 0) :
    acc0 V c t = k0_pay2 (acc0 V c (prev0 t)) (iblk0 V c 0 t) (iblk0 V c 1 t) := by
  have hp : (prev0 t).val % 2 = 0 := by show (t.val - 1) % 2 = 0; omega
  rw [acc0_even V c (prev0 t) hp]
  unfold acc0; rw [if_neg hk]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 2000000 in
/-- The body at any point. The inputs' memrefs hold their blocks. At a point with k = 0 the invariant hands over the
    accumulator at whatever it holds, the body leaves it at the zeros plus the point's product, and the output
    window, idle there, is handed back as found. At a point with k = 1 the invariant hands over the accumulator at
    what the point before left, the body adds the point's product and stores relu(accumulator + bias) into the
    output window's buffer. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  rw [show (dat0 V c).Φ t.succ = Phi0 V c t.succ from rfl, Phi0_succ]
  by_cases hk : t.val % 2 = 0
  · have hi : cfg0.idle 3 (grid0.coords t) = true := (idle0_3 t).mpr hk
    have hf : (cfg0.win 3).flush t = false := by
      cases h : (cfg0.win 3).flush t with
      | false => rfl
      | true => exact absurd ((flush0_3 t).mp h) (by omega)
    rw [Dat.leavesExact_idle (dat0 V c) 3 t hi hf, acc0_even V c t hk]
    rw [show (dat0 V c).Φ t.castSucc = Phi0 V c t.castSucc from rfl]
    iintro ⟨HP, Ho, ⟨%d0, H0⟩, ⟨%d1, H1⟩, ⟨%d2, H2⟩, ⟨%d3, H3⟩⟩
    ihave HP' := (Phi0_weaken V c t.castSucc) $$ HP
    icases HP' with ⟨HS, Hr⟩
    iapply (run0_first c Set.univ (grid0.coords t) ((kstep0 t).trans hk) _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexists _; iexact H3
  · have hk1 : t.val % 2 = 1 := by omega
    have ht0 : t.val ≠ 0 := by omega
    have hi : cfg0.idle 3 (grid0.coords t) = false := by
      cases h : cfg0.idle 3 (grid0.coords t) with
      | false => rfl
      | true => exact absurd ((idle0_3 t).mp h) hk
    rw [show (dat0 V c).leavesExact 3 t = owns (c : Thread nD τ) (st0_3 t) fullShare ((dat0 V c).after 3 t) from by
      unfold Dat.leavesExact; rw [hi], after0_3, acc0_odd V c t hk]
    rw [show (dat0 V c).Φ t.castSucc = Phi0 V c t.castSucc from rfl, Phi0_castSucc_pos V c t ht0]
    iintro ⟨⟨HS, Hr⟩, Ho, ⟨%d0, H0⟩, ⟨%d1, H1⟩, ⟨%d2, H2⟩, ⟨%d3, H3⟩⟩
    iapply (run0_last c Set.univ (grid0.coords t) ((kstep0 t).trans hk1) _ _ _ _ _ _ _ _ _ _ (iblk0 V c 0 t) (iblk0 V c 1 t) (iblk0 V c 2 t) (acc0 V c (prev0 t)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 from rfl]; unfold Phi0
  rw [dif_pos (by rfl)]

/-- and after the last point the invariant gives it back, the accumulator's contents forgotten. -/
theorem hout0 (c : Dev nD) : (dat0 V c).Φ (Fin.last cfg0.N) ⊢ Pipeline.ΦA spec0 c :=
  (Phi0_weaken V c (Fin.last cfg0.N)).trans (PhiA0_join c)

end Region0

end Cert.Kernel.Hand

end
-- ==== Proof.KB.Body1.lean ====
/-
  The body of the second dense layer's kernel on whole staging memrefs, one statement per position of the point on
  the contraction axis k of its grid (4, 4, 2). The kernel keeps a 512×1024 f32 accumulator in a scratch buffer:
  at k = 0 it stores zeros there, at every k it adds the product of the point's 512×2048 and 2048×1024 blocks, and
  at the last k (= 1) it stores relu(accumulator + bias row) into the output block. So after the point at k = 0 the
  scratch holds  0 + A₀·B₀  (`k1_pay2 k1_pay1 x0 x1`) and the output buffer is as it was; after the point at k = 1 the
  scratch holds  s + A₁·B₁  (`k1_pay2 s x0 x1`, `s` what it held) and the output buffer relu of that plus the bias
  (`k1_pay3 (k1_pay2 s x0 x1) x2`). The input buffers are only read.
-/
import proofs.«142348_j11536282157274_1_alg».proof.Proof.Gen.Kernel
import proofs.«142348_j11536282157274_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The point at k = 0: the accumulator is reset and the first product added; the output buffer is not touched. -/
theorem run1_first (c : Dev nD) (E : Set ℕ) (i : grid1.Coords) (hk : (i 2).val = 0)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (d6 : Vec F S512x1024 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ (∃ s, owns (c : Thread nD τ) arg7 fullShare s)
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (k1_pay2 (k1_pay1 (F := F)) x0 x1)) -∗ K ⟨⟩))
      ⊢ wp frame (wpE (defs₀ (F := F)) Variants.none c none) E
          (cc1__matmul_bias_relu_kernel i arg3 harg3 arg4 harg4 arg5 harg5 arg6 harg6 arg7 harg7) K := by
  -- the two conditions at k = 0: the reset is taken, the output store is not
  have hc0 : Scalar.cmpi .ne (Scalar.extui (Scalar.cmpi .eq (BitVec.ofNat 32 (i 2).val) 0#32)) 0#32 = 1#1 := by
    rw [hk]; decide
  have hc1 : ¬ k1_cond2 i = 1#1 := by
    unfold k1_cond2; rw [hk]; decide
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%f3, %hf3, H3⟩, ⟨%s, %fs, %hfs, HS⟩, Hk⟩
  obtain rfl := harg3.eq_unread hf0; obtain rfl := harg4.eq_unread hf1; obtain rfl := harg5.eq_unread hf2
  sl_exec (disch := first | exact hc0 | exact hc1)
  sl_step
  -- the inputs and the output buffer are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- the accumulator: the later whole-block store covers the zero fill, and the load between them reads the zeros
  iexists _; isplitr
  swap
  · iexact HS
  ipureintro
  sl_unfold_run_names
  have hz : (![0, 0] : Fin 2 → Nat) = fun _ => 0 := by funext a; fin_cases a <;> rfl
  rw [View.read_writes_eq_canon _ _ _ (fun y => ⟨_, List.mem_cons_self, View.mem_set_unit_zero hz inb_S512x1024_S512x1024_0_0 y⟩)]
  rw [View.canon_cons_unit_zero hz, View.readCov_unit_zero _ hz]
  simp only [View.readAt_eq_ld, harg3.read_unread, harg4.read_unread, View.ld_unit_zero (S := S512x2048) hz,
    View.ld_unit_zero (S := S2048x1024) hz]

set_option maxHeartbeats 1000000 in
/-- The point at k = 1 (the last): the second product is added and the output block stored. -/
theorem run1_last (c : Dev nD) (E : Set ℕ) (i : grid1.Coords) (hk : (i 2).val = 1)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (s : Vec F S512x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 s x0 x1) x2)
            ∗ owns (c : Thread nD τ) arg7 fullShare (k1_pay2 s x0 x1)) -∗ K ⟨⟩))
      ⊢ wp frame (wpE (defs₀ (F := F)) Variants.none c none) E
          (cc1__matmul_bias_relu_kernel i arg3 harg3 arg4 harg4 arg5 harg5 arg6 harg6 arg7 harg7) K := by
  -- the two conditions at k = 1: the reset is not taken, the output store is
  have hc0 : ¬ Scalar.cmpi .ne (Scalar.extui (Scalar.cmpi .eq (BitVec.ofNat 32 (i 2).val) 0#32)) 0#32 = 1#1 := by
    rw [hk]; decide
  have hc1 : k1_cond2 i = 1#1 := by
    unfold k1_cond2; rw [hk]; decide
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d, %f3, %hf3, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  -- the inputs are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz : (![0, 0] : Fin 2 → Nat) = fun _ => 0 := by funext a; fin_cases a <;> rfl
  -- the output block: one whole-block store of relu(accumulator + bias), the accumulator read back from its own store
  isplitl [H3]
  · iexists _; isplitr
    swap
    · iexact H3
    ipureintro
    sl_unfold_run_names
    rw [View.read_writes_eq_canon _ _ _ (fun y => ⟨_, List.mem_cons_self, View.mem_set_unit_zero hz inb_S512x1024_S512x1024_0_0 y⟩)]
    rw [View.canon_cons_unit_zero hz, View.readCov_unit_zero _ hz]
    simp only [View.readAt_eq_ld, harg3.read_unread, harg4.read_unread, harg5.read_unread, harg7.read_unread,
      View.ld_unit_zero (S := S512x1024) hz, View.ld_unit_zero (S := S512x2048) hz, View.ld_unit_zero (S := S2048x1024) hz,
      View.ld_unit_zero (S := S1x1024) hz]
  -- the accumulator: one whole-block store of what it held plus the product
  iexists _; isplitr
  swap
  · iexact HS
  ipureintro
  sl_unfold_run_names
  rw [View.read_writes_eq_canon _ _ _ (fun y => ⟨_, List.mem_cons_self, View.mem_set_unit_zero hz inb_S512x1024_S512x1024_0_0 y⟩)]
  rw [View.canon_cons_unit_zero hz]
  simp only [View.readAt_eq_ld, harg3.read_unread, harg4.read_unread, harg7.read_unread,
    View.ld_unit_zero (S := S512x1024) hz, View.ld_unit_zero (S := S512x2048) hz, View.ld_unit_zero (S := S2048x1024) hz]

end Cert.Kernel.Hand

end
-- ==== Proof.KB.Region1.lean ====
/-
  The second dense layer's region (pipeline 1), at a PARAMETER `V`: the core's buffer contents when the region is entered.
  Its grid is (4, 4, 2): point t has row-block i = t / 8, column-block j = (t / 2) % 4 and contraction step k = t % 2.
  The windows: 0 — the 512×2048 block (i, k) of the 2048×4096 activations; 1 — the 2048×1024 block (k, j) of the
  4096×4096 transposed weights; 2 — the 1×1024 block (0, j) of the bias row; 3 — the 512×1024 output block (i, j),
  written back after the points with k = 1. A 512×1024 f32 accumulator lives in a scratch buffer across the two steps
  of k: after the point t it holds `acc1 V c t` — at k = 0 the zeros plus the product of the point's two blocks, at
  k = 1 that of the point before plus this point's product —, and the output block left at a point with k = 1 is
  relu(accumulator + bias row) (`k1_pay3`). The region's invariant holds the scratch buffer at those contents (at
  anything before the first point), and every other scoped buffer and the generator register at some state.
-/
import proofs.«142348_j11536282157274_1_alg».proof.Proof.KB.Body1
import proofs.«142348_j11536282157274_1_alg».proof.Proof.Gen.Kernel.Launch
import proofs.«142348_j11536282157274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t` (the point itself at the first one). -/
def prev1 (t : Fin cfg1.N) : Fin cfg1.N := ⟨t.val - 1, Nat.lt_of_le_of_lt (Nat.sub_le _ _) t.isLt⟩

/-- The contraction step of a point is its position's parity. -/
theorem kstep1 : ∀ t : Fin cfg1.N, ((grid1.coords t) 2).val = t.val % 2 :=
  (by decide +kernel : ∀ t : Fin grid1.N, ((grid1.coords t) 2).val = t.val % 2)

/-- The output window is idle exactly at the points with k = 0, -/
theorem idle1_3 : ∀ t : Fin cfg1.N, cfg1.idle 3 (grid1.coords t) = true ↔ t.val % 2 = 0 :=
  (by decide +kernel : ∀ t : Fin grid1.N, cfg1.idle 3 (grid1.coords t) = true ↔ t.val % 2 = 0)

/-! ## The accumulator -/

/-- What the scratch accumulator holds after the body at point `t`. -/
def acc1 (c : Dev nD) (t : Fin cfg1.N) : Vec F S512x1024 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-! ## The invariant -/

/-- The scratch accumulator as a memref: the whole scoped buffer the kernel is passed beside its windows. -/
abbrev scM1 : Memref sig .tc .vmem S512x1024 .f32 := Memref.whole cc1_scratch0

/-- What the region's invariant holds beside the accumulator: every other scoped buffer that is no staging buffer of
    this call, at some contents each, and the generator register at some state. -/
def restA1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The scoped buffers that are no staging buffer of this call: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant hands over the accumulator at some contents, -/
theorem PhiA1_split (c : Dev nD) :
    (Pipeline.ΦA spec1 c : sProp 𝕄) ⊢ iprop((∃ d, owns (c : Thread nD τ) scM1 fullShare d) ∗ restA1 (F := F) c) := by
  unfold Pipeline.ΦA restA1
  rw [scopedRest1_split]
  simp only [scM1, owns_whole]
  iintro ⟨⟨⟨%f, H⟩, Hr⟩, Hp⟩
  isplitl [H]; · iexists f; iexact H
  isplitl [Hr]; · iexact Hr
  iexact Hp

/-- and takes it back at any. -/
theorem PhiA1_join (c : Dev nD) :
    iprop((∃ d, owns (c : Thread nD τ) scM1 fullShare d) ∗ restA1 (F := F) c) ⊢ (Pipeline.ΦA spec1 c : sProp 𝕄) := by
  unfold Pipeline.ΦA restA1
  rw [scopedRest1_split]
  simp only [scM1, owns_whole]
  iintro ⟨⟨%f, H⟩, Hr, Hp⟩
  isplitr [Hp]
  · isplitl [H]; · iexists f; iexact H
    iexact Hr
  iexact Hp

/-- The invariant before point `t` (after point `t - 1`): before the first point the class's; after a point the
    accumulator at that point's contents beside the rest. -/
def Phi1 (c : Dev nD) (t : Fin (cfg1.N + 1)) : sProp 𝕄 :=
  if h : t.val = 0 then Pipeline.ΦA spec1 c
  else iprop(owns (c : Thread nD τ) scM1 fullShare (acc1 V c ⟨t.val - 1, by have := t.isLt; omega⟩) ∗ restA1 c)

/-! ## The proof data -/

/-- The proof data of pipeline 1 on core `c`: the arrays as the region finds them; after the body each input's buffer
    at its block and the output's at relu(accumulator + bias) of the point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t) (iblk1 V c 2 t)
  Φ t := Phi1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t) (iblk1 V c 2 t) := by dsimp only [dat1]

/-- Each input's current staging buffer holds its block at every point, fetched there or not: unfetched, the block
    index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant around a point -/

theorem Phi1_succ (c : Dev nD) (t : Fin cfg1.N) :
    Phi1 V c t.succ = iprop(owns (c : Thread nD τ) scM1 fullShare (acc1 V c t) ∗ restA1 c) := by
  unfold Phi1
  rw [dif_neg (by simp : ¬ (t.succ).val = 0)]
  have e : (⟨(t.succ).val - 1, by rw [Fin.val_succ]; have := t.isLt; omega⟩ : Fin cfg1.N) = t := Fin.ext (by simp)
  rw [e]

theorem Phi1_castSucc_pos (c : Dev nD) (t : Fin cfg1.N) (ht : t.val ≠ 0) :
    Phi1 V c t.castSucc = iprop(owns (c : Thread nD τ) scM1 fullShare (acc1 V c (prev1 t)) ∗ restA1 c) := by
  unfold Phi1
  rw [dif_neg (by simpa using ht : ¬ (t.castSucc).val = 0)]
  rfl

/-- At any position the invariant holds the accumulator at SOME contents beside the rest. -/
theorem Phi1_weaken (c : Dev nD) (t : Fin (cfg1.N + 1)) :
    Phi1 V c t ⊢ iprop((∃ d, owns (c : Thread nD τ) scM1 fullShare d) ∗ restA1 (F := F) c) := by
  unfold Phi1
  split
  · exact PhiA1_split c
  · iintro ⟨H, Hr⟩
    isplitl [H]; · iexists _; iexact H
    iexact Hr

theorem acc1_even (c : Dev nD) (t : Fin cfg1.N) (hk : t.val % 2 = 0) :
    acc1 V c t = k1_pay2 (k1_pay1 (F := F)) (iblk1 V c 0 t) (iblk1 V c 1 t) := by
  unfold acc1; rw [if_pos hk]

theorem acc1_odd (c : Dev nD) (t : Fin cfg1.N) (hk : ¬ t.val % 2 = 0) :
    acc1 V c t = k1_pay2 (acc1 V c (prev1 t)) (iblk1 V c 0 t) (iblk1 V c 1 t) := by
  have hp : (prev1 t).val % 2 = 0 := by show (t.val - 1) % 2 = 0; omega
  rw [acc1_even V c (prev1 t) hp]
  unfold acc1; rw [if_neg hk]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 2000000 in
/-- The body at any point. The inputs' memrefs hold their blocks. At a point with k = 0 the invariant hands over the
    accumulator at whatever it holds, the body leaves it at the zeros plus the point's product, and the output
    window, idle there, is handed back as found. At a point with k = 1 the invariant hands over the accumulator at
    what the point before left, the body adds the point's product and stores relu(accumulator + bias) into the
    output window's buffer. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  rw [show (dat1 V c).Φ t.succ = Phi1 V c t.succ from rfl, Phi1_succ]
  by_cases hk : t.val % 2 = 0
  · have hi : cfg1.idle 3 (grid1.coords t) = true := (idle1_3 t).mpr hk
    have hf : (cfg1.win 3).flush t = false := by
      cases h : (cfg1.win 3).flush t with
      | false => rfl
      | true => exact absurd ((flush1_3 t).mp h) (by omega)
    rw [Dat.leavesExact_idle (dat1 V c) 3 t hi hf, acc1_even V c t hk]
    rw [show (dat1 V c).Φ t.castSucc = Phi1 V c t.castSucc from rfl]
    iintro ⟨HP, Ho, ⟨%d0, H0⟩, ⟨%d1, H1⟩, ⟨%d2, H2⟩, ⟨%d3, H3⟩⟩
    ihave HP' := (Phi1_weaken V c t.castSucc) $$ HP
    icases HP' with ⟨HS, Hr⟩
    iapply (run1_first c Set.univ (grid1.coords t) ((kstep1 t).trans hk) _ _ _ _ _ _ _ _ _ _ (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexists _; iexact H3
  · have hk1 : t.val % 2 = 1 := by omega
    have ht0 : t.val ≠ 0 := by omega
    have hi : cfg1.idle 3 (grid1.coords t) = false := by
      cases h : cfg1.idle 3 (grid1.coords t) with
      | false => rfl
      | true => exact absurd ((idle1_3 t).mp h) hk
    rw [show (dat1 V c).leavesExact 3 t = owns (c : Thread nD τ) (st1_3 t) fullShare ((dat1 V c).after 3 t) from by
      unfold Dat.leavesExact; rw [hi], after1_3, acc1_odd V c t hk]
    rw [show (dat1 V c).Φ t.castSucc = Phi1 V c t.castSucc from rfl, Phi1_castSucc_pos V c t ht0]
    iintro ⟨⟨HS, Hr⟩, Ho, ⟨%d0, H0⟩, ⟨%d1, H1⟩, ⟨%d2, H2⟩, ⟨%d3, H3⟩⟩
    iapply (run1_last c Set.univ (grid1.coords t) ((kstep1 t).trans hk1) _ _ _ _ _ _ _ _ _ _ (iblk1 V c 0 t) (iblk1 V c 1 t) (iblk1 V c 2 t) (acc1 V c (prev1 t)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 from rfl]; unfold Phi1
  rw [dif_pos (by rfl)]

/-- and after the last point the invariant gives it back, the accumulator's contents forgotten. -/
theorem hout1 (c : Dev nD) : (dat1 V c).Φ (Fin.last cfg1.N) ⊢ Pipeline.ΦA spec1 c :=
  (Phi1_weaken V c (Fin.last cfg1.N)).trans (PhiA1_join c)

end Region1

end Cert.Kernel.Hand

end
-- ==== Proof.KB.Body2.lean ====
/-
  The body of the two-headed classification kernel on whole staging memrefs, one statement per position of the point
  on the contraction axis k of its grid (4, 4). The kernel keeps two 512×21 f32 accumulators in scratch buffers, one
  per head: at k = 0 it stores zeros in both, at every k it adds to each the product of the point's 512×1024 block of
  the activations with that head's 1024×21 block of weights, and at the last k (= 3) it stores relu(accumulator + bias
  row) into each head's output block. So after a point the first scratch holds `k2_pay3 s9 x0 x1` (= s9 + A·Wc) and the
  second `k2_pay4 s10 x0 x2` (= s10 + A·Wd), where s9, s10 are what they held — zeros (`k2_pay1`, `k2_pay2`) at k = 0 —;
  the output buffers are untouched unless k = 3, where they end at `k2_pay5 (…) x3` and `k2_pay6 (…) x4`.
-/
import proofs.«142348_j11536282157274_1_alg».proof.Proof.Gen.Kernel
import proofs.«142348_j11536282157274_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of a rank-2 shape, spelt as the constant function. -/
private theorem zero_off2 : (![0, 0] : Fin 2 → Nat) = fun _ => 0 :=
  funext fun a => match a with
    | ⟨0, _⟩ => rfl
    | ⟨1, _⟩ => rfl

/-- A list of stores whose last store is through the whole-block rectangle covers the shape. -/
private theorem cover_whole_cons {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

set_option maxHeartbeats 1000000 in
/-- The point at k = 0: both accumulators are reset and the first products added; the output buffers are not touched. -/
theorem run2_first (c : Dev nD) (E : Set ℕ) (i : grid2.Coords) (hk : (i 1).val = 0)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (d7 d8 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d7 ∗ owns (c : Thread nD τ) arg8 fullShare d8 ∗ (∃ s, owns (c : Thread nD τ) arg9 fullShare s) ∗ (∃ s, owns (c : Thread nD τ) arg10 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d7 ∗ owns (c : Thread nD τ) arg8 fullShare d8
            ∗ owns (c : Thread nD τ) arg9 fullShare (k2_pay3 (k2_pay1 (F := F)) x0 x1) ∗ owns (c : Thread nD τ) arg10 fullShare (k2_pay4 (k2_pay2 (F := F)) x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- at k = 0 the first condition holds and the second (k = 3) does not
  have hc0 : Scalar.cmpi .ne (Scalar.extui (Scalar.cmpi .eq (BitVec.ofNat 32 (i 1).val) 0#32)) 0#32 = 1#1 := by
    rw [hk]; decide
  have hc1 : ¬ (k2_cond2 i = 1#1) := by
    unfold k2_cond2; rw [hk]; decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%s9, %f9, -, H9⟩, ⟨%s10, %f10, -, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  -- each accumulator: the last store is of the whole block, so it reads back as that payload, whose first argument
  -- is the load of the zeros stored just before
  isplitl [H9]
  · iexists _; isplitr
    swap; · iexact H9
    ipureintro
    rw [View.read_writes_eq_canon _ _ _ (cover_whole_cons zero_off2 _ _ _)]
    rw [View.canon_cons_unit_zero zero_off2]
    sl_unfold_run_names
    rw [View.readCov_unit_zero _ zero_off2]
    simp only [View.readAt_eq_ld, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  rw [View.read_writes_eq_canon _ _ _ (cover_whole_cons zero_off2 _ _ _)]
  rw [View.canon_cons_unit_zero zero_off2]
  sl_unfold_run_names
  rw [View.readCov_unit_zero _ zero_off2]
  simp only [View.readAt_eq_ld, harg2.read_unread, harg4.read_unread,
    View.ld_unit_zero (S := S512x21) zero_off2, View.ld_unit_zero (S := S512x1024) zero_off2, View.ld_unit_zero (S := S1024x21) zero_off2, View.ld_unit_zero (S := S1x21) zero_off2]

set_option maxHeartbeats 1000000 in
/-- A point at k = 1 or k = 2: the products are added; the output buffers are not touched. -/
theorem run2_mid (c : Dev nD) (E : Set ℕ) (i : grid2.Coords) (hk0 : (i 1).val ≠ 0) (hk3 : (i 1).val ≠ 3)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (d7 d8 s9 s10 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d7 ∗ owns (c : Thread nD τ) arg8 fullShare d8 ∗ owns (c : Thread nD τ) arg9 fullShare s9 ∗ owns (c : Thread nD τ) arg10 fullShare s10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d7 ∗ owns (c : Thread nD τ) arg8 fullShare d8
            ∗ owns (c : Thread nD τ) arg9 fullShare (k2_pay3 s9 x0 x1) ∗ owns (c : Thread nD τ) arg10 fullShare (k2_pay4 s10 x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- k is 1 or 2: neither condition holds
  have h4 : (i 1).val < 4 := (i 1).isLt
  have hc0 : ¬ (Scalar.cmpi .ne (Scalar.extui (Scalar.cmpi .eq (BitVec.ofNat 32 (i 1).val) 0#32)) 0#32 = 1#1) := by
    generalize (i 1).val = n at *
    have h : n = 1 ∨ n = 2 := by omega
    rcases h with rfl | rfl <;> decide
  have hc1 : ¬ (k2_cond2 i = 1#1) := by
    unfold k2_cond2
    generalize (i 1).val = n at *
    have h : n = 1 ∨ n = 2 := by omega
    rcases h with rfl | rfl <;> decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9; obtain rfl := harg10.eq_unread hf10
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  -- each accumulator: one store of the whole block, which reads back as its payload over what the buffers held
  isplitl [H9]
  · iexists _; isplitr
    swap; · iexact H9
    ipureintro
    rw [View.read_writes_eq_canon _ _ _ (cover_whole_cons zero_off2 _ _ _)]
    rw [View.canon_cons_unit_zero zero_off2]
    simp only [View.readAt_eq_ld, harg9.read_unread, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  rw [View.read_writes_eq_canon _ _ _ (cover_whole_cons zero_off2 _ _ _)]
  rw [View.canon_cons_unit_zero zero_off2]
  simp only [View.readAt_eq_ld, harg10.read_unread, harg2.read_unread, harg4.read_unread,
    View.ld_unit_zero (S := S512x21) zero_off2, View.ld_unit_zero (S := S512x1024) zero_off2, View.ld_unit_zero (S := S1024x21) zero_off2, View.ld_unit_zero (S := S1x21) zero_off2]

set_option maxHeartbeats 1000000 in
/-- The point at k = 3 (the last): the last products are added and both output blocks stored. -/
theorem run2_last (c : Dev nD) (E : Set ℕ) (i : grid2.Coords) (hk : (i 1).val = 3)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (s9 s10 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s9 ∗ owns (c : Thread nD τ) arg10 fullShare s10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k2_pay5 (k2_pay3 s9 x0 x1) x3) ∗ owns (c : Thread nD τ) arg8 fullShare (k2_pay6 (k2_pay4 s10 x0 x2) x4)
            ∗ owns (c : Thread nD τ) arg9 fullShare (k2_pay3 s9 x0 x1) ∗ owns (c : Thread nD τ) arg10 fullShare (k2_pay4 s10 x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- at k = 3 the first condition (k = 0) fails and the second holds
  have hc0 : ¬ (Scalar.cmpi .ne (Scalar.extui (Scalar.cmpi .eq (BitVec.ofNat 32 (i 1).val) 0#32)) 0#32 = 1#1) := by
    rw [hk]; decide
  have hc1 : k2_cond2 i = 1#1 := by
    unfold k2_cond2; rw [hk]; decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf9; obtain rfl := harg10.eq_unread hf10
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- each output block: one store of the whole block, of the payload over the accumulator just stored and read back
  isplitl [H7]
  · iexists _; isplitr
    swap; · iexact H7
    ipureintro
    sl_unfold_run_names
    rw [View.read_writes_eq_canon _ _ _ (cover_whole_cons zero_off2 _ _ _)]
    rw [View.canon_cons_unit_zero zero_off2]
    rw [View.readCov_unit_zero _ zero_off2]
    simp only [View.readAt_eq_ld, harg9.read_unread, harg2.read_unread, harg3.read_unread, harg5.read_unread,
      View.ld_unit_zero (S := S512x21) zero_off2, View.ld_unit_zero (S := S512x1024) zero_off2, View.ld_unit_zero (S := S1024x21) zero_off2, View.ld_unit_zero (S := S1x21) zero_off2]
  isplitl [H8]
  · iexists _; isplitr
    swap; · iexact H8
    ipureintro
    sl_unfold_run_names
    rw [View.read_writes_eq_canon _ _ _ (cover_whole_cons zero_off2 _ _ _)]
    rw [View.canon_cons_unit_zero zero_off2]
    rw [View.readCov_unit_zero _ zero_off2]
    simp only [View.readAt_eq_ld, harg10.read_unread, harg2.read_unread, harg4.read_unread, harg6.read_unread,
      View.ld_unit_zero (S := S512x21) zero_off2, View.ld_unit_zero (S := S512x1024) zero_off2, View.ld_unit_zero (S := S1024x21) zero_off2, View.ld_unit_zero (S := S1x21) zero_off2]
  -- each accumulator: one store of the whole block
  isplitl [H9]
  · iexists _; isplitr
    swap; · iexact H9
    ipureintro
    sl_unfold_run_names
    rw [View.read_writes_eq_canon _ _ _ (cover_whole_cons zero_off2 _ _ _)]
    rw [View.canon_cons_unit_zero zero_off2]
    simp only [View.readAt_eq_ld, harg9.read_unread, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  sl_unfold_run_names
  rw [View.read_writes_eq_canon _ _ _ (cover_whole_cons zero_off2 _ _ _)]
  rw [View.canon_cons_unit_zero zero_off2]
  simp only [View.readAt_eq_ld, harg10.read_unread, harg2.read_unread, harg4.read_unread,
    View.ld_unit_zero (S := S512x21) zero_off2, View.ld_unit_zero (S := S512x1024) zero_off2, View.ld_unit_zero (S := S1024x21) zero_off2, View.ld_unit_zero (S := S1x21) zero_off2]

end Cert.Kernel.Hand

end
-- ==== Proof.KB.Region2.lean ====
/-
  The two-headed classification kernel's region (pipeline 2), at a PARAMETER `V`: the core's buffer contents when the
  region is entered. Its grid is (4, 4): point t has row-block i = t / 4 and contraction step k = t % 4.
  The windows: 0 — the 512×1024 block (i, k) of the 2048×4096 activations; 1, 2 — the 1024×21 block (k, 0) of each head's
  4096×21 transposed weights; 3, 4 — each head's 1×21 bias row; 5, 6 — each head's 512×21 output block (i, 0), written
  back after the points with k = 3. Two 512×21 f32 accumulators live in scratch buffers across the four steps of k:
  after the point t the first holds `accC2 V c t`, the second `accD2 V c t` — at k = 0 the zeros plus the product of the
  point's blocks, at a later k what the point before left plus this point's product —, and an output block left at a
  point with k = 3 is relu(accumulator + bias row) (`k2_pay5`, `k2_pay6`). The region's invariant holds the two scratch
  buffers at those contents (at anything before the first point), and every other scoped buffer and the generator
  register at some state.
-/
import proofs.«142348_j11536282157274_1_alg».proof.Proof.KB.Body2
import proofs.«142348_j11536282157274_1_alg».proof.Proof.Gen.Kernel.Launch
import proofs.«142348_j11536282157274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The point before `t` (the point itself at the first one). -/
def prev2 (t : Fin cfg2.N) : Fin cfg2.N := ⟨t.val - 1, Nat.lt_of_le_of_lt (Nat.sub_le _ _) t.isLt⟩

/-- The contraction step of a point is its position modulo 4. -/
theorem kstep2 : ∀ t : Fin cfg2.N, ((grid2.coords t) 1).val = t.val % 4 :=
  (by decide +kernel : ∀ t : Fin grid2.N, ((grid2.coords t) 1).val = t.val % 4)

/-- The output windows are live exactly at the points with k = 3. -/
theorem idle2_5 : ∀ t : Fin cfg2.N, cfg2.idle 5 (grid2.coords t) = false ↔ t.val % 4 = 3 :=
  (by decide +kernel : ∀ t : Fin grid2.N, cfg2.idle 5 (grid2.coords t) = false ↔ t.val % 4 = 3)
theorem idle2_6 : ∀ t : Fin cfg2.N, cfg2.idle 6 (grid2.coords t) = false ↔ t.val % 4 = 3 :=
  (by decide +kernel : ∀ t : Fin grid2.N, cfg2.idle 6 (grid2.coords t) = false ↔ t.val % 4 = 3)

/-! ## The accumulators -/

/-- What the first head's accumulator holds after the body at position `n`. -/
def accC2n (c : Dev nD) : (n : ℕ) → n < cfg2.N → Vec F S512x21 .f32
  | 0, h => k2_pay3 (k2_pay1 (F := F)) (iblk2 V c 0 ⟨0, h⟩) (iblk2 V c 1 ⟨0, h⟩)
  | n + 1, h =>
    if (n + 1) % 4 = 0 then k2_pay3 (k2_pay1 (F := F)) (iblk2 V c 0 ⟨n + 1, h⟩) (iblk2 V c 1 ⟨n + 1, h⟩)
    else k2_pay3 (accC2n c n (Nat.lt_of_succ_lt h)) (iblk2 V c 0 ⟨n + 1, h⟩) (iblk2 V c 1 ⟨n + 1, h⟩)

/-- What the second head's accumulator holds after the body at position `n`. -/
def accD2n (c : Dev nD) : (n : ℕ) → n < cfg2.N → Vec F S512x21 .f32
  | 0, h => k2_pay4 (k2_pay2 (F := F)) (iblk2 V c 0 ⟨0, h⟩) (iblk2 V c 2 ⟨0, h⟩)
  | n + 1, h =>
    if (n + 1) % 4 = 0 then k2_pay4 (k2_pay2 (F := F)) (iblk2 V c 0 ⟨n + 1, h⟩) (iblk2 V c 2 ⟨n + 1, h⟩)
    else k2_pay4 (accD2n c n (Nat.lt_of_succ_lt h)) (iblk2 V c 0 ⟨n + 1, h⟩) (iblk2 V c 2 ⟨n + 1, h⟩)

/-- The same at a point. -/
def accC2 (c : Dev nD) (t : Fin cfg2.N) : Vec F S512x21 .f32 := accC2n V c t.val t.isLt
def accD2 (c : Dev nD) (t : Fin cfg2.N) : Vec F S512x21 .f32 := accD2n V c t.val t.isLt

theorem accC2_first (c : Dev nD) (t : Fin cfg2.N) (hk : t.val % 4 = 0) :
    accC2 V c t = k2_pay3 (k2_pay1 (F := F)) (iblk2 V c 0 t) (iblk2 V c 1 t) := by
  obtain ⟨n, hn⟩ := t
  cases n with
  | zero => rfl
  | succ n => exact if_pos hk

theorem accC2_next (c : Dev nD) (t : Fin cfg2.N) (hk : ¬ t.val % 4 = 0) :
    accC2 V c t = k2_pay3 (accC2 V c (prev2 t)) (iblk2 V c 0 t) (iblk2 V c 1 t) := by
  obtain ⟨n, hn⟩ := t
  cases n with
  | zero => exact absurd (Nat.zero_mod _) hk
  | succ n => exact if_neg hk

theorem accD2_first (c : Dev nD) (t : Fin cfg2.N) (hk : t.val % 4 = 0) :
    accD2 V c t = k2_pay4 (k2_pay2 (F := F)) (iblk2 V c 0 t) (iblk2 V c 2 t) := by
  obtain ⟨n, hn⟩ := t
  cases n with
  | zero => rfl
  | succ n => exact if_pos hk

theorem accD2_next (c : Dev nD) (t : Fin cfg2.N) (hk : ¬ t.val % 4 = 0) :
    accD2 V c t = k2_pay4 (accD2 V c (prev2 t)) (iblk2 V c 0 t) (iblk2 V c 2 t) := by
  obtain ⟨n, hn⟩ := t
  cases n with
  | zero => exact absurd (Nat.zero_mod _) hk
  | succ n => exact if_neg hk

/-! ## The invariant -/

/-- The scratch accumulators as memrefs: the whole scoped buffers the kernel is passed beside its windows. -/
abbrev scC2 : Memref sig .tc .vmem S512x21 .f32 := Memref.whole cc2_scratch0
abbrev scD2 : Memref sig .tc .vmem S512x21 .f32 := Memref.whole cc2_scratch1

/-- What the region's invariant holds beside the accumulators: every other scoped buffer that is no staging buffer of
    this call, at some contents each, and the generator register at some state. -/
def restA2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

/-- The scoped buffers that are no staging buffer of this call: the two accumulators, and the rest unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The class invariant hands over the accumulators at some contents, -/
theorem PhiA2_split (c : Dev nD) :
    (Pipeline.ΦA spec2 c : sProp 𝕄) ⊢ iprop((∃ d, owns (c : Thread nD τ) scC2 fullShare d) ∗ (∃ d, owns (c : Thread nD τ) scD2 fullShare d) ∗ restA2 (F := F) c) := by
  unfold Pipeline.ΦA restA2
  rw [scopedRest2_split]
  simp only [scC2, scD2, owns_whole]
  iintro ⟨⟨⟨⟨%f, H⟩, ⟨%g, G⟩⟩, Hr⟩, Hp⟩
  isplitl [H]; · iexists f; iexact H
  isplitl [G]; · iexists g; iexact G
  isplitl [Hr]; · iexact Hr
  iexact Hp

/-- and takes them back at any. -/
theorem PhiA2_join (c : Dev nD) :
    iprop((∃ d, owns (c : Thread nD τ) scC2 fullShare d) ∗ (∃ d, owns (c : Thread nD τ) scD2 fullShare d) ∗ restA2 (F := F) c) ⊢ (Pipeline.ΦA spec2 c : sProp 𝕄) := by
  unfold Pipeline.ΦA restA2
  rw [scopedRest2_split]
  simp only [scC2, scD2, owns_whole]
  iintro ⟨⟨%f, H⟩, ⟨%g, G⟩, Hr, Hp⟩
  isplitr [Hp]
  · isplitr [Hr]
    · isplitl [H]; · iexists f; iexact H
      iexists g; iexact G
    iexact Hr
  iexact Hp

/-- The invariant before point `t` (after point `t - 1`): before the first point the class's; after a point the
    accumulators at that point's contents beside the rest. -/
def Phi2 (c : Dev nD) (t : Fin (cfg2.N + 1)) : sProp 𝕄 :=
  if h : t.val = 0 then Pipeline.ΦA spec2 c
  else iprop(owns (c : Thread nD τ) scC2 fullShare (accC2 V c ⟨t.val - 1, by have := t.isLt; omega⟩)
    ∗ owns (c : Thread nD τ) scD2 fullShare (accD2 V c ⟨t.val - 1, by have := t.isLt; omega⟩) ∗ restA2 c)

/-! ## The proof data -/

/-- The proof data of pipeline 2 on core `c`: the arrays as the region finds them; after the body each input's buffer
    at its block and each head's output at relu(its accumulator + its bias) of the point; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay5 (accC2 V c t) (iblk2 V c 3 t)
    | ⟨6, _⟩ => k2_pay6 (accD2 V c t) (iblk2 V c 4 t)
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay5 (accC2 V c t) (iblk2 V c 3 t) := by dsimp only [dat2]
theorem after2_6 (c : Dev nD) (t : Fin cfg2.N) : (dat2 V c).after 6 t = k2_pay6 (accD2 V c t) (iblk2 V c 4 t) := by dsimp only [dat2]

/-- Each input's current staging buffer holds its block at every point, fetched there or not: unfetched, the block
    index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The invariant around a point -/

theorem Phi2_succ (c : Dev nD) (t : Fin cfg2.N) :
    Phi2 V c t.succ = iprop(owns (c : Thread nD τ) scC2 fullShare (accC2 V c t) ∗ owns (c : Thread nD τ) scD2 fullShare (accD2 V c t) ∗ restA2 c) := by
  unfold Phi2
  rw [dif_neg (by simp : ¬ (t.succ).val = 0)]
  have e : (⟨(t.succ).val - 1, by rw [Fin.val_succ]; have := t.isLt; omega⟩ : Fin cfg2.N) = t := Fin.ext (by simp)
  rw [e]

theorem Phi2_castSucc_pos (c : Dev nD) (t : Fin cfg2.N) (ht : t.val ≠ 0) :
    Phi2 V c t.castSucc = iprop(owns (c : Thread nD τ) scC2 fullShare (accC2 V c (prev2 t)) ∗ owns (c : Thread nD τ) scD2 fullShare (accD2 V c (prev2 t)) ∗ restA2 c) := by
  unfold Phi2
  rw [dif_neg (by simpa using ht : ¬ (t.castSucc).val = 0)]
  rfl

/-- At any position the invariant holds the accumulators at SOME contents beside the rest. -/
theorem Phi2_weaken (c : Dev nD) (t : Fin (cfg2.N + 1)) :
    Phi2 V c t ⊢ iprop((∃ d, owns (c : Thread nD τ) scC2 fullShare d) ∗ (∃ d, owns (c : Thread nD τ) scD2 fullShare d) ∗ restA2 (F := F) c) := by
  unfold Phi2
  split
  · exact PhiA2_split c
  · iintro ⟨H, G, Hr⟩
    isplitl [H]; · iexists _; iexact H
    isplitl [G]; · iexists _; iexact G
    iexact Hr

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t)

set_option maxHeartbeats 4000000 in
/-- The body at any point. The inputs' memrefs hold their blocks. At a point with k = 0 the invariant hands over the
    accumulators at whatever they hold and the body leaves them at the zeros plus the point's products; at a later
    point it hands them over at what the point before left and the body adds the point's products. The output
    windows, idle unless k = 3, are handed back as found; at k = 3 the body stores relu(accumulator + bias) into
    each. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3,
    show (dat2 V c).leavesExact 4 t = owns (c : Thread nD τ) (st2_4 t) fullShare ((dat2 V c).after 4 t) from rfl, after2_4]
  rw [show (dat2 V c).Φ t.succ = Phi2 V c t.succ from rfl, Phi2_succ]
  rw [show (dat2 V c).Φ t.castSucc = Phi2 V c t.castSucc from rfl]
  by_cases hk3 : t.val % 4 = 3
  · -- the last step of k: both output blocks are stored
    have ht0 : t.val ≠ 0 := by omega
    have hk0 : ¬ t.val % 4 = 0 := by omega
    rw [show (dat2 V c).leavesExact 5 t = owns (c : Thread nD τ) (st2_5 t) fullShare ((dat2 V c).after 5 t) from by
      unfold Dat.leavesExact; rw [(idle2_5 t).mpr hk3], after2_5,
      show (dat2 V c).leavesExact 6 t = owns (c : Thread nD τ) (st2_6 t) fullShare ((dat2 V c).after 6 t) from by
      unfold Dat.leavesExact; rw [(idle2_6 t).mpr hk3], after2_6]
    rw [accC2_next V c t hk0, accD2_next V c t hk0, Phi2_castSucc_pos V c t ht0]
    iintro ⟨⟨HC, HD, Hr⟩, Ho, ⟨%d0, H0⟩, ⟨%d1, H1⟩, ⟨%d2, H2⟩, ⟨%d3, H3⟩, ⟨%d4, H4⟩, ⟨%d5, H5⟩, ⟨%d6, H6⟩⟩
    iapply (run2_last c Set.univ (grid2.coords t) ((kstep2 t).trans hk3) _ _ _ _ _ _ _ _ _ _ _ _ _ _ _ _ _ _
      (iblk2 V c 0 t) (iblk2 V c 1 t) (iblk2 V c 2 t) (iblk2 V c 3 t) (iblk2 V c 4 t) (accC2 V c (prev2 t)) (accD2 V c (prev2 t)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HC]; · iexact HC
    isplitl [HD]; · iexact HD
    iintro ⟨H0, H1, H2, H3, H4, H5, H6, HC, HD⟩
    isplitl [HC HD Hr]
    · isplitl [HC]; · iexact HC
      isplitl [HD]; · iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi5 : cfg2.idle 5 (grid2.coords t) = true := by
      cases h : cfg2.idle 5 (grid2.coords t) with
      | true => rfl
      | false => exact absurd ((idle2_5 t).mp h) hk3
    have hi6 : cfg2.idle 6 (grid2.coords t) = true := by
      cases h : cfg2.idle 6 (grid2.coords t) with
      | true => rfl
      | false => exact absurd ((idle2_6 t).mp h) hk3
    have hf5 : (cfg2.win 5).flush t = false := by
      cases h : (cfg2.win 5).flush t with
      | false => rfl
      | true => exact absurd ((flush2_5 t).mp h) hk3
    have hf6 : (cfg2.win 6).flush t = false := by
      cases h : (cfg2.win 6).flush t with
      | false => rfl
      | true => exact absurd ((flush2_6 t).mp h) hk3
    rw [Dat.leavesExact_idle (dat2 V c) 5 t hi5 hf5, Dat.leavesExact_idle (dat2 V c) 6 t hi6 hf6]
    by_cases hk0 : t.val % 4 = 0
    · -- the first step of k: the accumulators are reset
      rw [accC2_first V c t hk0, accD2_first V c t hk0]
      iintro ⟨HP, Ho, ⟨%d0, H0⟩, ⟨%d1, H1⟩, ⟨%d2, H2⟩, ⟨%d3, H3⟩, ⟨%d4, H4⟩, ⟨%d5, H5⟩, ⟨%d6, H6⟩⟩
      ihave HP' := (Phi2_weaken V c t.castSucc) $$ HP
      icases HP' with ⟨HC, HD, Hr⟩
      iapply (run2_first c Set.univ (grid2.coords t) ((kstep2 t).trans hk0) _ _ _ _ _ _ _ _ _ _ _ _ _ _ _ _ _ _
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HC]; · iexact HC
      isplitl [HD]; · iexact HD
      iintro ⟨H0, H1, H2, H3, H4, H5, H6, HC, HD⟩
      isplitl [HC HD Hr]
      · isplitl [HC]; · iexact HC
        isplitl [HD]; · iexact HD
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · -- a middle step of k
      have ht0 : t.val ≠ 0 := by omega
      rw [accC2_next V c t hk0, accD2_next V c t hk0, Phi2_castSucc_pos V c t ht0]
      iintro ⟨⟨HC, HD, Hr⟩, Ho, ⟨%d0, H0⟩, ⟨%d1, H1⟩, ⟨%d2, H2⟩, ⟨%d3, H3⟩, ⟨%d4, H4⟩, ⟨%d5, H5⟩, ⟨%d6, H6⟩⟩
      iapply (run2_mid c Set.univ (grid2.coords t) (by rw [kstep2 t]; exact hk0) (by rw [kstep2 t]; exact hk3) _ _ _ _ _ _ _ _ _ _ _ _ _ _ _ _ _ _
        (iblk2 V c 0 t) (iblk2 V c 1 t) (iblk2 V c 2 t) (iblk2 V c 3 t) (iblk2 V c 4 t) _ _ (accC2 V c (prev2 t)) (accD2 V c (prev2 t)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HC]; · iexact HC
      isplitl [HD]; · iexact HD
      iintro ⟨H0, H1, H2, H3, H4, H5, H6, HC, HD⟩
      isplitl [HC HD Hr]
      · isplitl [HC]; · iexact HC
        isplitl [HD]; · iexact HD
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = Phi2 V c 0 from rfl]; unfold Phi2
  rw [dif_pos (by rfl)]

/-- and after the last point the invariant gives it back, the accumulators' contents forgotten. -/
theorem hout2 (c : Dev nD) : (dat2 V c).Φ (Fin.last cfg2.N) ⊢ Pipeline.ΦA spec2 c :=
  (Phi2_weaken V c (Fin.last cfg2.N)).trans (PhiA2_join c)

end Region2

end Cert.Kernel.Hand

end
-- ==== Proof.KB.Run.lean ====
/-
  The run of the whole program: its three kernel regions among four stretches of host operations.
  What a region leaves in its output array is what the pipeline library computes from the region's proof data — the
  output's write-backs folded over the grid (`Dat.arrAt … N`) —, every other buffer is as the region found it. So the
  buffer contents at the seven boundaries are a fold from the launch memory: a stretch's `StableHlo.after`, a region's
  output array replaced. Each region is entered from "every unscoped buffer at the boundary's contents, the generator
  register at some state, nothing owed", splits its windows' arrays out of those buffers, runs its pipeline under the
  region's invariant (which holds the scratch accumulator(s)), and puts the arrays back at the exit contents.
  The frame claim — every weakly fair execution terminates, nothing faults, the argument arrays end as launched — then
  follows because no stretch and no region writes an argument.
-/
import proofs.«142348_j11536282157274_1_alg».proof.Proof.KB.Region0
import proofs.«142348_j11536282157274_1_alg».proof.Proof.KB.Region1
import proofs.«142348_j11536282157274_1_alg».proof.Proof.KB.Region2
import proofs.«142348_j11536282157274_1_alg».proof.Proof.Gen.Kernel.Regions
import Idealize.ShloMosaic.Lib.Pipeline.Kit
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The buffer contents at each boundary -/

/-- At region 0's exit: its arrays at what the pipeline leaves, every other buffer as entered. -/
def W2 (c : Dev nD) : Valuation τ sig (Elt F) :=
  Pipeline.withArrays spec0 c (V1 m c) fun w => (dat0 (atTc (V1 m)) c).arrAt w cfg0.N
/-- The same with only the output array replaced (the inputs' arrays are not written), -/
abbrev U2 (c : Dev nD) : Valuation τ sig (Elt F) := Function.update (V1 m c) main_v40 (W2 m c main_v40)
/-- then the second layer's bias row reshaped. -/
abbrev U3 (c : Dev nD) : Valuation τ sig (Elt F) := StableHlo.after hostOps1 (U2 m c)
/-- At region 1's exit. -/
def W4 (c : Dev nD) : Valuation τ sig (Elt F) :=
  Pipeline.withArrays spec1 c (U3 m c) fun w => (dat1 (atTc (U3 m)) c).arrAt w cfg1.N
abbrev U4 (c : Dev nD) : Valuation τ sig (Elt F) := Function.update (U3 m c) main_v42 (W4 m c main_v42)
abbrev U5 (c : Dev nD) : Valuation τ sig (Elt F) := StableHlo.after hostOps2 (U4 m c)
/-- At region 2's exit. -/
def W6 (c : Dev nD) : Valuation τ sig (Elt F) :=
  Pipeline.withArrays spec2 c (U5 m c) fun w => (dat2 (atTc (U5 m)) c).arrAt w cfg2.N

/-- What the regions leave in the buffers they may change, as the generated host side asks for it: after item 1 (region
    0), item 3 (region 1), item 5 (region 2). -/
def outsH : Outs (F := F) := fun J r c =>
  match J with
  | 2 => W2 m c r
  | 4 => W4 m c r
  | 6 => W6 m c r
  | _ => V0 m c r

theorem V2_eq (c : Dev nD) : V2 m (outsH m) c = U2 m c := rfl
theorem V3_eq (c : Dev nD) : V3 m (outsH m) c = U3 m c := rfl
theorem V4_eq (c : Dev nD) : V4 m (outsH m) c = U4 m c := rfl
theorem V5_eq (c : Dev nD) : V5 m (outsH m) c = U5 m c := rfl

/-! ## The proof data family and the thread state -/

/-- Every pipeline's proof data, each at its region's entry contents. -/
def pdatsH : (p : Fin 3) → (c : Dev nD) → Dat τ (Elt F) Unit ℕ (UR sig nD τ) ℕ (cfgs p) c
  | ⟨0, _⟩ => fun c => dat0 (atTc (V1 m)) c
  | ⟨1, _⟩ => fun c => dat1 (atTc (U3 m)) c
  | ⟨2, _⟩ => fun c => dat2 (atTc (U5 m)) c

/-- No core owes another anything: no level is assigned. -/
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)

/-! ## What a region's exit contents hold -/

theorem hF0_0 (c : Dev nD) : (dat0 (atTc (V1 m)) c).arrAt 0 cfg0.N = atTc (V2 m (outsH m)) c main_v30 :=
  ((dat0 (atTc (V1 m)) c).arrAt_in 0 rfl _).trans (V2_of m (outsH m) c main_v30 (by decide)).symm
theorem hF0_1 (c : Dev nD) : (dat0 (atTc (V1 m)) c).arrAt 1 cfg0.N = atTc (V2 m (outsH m)) c main_v32 :=
  ((dat0 (atTc (V1 m)) c).arrAt_in 1 rfl _).trans (V2_of m (outsH m) c main_v32 (by decide)).symm
theorem hF0_2 (c : Dev nD) : (dat0 (atTc (V1 m)) c).arrAt 2 cfg0.N = atTc (V2 m (outsH m)) c main_v39 :=
  ((dat0 (atTc (V1 m)) c).arrAt_in 2 rfl _).trans (V2_of m (outsH m) c main_v39 (by decide)).symm
theorem hF0_3 (c : Dev nD) : (dat0 (atTc (V1 m)) c).arrAt 3 cfg0.N = atTc (V2 m (outsH m)) c main_v40 := by
  show _ = Function.update (V1 m c) main_v40 (outsH m 2 main_v40 c) main_v40
  rw [Function.update_self]
  show _ = W2 m c main_v40
  unfold W2
  exact (Pipeline.withArrays_arr spec0 launch0.win.arr_inj c (V1 m c) (fun w => (dat0 (atTc (V1 m)) c).arrAt w cfg0.N) 3).symm
theorem hF0 (c : Dev nD) (w : Fin cfg0.W) : (dat0 (atTc (V1 m)) c).arrAt w cfg0.N = atTc (V2 m (outsH m)) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
theorem hrest0 (c : Dev nD) : ∀ b, b ∉ Finset.univ.image (Pipeline.arrRef spec0) → atTc (V2 m (outsH m)) c b = atTc (V1 m) c b :=
  fun b hb => V2_of m (outsH m) c b fun h => hb (by
    rw [List.mem_singleton] at h; subst h; exact Finset.mem_image.mpr ⟨3, Finset.mem_univ _, rfl⟩)

theorem hF1_0 (c : Dev nD) : (dat1 (atTc (U3 m)) c).arrAt 0 cfg1.N = atTc (V4 m (outsH m)) c main_v40 :=
  ((dat1 (atTc (U3 m)) c).arrAt_in 0 rfl _).trans (V4_of m (outsH m) c main_v40 (by decide)).symm
theorem hF1_1 (c : Dev nD) : (dat1 (atTc (U3 m)) c).arrAt 1 cfg1.N = atTc (V4 m (outsH m)) c main_v34 :=
  ((dat1 (atTc (U3 m)) c).arrAt_in 1 rfl _).trans (V4_of m (outsH m) c main_v34 (by decide)).symm
theorem hF1_2 (c : Dev nD) : (dat1 (atTc (U3 m)) c).arrAt 2 cfg1.N = atTc (V4 m (outsH m)) c main_v41 :=
  ((dat1 (atTc (U3 m)) c).arrAt_in 2 rfl _).trans (V4_of m (outsH m) c main_v41 (by decide)).symm
theorem hF1_3 (c : Dev nD) : (dat1 (atTc (U3 m)) c).arrAt 3 cfg1.N = atTc (V4 m (outsH m)) c main_v42 := by
  show _ = Function.update (V3 m (outsH m) c) main_v42 (outsH m 4 main_v42 c) main_v42
  rw [Function.update_self]
  show _ = W4 m c main_v42
  unfold W4
  exact (Pipeline.withArrays_arr spec1 launch1.win.arr_inj c (U3 m c) (fun w => (dat1 (atTc (U3 m)) c).arrAt w cfg1.N) 3).symm
theorem hF1 (c : Dev nD) (w : Fin cfg1.W) : (dat1 (atTc (U3 m)) c).arrAt w cfg1.N = atTc (V4 m (outsH m)) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
theorem hrest1 (c : Dev nD) : ∀ b, b ∉ Finset.univ.image (Pipeline.arrRef spec1) → atTc (V4 m (outsH m)) c b = atTc (U3 m) c b :=
  fun b hb => V4_of m (outsH m) c b fun h => hb (by
    rw [List.mem_singleton] at h; subst h; exact Finset.mem_image.mpr ⟨3, Finset.mem_univ _, rfl⟩)

theorem hF2_0 (c : Dev nD) : (dat2 (atTc (U5 m)) c).arrAt 0 cfg2.N = atTc (V6 m (outsH m)) c main_v42 :=
  ((dat2 (atTc (U5 m)) c).arrAt_in 0 rfl _).trans (V6_of m (outsH m) c main_v42 (by decide)).symm
theorem hF2_1 (c : Dev nD) : (dat2 (atTc (U5 m)) c).arrAt 1 cfg2.N = atTc (V6 m (outsH m)) c main_v36 :=
  ((dat2 (atTc (U5 m)) c).arrAt_in 1 rfl _).trans (V6_of m (outsH m) c main_v36 (by decide)).symm
theorem hF2_2 (c : Dev nD) : (dat2 (atTc (U5 m)) c).arrAt 2 cfg2.N = atTc (V6 m (outsH m)) c main_v38 :=
  ((dat2 (atTc (U5 m)) c).arrAt_in 2 rfl _).trans (V6_of m (outsH m) c main_v38 (by decide)).symm
theorem hF2_3 (c : Dev nD) : (dat2 (atTc (U5 m)) c).arrAt 3 cfg2.N = atTc (V6 m (outsH m)) c main_v43 :=
  ((dat2 (atTc (U5 m)) c).arrAt_in 3 rfl _).trans (V6_of m (outsH m) c main_v43 (by decide)).symm
theorem hF2_4 (c : Dev nD) : (dat2 (atTc (U5 m)) c).arrAt 4 cfg2.N = atTc (V6 m (outsH m)) c main_v44 :=
  ((dat2 (atTc (U5 m)) c).arrAt_in 4 rfl _).trans (V6_of m (outsH m) c main_v44 (by decide)).symm
theorem hF2_5 (c : Dev nD) : (dat2 (atTc (U5 m)) c).arrAt 5 cfg2.N = atTc (V6 m (outsH m)) c main_v45_0 := by
  show _ = Function.update (Function.update (V5 m (outsH m) c) main_v45_0 (outsH m 6 main_v45_0 c)) main_v45_1 (outsH m 6 main_v45_1 c) main_v45_0
  rw [Function.update_of_ne (StableHlo.devRef_ne_of_ne (by decide : (main_v45_0 : Ref sig .tc) ≠ main_v45_1)), Function.update_self]
  show _ = W6 m c main_v45_0
  unfold W6
  exact (Pipeline.withArrays_arr spec2 launch2.win.arr_inj c (U5 m c) (fun w => (dat2 (atTc (U5 m)) c).arrAt w cfg2.N) 5).symm
theorem hF2_6 (c : Dev nD) : (dat2 (atTc (U5 m)) c).arrAt 6 cfg2.N = atTc (V6 m (outsH m)) c main_v45_1 := by
  show _ = Function.update (Function.update (V5 m (outsH m) c) main_v45_0 (outsH m 6 main_v45_0 c)) main_v45_1 (outsH m 6 main_v45_1 c) main_v45_1
  rw [Function.update_self]
  show _ = W6 m c main_v45_1
  unfold W6
  exact (Pipeline.withArrays_arr spec2 launch2.win.arr_inj c (U5 m c) (fun w => (dat2 (atTc (U5 m)) c).arrAt w cfg2.N) 6).symm
theorem hF2 (c : Dev nD) (w : Fin cfg2.W) : (dat2 (atTc (U5 m)) c).arrAt w cfg2.N = atTc (V6 m (outsH m)) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
theorem hrest2 (c : Dev nD) : ∀ b, b ∉ Finset.univ.image (Pipeline.arrRef spec2) → atTc (V6 m (outsH m)) c b = atTc (U5 m) c b :=
  fun b hb => V6_of m (outsH m) c b fun h => hb (by
    rw [List.mem_cons, List.mem_singleton] at h
    rcases h with h | h
    · subst h; exact Finset.mem_image.mpr ⟨5, Finset.mem_univ _, rfl⟩
    · subst h; exact Finset.mem_image.mpr ⟨6, Finset.mem_univ _, rfl⟩)

/-! ## The regions as segments -/

-- the library's entry lemmas are stated over `pin pcs a p`: they unify with the pinned configuration only when
-- unification may unfold plain definitions in a metavariable's type
set_option backward.isDefEq.respectTransparency.types false in
/-- REGION 0 (the first dense layer) over the thread state: entered from every unscoped buffer at the contents after the first host stretch, left with its output array at what its write-backs leave -/
def reg0 : Pipeline.RegionSeg (pcfgs (F := F)) adm (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ LH lvH 0 fun _ _ => rfl
  pre c := iprop(StableHlo.held (c : Thread nD τ) (Pipeline.ucRefs τ sig) (V1 m c) ∗ RH c)
  post c := iprop(StableHlo.held (c : Thread nD τ) (Pipeline.ucRefs τ sig) (V2 m (outsH m) c) ∗ RH c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V1 m)) c)
    unfold Pipeline.ΦA
    iintro ⟨Hp, -, Hr⟩
    isplitl [Hr]; · iexact Hr
    iexact Hp
  hout c := by
    rw [Pipeline.ownSems0_none]
    refine BIBase.Entails.trans (hout0 (atTc (V1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (atTc (V1 m) c) (atTc (V2 m (outsH m)) c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry lemmas are stated over `pin pcs a p`: they unify with the pinned configuration only when
-- unification may unfold plain definitions in a metavariable's type
set_option backward.isDefEq.respectTransparency.types false in
/-- REGION 1 (the second dense layer), entered from the contents after the second host stretch -/
def reg1 : Pipeline.RegionSeg (pcfgs (F := F)) adm (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ LH lvH 1 fun _ _ => rfl
  pre c := iprop(StableHlo.held (c : Thread nD τ) (Pipeline.ucRefs τ sig) (V3 m (outsH m) c) ∗ RH c)
  post c := iprop(StableHlo.held (c : Thread nD τ) (Pipeline.ucRefs τ sig) (V4 m (outsH m) c) ∗ RH c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [V3_eq m c]
    rw [Pipeline.ownSems0_none]
    have hsplit := Pipeline.arrays_of_unscopedBufs (p := 1) (pcfgs (F := F)) adm (pdatsH m) launch1.win launch1.arr_whole c
      ((pdatsH m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (U3 m)) c)
    unfold Pipeline.ΦA
    iintro ⟨Hp, -, Hr⟩
    isplitl [Hr]; · iexact Hr
    iexact Hp
  hout c := by
    rw [Pipeline.ownSems0_none]
    refine BIBase.Entails.trans (hout1 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (atTc (U3 m) c) (atTc (V4 m (outsH m)) c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry lemmas are stated over `pin pcs a p`: they unify with the pinned configuration only when
-- unification may unfold plain definitions in a metavariable's type
set_option backward.isDefEq.respectTransparency.types false in
/-- REGION 2 (the two classification heads), entered from the contents after the third host stretch -/
def reg2 : Pipeline.RegionSeg (pcfgs (F := F)) adm (pdatsH m) () defs₀ Variants.none LH lvH 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ LH lvH 2 fun _ _ => rfl
  pre c := iprop(StableHlo.held (c : Thread nD τ) (Pipeline.ucRefs τ sig) (V5 m (outsH m) c) ∗ RH c)
  post c := iprop(StableHlo.held (c : Thread nD τ) (Pipeline.ucRefs τ sig) (V6 m (outsH m) c) ∗ RH c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [V5_eq m c]
    rw [Pipeline.ownSems0_none]
    have hsplit := Pipeline.arrays_of_unscopedBufs (p := 2) (pcfgs (F := F)) adm (pdatsH m) launch2.win launch2.arr_whole c
      ((pdatsH m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U5 m)) c)
    unfold Pipeline.ΦA
    iintro ⟨Hp, -, Hr⟩
    isplitl [Hr]; · iexact Hr
    iexact Hp
  hout c := by
    rw [Pipeline.ownSems0_none]
    refine BIBase.Entails.trans (hout2 (atTc (U5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (atTc (U5 m) c) (atTc (V6 m (outsH m)) c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- What rides along is the same at every boundary. -/
abbrev EH : Fin 4 → Dev nD → sProp 𝕄 := fun _ c => RH c

-- the conditional frame's implicit arguments are found by unifying its conclusion with this one
set_option backward.isDefEq.respectTransparency.types false in
/-- THE FRAME, at any `F`: from any memory with zero counters every weakly fair execution of @main terminates, nothing
    faulting, and every final state has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (F := F) m (Ix := Unit) (U := UR sig nD τ) (Lvl := ℕ) emb₁ () Variants.none LH lvH (fun _ _ => rfl) ρ (outsH m) (pdatsH m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EH)
    (hE0 := by
      refine Pipeline.initEach LH lvH fun c => ?_
      iintro ⟨⟨-, HO, -, Hp, -⟩, -⟩
      imodintro
      isplitl [Hp]; · iexists _; iexact Hp
      iexists ∅; iexact HO)
    (hE3 := fun c => by
      iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Run

end Cert.Kernel.Hand

end
-- ==== Proof.KI.Body0.lean ====
/-
  The body of the first dense layer's kernel on whole staging memrefs, one statement per position of the point on
  the contraction axis k of its grid (4, 4, 2). The kernel keeps a 512×1024 f32 accumulator in a scratch buffer:
  at k = 0 it stores zeros there, at every k it adds the product of the point's 512×2048 and 2048×1024 blocks, and
  at the last k (= 1) it stores relu(accumulator + bias row) into the output block. So after the point at k = 0 the
  scratch holds  0 + A₀·B₀  (`k0_pay2 k0_pay1 x0 x1`) and the output buffer is as it was; after the point at k = 1 the
  scratch holds  s + A₁·B₁  (`k0_pay2 s x0 x1`, `s` what it held) and the output buffer relu of that plus the bias
  (`k0_pay3 (k0_pay2 s x0 x1) x2`). The input buffers are only read.
-/
import proofs.«142348_j11536282157274_1_alg».proof.Proof.Gen.KernelIdeal
import proofs.«142348_j11536282157274_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The point at k = 0: the accumulator is reset and the first product added; the output buffer is not touched. -/
theorem run0_first (c : Dev nD) (E : Set ℕ) (i : grid0.Coords) (hk : (i 2).val = 0)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (d6 : Vec F S512x1024 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ (∃ s, owns (c : Thread nD τ) arg7 fullShare s)
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (k0_pay2 (k0_pay1 (F := F)) x0 x1)) -∗ K ⟨⟩))
      ⊢ wp frame (wpE (defs₀ (F := F)) Variants.none c none) E
          (cc0__matmul_bias_relu_kernel i arg3 harg3 arg4 harg4 arg5 harg5 arg6 harg6 arg7 harg7) K := by
  -- the two conditions at k = 0: the reset is taken, the output store is not
  have hc0 : Scalar.cmpi .ne (Scalar.extui (Scalar.cmpi .eq (BitVec.ofNat 32 (i 2).val) 0#32)) 0#32 = 1#1 := by
    rw [hk]; decide
  have hc1 : ¬ k0_cond2 i = 1#1 := by
    unfold k0_cond2; rw [hk]; decide
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%f3, %hf3, H3⟩, ⟨%s, %fs, %hfs, HS⟩, Hk⟩
  obtain rfl := harg3.eq_unread hf0; obtain rfl := harg4.eq_unread hf1; obtain rfl := harg5.eq_unread hf2
  sl_exec (disch := first | exact hc0 | exact hc1)
  sl_step
  -- the inputs and the output buffer are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- the accumulator: the later whole-block store covers the zero fill, and the load between them reads the zeros
  iexists _; isplitr
  swap
  · iexact HS
  ipureintro
  sl_unfold_run_names
  have hz : (![0, 0] : Fin 2 → Nat) = fun _ => 0 := by funext a; fin_cases a <;> rfl
  rw [View.read_writes_eq_canon _ _ _ (fun y => ⟨_, List.mem_cons_self, View.mem_set_unit_zero hz inb_S512x1024_S512x1024_0_0 y⟩)]
  rw [View.canon_cons_unit_zero hz, View.readCov_unit_zero _ hz]
  simp only [View.readAt_eq_ld, harg3.read_unread, harg4.read_unread, View.ld_unit_zero (S := S512x2048) hz,
    View.ld_unit_zero (S := S2048x1024) hz]

set_option maxHeartbeats 1000000 in
/-- The point at k = 1 (the last): the second product is added and the output block stored. -/
theorem run0_last (c : Dev nD) (E : Set ℕ) (i : grid0.Coords) (hk : (i 2).val = 1)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (s : Vec F S512x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 s x0 x1) x2)
            ∗ owns (c : Thread nD τ) arg7 fullShare (k0_pay2 s x0 x1)) -∗ K ⟨⟩))
      ⊢ wp frame (wpE (defs₀ (F := F)) Variants.none c none) E
          (cc0__matmul_bias_relu_kernel i arg3 harg3 arg4 harg4 arg5 harg5 arg6 harg6 arg7 harg7) K := by
  -- the two conditions at k = 1: the reset is not taken, the output store is
  have hc0 : ¬ Scalar.cmpi .ne (Scalar.extui (Scalar.cmpi .eq (BitVec.ofNat 32 (i 2).val) 0#32)) 0#32 = 1#1 := by
    rw [hk]; decide
  have hc1 : k0_cond2 i = 1#1 := by
    unfold k0_cond2; rw [hk]; decide
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d, %f3, %hf3, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  -- the inputs are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz : (![0, 0] : Fin 2 → Nat) = fun _ => 0 := by funext a; fin_cases a <;> rfl
  -- the output block: one whole-block store of relu(accumulator + bias), the accumulator read back from its own store
  isplitl [H3]
  · iexists _; isplitr
    swap
    · iexact H3
    ipureintro
    sl_unfold_run_names
    rw [View.read_writes_eq_canon _ _ _ (fun y => ⟨_, List.mem_cons_self, View.mem_set_unit_zero hz inb_S512x1024_S512x1024_0_0 y⟩)]
    rw [View.canon_cons_unit_zero hz, View.readCov_unit_zero _ hz]
    simp only [View.readAt_eq_ld, harg3.read_unread, harg4.read_unread, harg5.read_unread, harg7.read_unread,
      View.ld_unit_zero (S := S512x1024) hz, View.ld_unit_zero (S := S512x2048) hz, View.ld_unit_zero (S := S2048x1024) hz,
      View.ld_unit_zero (S := S1x1024) hz]
  -- the accumulator: one whole-block store of what it held plus the product
  iexists _; isplitr
  swap
  · iexact HS
  ipureintro
  sl_unfold_run_names
  rw [View.read_writes_eq_canon _ _ _ (fun y => ⟨_, List.mem_cons_self, View.mem_set_unit_zero hz inb_S512x1024_S512x1024_0_0 y⟩)]
  rw [View.canon_cons_unit_zero hz]
  simp only [View.readAt_eq_ld, harg3.read_unread, harg4.read_unread, harg7.read_unread,
    View.ld_unit_zero (S := S512x1024) hz, View.ld_unit_zero (S := S512x2048) hz, View.ld_unit_zero (S := S2048x1024) hz]

end Cert.KernelIdeal.Hand

end
-- ==== Proof.KI.Region0.lean ====
/-
  The first dense layer's region (pipeline 0), at a PARAMETER `V`: the core's buffer contents when the region is entered.
  Its grid is (4, 4, 2): point t has row-block i = t / 8, column-block j = (t / 2) % 4 and contraction step k = t % 2.
  The windows: 0 — the 512×2048 block (i, k) of the 2048×4096 activations; 1 — the 2048×1024 block (k, j) of the
  4096×4096 transposed weights; 2 — the 1×1024 block (0, j) of the bias row; 3 — the 512×1024 output block (i, j),
  written back after the points with k = 1. A 512×1024 f32 accumulator lives in a scratch buffer across the two steps
  of k: after the point t it holds `acc0 V c t` — at k = 0 the zeros plus the product of the point's two blocks, at
  k = 1 that of the point before plus this point's product —, and the output block left at a point with k = 1 is
  relu(accumulator + bias row) (`k0_pay3`). The region's invariant holds the scratch buffer at those contents (at
  anything before the first point), and every other scoped buffer and the generator register at some state.
-/
import proofs.«142348_j11536282157274_1_alg».proof.Proof.KI.Body0
import proofs.«142348_j11536282157274_1_alg».proof.Proof.Gen.KernelIdeal.Launch
import proofs.«142348_j11536282157274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before `t` (the point itself at the first one). -/
def prev0 (t : Fin cfg0.N) : Fin cfg0.N := ⟨t.val - 1, Nat.lt_of_le_of_lt (Nat.sub_le _ _) t.isLt⟩

/-- The contraction step of a point is its position's parity. -/
theorem kstep0 : ∀ t : Fin cfg0.N, ((grid0.coords t) 2).val = t.val % 2 :=
  (by decide +kernel : ∀ t : Fin grid0.N, ((grid0.coords t) 2).val = t.val % 2)

/-- The output window is idle exactly at the points with k = 0, -/
theorem idle0_3 : ∀ t : Fin cfg0.N, cfg0.idle 3 (grid0.coords t) = true ↔ t.val % 2 = 0 :=
  (by decide +kernel : ∀ t : Fin grid0.N, cfg0.idle 3 (grid0.coords t) = true ↔ t.val % 2 = 0)

/-! ## The accumulator -/

/-- What the scratch accumulator holds after the body at point `t`. -/
def acc0 (c : Dev nD) (t : Fin cfg0.N) : Vec F S512x1024 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

/-! ## The invariant -/

/-- The scratch accumulator as a memref: the whole scoped buffer the kernel is passed beside its windows. -/
abbrev scM0 : Memref sig .tc .vmem S512x1024 .f32 := Memref.whole cc0_scratch0

/-- What the region's invariant holds beside the accumulator: every other scoped buffer that is no staging buffer of
    this call, at some contents each, and the generator register at some state. -/
def restA0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The scoped buffers that are no staging buffer of this call: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant hands over the accumulator at some contents, -/
theorem PhiA0_split (c : Dev nD) :
    (Pipeline.ΦA spec0 c : sProp 𝕄) ⊢ iprop((∃ d, owns (c : Thread nD τ) scM0 fullShare d) ∗ restA0 (F := F) c) := by
  unfold Pipeline.ΦA restA0
  rw [scopedRest0_split]
  simp only [scM0, owns_whole]
  iintro ⟨⟨⟨%f, H⟩, Hr⟩, Hp⟩
  isplitl [H]; · iexists f; iexact H
  isplitl [Hr]; · iexact Hr
  iexact Hp

/-- and takes it back at any. -/
theorem PhiA0_join (c : Dev nD) :
    iprop((∃ d, owns (c : Thread nD τ) scM0 fullShare d) ∗ restA0 (F := F) c) ⊢ (Pipeline.ΦA spec0 c : sProp 𝕄) := by
  unfold Pipeline.ΦA restA0
  rw [scopedRest0_split]
  simp only [scM0, owns_whole]
  iintro ⟨⟨%f, H⟩, Hr, Hp⟩
  isplitr [Hp]
  · isplitl [H]; · iexists f; iexact H
    iexact Hr
  iexact Hp

/-- The invariant before point `t` (after point `t - 1`): before the first point the class's; after a point the
    accumulator at that point's contents beside the rest. -/
def Phi0 (c : Dev nD) (t : Fin (cfg0.N + 1)) : sProp 𝕄 :=
  if h : t.val = 0 then Pipeline.ΦA spec0 c
  else iprop(owns (c : Thread nD τ) scM0 fullShare (acc0 V c ⟨t.val - 1, by have := t.isLt; omega⟩) ∗ restA0 c)

/-! ## The proof data -/

/-- The proof data of pipeline 0 on core `c`: the arrays as the region finds them; after the body each input's buffer
    at its block and the output's at relu(accumulator + bias) of the point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t) (iblk0 V c 2 t)
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t) (iblk0 V c 2 t) := by dsimp only [dat0]

/-- Each input's current staging buffer holds its block at every point, fetched there or not: unfetched, the block
    index has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The invariant around a point -/

theorem Phi0_succ (c : Dev nD) (t : Fin cfg0.N) :
    Phi0 V c t.succ = iprop(owns (c : Thread nD τ) scM0 fullShare (acc0 V c t) ∗ restA0 c) := by
  unfold Phi0
  rw [dif_neg (by simp : ¬ (t.succ).val = 0)]
  have e : (⟨(t.succ).val - 1, by rw [Fin.val_succ]; have := t.isLt; omega⟩ : Fin cfg0.N) = t := Fin.ext (by simp)
  rw [e]

theorem Phi0_castSucc_pos (c : Dev nD) (t : Fin cfg0.N) (ht : t.val ≠ 0) :
    Phi0 V c t.castSucc = iprop(owns (c : Thread nD τ) scM0 fullShare (acc0 V c (prev0 t)) ∗ restA0 c) := by
  unfold Phi0
  rw [dif_neg (by simpa using ht : ¬ (t.castSucc).val = 0)]
  rfl

/-- At any position the invariant holds the accumulator at SOME contents beside the rest. -/
theorem Phi0_weaken (c : Dev nD) (t : Fin (cfg0.N + 1)) :
    Phi0 V c t ⊢ iprop((∃ d, owns (c : Thread nD τ) scM0 fullShare d) ∗ restA0 (F := F) c) := by
  unfold Phi0
  split
  · exact PhiA0_split c
  · iintro ⟨H, Hr⟩
    isplitl [H]; · iexists _; iexact H
    iexact Hr

theorem acc0_even (c : Dev nD) (t : Fin cfg0.N) (hk : t.val % 2 = 0) :
    acc0 V c t = k0_pay2 (k0_pay1 (F := F)) (iblk0 V c 0 t) (iblk0 V c 1 t) := by
  unfold acc0; rw [if_pos hk]

theorem acc0_odd (c : Dev nD) (t : Fin cfg0.N) (hk : ¬ t.val % 2 = 0) :
    acc0 V c t = k0_pay2 (acc0 V c (prev0 t)) (iblk0 V c 0 t) (iblk0 V c 1 t) := by
  have hp : (prev0 t).val % 2 = 0 := by show (t.val - 1) % 2 = 0; omega
  rw [acc0_even V c (prev0 t) hp]
  unfold acc0; rw [if_neg hk]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 2000000 in
/-- The body at any point. The inputs' memrefs hold their blocks. At a point with k = 0 the invariant hands over the
    accumulator at whatever it holds, the body leaves it at the zeros plus the point's product, and the output
    window, idle there, is handed back as found. At a point with k = 1 the invariant hands over the accumulator at
    what the point before left, the body adds the point's product and stores relu(accumulator + bias) into the
    output window's buffer. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  rw [show (dat0 V c).Φ t.succ = Phi0 V c t.succ from rfl, Phi0_succ]
  by_cases hk : t.val % 2 = 0
  · have hi : cfg0.idle 3 (grid0.coords t) = true := (idle0_3 t).mpr hk
    have hf : (cfg0.win 3).flush t = false := by
      cases h : (cfg0.win 3).flush t with
      | false => rfl
      | true => exact absurd ((flush0_3 t).mp h) (by omega)
    rw [Dat.leavesExact_idle (dat0 V c) 3 t hi hf, acc0_even V c t hk]
    rw [show (dat0 V c).Φ t.castSucc = Phi0 V c t.castSucc from rfl]
    iintro ⟨HP, Ho, ⟨%d0, H0⟩, ⟨%d1, H1⟩, ⟨%d2, H2⟩, ⟨%d3, H3⟩⟩
    ihave HP' := (Phi0_weaken V c t.castSucc) $$ HP
    icases HP' with ⟨HS, Hr⟩
    iapply (run0_first c Set.univ (grid0.coords t) ((kstep0 t).trans hk) _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexists _; iexact H3
  · have hk1 : t.val % 2 = 1 := by omega
    have ht0 : t.val ≠ 0 := by omega
    have hi : cfg0.idle 3 (grid0.coords t) = false := by
      cases h : cfg0.idle 3 (grid0.coords t) with
      | false => rfl
      | true => exact absurd ((idle0_3 t).mp h) hk
    rw [show (dat0 V c).leavesExact 3 t = owns (c : Thread nD τ) (st0_3 t) fullShare ((dat0 V c).after 3 t) from by
      unfold Dat.leavesExact; rw [hi], after0_3, acc0_odd V c t hk]
    rw [show (dat0 V c).Φ t.castSucc = Phi0 V c t.castSucc from rfl, Phi0_castSucc_pos V c t ht0]
    iintro ⟨⟨HS, Hr⟩, Ho, ⟨%d0, H0⟩, ⟨%d1, H1⟩, ⟨%d2, H2⟩, ⟨%d3, H3⟩⟩
    iapply (run0_last c Set.univ (grid0.coords t) ((kstep0 t).trans hk1) _ _ _ _ _ _ _ _ _ _ (iblk0 V c 0 t) (iblk0 V c 1 t) (iblk0 V c 2 t) (acc0 V c (prev0 t)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 from rfl]; unfold Phi0
  rw [dif_pos (by rfl)]

/-- and after the last point the invariant gives it back, the accumulator's contents forgotten. -/
theorem hout0 (c : Dev nD) : (dat0 V c).Φ (Fin.last cfg0.N) ⊢ Pipeline.ΦA spec0 c :=
  (Phi0_weaken V c (Fin.last cfg0.N)).trans (PhiA0_join c)

end Region0

end Cert.KernelIdeal.Hand

end
-- ==== Proof.KI.Body1.lean ====
/-
  The body of the second dense layer's kernel on whole staging memrefs, one statement per position of the point on
  the contraction axis k of its grid (4, 4, 2). The kernel keeps a 512×1024 f32 accumulator in a scratch buffer:
  at k = 0 it stores zeros there, at every k it adds the product of the point's 512×2048 and 2048×1024 blocks, and
  at the last k (= 1) it stores relu(accumulator + bias row) into the output block. So after the point at k = 0 the
  scratch holds  0 + A₀·B₀  (`k1_pay2 k1_pay1 x0 x1`) and the output buffer is as it was; after the point at k = 1 the
  scratch holds  s + A₁·B₁  (`k1_pay2 s x0 x1`, `s` what it held) and the output buffer relu of that plus the bias
  (`k1_pay3 (k1_pay2 s x0 x1) x2`). The input buffers are only read.
-/
import proofs.«142348_j11536282157274_1_alg».proof.Proof.Gen.KernelIdeal
import proofs.«142348_j11536282157274_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The point at k = 0: the accumulator is reset and the first product added; the output buffer is not touched. -/
theorem run1_first (c : Dev nD) (E : Set ℕ) (i : grid1.Coords) (hk : (i 2).val = 0)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (d6 : Vec F S512x1024 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ (∃ s, owns (c : Thread nD τ) arg7 fullShare s)
        ∗ (iprop(owns (c : Thread nD τ) arg3 fullShare x0 ∗ owns (c : Thread nD τ) arg4 fullShare x1 ∗ owns (c : Thread nD τ) arg5 fullShare x2
            ∗ owns (c : Thread nD τ) arg6 fullShare d6
            ∗ owns (c : Thread nD τ) arg7 fullShare (k1_pay2 (k1_pay1 (F := F)) x0 x1)) -∗ K ⟨⟩))
      ⊢ wp frame (wpE (defs₀ (F := F)) Variants.none c none) E
          (cc1__matmul_bias_relu_kernel i arg3 harg3 arg4 harg4 arg5 harg5 arg6 harg6 arg7 harg7) K := by
  -- the two conditions at k = 0: the reset is taken, the output store is not
  have hc0 : Scalar.cmpi .ne (Scalar.extui (Scalar.cmpi .eq (BitVec.ofNat 32 (i 2).val) 0#32)) 0#32 = 1#1 := by
    rw [hk]; decide
  have hc1 : ¬ k1_cond2 i = 1#1 := by
    unfold k1_cond2; rw [hk]; decide
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%f3, %hf3, H3⟩, ⟨%s, %fs, %hfs, HS⟩, Hk⟩
  obtain rfl := harg3.eq_unread hf0; obtain rfl := harg4.eq_unread hf1; obtain rfl := harg5.eq_unread hf2
  sl_exec (disch := first | exact hc0 | exact hc1)
  sl_step
  -- the inputs and the output buffer are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  -- the accumulator: the later whole-block store covers the zero fill, and the load between them reads the zeros
  iexists _; isplitr
  swap
  · iexact HS
  ipureintro
  sl_unfold_run_names
  have hz : (![0, 0] : Fin 2 → Nat) = fun _ => 0 := by funext a; fin_cases a <;> rfl
  rw [View.read_writes_eq_canon _ _ _ (fun y => ⟨_, List.mem_cons_self, View.mem_set_unit_zero hz inb_S512x1024_S512x1024_0_0 y⟩)]
  rw [View.canon_cons_unit_zero hz, View.readCov_unit_zero _ hz]
  simp only [View.readAt_eq_ld, harg3.read_unread, harg4.read_unread, View.ld_unit_zero (S := S512x2048) hz,
    View.ld_unit_zero (S := S2048x1024) hz]

set_option maxHeartbeats 1000000 in
/-- The point at k = 1 (the last): the second product is added and the output block stored. -/
theorem run1_last (c : Dev nD) (E : Set ℕ) (i : grid1.Coords) (hk : (i 2).val = 1)
    (arg3 : Memref sig .tc .vmem S512x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .f32) (harg7 : arg7.IsWhole)
    (x0 : Vec F S512x2048 .bf16) (x1 : Vec F S2048x1024 .bf16) (x2 : Vec F S1x1024 .f32) (s : Vec F S512x1024 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 s x0 x1) x2)
            ∗ owns (c : Thread nD τ) arg7 fullShare (k1_pay2 s x0 x1)) -∗ K ⟨⟩))
      ⊢ wp frame (wpE (defs₀ (F := F)) Variants.none c none) E
          (cc1__matmul_bias_relu_kernel i arg3 harg3 arg4 harg4 arg5 harg5 arg6 harg6 arg7 harg7) K := by
  -- the two conditions at k = 1: the reset is not taken, the output store is
  have hc0 : ¬ Scalar.cmpi .ne (Scalar.extui (Scalar.cmpi .eq (BitVec.ofNat 32 (i 2).val) 0#32)) 0#32 = 1#1 := by
    rw [hk]; decide
  have hc1 : k1_cond2 i = 1#1 := by
    unfold k1_cond2; rw [hk]; decide
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d, %f3, %hf3, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  -- the inputs are handed back as they were
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz : (![0, 0] : Fin 2 → Nat) = fun _ => 0 := by funext a; fin_cases a <;> rfl
  -- the output block: one whole-block store of relu(accumulator + bias), the accumulator read back from its own store
  isplitl [H3]
  · iexists _; isplitr
    swap
    · iexact H3
    ipureintro
    sl_unfold_run_names
    rw [View.read_writes_eq_canon _ _ _ (fun y => ⟨_, List.mem_cons_self, View.mem_set_unit_zero hz inb_S512x1024_S512x1024_0_0 y⟩)]
    rw [View.canon_cons_unit_zero hz, View.readCov_unit_zero _ hz]
    simp only [View.readAt_eq_ld, harg3.read_unread, harg4.read_unread, harg5.read_unread, harg7.read_unread,
      View.ld_unit_zero (S := S512x1024) hz, View.ld_unit_zero (S := S512x2048) hz, View.ld_unit_zero (S := S2048x1024) hz,
      View.ld_unit_zero (S := S1x1024) hz]
  -- the accumulator: one whole-block store of what it held plus the product
  iexists _; isplitr
  swap
  · iexact HS
  ipureintro
  sl_unfold_run_names
  rw [View.read_writes_eq_canon _ _ _ (fun y => ⟨_, List.mem_cons_self, View.mem_set_unit_zero hz inb_S512x1024_S512x1024_0_0 y⟩)]
  rw [View.canon_cons_unit_zero hz]
  simp only [View.readAt_eq_ld, harg3.read_unread, harg4.read_unread, harg7.read_unread,
    View.ld_unit_zero (S := S512x1024) hz, View.ld_unit_zero (S := S512x2048) hz, View.ld_unit_zero (S := S2048x1024) hz]

end Cert.KernelIdeal.Hand

end
-- ==== Proof.KI.Region1.lean ====
/-
  The second dense layer's region (pipeline 1), at a PARAMETER `V`: the core's buffer contents when the region is entered.
  Its grid is (4, 4, 2): point t has row-block i = t / 8, column-block j = (t / 2) % 4 and contraction step k = t % 2.
  The windows: 0 — the 512×2048 block (i, k) of the 2048×4096 activations; 1 — the 2048×1024 block (k, j) of the
  4096×4096 transposed weights; 2 — the 1×1024 block (0, j) of the bias row; 3 — the 512×1024 output block (i, j),
  written back after the points with k = 1. A 512×1024 f32 accumulator lives in a scratch buffer across the two steps
  of k: after the point t it holds `acc1 V c t` — at k = 0 the zeros plus the product of the point's two blocks, at
  k = 1 that of the point before plus this point's product —, and the output block left at a point with k = 1 is
  relu(accumulator + bias row) (`k1_pay3`). The region's invariant holds the scratch buffer at those contents (at
  anything before the first point), and every other scoped buffer and the generator register at some state.
-/
import proofs.«142348_j11536282157274_1_alg».proof.Proof.KI.Body1
import proofs.«142348_j11536282157274_1_alg».proof.Proof.Gen.KernelIdeal.Launch
import proofs.«142348_j11536282157274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before `t` (the point itself at the first one). -/
def prev1 (t : Fin cfg1.N) : Fin cfg1.N := ⟨t.val - 1, Nat.lt_of_le_of_lt (Nat.sub_le _ _) t.isLt⟩

/-- The contraction step of a point is its position's parity. -/
theorem kstep1 : ∀ t : Fin cfg1.N, ((grid1.coords t) 2).val = t.val % 2 :=
  (by decide +kernel : ∀ t : Fin grid1.N, ((grid1.coords t) 2).val = t.val % 2)

/-- The output window is idle exactly at the points with k = 0, -/
theorem idle1_3 : ∀ t : Fin cfg1.N, cfg1.idle 3 (grid1.coords t) = true ↔ t.val % 2 = 0 :=
  (by decide +kernel : ∀ t : Fin grid1.N, cfg1.idle 3 (grid1.coords t) = true ↔ t.val % 2 = 0)

/-! ## The accumulator -/

/-- What the scratch accumulator holds after the body at point `t`. -/
def acc1 (c : Dev nD) (t : Fin cfg1.N) : Vec F S512x1024 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

/-! ## The invariant -/

/-- The scratch accumulator as a memref: the whole scoped buffer the kernel is passed beside its windows. -/
abbrev scM1 : Memref sig .tc .vmem S512x1024 .f32 := Memref.whole cc1_scratch0

/-- What the region's invariant holds beside the accumulator: every other scoped buffer that is no staging buffer of
    this call, at some contents each, and the generator register at some state. -/
def restA1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The scoped buffers that are no staging buffer of this call: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant hands over the accumulator at some contents, -/
theorem PhiA1_split (c : Dev nD) :
    (Pipeline.ΦA spec1 c : sProp 𝕄) ⊢ iprop((∃ d, owns (c : Thread nD τ) scM1 fullShare d) ∗ restA1 (F := F) c) := by
  unfold Pipeline.ΦA restA1
  rw [scopedRest1_split]
  simp only [scM1, owns_whole]
  iintro ⟨⟨⟨%f, H⟩, Hr⟩, Hp⟩
  isplitl [H]; · iexists f; iexact H
  isplitl [Hr]; · iexact Hr
  iexact Hp

/-- and takes it back at any. -/
theorem PhiA1_join (c : Dev nD) :
    iprop((∃ d, owns (c : Thread nD τ) scM1 fullShare d) ∗ restA1 (F := F) c) ⊢ (Pipeline.ΦA spec1 c : sProp 𝕄) := by
  unfold Pipeline.ΦA restA1
  rw [scopedRest1_split]
  simp only [scM1, owns_whole]
  iintro ⟨⟨%f, H⟩, Hr, Hp⟩
  isplitr [Hp]
  · isplitl [H]; · iexists f; iexact H
    iexact Hr
  iexact Hp

/-- The invariant before point `t` (after point `t - 1`): before the first point the class's; after a point the
    accumulator at that point's contents beside the rest. -/
def Phi1 (c : Dev nD) (t : Fin (cfg1.N + 1)) : sProp 𝕄 :=
  if h : t.val = 0 then Pipeline.ΦA spec1 c
  else iprop(owns (c : Thread nD τ) scM1 fullShare (acc1 V c ⟨t.val - 1, by have := t.isLt; omega⟩) ∗ restA1 c)

/-! ## The proof data -/

/-- The proof data of pipeline 1 on core `c`: the arrays as the region finds them; after the body each input's buffer
    at its block and the output's at relu(accumulator + bias) of the point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t) (iblk1 V c 2 t)
  Φ t := Phi1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t) (iblk1 V c 2 t) := by dsimp only [dat1]

/-- Each input's current staging buffer holds its block at every point, fetched there or not: unfetched, the block
    index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant around a point -/

theorem Phi1_succ (c : Dev nD) (t : Fin cfg1.N) :
    Phi1 V c t.succ = iprop(owns (c : Thread nD τ) scM1 fullShare (acc1 V c t) ∗ restA1 c) := by
  unfold Phi1
  rw [dif_neg (by simp : ¬ (t.succ).val = 0)]
  have e : (⟨(t.succ).val - 1, by rw [Fin.val_succ]; have := t.isLt; omega⟩ : Fin cfg1.N) = t := Fin.ext (by simp)
  rw [e]

theorem Phi1_castSucc_pos (c : Dev nD) (t : Fin cfg1.N) (ht : t.val ≠ 0) :
    Phi1 V c t.castSucc = iprop(owns (c : Thread nD τ) scM1 fullShare (acc1 V c (prev1 t)) ∗ restA1 c) := by
  unfold Phi1
  rw [dif_neg (by simpa using ht : ¬ (t.castSucc).val = 0)]
  rfl

/-- At any position the invariant holds the accumulator at SOME contents beside the rest. -/
theorem Phi1_weaken (c : Dev nD) (t : Fin (cfg1.N + 1)) :
    Phi1 V c t ⊢ iprop((∃ d, owns (c : Thread nD τ) scM1 fullShare d) ∗ restA1 (F := F) c) := by
  unfold Phi1
  split
  · exact PhiA1_split c
  · iintro ⟨H, Hr⟩
    isplitl [H]; · iexists _; iexact H
    iexact Hr

theorem acc1_even (c : Dev nD) (t : Fin cfg1.N) (hk : t.val % 2 = 0) :
    acc1 V c t = k1_pay2 (k1_pay1 (F := F)) (iblk1 V c 0 t) (iblk1 V c 1 t) := by
  unfold acc1; rw [if_pos hk]

theorem acc1_odd (c : Dev nD) (t : Fin cfg1.N) (hk : ¬ t.val % 2 = 0) :
    acc1 V c t = k1_pay2 (acc1 V c (prev1 t)) (iblk1 V c 0 t) (iblk1 V c 1 t) := by
  have hp : (prev1 t).val % 2 = 0 := by show (t.val - 1) % 2 = 0; omega
  rw [acc1_even V c (prev1 t) hp]
  unfold acc1; rw [if_neg hk]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 2000000 in
/-- The body at any point. The inputs' memrefs hold their blocks. At a point with k = 0 the invariant hands over the
    accumulator at whatever it holds, the body leaves it at the zeros plus the point's product, and the output
    window, idle there, is handed back as found. At a point with k = 1 the invariant hands over the accumulator at
    what the point before left, the body adds the point's product and stores relu(accumulator + bias) into the
    output window's buffer. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  rw [show (dat1 V c).Φ t.succ = Phi1 V c t.succ from rfl, Phi1_succ]
  by_cases hk : t.val % 2 = 0
  · have hi : cfg1.idle 3 (grid1.coords t) = true := (idle1_3 t).mpr hk
    have hf : (cfg1.win 3).flush t = false := by
      cases h : (cfg1.win 3).flush t with
      | false => rfl
      | true => exact absurd ((flush1_3 t).mp h) (by omega)
    rw [Dat.leavesExact_idle (dat1 V c) 3 t hi hf, acc1_even V c t hk]
    rw [show (dat1 V c).Φ t.castSucc = Phi1 V c t.castSucc from rfl]
    iintro ⟨HP, Ho, ⟨%d0, H0⟩, ⟨%d1, H1⟩, ⟨%d2, H2⟩, ⟨%d3, H3⟩⟩
    ihave HP' := (Phi1_weaken V c t.castSucc) $$ HP
    icases HP' with ⟨HS, Hr⟩
    iapply (run1_first c Set.univ (grid1.coords t) ((kstep1 t).trans hk) _ _ _ _ _ _ _ _ _ _ (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexists _; iexact H3
  · have hk1 : t.val % 2 = 1 := by omega
    have ht0 : t.val ≠ 0 := by omega
    have hi : cfg1.idle 3 (grid1.coords t) = false := by
      cases h : cfg1.idle 3 (grid1.coords t) with
      | false => rfl
      | true => exact absurd ((idle1_3 t).mp h) hk
    rw [show (dat1 V c).leavesExact 3 t = owns (c : Thread nD τ) (st1_3 t) fullShare ((dat1 V c).after 3 t) from by
      unfold Dat.leavesExact; rw [hi], after1_3, acc1_odd V c t hk]
    rw [show (dat1 V c).Φ t.castSucc = Phi1 V c t.castSucc from rfl, Phi1_castSucc_pos V c t ht0]
    iintro ⟨⟨HS, Hr⟩, Ho, ⟨%d0, H0⟩, ⟨%d1, H1⟩, ⟨%d2, H2⟩, ⟨%d3, H3⟩⟩
    iapply (run1_last c Set.univ (grid1.coords t) ((kstep1 t).trans hk1) _ _ _ _ _ _ _ _ _ _ (iblk1 V c 0 t) (iblk1 V c 1 t) (iblk1 V c 2 t) (acc1 V c (prev1 t)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 from rfl]; unfold Phi1
  rw [dif_pos (by rfl)]

/-- and after the last point the invariant gives it back, the accumulator's contents forgotten. -/
theorem hout1 (c : Dev nD) : (dat1 V c).Φ (Fin.last cfg1.N) ⊢ Pipeline.ΦA spec1 c :=
  (Phi1_weaken V c (Fin.last cfg1.N)).trans (PhiA1_join c)

end Region1

end Cert.KernelIdeal.Hand

end
-- ==== Proof.KI.Body2.lean ====
/-
  The body of the two-headed classification kernel on whole staging memrefs, one statement per position of the point
  on the contraction axis k of its grid (4, 4). The kernel keeps two 512×21 f32 accumulators in scratch buffers, one
  per head: at k = 0 it stores zeros in both, at every k it adds to each the product of the point's 512×1024 block of
  the activations with that head's 1024×21 block of weights, and at the last k (= 3) it stores relu(accumulator + bias
  row) into each head's output block. So after a point the first scratch holds `k2_pay3 s9 x0 x1` (= s9 + A·Wc) and the
  second `k2_pay4 s10 x0 x2` (= s10 + A·Wd), where s9, s10 are what they held — zeros (`k2_pay1`, `k2_pay2`) at k = 0 —;
  the output buffers are untouched unless k = 3, where they end at `k2_pay5 (…) x3` and `k2_pay6 (…) x4`.
-/
import proofs.«142348_j11536282157274_1_alg».proof.Proof.Gen.KernelIdeal
import proofs.«142348_j11536282157274_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle of a rank-2 shape, spelt as the constant function. -/
private theorem zero_off2 : (![0, 0] : Fin 2 → Nat) = fun _ => 0 :=
  funext fun a => match a with
    | ⟨0, _⟩ => rfl
    | ⟨1, _⟩ => rfl

/-- A list of stores whose last store is through the whole-block rectangle covers the shape. -/
private theorem cover_whole_cons {S : Shape} {e : EltTy} {Val : EltTy → Type} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

set_option maxHeartbeats 1000000 in
/-- The point at k = 0: both accumulators are reset and the first products added; the output buffers are not touched. -/
theorem run2_first (c : Dev nD) (E : Set ℕ) (i : grid2.Coords) (hk : (i 1).val = 0)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (d7 d8 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d7 ∗ owns (c : Thread nD τ) arg8 fullShare d8 ∗ (∃ s, owns (c : Thread nD τ) arg9 fullShare s) ∗ (∃ s, owns (c : Thread nD τ) arg10 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d7 ∗ owns (c : Thread nD τ) arg8 fullShare d8
            ∗ owns (c : Thread nD τ) arg9 fullShare (k2_pay3 (k2_pay1 (F := F)) x0 x1) ∗ owns (c : Thread nD τ) arg10 fullShare (k2_pay4 (k2_pay2 (F := F)) x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- at k = 0 the first condition holds and the second (k = 3) does not
  have hc0 : Scalar.cmpi .ne (Scalar.extui (Scalar.cmpi .eq (BitVec.ofNat 32 (i 1).val) 0#32)) 0#32 = 1#1 := by
    rw [hk]; decide
  have hc1 : ¬ (k2_cond2 i = 1#1) := by
    unfold k2_cond2; rw [hk]; decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%s9, %f9, -, H9⟩, ⟨%s10, %f10, -, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  -- each accumulator: the last store is of the whole block, so it reads back as that payload, whose first argument
  -- is the load of the zeros stored just before
  isplitl [H9]
  · iexists _; isplitr
    swap; · iexact H9
    ipureintro
    rw [View.read_writes_eq_canon _ _ _ (cover_whole_cons zero_off2 _ _ _)]
    rw [View.canon_cons_unit_zero zero_off2]
    sl_unfold_run_names
    rw [View.readCov_unit_zero _ zero_off2]
    simp only [View.readAt_eq_ld, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  rw [View.read_writes_eq_canon _ _ _ (cover_whole_cons zero_off2 _ _ _)]
  rw [View.canon_cons_unit_zero zero_off2]
  sl_unfold_run_names
  rw [View.readCov_unit_zero _ zero_off2]
  simp only [View.readAt_eq_ld, harg2.read_unread, harg4.read_unread,
    View.ld_unit_zero (S := S512x21) zero_off2, View.ld_unit_zero (S := S512x1024) zero_off2, View.ld_unit_zero (S := S1024x21) zero_off2, View.ld_unit_zero (S := S1x21) zero_off2]

set_option maxHeartbeats 1000000 in
/-- A point at k = 1 or k = 2: the products are added; the output buffers are not touched. -/
theorem run2_mid (c : Dev nD) (E : Set ℕ) (i : grid2.Coords) (hk0 : (i 1).val ≠ 0) (hk3 : (i 1).val ≠ 3)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (d7 d8 s9 s10 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare d7 ∗ owns (c : Thread nD τ) arg8 fullShare d8 ∗ owns (c : Thread nD τ) arg9 fullShare s9 ∗ owns (c : Thread nD τ) arg10 fullShare s10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare d7 ∗ owns (c : Thread nD τ) arg8 fullShare d8
            ∗ owns (c : Thread nD τ) arg9 fullShare (k2_pay3 s9 x0 x1) ∗ owns (c : Thread nD τ) arg10 fullShare (k2_pay4 s10 x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- k is 1 or 2: neither condition holds
  have h4 : (i 1).val < 4 := (i 1).isLt
  have hc0 : ¬ (Scalar.cmpi .ne (Scalar.extui (Scalar.cmpi .eq (BitVec.ofNat 32 (i 1).val) 0#32)) 0#32 = 1#1) := by
    generalize (i 1).val = n at *
    have h : n = 1 ∨ n = 2 := by omega
    rcases h with rfl | rfl <;> decide
  have hc1 : ¬ (k2_cond2 i = 1#1) := by
    unfold k2_cond2
    generalize (i 1).val = n at *
    have h : n = 1 ∨ n = 2 := by omega
    rcases h with rfl | rfl <;> decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7
  obtain rfl := harg8.eq_unread hf8; obtain rfl := harg9.eq_unread hf9; obtain rfl := harg10.eq_unread hf10
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  -- each accumulator: one store of the whole block, which reads back as its payload over what the buffers held
  isplitl [H9]
  · iexists _; isplitr
    swap; · iexact H9
    ipureintro
    rw [View.read_writes_eq_canon _ _ _ (cover_whole_cons zero_off2 _ _ _)]
    rw [View.canon_cons_unit_zero zero_off2]
    simp only [View.readAt_eq_ld, harg9.read_unread, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  rw [View.read_writes_eq_canon _ _ _ (cover_whole_cons zero_off2 _ _ _)]
  rw [View.canon_cons_unit_zero zero_off2]
  simp only [View.readAt_eq_ld, harg10.read_unread, harg2.read_unread, harg4.read_unread,
    View.ld_unit_zero (S := S512x21) zero_off2, View.ld_unit_zero (S := S512x1024) zero_off2, View.ld_unit_zero (S := S1024x21) zero_off2, View.ld_unit_zero (S := S1x21) zero_off2]

set_option maxHeartbeats 1000000 in
/-- The point at k = 3 (the last): the last products are added and both output blocks stored. -/
theorem run2_last (c : Dev nD) (E : Set ℕ) (i : grid2.Coords) (hk : (i 1).val = 3)
    (arg2 : Memref sig .tc .vmem S512x1024 .bf16) (harg2 : arg2.IsWhole) (arg3 : Memref sig .tc .vmem S1024x21 .bf16) (harg3 : arg3.IsWhole)
    (arg4 : Memref sig .tc .vmem S1024x21 .bf16) (harg4 : arg4.IsWhole) (arg5 : Memref sig .tc .vmem S1x21 .f32) (harg5 : arg5.IsWhole)
    (arg6 : Memref sig .tc .vmem S1x21 .f32) (harg6 : arg6.IsWhole) (arg7 : Memref sig .tc .vmem S512x21 .f32) (harg7 : arg7.IsWhole)
    (arg8 : Memref sig .tc .vmem S512x21 .f32) (harg8 : arg8.IsWhole) (arg9 : Memref sig .tc .vmem S512x21 .f32) (harg9 : arg9.IsWhole)
    (arg10 : Memref sig .tc .vmem S512x21 .f32) (harg10 : arg10.IsWhole)
    (x0 : Vec F S512x1024 .bf16) (x1 : Vec F S1024x21 .bf16) (x2 : Vec F S1024x21 .bf16) (x3 : Vec F S1x21 .f32) (x4 : Vec F S1x21 .f32) (s9 s10 : Vec F S512x21 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare s9 ∗ owns (c : Thread nD τ) arg10 fullShare s10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k2_pay5 (k2_pay3 s9 x0 x1) x3) ∗ owns (c : Thread nD τ) arg8 fullShare (k2_pay6 (k2_pay4 s10 x0 x2) x4)
            ∗ owns (c : Thread nD τ) arg9 fullShare (k2_pay3 s9 x0 x1) ∗ owns (c : Thread nD τ) arg10 fullShare (k2_pay4 s10 x0 x2)) -∗ K ⟨⟩))
      ⊢ wp frame (wpE (defs₀ (F := F)) Variants.none c none) E
          (cc2__head_kernel i arg2 harg2 arg3 harg3 arg4 harg4 arg5 harg5 arg6 harg6 arg7 harg7 arg8 harg8 arg9 harg9 arg10 harg10) K := by
  -- at k = 3 the first condition (k = 0) fails and the second holds
  have hc0 : ¬ (Scalar.cmpi .ne (Scalar.extui (Scalar.cmpi .eq (BitVec.ofNat 32 (i 1).val) 0#32)) 0#32 = 1#1) := by
    rw [hk]; decide
  have hc1 : k2_cond2 i = 1#1 := by
    unfold k2_cond2; rw [hk]; decide
  -- the body is its skeleton of loads and stores over the payloads; run it with both conditions decided
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hf9; obtain rfl := harg10.eq_unread hf10
  sl_exec (disch := first | exact hc0 | exact hc1)
  sl_step
  iapply Hk
  -- the inputs come back as they were
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- each output block: one store of the whole block, of the payload over the accumulator just stored and read back
  isplitl [H7]
  · iexists _; isplitr
    swap; · iexact H7
    ipureintro
    sl_unfold_run_names
    rw [View.read_writes_eq_canon _ _ _ (cover_whole_cons zero_off2 _ _ _)]
    rw [View.canon_cons_unit_zero zero_off2]
    rw [View.readCov_unit_zero _ zero_off2]
    simp only [View.readAt_eq_ld, harg9.read_unread, harg2.read_unread, harg3.read_unread, harg5.read_unread,
      View.ld_unit_zero (S := S512x21) zero_off2, View.ld_unit_zero (S := S512x1024) zero_off2, View.ld_unit_zero (S := S1024x21) zero_off2, View.ld_unit_zero (S := S1x21) zero_off2]
  isplitl [H8]
  · iexists _; isplitr
    swap; · iexact H8
    ipureintro
    sl_unfold_run_names
    rw [View.read_writes_eq_canon _ _ _ (cover_whole_cons zero_off2 _ _ _)]
    rw [View.canon_cons_unit_zero zero_off2]
    rw [View.readCov_unit_zero _ zero_off2]
    simp only [View.readAt_eq_ld, harg10.read_unread, harg2.read_unread, harg4.read_unread, harg6.read_unread,
      View.ld_unit_zero (S := S512x21) zero_off2, View.ld_unit_zero (S := S512x1024) zero_off2, View.ld_unit_zero (S := S1024x21) zero_off2, View.ld_unit_zero (S := S1x21) zero_off2]
  -- each accumulator: one store of the whole block
  isplitl [H9]
  · iexists _; isplitr
    swap; · iexact H9
    ipureintro
    sl_unfold_run_names
    rw [View.read_writes_eq_canon _ _ _ (cover_whole_cons zero_off2 _ _ _)]
    rw [View.canon_cons_unit_zero zero_off2]
    simp only [View.readAt_eq_ld, harg9.read_unread, harg2.read_unread, harg3.read_unread,
      View.ld_unit_zero (S := S512x21) zero_off2, View.ld_unit_zero (S := S512x1024) zero_off2, View.ld_unit_zero (S := S1024x21) zero_off2, View.ld_unit_zero (S := S1x21) zero_off2]
  iexists _; isplitr
  swap; · iexact H10
  ipureintro
  sl_unfold_run_names
  rw [View.read_writes_eq_canon _ _ _ (cover_whole_cons zero_off2 _ _ _)]
  rw [View.canon_cons_unit_zero zero_off2]
  simp only [View.readAt_eq_ld, harg10.read_unread, harg2.read_unread, harg4.read_unread,
    View.ld_unit_zero (S := S512x21) zero_off2, View.ld_unit_zero (S := S512x1024) zero_off2, View.ld_unit_zero (S := S1024x21) zero_off2, View.ld_unit_zero (S := S1x21) zero_off2]

end Cert.KernelIdeal.Hand

end
-- ==== Proof.KI.Region2.lean ====
/-
  The two-headed classification kernel's region (pipeline 2), at a PARAMETER `V`: the core's buffer contents when the
  region is entered. Its grid is (4, 4): point t has row-block i = t / 4 and contraction step k = t % 4.
  The windows: 0 — the 512×1024 block (i, k) of the 2048×4096 activations; 1, 2 — the 1024×21 block (k, 0) of each head's
  4096×21 transposed weights; 3, 4 — each head's 1×21 bias row; 5, 6 — each head's 512×21 output block (i, 0), written
  back after the points with k = 3. Two 512×21 f32 accumulators live in scratch buffers across the four steps of k:
  after the point t the first holds `accC2 V c t`, the second `accD2 V c t` — at k = 0 the zeros plus the product of the
  point's blocks, at a later k what the point before left plus this point's product —, and an output block left at a
  point with k = 3 is relu(accumulator + bias row) (`k2_pay5`, `k2_pay6`). The region's invariant holds the two scratch
  buffers at those contents (at anything before the first point), and every other scoped buffer and the generator
  register at some state.
-/
import proofs.«142348_j11536282157274_1_alg».proof.Proof.KI.Body2
import proofs.«142348_j11536282157274_1_alg».proof.Proof.Gen.KernelIdeal.Launch
import proofs.«142348_j11536282157274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The point before `t` (the point itself at the first one). -/
def prev2 (t : Fin cfg2.N) : Fin cfg2.N := ⟨t.val - 1, Nat.lt_of_le_of_lt (Nat.sub_le _ _) t.isLt⟩

/-- The contraction step of a point is its position modulo 4. -/
theorem kstep2 : ∀ t : Fin cfg2.N, ((grid2.coords t) 1).val = t.val % 4 :=
  (by decide +kernel : ∀ t : Fin grid2.N, ((grid2.coords t) 1).val = t.val % 4)

/-- The output windows are live exactly at the points with k = 3. -/
theorem idle2_5 : ∀ t : Fin cfg2.N, cfg2.idle 5 (grid2.coords t) = false ↔ t.val % 4 = 3 :=
  (by decide +kernel : ∀ t : Fin grid2.N, cfg2.idle 5 (grid2.coords t) = false ↔ t.val % 4 = 3)
theorem idle2_6 : ∀ t : Fin cfg2.N, cfg2.idle 6 (grid2.coords t) = false ↔ t.val % 4 = 3 :=
  (by decide +kernel : ∀ t : Fin grid2.N, cfg2.idle 6 (grid2.coords t) = false ↔ t.val % 4 = 3)

/-! ## The accumulators -/

/-- What the first head's accumulator holds after the body at position `n`. -/
def accC2n (c : Dev nD) : (n : ℕ) → n < cfg2.N → Vec F S512x21 .f32
  | 0, h => k2_pay3 (k2_pay1 (F := F)) (iblk2 V c 0 ⟨0, h⟩) (iblk2 V c 1 ⟨0, h⟩)
  | n + 1, h =>
    if (n + 1) % 4 = 0 then k2_pay3 (k2_pay1 (F := F)) (iblk2 V c 0 ⟨n + 1, h⟩) (iblk2 V c 1 ⟨n + 1, h⟩)
    else k2_pay3 (accC2n c n (Nat.lt_of_succ_lt h)) (iblk2 V c 0 ⟨n + 1, h⟩) (iblk2 V c 1 ⟨n + 1, h⟩)

/-- What the second head's accumulator holds after the body at position `n`. -/
def accD2n (c : Dev nD) : (n : ℕ) → n < cfg2.N → Vec F S512x21 .f32
  | 0, h => k2_pay4 (k2_pay2 (F := F)) (iblk2 V c 0 ⟨0, h⟩) (iblk2 V c 2 ⟨0, h⟩)
  | n + 1, h =>
    if (n + 1) % 4 = 0 then k2_pay4 (k2_pay2 (F := F)) (iblk2 V c 0 ⟨n + 1, h⟩) (iblk2 V c 2 ⟨n + 1, h⟩)
    else k2_pay4 (accD2n c n (Nat.lt_of_succ_lt h)) (iblk2 V c 0 ⟨n + 1, h⟩) (iblk2 V c 2 ⟨n + 1, h⟩)

/-- The same at a point. -/
def accC2 (c : Dev nD) (t : Fin cfg2.N) : Vec F S512x21 .f32 := accC2n V c t.val t.isLt
def accD2 (c : Dev nD) (t : Fin cfg2.N) : Vec F S512x21 .f32 := accD2n V c t.val t.isLt

theorem accC2_first (c : Dev nD) (t : Fin cfg2.N) (hk : t.val % 4 = 0) :
    accC2 V c t = k2_pay3 (k2_pay1 (F := F)) (iblk2 V c 0 t) (iblk2 V c 1 t) := by
  obtain ⟨n, hn⟩ := t
  cases n with
  | zero => rfl
  | succ n => exact if_pos hk

theorem accC2_next (c : Dev nD) (t : Fin cfg2.N) (hk : ¬ t.val % 4 = 0) :
    accC2 V c t = k2_pay3 (accC2 V c (prev2 t)) (iblk2 V c 0 t) (iblk2 V c 1 t) := by
  obtain ⟨n, hn⟩ := t
  cases n with
  | zero => exact absurd (Nat.zero_mod _) hk
  | succ n => exact if_neg hk

theorem accD2_first (c : Dev nD) (t : Fin cfg2.N) (hk : t.val % 4 = 0) :
    accD2 V c t = k2_pay4 (k2_pay2 (F := F)) (iblk2 V c 0 t) (iblk2 V c 2 t) := by
  obtain ⟨n, hn⟩ := t
  cases n with
  | zero => rfl
  | succ n => exact if_pos hk

theorem accD2_next (c : Dev nD) (t : Fin cfg2.N) (hk : ¬ t.val % 4 = 0) :
    accD2 V c t = k2_pay4 (accD2 V c (prev2 t)) (iblk2 V c 0 t) (iblk2 V c 2 t) := by
  obtain ⟨n, hn⟩ := t
  cases n with
  | zero => exact absurd (Nat.zero_mod _) hk
  | succ n => exact if_neg hk

/-! ## The invariant -/

/-- The scratch accumulators as memrefs: the whole scoped buffers the kernel is passed beside its windows. -/
abbrev scC2 : Memref sig .tc .vmem S512x21 .f32 := Memref.whole cc2_scratch0
abbrev scD2 : Memref sig .tc .vmem S512x21 .f32 := Memref.whole cc2_scratch1

/-- What the region's invariant holds beside the accumulators: every other scoped buffer that is no staging buffer of
    this call, at some contents each, and the generator register at some state. -/
def restA2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

/-- The scoped buffers that are no staging buffer of this call: the two accumulators, and the rest unopened. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The class invariant hands over the accumulators at some contents, -/
theorem PhiA2_split (c : Dev nD) :
    (Pipeline.ΦA spec2 c : sProp 𝕄) ⊢ iprop((∃ d, owns (c : Thread nD τ) scC2 fullShare d) ∗ (∃ d, owns (c : Thread nD τ) scD2 fullShare d) ∗ restA2 (F := F) c) := by
  unfold Pipeline.ΦA restA2
  rw [scopedRest2_split]
  simp only [scC2, scD2, owns_whole]
  iintro ⟨⟨⟨⟨%f, H⟩, ⟨%g, G⟩⟩, Hr⟩, Hp⟩
  isplitl [H]; · iexists f; iexact H
  isplitl [G]; · iexists g; iexact G
  isplitl [Hr]; · iexact Hr
  iexact Hp

/-- and takes them back at any. -/
theorem PhiA2_join (c : Dev nD) :
    iprop((∃ d, owns (c : Thread nD τ) scC2 fullShare d) ∗ (∃ d, owns (c : Thread nD τ) scD2 fullShare d) ∗ restA2 (F := F) c) ⊢ (Pipeline.ΦA spec2 c : sProp 𝕄) := by
  unfold Pipeline.ΦA restA2
  rw [scopedRest2_split]
  simp only [scC2, scD2, owns_whole]
  iintro ⟨⟨%f, H⟩, ⟨%g, G⟩, Hr, Hp⟩
  isplitr [Hp]
  · isplitr [Hr]
    · isplitl [H]; · iexists f; iexact H
      iexists g; iexact G
    iexact Hr
  iexact Hp

/-- The invariant before point `t` (after point `t - 1`): before the first point the class's; after a point the
    accumulators at that point's contents beside the rest. -/
def Phi2 (c : Dev nD) (t : Fin (cfg2.N + 1)) : sProp 𝕄 :=
  if h : t.val = 0 then Pipeline.ΦA spec2 c
  else iprop(owns (c : Thread nD τ) scC2 fullShare (accC2 V c ⟨t.val - 1, by have := t.isLt; omega⟩)
    ∗ owns (c : Thread nD τ) scD2 fullShare (accD2 V c ⟨t.val - 1, by have := t.isLt; omega⟩) ∗ restA2 c)

/-! ## The proof data -/

/-- The proof data of pipeline 2 on core `c`: the arrays as the region finds them; after the body each input's buffer
    at its block and each head's output at relu(its accumulator + its bias) of the point; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay5 (accC2 V c t) (iblk2 V c 3 t)
    | ⟨6, _⟩ => k2_pay6 (accD2 V c t) (iblk2 V c 4 t)
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay5 (accC2 V c t) (iblk2 V c 3 t) := by dsimp only [dat2]
theorem after2_6 (c : Dev nD) (t : Fin cfg2.N) : (dat2 V c).after 6 t = k2_pay6 (accD2 V c t) (iblk2 V c 4 t) := by dsimp only [dat2]

/-- Each input's current staging buffer holds its block at every point, fetched there or not: unfetched, the block
    index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-! ## The invariant around a point -/

theorem Phi2_succ (c : Dev nD) (t : Fin cfg2.N) :
    Phi2 V c t.succ = iprop(owns (c : Thread nD τ) scC2 fullShare (accC2 V c t) ∗ owns (c : Thread nD τ) scD2 fullShare (accD2 V c t) ∗ restA2 c) := by
  unfold Phi2
  rw [dif_neg (by simp : ¬ (t.succ).val = 0)]
  have e : (⟨(t.succ).val - 1, by rw [Fin.val_succ]; have := t.isLt; omega⟩ : Fin cfg2.N) = t := Fin.ext (by simp)
  rw [e]

theorem Phi2_castSucc_pos (c : Dev nD) (t : Fin cfg2.N) (ht : t.val ≠ 0) :
    Phi2 V c t.castSucc = iprop(owns (c : Thread nD τ) scC2 fullShare (accC2 V c (prev2 t)) ∗ owns (c : Thread nD τ) scD2 fullShare (accD2 V c (prev2 t)) ∗ restA2 c) := by
  unfold Phi2
  rw [dif_neg (by simpa using ht : ¬ (t.castSucc).val = 0)]
  rfl

/-- At any position the invariant holds the accumulators at SOME contents beside the rest. -/
theorem Phi2_weaken (c : Dev nD) (t : Fin (cfg2.N + 1)) :
    Phi2 V c t ⊢ iprop((∃ d, owns (c : Thread nD τ) scC2 fullShare d) ∗ (∃ d, owns (c : Thread nD τ) scD2 fullShare d) ∗ restA2 (F := F) c) := by
  unfold Phi2
  split
  · exact PhiA2_split c
  · iintro ⟨H, G, Hr⟩
    isplitl [H]; · iexists _; iexact H
    isplitl [G]; · iexists _; iexact G
    iexact Hr

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t)

set_option maxHeartbeats 4000000 in
/-- The body at any point. The inputs' memrefs hold their blocks. At a point with k = 0 the invariant hands over the
    accumulators at whatever they hold and the body leaves them at the zeros plus the point's products; at a later
    point it hands them over at what the point before left and the body adds the point's products. The output
    windows, idle unless k = 3, are handed back as found; at k = 3 the body stores relu(accumulator + bias) into
    each. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3,
    show (dat2 V c).leavesExact 4 t = owns (c : Thread nD τ) (st2_4 t) fullShare ((dat2 V c).after 4 t) from rfl, after2_4]
  rw [show (dat2 V c).Φ t.succ = Phi2 V c t.succ from rfl, Phi2_succ]
  rw [show (dat2 V c).Φ t.castSucc = Phi2 V c t.castSucc from rfl]
  by_cases hk3 : t.val % 4 = 3
  · -- the last step of k: both output blocks are stored
    have ht0 : t.val ≠ 0 := by omega
    have hk0 : ¬ t.val % 4 = 0 := by omega
    rw [show (dat2 V c).leavesExact 5 t = owns (c : Thread nD τ) (st2_5 t) fullShare ((dat2 V c).after 5 t) from by
      unfold Dat.leavesExact; rw [(idle2_5 t).mpr hk3], after2_5,
      show (dat2 V c).leavesExact 6 t = owns (c : Thread nD τ) (st2_6 t) fullShare ((dat2 V c).after 6 t) from by
      unfold Dat.leavesExact; rw [(idle2_6 t).mpr hk3], after2_6]
    rw [accC2_next V c t hk0, accD2_next V c t hk0, Phi2_castSucc_pos V c t ht0]
    iintro ⟨⟨HC, HD, Hr⟩, Ho, ⟨%d0, H0⟩, ⟨%d1, H1⟩, ⟨%d2, H2⟩, ⟨%d3, H3⟩, ⟨%d4, H4⟩, ⟨%d5, H5⟩, ⟨%d6, H6⟩⟩
    iapply (run2_last c Set.univ (grid2.coords t) ((kstep2 t).trans hk3) _ _ _ _ _ _ _ _ _ _ _ _ _ _ _ _ _ _
      (iblk2 V c 0 t) (iblk2 V c 1 t) (iblk2 V c 2 t) (iblk2 V c 3 t) (iblk2 V c 4 t) (accC2 V c (prev2 t)) (accD2 V c (prev2 t)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HC]; · iexact HC
    isplitl [HD]; · iexact HD
    iintro ⟨H0, H1, H2, H3, H4, H5, H6, HC, HD⟩
    isplitl [HC HD Hr]
    · isplitl [HC]; · iexact HC
      isplitl [HD]; · iexact HD
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi5 : cfg2.idle 5 (grid2.coords t) = true := by
      cases h : cfg2.idle 5 (grid2.coords t) with
      | true => rfl
      | false => exact absurd ((idle2_5 t).mp h) hk3
    have hi6 : cfg2.idle 6 (grid2.coords t) = true := by
      cases h : cfg2.idle 6 (grid2.coords t) with
      | true => rfl
      | false => exact absurd ((idle2_6 t).mp h) hk3
    have hf5 : (cfg2.win 5).flush t = false := by
      cases h : (cfg2.win 5).flush t with
      | false => rfl
      | true => exact absurd ((flush2_5 t).mp h) hk3
    have hf6 : (cfg2.win 6).flush t = false := by
      cases h : (cfg2.win 6).flush t with
      | false => rfl
      | true => exact absurd ((flush2_6 t).mp h) hk3
    rw [Dat.leavesExact_idle (dat2 V c) 5 t hi5 hf5, Dat.leavesExact_idle (dat2 V c) 6 t hi6 hf6]
    by_cases hk0 : t.val % 4 = 0
    · -- the first step of k: the accumulators are reset
      rw [accC2_first V c t hk0, accD2_first V c t hk0]
      iintro ⟨HP, Ho, ⟨%d0, H0⟩, ⟨%d1, H1⟩, ⟨%d2, H2⟩, ⟨%d3, H3⟩, ⟨%d4, H4⟩, ⟨%d5, H5⟩, ⟨%d6, H6⟩⟩
      ihave HP' := (Phi2_weaken V c t.castSucc) $$ HP
      icases HP' with ⟨HC, HD, Hr⟩
      iapply (run2_first c Set.univ (grid2.coords t) ((kstep2 t).trans hk0) _ _ _ _ _ _ _ _ _ _ _ _ _ _ _ _ _ _
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HC]; · iexact HC
      isplitl [HD]; · iexact HD
      iintro ⟨H0, H1, H2, H3, H4, H5, H6, HC, HD⟩
      isplitl [HC HD Hr]
      · isplitl [HC]; · iexact HC
        isplitl [HD]; · iexact HD
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · -- a middle step of k
      have ht0 : t.val ≠ 0 := by omega
      rw [accC2_next V c t hk0, accD2_next V c t hk0, Phi2_castSucc_pos V c t ht0]
      iintro ⟨⟨HC, HD, Hr⟩, Ho, ⟨%d0, H0⟩, ⟨%d1, H1⟩, ⟨%d2, H2⟩, ⟨%d3, H3⟩, ⟨%d4, H4⟩, ⟨%d5, H5⟩, ⟨%d6, H6⟩⟩
      iapply (run2_mid c Set.univ (grid2.coords t) (by rw [kstep2 t]; exact hk0) (by rw [kstep2 t]; exact hk3) _ _ _ _ _ _ _ _ _ _ _ _ _ _ _ _ _ _
        (iblk2 V c 0 t) (iblk2 V c 1 t) (iblk2 V c 2 t) (iblk2 V c 3 t) (iblk2 V c 4 t) _ _ (accC2 V c (prev2 t)) (accD2 V c (prev2 t)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HC]; · iexact HC
      isplitl [HD]; · iexact HD
      iintro ⟨H0, H1, H2, H3, H4, H5, H6, HC, HD⟩
      isplitl [HC HD Hr]
      · isplitl [HC]; · iexact HC
        isplitl [HD]; · iexact HD
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = Phi2 V c 0 from rfl]; unfold Phi2
  rw [dif_pos (by rfl)]

/-- and after the last point the invariant gives it back, the accumulators' contents forgotten. -/
theorem hout2 (c : Dev nD) : (dat2 V c).Φ (Fin.last cfg2.N) ⊢ Pipeline.ΦA spec2 c :=
  (Phi2_weaken V c (Fin.last cfg2.N)).trans (PhiA2_join c)

end Region2

end Cert.KernelIdeal.Hand

end
-- ==== Proof.KI.Run.lean ====
/-
  The run of the whole program: its three kernel regions among four stretches of host operations.
  What a region leaves in its output array is what the pipeline library computes from the region's proof data — the
  output's write-backs folded over the grid (`Dat.arrAt … N`) —, every other buffer is as the region found it. So the
  buffer contents at the seven boundaries are a fold from the launch memory: a stretch's `StableHlo.after`, a region's
  output array replaced. Each region is entered from "every unscoped buffer at the boundary's contents, the generator
  register at some state, nothing owed", splits its windows' arrays out of those buffers, runs its pipeline under the
  region's invariant (which holds the scratch accumulator(s)), and puts the arrays back at the exit contents.
  The frame claim — every weakly fair execution terminates, nothing faults, the argument arrays end as launched — then
  follows because no stretch and no region writes an argument.
-/
import proofs.«142348_j11536282157274_1_alg».proof.Proof.KI.Region0
import proofs.«142348_j11536282157274_1_alg».proof.Proof.KI.Region1
import proofs.«142348_j11536282157274_1_alg».proof.Proof.KI.Region2
import proofs.«142348_j11536282157274_1_alg».proof.Proof.Gen.KernelIdeal.Regions
import Idealize.ShloMosaic.Lib.Pipeline.Kit
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The buffer contents at each boundary -/

/-- At region 0's exit: its arrays at what the pipeline leaves, every other buffer as entered. -/
def W2 (c : Dev nD) : Valuation τ sig (Elt F) :=
  Pipeline.withArrays spec0 c (V1 m c) fun w => (dat0 (atTc (V1 m)) c).arrAt w cfg0.N
/-- The same with only the output array replaced (the inputs' arrays are not written), -/
abbrev U2 (c : Dev nD) : Valuation τ sig (Elt F) := Function.update (V1 m c) main_v40 (W2 m c main_v40)
/-- then the second layer's bias row reshaped. -/
abbrev U3 (c : Dev nD) : Valuation τ sig (Elt F) := StableHlo.after hostOps1 (U2 m c)
/-- At region 1's exit. -/
def W4 (c : Dev nD) : Valuation τ sig (Elt F) :=
  Pipeline.withArrays spec1 c (U3 m c) fun w => (dat1 (atTc (U3 m)) c).arrAt w cfg1.N
abbrev U4 (c : Dev nD) : Valuation τ sig (Elt F) := Function.update (U3 m c) main_v42 (W4 m c main_v42)
abbrev U5 (c : Dev nD) : Valuation τ sig (Elt F) := StableHlo.after hostOps2 (U4 m c)
/-- At region 2's exit. -/
def W6 (c : Dev nD) : Valuation τ sig (Elt F) :=
  Pipeline.withArrays spec2 c (U5 m c) fun w => (dat2 (atTc (U5 m)) c).arrAt w cfg2.N

/-- What the regions leave in the buffers they may change, as the generated host side asks for it: after item 1 (region
    0), item 3 (region 1), item 5 (region 2). -/
def outsH : Outs (F := F) := fun J r c =>
  match J with
  | 2 => W2 m c r
  | 4 => W4 m c r
  | 6 => W6 m c r
  | _ => V0 m c r

theorem V2_eq (c : Dev nD) : V2 m (outsH m) c = U2 m c := rfl
theorem V3_eq (c : Dev nD) : V3 m (outsH m) c = U3 m c := rfl
theorem V4_eq (c : Dev nD) : V4 m (outsH m) c = U4 m c := rfl
theorem V5_eq (c : Dev nD) : V5 m (outsH m) c = U5 m c := rfl

/-! ## The proof data family and the thread state -/

/-- Every pipeline's proof data, each at its region's entry contents. -/
def pdatsH : (p : Fin 3) → (c : Dev nD) → Dat τ (Elt F) Unit ℕ (UR sig nD τ) ℕ (cfgs p) c
  | ⟨0, _⟩ => fun c => dat0 (atTc (V1 m)) c
  | ⟨1, _⟩ => fun c => dat1 (atTc (U3 m)) c
  | ⟨2, _⟩ => fun c => dat2 (atTc (U5 m)) c

/-- No core owes another anything: no level is assigned. -/
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)

/-! ## What a region's exit contents hold -/

theorem hF0_0 (c : Dev nD) : (dat0 (atTc (V1 m)) c).arrAt 0 cfg0.N = atTc (V2 m (outsH m)) c main_v30 :=
  ((dat0 (atTc (V1 m)) c).arrAt_in 0 rfl _).trans (V2_of m (outsH m) c main_v30 (by decide)).symm
theorem hF0_1 (c : Dev nD) : (dat0 (atTc (V1 m)) c).arrAt 1 cfg0.N = atTc (V2 m (outsH m)) c main_v32 :=
  ((dat0 (atTc (V1 m)) c).arrAt_in 1 rfl _).trans (V2_of m (outsH m) c main_v32 (by decide)).symm
theorem hF0_2 (c : Dev nD) : (dat0 (atTc (V1 m)) c).arrAt 2 cfg0.N = atTc (V2 m (outsH m)) c main_v39 :=
  ((dat0 (atTc (V1 m)) c).arrAt_in 2 rfl _).trans (V2_of m (outsH m) c main_v39 (by decide)).symm
theorem hF0_3 (c : Dev nD) : (dat0 (atTc (V1 m)) c).arrAt 3 cfg0.N = atTc (V2 m (outsH m)) c main_v40 := by
  show _ = Function.update (V1 m c) main_v40 (outsH m 2 main_v40 c) main_v40
  rw [Function.update_self]
  show _ = W2 m c main_v40
  unfold W2
  exact (Pipeline.withArrays_arr spec0 launch0.win.arr_inj c (V1 m c) (fun w => (dat0 (atTc (V1 m)) c).arrAt w cfg0.N) 3).symm
theorem hF0 (c : Dev nD) (w : Fin cfg0.W) : (dat0 (atTc (V1 m)) c).arrAt w cfg0.N = atTc (V2 m (outsH m)) c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
theorem hrest0 (c : Dev nD) : ∀ b, b ∉ Finset.univ.image (Pipeline.arrRef spec0) → atTc (V2 m (outsH m)) c b = atTc (V1 m) c b :=
  fun b hb => V2_of m (outsH m) c b fun h => hb (by
    rw [List.mem_singleton] at h; subst h; exact Finset.mem_image.mpr ⟨3, Finset.mem_univ _, rfl⟩)

theorem hF1_0 (c : Dev nD) : (dat1 (atTc (U3 m)) c).arrAt 0 cfg1.N = atTc (V4 m (outsH m)) c main_v40 :=
  ((dat1 (atTc (U3 m)) c).arrAt_in 0 rfl _).trans (V4_of m (outsH m) c main_v40 (by decide)).symm
theorem hF1_1 (c : Dev nD) : (dat1 (atTc (U3 m)) c).arrAt 1 cfg1.N = atTc (V4 m (outsH m)) c main_v34 :=
  ((dat1 (atTc (U3 m)) c).arrAt_in 1 rfl _).trans (V4_of m (outsH m) c main_v34 (by decide)).symm
theorem hF1_2 (c : Dev nD) : (dat1 (atTc (U3 m)) c).arrAt 2 cfg1.N = atTc (V4 m (outsH m)) c main_v41 :=
  ((dat1 (atTc (U3 m)) c).arrAt_in 2 rfl _).trans (V4_of m (outsH m) c main_v41 (by decide)).symm
theorem hF1_3 (c : Dev nD) : (dat1 (atTc (U3 m)) c).arrAt 3 cfg1.N = atTc (V4 m (outsH m)) c main_v42 := by
  show _ = Function.update (V3 m (outsH m) c) main_v42 (outsH m 4 main_v42 c) main_v42
  rw [Function.update_self]
  show _ = W4 m c main_v42
  unfold W4
  exact (Pipeline.withArrays_arr spec1 launch1.win.arr_inj c (U3 m c) (fun w => (dat1 (atTc (U3 m)) c).arrAt w cfg1.N) 3).symm
theorem hF1 (c : Dev nD) (w : Fin cfg1.W) : (dat1 (atTc (U3 m)) c).arrAt w cfg1.N = atTc (V4 m (outsH m)) c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
theorem hrest1 (c : Dev nD) : ∀ b, b ∉ Finset.univ.image (Pipeline.arrRef spec1) → atTc (V4 m (outsH m)) c b = atTc (U3 m) c b :=
  fun b hb => V4_of m (outsH m) c b fun h => hb (by
    rw [List.mem_singleton] at h; subst h; exact Finset.mem_image.mpr ⟨3, Finset.mem_univ _, rfl⟩)

theorem hF2_0 (c : Dev nD) : (dat2 (atTc (U5 m)) c).arrAt 0 cfg2.N = atTc (V6 m (outsH m)) c main_v42 :=
  ((dat2 (atTc (U5 m)) c).arrAt_in 0 rfl _).trans (V6_of m (outsH m) c main_v42 (by decide)).symm
theorem hF2_1 (c : Dev nD) : (dat2 (atTc (U5 m)) c).arrAt 1 cfg2.N = atTc (V6 m (outsH m)) c main_v36 :=
  ((dat2 (atTc (U5 m)) c).arrAt_in 1 rfl _).trans (V6_of m (outsH m) c main_v36 (by decide)).symm
theorem hF2_2 (c : Dev nD) : (dat2 (atTc (U5 m)) c).arrAt 2 cfg2.N = atTc (V6 m (outsH m)) c main_v38 :=
  ((dat2 (atTc (U5 m)) c).arrAt_in 2 rfl _).trans (V6_of m (outsH m) c main_v38 (by decide)).symm
theorem hF2_3 (c : Dev nD) : (dat2 (atTc (U5 m)) c).arrAt 3 cfg2.N = atTc (V6 m (outsH m)) c main_v43 :=
  ((dat2 (atTc (U5 m)) c).arrAt_in 3 rfl _).trans (V6_of m (outsH m) c main_v43 (by decide)).symm
theorem hF2_4 (c : Dev nD) : (dat2 (atTc (U5 m)) c).arrAt 4 cfg2.N = atTc (V6 m (outsH m)) c main_v44 :=
  ((dat2 (atTc (U5 m)) c).arrAt_in 4 rfl _).trans (V6_of m (outsH m) c main_v44 (by decide)).symm
theorem hF2_5 (c : Dev nD) : (dat2 (atTc (U5 m)) c).arrAt 5 cfg2.N = atTc (V6 m (outsH m)) c main_v45_0 := by
  show _ = Function.update (Function.update (V5 m (outsH m) c) main_v45_0 (outsH m 6 main_v45_0 c)) main_v45_1 (outsH m 6 main_v45_1 c) main_v45_0
  rw [Function.update_of_ne (StableHlo.devRef_ne_of_ne (by decide : (main_v45_0 : Ref sig .tc) ≠ main_v45_1)), Function.update_self]
  show _ = W6 m c main_v45_0
  unfold W6
  exact (Pipeline.withArrays_arr spec2 launch2.win.arr_inj c (U5 m c) (fun w => (dat2 (atTc (U5 m)) c).arrAt w cfg2.N) 5).symm
theorem hF2_6 (c : Dev nD) : (dat2 (atTc (U5 m)) c).arrAt 6 cfg2.N = atTc (V6 m (outsH m)) c main_v45_1 := by
  show _ = Function.update (Function.update (V5 m (outsH m) c) main_v45_0 (outsH m 6 main_v45_0 c)) main_v45_1 (outsH m 6 main_v45_1 c) main_v45_1
  rw [Function.update_self]
  show _ = W6 m c main_v45_1
  unfold W6
  exact (Pipeline.withArrays_arr spec2 launch2.win.arr_inj c (U5 m c) (fun w => (dat2 (atTc (U5 m)) c).arrAt w cfg2.N) 6).symm
theorem hF2 (c : Dev nD) (w : Fin cfg2.W) : (dat2 (atTc (U5 m)) c).arrAt w cfg2.N = atTc (V6 m (outsH m)) c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
theorem hrest2 (c : Dev nD) : ∀ b, b ∉ Finset.univ.image (Pipeline.arrRef spec2) → atTc (V6 m (outsH m)) c b = atTc (U5 m) c b :=
  fun b hb => V6_of m (outsH m) c b fun h => hb (by
    rw [List.mem_cons, List.mem_singleton] at h
    rcases h with h | h
    · subst h; exact Finset.mem_image.mpr ⟨5, Finset.mem_univ _, rfl⟩
    · subst h; exact Finset.mem_image.mpr ⟨6, Finset.mem_univ _, rfl⟩)

/-! ## The regions as segments -/

-- the library's entry lemmas are stated over `pin pcs a p`: they unify with the pinned configuration only when
-- unification may unfold plain definitions in a metavariable's type
set_option backward.isDefEq.respectTransparency.types false in
/-- REGION 0 (the first dense layer) over the thread state: entered from every unscoped buffer at the contents after the first host stretch, left with its output array at what its write-backs leave -/
def reg0 : Pipeline.RegionSeg (pcfgs (F := F)) adm (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ LH lvH 0 fun _ _ => rfl
  pre c := iprop(StableHlo.held (c : Thread nD τ) (Pipeline.ucRefs τ sig) (V1 m c) ∗ RH c)
  post c := iprop(StableHlo.held (c : Thread nD τ) (Pipeline.ucRefs τ sig) (V2 m (outsH m) c) ∗ RH c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V1 m)) c)
    unfold Pipeline.ΦA
    iintro ⟨Hp, -, Hr⟩
    isplitl [Hr]; · iexact Hr
    iexact Hp
  hout c := by
    rw [Pipeline.ownSems0_none]
    refine BIBase.Entails.trans (hout0 (atTc (V1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (atTc (V1 m) c) (atTc (V2 m (outsH m)) c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry lemmas are stated over `pin pcs a p`: they unify with the pinned configuration only when
-- unification may unfold plain definitions in a metavariable's type
set_option backward.isDefEq.respectTransparency.types false in
/-- REGION 1 (the second dense layer), entered from the contents after the second host stretch -/
def reg1 : Pipeline.RegionSeg (pcfgs (F := F)) adm (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ LH lvH 1 fun _ _ => rfl
  pre c := iprop(StableHlo.held (c : Thread nD τ) (Pipeline.ucRefs τ sig) (V3 m (outsH m) c) ∗ RH c)
  post c := iprop(StableHlo.held (c : Thread nD τ) (Pipeline.ucRefs τ sig) (V4 m (outsH m) c) ∗ RH c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [V3_eq m c]
    rw [Pipeline.ownSems0_none]
    have hsplit := Pipeline.arrays_of_unscopedBufs (p := 1) (pcfgs (F := F)) adm (pdatsH m) launch1.win launch1.arr_whole c
      ((pdatsH m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (U3 m)) c)
    unfold Pipeline.ΦA
    iintro ⟨Hp, -, Hr⟩
    isplitl [Hr]; · iexact Hr
    iexact Hp
  hout c := by
    rw [Pipeline.ownSems0_none]
    refine BIBase.Entails.trans (hout1 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (atTc (U3 m) c) (atTc (V4 m (outsH m)) c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry lemmas are stated over `pin pcs a p`: they unify with the pinned configuration only when
-- unification may unfold plain definitions in a metavariable's type
set_option backward.isDefEq.respectTransparency.types false in
/-- REGION 2 (the two classification heads), entered from the contents after the third host stretch -/
def reg2 : Pipeline.RegionSeg (pcfgs (F := F)) adm (pdatsH m) () defs₀ Variants.none LH lvH 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ LH lvH 2 fun _ _ => rfl
  pre c := iprop(StableHlo.held (c : Thread nD τ) (Pipeline.ucRefs τ sig) (V5 m (outsH m) c) ∗ RH c)
  post c := iprop(StableHlo.held (c : Thread nD τ) (Pipeline.ucRefs τ sig) (V6 m (outsH m) c) ∗ RH c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [V5_eq m c]
    rw [Pipeline.ownSems0_none]
    have hsplit := Pipeline.arrays_of_unscopedBufs (p := 2) (pcfgs (F := F)) adm (pdatsH m) launch2.win launch2.arr_whole c
      ((pdatsH m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U5 m)) c)
    unfold Pipeline.ΦA
    iintro ⟨Hp, -, Hr⟩
    isplitl [Hr]; · iexact Hr
    iexact Hp
  hout c := by
    rw [Pipeline.ownSems0_none]
    refine BIBase.Entails.trans (hout2 (atTc (U5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (atTc (U5 m) c) (atTc (V6 m (outsH m)) c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- What rides along is the same at every boundary. -/
abbrev EH : Fin 4 → Dev nD → sProp 𝕄 := fun _ c => RH c

-- the conditional frame's implicit arguments are found by unifying its conclusion with this one
set_option backward.isDefEq.respectTransparency.types false in
/-- THE FRAME, at any `F`: from any memory with zero counters every weakly fair execution of @main terminates, nothing
    faulting, and every final state has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (F := F) m (Ix := Unit) (U := UR sig nD τ) (Lvl := ℕ) emb₁ () Variants.none LH lvH (fun _ _ => rfl) ρ (outsH m) (pdatsH m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EH)
    (hE0 := by
      refine Pipeline.initEach LH lvH fun c => ?_
      iintro ⟨⟨-, HO, -, Hp, -⟩, -⟩
      imodintro
      isplitl [Hp]; · iexists _; iexact Hp
      iexists ∅; iexact HO)
    (hE3 := fun c => by
      iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Run

end Cert.KernelIdeal.Hand

end
-- ==== Proof.Val.RefOps.lean ====
/-
  The reference program's @main as the list of its host operations in program order (the operations of each relu
  call standing in the call's place), cut in three stretches: `opsA`, the operations up to the pooled 2048×4096
  features (slices, index clamps, the gather, the 2×2 max-pool, the concatenation); `opsB`, the three dense layers
  of the two heads (broadcast, contraction, bias, relu); `opsC`, the two softmaxes, their product and its row sum.
  @main is the sequence of the list; nothing of the signature is scoped; so every weakly fair execution terminates
  with each buffer at the fold of the operations' results over its contents at launch, stretch after stretch, and
  no operation writes an argument.
-/
import proofs.«142348_j11536282157274_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 38 operations up to the pooled features `main_v27`. -/
abbrev opsA : List (HloOp τ sig (Elt F)) :=
  [ reshape main_arg0 main_v0 rfl shapeCasts_S1x512x64x64_S512x64x64,
    reshape main_arg9 main_v1 rfl shapeCasts_S1x2048x4_S2048x4,
    unary main_v1 main_v2 ((extractStridedSlice S2048x1 ![0, 0] · slices_S2048x4_S2048x1_0_0) : (⟨S2048x4, .i32⟩ : BufTy).Contents (Elt F) → (⟨S2048x1, .i32⟩ : BufTy).Contents (Elt F)),
    reshape main_v2 main_v3 rfl shapeCasts_S2048x1_S2048,
    unary main_v1 main_v4 ((extractStridedSlice S2048x1 ![0, 1] · slices_S2048x4_S2048x1_0_1) : (⟨S2048x4, .i32⟩ : BufTy).Contents (Elt F) → (⟨S2048x1, .i32⟩ : BufTy).Contents (Elt F)),
    reshape main_v4 main_v5 rfl shapeCasts_S2048x1_S2048,
    nullary main_c (constantI S_ 32 0#32),
    nullary main_c_0 (constantI S_ 32 0#32),
    binary main_c main_c_0 main_v6 (cmpi .slt : (⟨S_, .i32⟩ : BufTy).Contents (Elt F) → (⟨S_, .i32⟩ : BufTy).Contents (Elt F) → (⟨S_, .i1⟩ : BufTy).Contents (Elt F)),
    nullary main_c_1 (constantI S_ 32 0#32),
    nullary main_c_2 (constantI S_ 32 512#32),
    binary main_c_1 main_c_2 main_v7 (addi : (⟨S_, .i32⟩ : BufTy).Contents (Elt F) → (⟨S_, .i32⟩ : BufTy).Contents (Elt F) → (⟨S_, .i32⟩ : BufTy).Contents (Elt F)),
    nullary main_c_3 (constantI S_ 32 0#32),
    ternary main_v6 main_v7 main_c_3 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_4 (constantI S_ 32 0#32),
    unary main_c_4 main_v9 (broadcastInDim S2048 ![] bcast_S_S2048 : (⟨S_, .i32⟩ : BufTy).Contents (Elt F) → (⟨S2048, .i32⟩ : BufTy).Contents (Elt F)),
    binary main_v3 main_v9 main_v10 (cmpi .slt : (⟨S2048, .i32⟩ : BufTy).Contents (Elt F) → (⟨S2048, .i32⟩ : BufTy).Contents (Elt F) → (⟨S2048, .i1⟩ : BufTy).Contents (Elt F)),
    nullary main_c_5 (constantI S_ 32 64#32),
    unary main_c_5 main_v11 (broadcastInDim S2048 ![] bcast_S_S2048 : (⟨S_, .i32⟩ : BufTy).Contents (Elt F) → (⟨S2048, .i32⟩ : BufTy).Contents (Elt F)),
    binary main_v3 main_v11 main_v12 (addi : (⟨S2048, .i32⟩ : BufTy).Contents (Elt F) → (⟨S2048, .i32⟩ : BufTy).Contents (Elt F) → (⟨S2048, .i32⟩ : BufTy).Contents (Elt F)),
    ternary main_v10 main_v12 main_v3 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_6 (constantI S_ 32 0#32),
    unary main_c_6 main_v14 (broadcastInDim S2048 ![] bcast_S_S2048 : (⟨S_, .i32⟩ : BufTy).Contents (Elt F) → (⟨S2048, .i32⟩ : BufTy).Contents (Elt F)),
    binary main_v5 main_v14 main_v15 (cmpi .slt : (⟨S2048, .i32⟩ : BufTy).Contents (Elt F) → (⟨S2048, .i32⟩ : BufTy).Contents (Elt F) → (⟨S2048, .i1⟩ : BufTy).Contents (Elt F)),
    nullary main_c_7 (constantI S_ 32 64#32),
    unary main_c_7 main_v16 (broadcastInDim S2048 ![] bcast_S_S2048 : (⟨S_, .i32⟩ : BufTy).Contents (Elt F) → (⟨S2048, .i32⟩ : BufTy).Contents (Elt F)),
    binary main_v5 main_v16 main_v17 (addi : (⟨S2048, .i32⟩ : BufTy).Contents (Elt F) → (⟨S2048, .i32⟩ : BufTy).Contents (Elt F) → (⟨S2048, .i32⟩ : BufTy).Contents (Elt F)),
    ternary main_v15 main_v17 main_v5 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v8 main_v19 (broadcastInDim S2048x1 ![] bcast_S_S2048x1 : (⟨S_, .i32⟩ : BufTy).Contents (Elt F) → (⟨S2048x1, .i32⟩ : BufTy).Contents (Elt F)),
    unary main_v13 main_v20 (broadcastInDim S2048x1 ![0] bcast_S2048_S2048x1_0 : (⟨S2048, .i32⟩ : BufTy).Contents (Elt F) → (⟨S2048x1, .i32⟩ : BufTy).Contents (Elt F)),
    unary main_v18 main_v21 (broadcastInDim S2048x1 ![0] bcast_S2048_S2048x1_0 : (⟨S2048, .i32⟩ : BufTy).Contents (Elt F) → (⟨S2048x1, .i32⟩ : BufTy).Contents (Elt F)),
    nary ![main_v19, main_v20, main_v21] main_v22 (fun u => concatenate S2048x3 1 [⟨S2048x1, u 0⟩, ⟨S2048x1, u 1⟩, ⟨S2048x1, u 2⟩] concatenates_S2048x1_S2048x1_S2048x1_S2048x3_d1),
    binary main_v0 main_v22 main_v23 ((fun x i => Host.gather gather_S512x64x64_S2048x3_S2048x512x14x14_123_n_n_n_012_1_5121414 x i) : (⟨S512x64x64, .f32⟩ : BufTy).Contents (Elt F) → (⟨S2048x3, .i32⟩ : BufTy).Contents (Elt F) → (⟨S2048x512x14x14, .f32⟩ : BufTy).Contents (Elt F)),
    reshape main_v23 main_v24 rfl shapeCasts_S2048x512x14x14_S2048x512x2x7x2x7,
    nullary main_cst (constant S_ .f32 0xFF800000#32),
    binary main_v24 main_cst main_v25 ((fun x v => Host.reduce FloatOps.maximumf x v reducesTo_S2048x512x2x7x2x7_S2048x512x2x2_d3_5 h_S_) : (⟨S2048x512x2x7x2x7, .f32⟩ : BufTy).Contents (Elt F) → (⟨S_, .f32⟩ : BufTy).Contents (Elt F) → (⟨S2048x512x2x2, .f32⟩ : BufTy).Contents (Elt F)),
    reshape main_v25 main_v26 rfl shapeCasts_S2048x512x2x2_S2048x2048,
    binary main_v26 main_v26 main_v27 ((fun a b => concatenate S2048x4096 1 [⟨S2048x2048, a⟩, ⟨S2048x2048, b⟩] concatenates_S2048x2048_S2048x2048_S2048x4096_d1) : (⟨S2048x2048, .f32⟩ : BufTy).Contents (Elt F) → (⟨S2048x2048, .f32⟩ : BufTy).Contents (Elt F) → (⟨S2048x4096, .f32⟩ : BufTy).Contents (Elt F)) ]

/-- The 29 operations of the dense layers: from `main_v28` to the heads' logits `main_v43`, `main_v48`. -/
abbrev opsB : List (HloOp τ sig (Elt F)) :=
  [ unary main_v27 main_v28 (broadcastInDim S1x2048x4096 ![1, 2] bcast_S2048x4096_S1x2048x4096_1_2 : (⟨S2048x4096, .f32⟩ : BufTy).Contents (Elt F) → (⟨S1x2048x4096, .f32⟩ : BufTy).Contents (Elt F)),
    binary main_v28 main_arg1 main_v29 ((fun l r => Host.dotGeneral dot_S1x2048x4096_S4096x4096_S1x2048x4096_2_1_01_0_n_n none l r) : (⟨S1x2048x4096, .f32⟩ : BufTy).Contents (Elt F) → (⟨S4096x4096, .f32⟩ : BufTy).Contents (Elt F) → (⟨S1x2048x4096, .f32⟩ : BufTy).Contents (Elt F)),
    unary main_arg2 main_v30 (broadcastInDim S1x1x4096 ![2] bcast_S4096_S1x1x4096_2 : (⟨S4096, .f32⟩ : BufTy).Contents (Elt F) → (⟨S1x1x4096, .f32⟩ : BufTy).Contents (Elt F)),
    unary main_v30 main_v31 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    binary main_v29 main_v31 main_v32 (addf : (⟨S1x2048x4096, .f32⟩ : BufTy).Contents (Elt F) → (⟨S1x2048x4096, .f32⟩ : BufTy).Contents (Elt F) → (⟨S1x2048x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048x4096, .f32⟩) main_call0_v0) (broadcastInDim S1x2048x4096 ![] bcast_S_S1x2048x4096),
    TRef.binary (TRef.of (T := ⟨S1x2048x4096, .f32⟩) main_v32) (TRef.of (T := ⟨S1x2048x4096, .f32⟩) main_call0_v0) (TRef.of (T := ⟨S1x2048x4096, .f32⟩) main_v33) maximumf,
    binary main_v33 main_arg3 main_v34 ((fun l r => Host.dotGeneral dot_S1x2048x4096_S4096x4096_S1x2048x4096_2_1_01_0_n_n none l r) : (⟨S1x2048x4096, .f32⟩ : BufTy).Contents (Elt F) → (⟨S4096x4096, .f32⟩ : BufTy).Contents (Elt F) → (⟨S1x2048x4096, .f32⟩ : BufTy).Contents (Elt F)),
    unary main_arg4 main_v35 (broadcastInDim S1x1x4096 ![2] bcast_S4096_S1x1x4096_2 : (⟨S4096, .f32⟩ : BufTy).Contents (Elt F) → (⟨S1x1x4096, .f32⟩ : BufTy).Contents (Elt F)),
    unary main_v35 main_v36 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    binary main_v34 main_v36 main_v37 (addf : (⟨S1x2048x4096, .f32⟩ : BufTy).Contents (Elt F) → (⟨S1x2048x4096, .f32⟩ : BufTy).Contents (Elt F) → (⟨S1x2048x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x2048x4096, .f32⟩) main_call1_v0) (broadcastInDim S1x2048x4096 ![] bcast_S_S1x2048x4096),
    TRef.binary (TRef.of (T := ⟨S1x2048x4096, .f32⟩) main_v37) (TRef.of (T := ⟨S1x2048x4096, .f32⟩) main_call1_v0) (TRef.of (T := ⟨S1x2048x4096, .f32⟩) main_v38) maximumf,
    binary main_v38 main_arg5 main_v39 ((fun l r => Host.dotGeneral dot_S1x2048x4096_S21x4096_S1x2048x21_2_1_01_0_n_n none l r) : (⟨S1x2048x4096, .f32⟩ : BufTy).Contents (Elt F) → (⟨S21x4096, .f32⟩ : BufTy).Contents (Elt F) → (⟨S1x2048x21, .f32⟩ : BufTy).Contents (Elt F)),
    unary main_arg6 main_v40 (broadcastInDim S1x1x21 ![2] bcast_S21_S1x1x21_2 : (⟨S21, .f32⟩ : BufTy).Contents (Elt F) → (⟨S1x1x21, .f32⟩ : BufTy).Contents (Elt F)),
    unary main_v40 main_v41 (broadcastInDim S1x2048x21 ![0, 1, 2] bcast_S1x1x21_S1x2048x21_0_1_2 : (⟨S1x1x21, .f32⟩ : BufTy).Contents (Elt F) → (⟨S1x2048x21, .f32⟩ : BufTy).Contents (Elt F)),
    binary main_v39 main_v41 main_v42 (addf : (⟨S1x2048x21, .f32⟩ : BufTy).Contents (Elt F) → (⟨S1x2048x21, .f32⟩ : BufTy).Contents (Elt F) → (⟨S1x2048x21, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1x2048x21, .f32⟩) main_call2_v0) (broadcastInDim S1x2048x21 ![] bcast_S_S1x2048x21),
    TRef.binary (TRef.of (T := ⟨S1x2048x21, .f32⟩) main_v42) (TRef.of (T := ⟨S1x2048x21, .f32⟩) main_call2_v0) (TRef.of (T := ⟨S1x2048x21, .f32⟩) main_v43) maximumf,
    binary main_v38 main_arg7 main_v44 ((fun l r => Host.dotGeneral dot_S1x2048x4096_S21x4096_S1x2048x21_2_1_01_0_n_n none l r) : (⟨S1x2048x4096, .f32⟩ : BufTy).Contents (Elt F) → (⟨S21x4096, .f32⟩ : BufTy).Contents (Elt F) → (⟨S1x2048x21, .f32⟩ : BufTy).Contents (Elt F)),
    unary main_arg8 main_v45 (broadcastInDim S1x1x21 ![2] bcast_S21_S1x1x21_2 : (⟨S21, .f32⟩ : BufTy).Contents (Elt F) → (⟨S1x1x21, .f32⟩ : BufTy).Contents (Elt F)),
    unary main_v45 main_v46 (broadcastInDim S1x2048x21 ![0, 1, 2] bcast_S1x1x21_S1x2048x21_0_1_2 : (⟨S1x1x21, .f32⟩ : BufTy).Contents (Elt F) → (⟨S1x2048x21, .f32⟩ : BufTy).Contents (Elt F)),
    binary main_v44 main_v46 main_v47 (addf : (⟨S1x2048x21, .f32⟩ : BufTy).Contents (Elt F) → (⟨S1x2048x21, .f32⟩ : BufTy).Contents (Elt F) → (⟨S1x2048x21, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x2048x21, .f32⟩) main_call3_v0) (broadcastInDim S1x2048x21 ![] bcast_S_S1x2048x21),
    TRef.binary (TRef.of (T := ⟨S1x2048x21, .f32⟩) main_v47) (TRef.of (T := ⟨S1x2048x21, .f32⟩) main_call3_v0) (TRef.of (T := ⟨S1x2048x21, .f32⟩) main_v48) maximumf ]

/-- The 31 operations of the two softmaxes, their product `main_v71` and its row sum `main_v72`. -/
abbrev opsC : List (HloOp τ sig (Elt F)) :=
  [ nullary main_cst_8 (constant S_ .f32 0xFF800000#32),
    binary main_v43 main_cst_8 main_v49 ((fun x v => Host.reduce FloatOps.maximumf x v reducesTo_S1x2048x21_S1x2048_d2 h_S_) : (⟨S1x2048x21, .f32⟩ : BufTy).Contents (Elt F) → (⟨S_, .f32⟩ : BufTy).Contents (Elt F) → (⟨S1x2048, .f32⟩ : BufTy).Contents (Elt F)),
    nullary main_cst_9 (constant S_ .f32 0xFF800000#32),
    unary main_cst_9 main_v50 (broadcastInDim S1x2048 ![] bcast_S_S1x2048 : (⟨S_, .f32⟩ : BufTy).Contents (Elt F) → (⟨S1x2048, .f32⟩ : BufTy).Contents (Elt F)),
    binary main_v50 main_v49 main_v51 (maximumf : (⟨S1x2048, .f32⟩ : BufTy).Contents (Elt F) → (⟨S1x2048, .f32⟩ : BufTy).Contents (Elt F) → (⟨S1x2048, .f32⟩ : BufTy).Contents (Elt F)),
    unary main_v51 main_v52 (broadcastInDim S1x2048x1 ![0, 1] bcast_S1x2048_S1x2048x1_0_1 : (⟨S1x2048, .f32⟩ : BufTy).Contents (Elt F) → (⟨S1x2048x1, .f32⟩ : BufTy).Contents (Elt F)),
    unary main_v52 main_v53 (broadcastInDim S1x2048x21 ![0, 1, 2] bcast_S1x2048x1_S1x2048x21_0_1_2 : (⟨S1x2048x1, .f32⟩ : BufTy).Contents (Elt F) → (⟨S1x2048x21, .f32⟩ : BufTy).Contents (Elt F)),
    binary main_v43 main_v53 main_v54 (subf : (⟨S1x2048x21, .f32⟩ : BufTy).Contents (Elt F) → (⟨S1x2048x21, .f32⟩ : BufTy).Contents (Elt F) → (⟨S1x2048x21, .f32⟩ : BufTy).Contents (Elt F)),
    unary main_v54 main_v55 (Host.exp : (⟨S1x2048x21, .f32⟩ : BufTy).Contents (Elt F) → (⟨S1x2048x21, .f32⟩ : BufTy).Contents (Elt F)),
    nullary main_cst_10 (constant S_ .f32 0x00000000#32),
    binary main_v55 main_cst_10 main_v56 ((fun x v => Host.reduceAdd x v reducesTo_S1x2048x21_S1x2048_d2 h_S_) : (⟨S1x2048x21, .f32⟩ : BufTy).Contents (Elt F) → (⟨S_, .f32⟩ : BufTy).Contents (Elt F) → (⟨S1x2048, .f32⟩ : BufTy).Contents (Elt F)),
    unary main_v56 main_v57 (broadcastInDim S1x2048x1 ![0, 1] bcast_S1x2048_S1x2048x1_0_1 : (⟨S1x2048, .f32⟩ : BufTy).Contents (Elt F) → (⟨S1x2048x1, .f32⟩ : BufTy).Contents (Elt F)),
    unary main_v57 main_v58 (broadcastInDim S1x2048x21 ![0, 1, 2] bcast_S1x2048x1_S1x2048x21_0_1_2 : (⟨S1x2048x1, .f32⟩ : BufTy).Contents (Elt F) → (⟨S1x2048x21, .f32⟩ : BufTy).Contents (Elt F)),
    binary main_v55 main_v58 main_v59 (Host.divf : (⟨S1x2048x21, .f32⟩ : BufTy).Contents (Elt F) → (⟨S1x2048x21, .f32⟩ : BufTy).Contents (Elt F) → (⟨S1x2048x21, .f32⟩ : BufTy).Contents (Elt F)),
    nullary main_cst_11 (constant S_ .f32 0xFF800000#32),
    binary main_v48 main_cst_11 main_v60 ((fun x v => Host.reduce FloatOps.maximumf x v reducesTo_S1x2048x21_S1x21_d1 h_S_) : (⟨S1x2048x21, .f32⟩ : BufTy).Contents (Elt F) → (⟨S_, .f32⟩ : BufTy).Contents (Elt F) → (⟨S1x21, .f32⟩ : BufTy).Contents (Elt F)),
    nullary main_cst_12 (constant S_ .f32 0xFF800000#32),
    unary main_cst_12 main_v61 (broadcastInDim S1x21 ![] bcast_S_S1x21 : (⟨S_, .f32⟩ : BufTy).Contents (Elt F) → (⟨S1x21, .f32⟩ : BufTy).Contents (Elt F)),
    binary main_v61 main_v60 main_v62 (maximumf : (⟨S1x21, .f32⟩ : BufTy).Contents (Elt F) → (⟨S1x21, .f32⟩ : BufTy).Contents (Elt F) → (⟨S1x21, .f32⟩ : BufTy).Contents (Elt F)),
    unary main_v62 main_v63 (broadcastInDim S1x1x21 ![0, 2] bcast_S1x21_S1x1x21_0_2 : (⟨S1x21, .f32⟩ : BufTy).Contents (Elt F) → (⟨S1x1x21, .f32⟩ : BufTy).Contents (Elt F)),
    unary main_v63 main_v64 (broadcastInDim S1x2048x21 ![0, 1, 2] bcast_S1x1x21_S1x2048x21_0_1_2 : (⟨S1x1x21, .f32⟩ : BufTy).Contents (Elt F) → (⟨S1x2048x21, .f32⟩ : BufTy).Contents (Elt F)),
    binary main_v48 main_v64 main_v65 (subf : (⟨S1x2048x21, .f32⟩ : BufTy).Contents (Elt F) → (⟨S1x2048x21, .f32⟩ : BufTy).Contents (Elt F) → (⟨S1x2048x21, .f32⟩ : BufTy).Contents (Elt F)),
    unary main_v65 main_v66 (Host.exp : (⟨S1x2048x21, .f32⟩ : BufTy).Contents (Elt F) → (⟨S1x2048x21, .f32⟩ : BufTy).Contents (Elt F)),
    nullary main_cst_13 (constant S_ .f32 0x00000000#32),
    binary main_v66 main_cst_13 main_v67 ((fun x v => Host.reduceAdd x v reducesTo_S1x2048x21_S1x21_d1 h_S_) : (⟨S1x2048x21, .f32⟩ : BufTy).Contents (Elt F) → (⟨S_, .f32⟩ : BufTy).Contents (Elt F) → (⟨S1x21, .f32⟩ : BufTy).Contents (Elt F)),
    unary main_v67 main_v68 (broadcastInDim S1x1x21 ![0, 2] bcast_S1x21_S1x1x21_0_2 : (⟨S1x21, .f32⟩ : BufTy).Contents (Elt F) → (⟨S1x1x21, .f32⟩ : BufTy).Contents (Elt F)),
    unary main_v68 main_v69 (broadcastInDim S1x2048x21 ![0, 1, 2] bcast_S1x1x21_S1x2048x21_0_1_2 : (⟨S1x1x21, .f32⟩ : BufTy).Contents (Elt F) → (⟨S1x2048x21, .f32⟩ : BufTy).Contents (Elt F)),
    binary main_v66 main_v69 main_v70 (Host.divf : (⟨S1x2048x21, .f32⟩ : BufTy).Contents (Elt F) → (⟨S1x2048x21, .f32⟩ : BufTy).Contents (Elt F) → (⟨S1x2048x21, .f32⟩ : BufTy).Contents (Elt F)),
    binary main_v59 main_v70 main_v71 (mulf : (⟨S1x2048x21, .f32⟩ : BufTy).Contents (Elt F) → (⟨S1x2048x21, .f32⟩ : BufTy).Contents (Elt F) → (⟨S1x2048x21, .f32⟩ : BufTy).Contents (Elt F)),
    nullary main_cst_14 (constant S_ .f32 0x00000000#32),
    binary main_v71 main_cst_14 main_v72 ((fun x v => Host.reduceAdd x v reducesTo_S1x2048x21_S1x21_d1 h_S_) : (⟨S1x2048x21, .f32⟩ : BufTy).Contents (Elt F) → (⟨S_, .f32⟩ : BufTy).Contents (Elt F) → (⟨S1x21, .f32⟩ : BufTy).Contents (Elt F)) ]

/-- @main's 98 operations, in order. -/
abbrev ops : List (HloOp τ sig (Elt F)) := opsA ++ opsB ++ opsC

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨reshape_bufs_sub .., reshape_bufs_sub .., unary_bufs_sub .., reshape_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., reshape_bufs_sub .., nullary_bufs_sub .., binary_bufs_sub .., reshape_bufs_sub .., binary_bufs_sub ..⟩
set_option maxRecDepth 8192 in
theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub ..⟩
theorem ops_sub : (ops : List (HloOp τ sig (Elt F))).Forall fun op => op.bufs ⊆ tcRefs τ sig :=
  List.forall_append.2 ⟨List.forall_append.2 ⟨opsA_sub, opsB_sub⟩, opsC_sub⟩

/-- The fold over the whole list is the fold over the three stretches in turn. -/
theorem after_ops (V : Valuation τ sig (Elt F)) :
    StableHlo.after ops V = StableHlo.after opsC (StableHlo.after opsB (StableHlo.after opsA V)) := by
  show StableHlo.after (opsA ++ opsB ++ opsC) V = _
  rw [StableHlo.after_append, StableHlo.after_append]

/-- On every device, for any float values, from any memory with zero counters: every weakly fair execution of @main
    terminates with each buffer at the fold of the operations' results over the device's contents at launch. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (launchContents m c) (Proc.devRef .tc b) :=
  run_seq scopedRefs_eq scopedSems_eq defs main (fun _ => ops) main_eq (fun _ => ops_sub) m ρ

/-! No operation writes an argument: after the whole list each argument's buffer holds what it held at launch. -/

set_option maxRecDepth 8192 in
theorem after_arg0 (m : (ℓ : Loc nD τ sig) → Buf (Elt F) ℓ) (c : Dev nD) :
    StableHlo.after ops (launchContents m c) (Proc.devRef .tc main_arg0) = m ((c.tc : Thread nD τ).loc main_arg0) := by
  rw [after_ops]; after_results_simp <;> rfl

set_option maxRecDepth 8192 in
theorem after_arg1 (m : (ℓ : Loc nD τ sig) → Buf (Elt F) ℓ) (c : Dev nD) :
    StableHlo.after ops (launchContents m c) (Proc.devRef .tc main_arg1) = m ((c.tc : Thread nD τ).loc main_arg1) := by
  rw [after_ops]; after_results_simp <;> rfl

set_option maxRecDepth 8192 in
theorem after_arg2 (m : (ℓ : Loc nD τ sig) → Buf (Elt F) ℓ) (c : Dev nD) :
    StableHlo.after ops (launchContents m c) (Proc.devRef .tc main_arg2) = m ((c.tc : Thread nD τ).loc main_arg2) := by
  rw [after_ops]; after_results_simp <;> rfl

set_option maxRecDepth 8192 in
theorem after_arg3 (m : (ℓ : Loc nD τ sig) → Buf (Elt F) ℓ) (c : Dev nD) :
    StableHlo.after ops (launchContents m c) (Proc.devRef .tc main_arg3) = m ((c.tc : Thread nD τ).loc main_arg3) := by
  rw [after_ops]; after_results_simp <;> rfl

set_option maxRecDepth 8192 in
theorem after_arg4 (m : (ℓ : Loc nD τ sig) → Buf (Elt F) ℓ) (c : Dev nD) :
    StableHlo.after ops (launchContents m c) (Proc.devRef .tc main_arg4) = m ((c.tc : Thread nD τ).loc main_arg4) := by
  rw [after_ops]; after_results_simp <;> rfl

set_option maxRecDepth 8192 in
theorem after_arg5 (m : (ℓ : Loc nD τ sig) → Buf (Elt F) ℓ) (c : Dev nD) :
    StableHlo.after ops (launchContents m c) (Proc.devRef .tc main_arg5) = m ((c.tc : Thread nD τ).loc main_arg5) := by
  rw [after_ops]; after_results_simp <;> rfl

set_option maxRecDepth 8192 in
theorem after_arg6 (m : (ℓ : Loc nD τ sig) → Buf (Elt F) ℓ) (c : Dev nD) :
    StableHlo.after ops (launchContents m c) (Proc.devRef .tc main_arg6) = m ((c.tc : Thread nD τ).loc main_arg6) := by
  rw [after_ops]; after_results_simp <;> rfl

set_option maxRecDepth 8192 in
theorem after_arg7 (m : (ℓ : Loc nD τ sig) → Buf (Elt F) ℓ) (c : Dev nD) :
    StableHlo.after ops (launchContents m c) (Proc.devRef .tc main_arg7) = m ((c.tc : Thread nD τ).loc main_arg7) := by
  rw [after_ops]; after_results_simp <;> rfl

set_option maxRecDepth 8192 in
theorem after_arg8 (m : (ℓ : Loc nD τ sig) → Buf (Elt F) ℓ) (c : Dev nD) :
    StableHlo.after ops (launchContents m c) (Proc.devRef .tc main_arg8) = m ((c.tc : Thread nD τ).loc main_arg8) := by
  rw [after_ops]; after_results_simp <;> rfl

set_option maxRecDepth 8192 in
theorem after_arg9 (m : (ℓ : Loc nD τ sig) → Buf (Elt F) ℓ) (c : Dev nD) :
    StableHlo.after ops (launchContents m c) (Proc.devRef .tc main_arg9) = m ((c.tc : Thread nD τ).loc main_arg9) := by
  rw [after_ops]; after_results_simp <;> rfl

end Cert.ReferenceIdeal.Hand

end
-- ==== Proof.KI.RunAll.lean ====
/-
  The run of the whole program with every buffer NAMED at the end: from any memory with zero counters every weakly fair
  execution of @main terminates, nothing faulting, and in every final state each unscoped buffer of each core holds
  the last boundary's contents — the fold of the four host stretches and the three regions' output arrays from the
  launch memory. The results and the arguments are read off it.
-/
import proofs.«142348_j11536282157274_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RunAll

variable (m : (ℓ : Loc nD τ sig) → Buf (Elt F) ℓ)

/-- The launch's ghost element makes the cells' initial state; no other ghost resource is dealt. -/
theorem hu0H :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the first thread state's rest: the generator register at
    some state, nothing owed. -/
theorem hE0H (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts LH lvH)
      ⊢ (|={Set.univ}=> bigSep Finset.univ (EH (F := F) 0) : sProp 𝕄) := by
  refine Pipeline.initEach LH lvH fun c => ?_
  iintro ⟨⟨-, HO, -, Hp, -⟩, -⟩
  imodintro
  isplitl [Hp]; · iexists _; iexact Hp
  iexists ∅; iexact HO

-- the launch theorem's implicit arguments are found by unifying its conclusion with this one
set_option backward.isDefEq.respectTransparency.types false in
/-- THE RUN, every unscoped buffer named at the end. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V7 m (outsH m) c b) := by
  refine Pipeline.θ_run_regions_kit_dev (pcfgs (F := F)) adm (pdatsH m) () cellOf_inj emb₁ defs₀ Variants.none LH lvH m ρ main
    (segs m (outsH m) Variants.none LH lvH EH () (pdatsH m) (reg0 m) (reg1 m) (reg2 m))
    (fun c Q => by
      rewrite [main_chain c, Pipeline.Seg.run_eq_chain,
        show (segs m (outsH m) Variants.none LH lvH EH () (pdatsH m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj)) hu0H
    (T₀ := fun c => iprop(StableHlo.held (c : Thread nD τ) (Pipeline.ucRefs τ sig) (V0 m c) ∗ EH 0 c))
    (Tₙ := fun c => StableHlo.held (c : Thread nD τ) (Pipeline.ucRefs τ sig) (V7 m (outsH m) c))
    (hch := fun c => ⟨.rfl, .rfl, .rfl, .rfl, .rfl, .rfl, .rfl, sep_mono .rfl (by iintro ⟨-, HO⟩; iexact HO)⟩)
    (hinit := ?_)
    (QY := fun c s => ∀ b ∈ Pipeline.ucRefs τ sig, s.mem (((c : Thread nD τ)).1, b) = V7 m (outsH m) c b)
    (hfin := fun c s' => ?_) (hQ := fun _ h => h)
  · -- the launch: the unscoped buffers are held at the launch contents; the rest makes the first thread state's rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0H (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (EH (F := F) 0)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m (outsH m) c) s') $$ [Hh HSI]
    · isplitl [Hh] <;> iassumption
    icases Hr with ⟨%h, HSI⟩
    imodintro
    isplitr
    · ipureintro
      exact h
    · iexact HSI

end RunAll

end Cert.KernelIdeal.Hand

end
-- ==== Proof.Val.HostVals.lean ====
/-
  What the host side hands the three dense layers, and what it makes of their results.
  Before the first layer: each stored weight matrix transposed (so that entry (d, e) of the array a layer multiplies by
  is the stored W e d) and narrowed to the 16-bit format, each bias laid out as one row, and the pooled features — a
  function of the image x and the box table alone. Between the layers nothing touches what a later layer reads: the
  arrays written before the first layer are still there when the second and third are entered, and what each layer
  leaves is what the next one reads. After the last layer: the two heads' scores become the class softmax, the softmax
  over rows, their product and its sum over rows — one function of the two score arrays.
-/
import proofs.«142348_j11536282157274_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]
local notation "𝕄" => MT nD τ sig Unit (Elt F) ℕ (UR sig nD τ) ℕ

variable (m : (ℓ : Loc nD τ sig) → Buf (Elt F) ℓ) (outs : Outs (F := F)) (c : Dev nD)

/-! ## Nothing between the layers touches what a later layer reads -/

/-- The second layer's weights are as the first host stretch left them. -/
theorem V3_main_v34 : V3 m outs c main_v34 = V1 m c main_v34 :=
  (V3_of m outs c main_v34 (by decide)).trans (V2_of m outs c main_v34 (by decide))
/-- The first head's weights are as the first host stretch left them. -/
theorem V5_main_v36 : V5 m outs c main_v36 = V1 m c main_v36 :=
  (V5_of m outs c main_v36 (by decide)).trans <| (V4_of m outs c main_v36 (by decide)).trans <|
    (V3_of m outs c main_v36 (by decide)).trans (V2_of m outs c main_v36 (by decide))
/-- The second head's weights are as the first host stretch left them. -/
theorem V5_main_v38 : V5 m outs c main_v38 = V1 m c main_v38 :=
  (V5_of m outs c main_v38 (by decide)).trans <| (V4_of m outs c main_v38 (by decide)).trans <|
    (V3_of m outs c main_v38 (by decide)).trans (V2_of m outs c main_v38 (by decide))
/-- The second layer reads what the first layer left. -/
theorem V3_main_v40 : V3 m outs c main_v40 = outs 2 main_v40 c :=
  (V3_of m outs c main_v40 (by decide)).trans (Function.update_self _ _ _)
/-- The heads read what the second layer left. -/
theorem V5_main_v42 : V5 m outs c main_v42 = outs 4 main_v42 c :=
  (V5_of m outs c main_v42 (by decide)).trans (Function.update_self _ _ _)
/-- The first head's scores as the last layer left them. -/
theorem V6_main_v45_0 : V6 m outs c main_v45_0 = outs 6 main_v45_0 c :=
  (Function.update_of_ne (StableHlo.devRef_ne_of_ne (by decide)) _ _).trans (Function.update_self _ _ _)
/-- The second head's scores as the last layer left them. -/
theorem V6_main_v45_1 : V6 m outs c main_v45_1 = outs 6 main_v45_1 c :=
  Function.update_self _ _ _

/-! ## The weights transposed and narrowed, the biases as rows -/

/-- The first layer's weight array: the stored matrix transposed, then narrowed. -/
theorem V1_main_v32_eq : V1 m c main_v32
    = truncf .bf16 (transpose S4096x4096 [1, 0] (m ((c.tc : Thread nD τ).loc main_arg1)) transposes_S4096x4096_S4096x4096_1_0) bitsLt_bf16_f32 := by
  dsimp only [V1, hostOps0]; after_results_simp
/-- The second layer's weight array: the stored matrix transposed, then narrowed. -/
theorem V1_main_v34_eq : V1 m c main_v34
    = truncf .bf16 (transpose S4096x4096 [1, 0] (m ((c.tc : Thread nD τ).loc main_arg3)) transposes_S4096x4096_S4096x4096_1_0) bitsLt_bf16_f32 := by
  dsimp only [V1, hostOps0]; after_results_simp
/-- The first head's weight array: the stored matrix transposed, then narrowed. -/
theorem V1_main_v36_eq : V1 m c main_v36
    = truncf .bf16 (transpose S4096x21 [1, 0] (m ((c.tc : Thread nD τ).loc main_arg5)) transposes_S21x4096_S4096x21_1_0) bitsLt_bf16_f32 := by
  dsimp only [V1, hostOps0]; after_results_simp
/-- The second head's weight array: the stored matrix transposed, then narrowed. -/
theorem V1_main_v38_eq : V1 m c main_v38
    = truncf .bf16 (transpose S4096x21 [1, 0] (m ((c.tc : Thread nD τ).loc main_arg7)) transposes_S21x4096_S4096x21_1_0) bitsLt_bf16_f32 := by
  dsimp only [V1, hostOps0]; after_results_simp

/-- Entry (d, e) of the first layer's weight array is the stored W e d, narrowed. -/
theorem V1_main_v32 (d e : Fin 4096) :
    V1 m c main_v32 (ix2 d e) = FloatOps.truncf .bf16 bitsLt_bf16_f32 (m ((c.tc : Thread nD τ).loc main_arg1) (ix2 e d)) := by
  rw [V1_main_v32_eq]
  exact congrArg (FloatOps.truncf .bf16 bitsLt_bf16_f32) (transpose_ix2_apply _ _ d e)
/-- Entry (d, e) of the second layer's weight array is the stored W e d, narrowed. -/
theorem V1_main_v34 (d e : Fin 4096) :
    V1 m c main_v34 (ix2 d e) = FloatOps.truncf .bf16 bitsLt_bf16_f32 (m ((c.tc : Thread nD τ).loc main_arg3) (ix2 e d)) := by
  rw [V1_main_v34_eq]
  exact congrArg (FloatOps.truncf .bf16 bitsLt_bf16_f32) (transpose_ix2_apply _ _ d e)
/-- Entry (d, n) of the first head's weight array is the stored W n d, narrowed. -/
theorem V1_main_v36 (d : Fin 4096) (n : Fin 21) :
    V1 m c main_v36 (ix2 d n) = FloatOps.truncf .bf16 bitsLt_bf16_f32 (m ((c.tc : Thread nD τ).loc main_arg5) (ix2 n d)) := by
  rw [V1_main_v36_eq]
  exact congrArg (FloatOps.truncf .bf16 bitsLt_bf16_f32) (transpose_ix2_apply _ _ d n)
/-- Entry (d, n) of the second head's weight array is the stored W n d, narrowed. -/
theorem V1_main_v38 (d : Fin 4096) (n : Fin 21) :
    V1 m c main_v38 (ix2 d n) = FloatOps.truncf .bf16 bitsLt_bf16_f32 (m ((c.tc : Thread nD τ).loc main_arg7) (ix2 n d)) := by
  rw [V1_main_v38_eq]
  exact congrArg (FloatOps.truncf .bf16 bitsLt_bf16_f32) (transpose_ix2_apply _ _ d n)

/-- The first layer's bias row reads the stored bias. -/
theorem V1_main_v39 (u : Fin 1) (e : Fin 4096) :
    V1 m c main_v39 (ix2 u e) = m ((c.tc : Thread nD τ).loc main_arg2) (ix1 e) := by
  have h : V1 m c main_v39 = shapeCast S1x4096 (m ((c.tc : Thread nD τ).loc main_arg2)) shapeCasts_S4096_S1x4096 := by
    dsimp only [V1, hostOps0]; after_results_simp; rfl
  rw [h]; exact shapeCast_a_1a_apply _ _ u e
/-- The second layer's bias row reads the stored bias. -/
theorem V3_main_v41 (u : Fin 1) (e : Fin 4096) :
    V3 m outs c main_v41 (ix2 u e) = m ((c.tc : Thread nD τ).loc main_arg4) (ix1 e) := by
  have h : V3 m outs c main_v41 = shapeCast S1x4096 (V2 m outs c main_arg4) shapeCasts_S4096_S1x4096 := by
    dsimp only [V3, hostOps1]; after_results_simp; rfl
  rw [h, V2_of m outs c main_arg4 (by decide), V1_of m c main_arg4 (by decide)]
  exact shapeCast_a_1a_apply _ _ u e
/-- The first head's bias row reads the stored bias. -/
theorem V5_main_v43 (u : Fin 1) (n : Fin 21) :
    V5 m outs c main_v43 (ix2 u n) = m ((c.tc : Thread nD τ).loc main_arg6) (ix1 n) := by
  have h : V5 m outs c main_v43 = shapeCast S1x21 (V4 m outs c main_arg6) shapeCasts_S21_S1x21 := by
    dsimp only [V5, hostOps2]; after_results_simp; rfl
  rw [h, V4_of m outs c main_arg6 (by decide), V3_of m outs c main_arg6 (by decide), V2_of m outs c main_arg6 (by decide),
    V1_of m c main_arg6 (by decide)]
  exact shapeCast_a_1a_apply _ _ u n
/-- The second head's bias row reads the stored bias. -/
theorem V5_main_v44 (u : Fin 1) (n : Fin 21) :
    V5 m outs c main_v44 (ix2 u n) = m ((c.tc : Thread nD τ).loc main_arg8) (ix1 n) := by
  have h : V5 m outs c main_v44 = shapeCast S1x21 (V4 m outs c main_arg8) shapeCasts_S21_S1x21 := by
    dsimp only [V5, hostOps2]; after_results_simp; rfl
  rw [h, V4_of m outs c main_arg8 (by decide), V3_of m outs c main_arg8 (by decide), V2_of m outs c main_arg8 (by decide),
    V1_of m c main_arg8 (by decide)]
  exact shapeCast_a_1a_apply _ _ u n

/-! ## The tail: softmax over classes, softmax over rows, their product and its sum over rows -/

/-- What both programs compute from the two heads' scores laid out 1×2048×21, operation for operation:
    the first array's softmax along the class axis (exp of the scores less their maximum, over its sum), the second
    array's softmax along the row axis, the product of the two, and the product summed over rows.
    The triple is (product, class softmax, row sum of the product). -/
def tail3K (a b : FVec F S1x2048x21 .f32) : FVec F S1x2048x21 .f32 × FVec F S1x2048x21 .f32 × FVec F S1x21 .f32 :=
  let v48 : FVec F S1x2048 .f32 := Host.reduce FloatOps.maximumf a (constant (F := F) S_ .f32 0xFF800000#32) reducesTo_S1x2048x21_S1x2048_d2 h_S_
  let v50 : FVec F S1x2048 .f32 := maximumf (broadcastInDim S1x2048 ![] bcast_S_S1x2048 (constant (F := F) S_ .f32 0xFF800000#32)) v48
  let v52 : FVec F S1x2048x21 .f32 := broadcastInDim S1x2048x21 ![0, 1, 2] bcast_S1x2048x1_S1x2048x21_0_1_2 (broadcastInDim S1x2048x1 ![0, 1] bcast_S1x2048_S1x2048x1_0_1 v50)
  let v54 : FVec F S1x2048x21 .f32 := Host.exp (F := F) (subf a v52)
  let v55 : FVec F S1x2048 .f32 := Host.reduceAdd (F := F) v54 (constant (F := F) S_ .f32 0x00000000#32) reducesTo_S1x2048x21_S1x2048_d2 h_S_
  let v57 : FVec F S1x2048x21 .f32 := broadcastInDim S1x2048x21 ![0, 1, 2] bcast_S1x2048x1_S1x2048x21_0_1_2 (broadcastInDim S1x2048x1 ![0, 1] bcast_S1x2048_S1x2048x1_0_1 v55)
  let v58 : FVec F S1x2048x21 .f32 := Host.divf (F := F) v54 v57
  let v59 : FVec F S1x21 .f32 := Host.reduce FloatOps.maximumf b (constant (F := F) S_ .f32 0xFF800000#32) reducesTo_S1x2048x21_S1x21_d1 h_S_
  let v61 : FVec F S1x21 .f32 := maximumf (broadcastInDim S1x21 ![] bcast_S_S1x21 (constant (F := F) S_ .f32 0xFF800000#32)) v59
  let v63 : FVec F S1x2048x21 .f32 := broadcastInDim S1x2048x21 ![0, 1, 2] bcast_S1x1x21_S1x2048x21_0_1_2 (broadcastInDim S1x1x21 ![0, 2] bcast_S1x21_S1x1x21_0_2 v61)
  let v65 : FVec F S1x2048x21 .f32 := Host.exp (F := F) (subf b v63)
  let v66 : FVec F S1x21 .f32 := Host.reduceAdd (F := F) v65 (constant (F := F) S_ .f32 0x00000000#32) reducesTo_S1x2048x21_S1x21_d1 h_S_
  let v68 : FVec F S1x2048x21 .f32 := broadcastInDim S1x2048x21 ![0, 1, 2] bcast_S1x1x21_S1x2048x21_0_1_2 (broadcastInDim S1x1x21 ![0, 2] bcast_S1x21_S1x1x21_0_2 v66)
  let v69 : FVec F S1x2048x21 .f32 := Host.divf (F := F) v65 v68
  let v70 : FVec F S1x2048x21 .f32 := mulf v58 v69
  let v71 : FVec F S1x21 .f32 := Host.reduceAdd (F := F) v70 (constant (F := F) S_ .f32 0x00000000#32) reducesTo_S1x2048x21_S1x21_d1 h_S_
  (v70, v58, v71)

/-- The tail as one function of the two score arrays the last layer leaves: each laid out 1×2048×21, then `tail3K`. -/
def tailK (o5 o6 : FVec F S2048x21 .f32) : FVec F S1x2048x21 .f32 × FVec F S1x2048x21 .f32 × FVec F S1x21 .f32 :=
  tail3K (shapeCast S1x2048x21 o5 shapeCasts_S2048x21_S1x2048x21) (shapeCast S1x2048x21 o6 shapeCasts_S2048x21_S1x2048x21)

/-- The first result: the product of the two softmaxes. -/
theorem V7_main_v70 : V7 m outs c main_v70 = (tailK (V6 m outs c main_v45_0) (V6 m outs c main_v45_1)).1 := by
  dsimp only [V7, hostOps3]; after_results_simp; rfl
/-- The second result: the class softmax. -/
theorem V7_main_v58 : V7 m outs c main_v58 = (tailK (V6 m outs c main_v45_0) (V6 m outs c main_v45_1)).2.1 := by
  dsimp only [V7, hostOps3]; after_results_simp; rfl
/-- The third result: the product summed over rows. -/
theorem V7_main_v71 : V7 m outs c main_v71 = (tailK (V6 m outs c main_v45_0) (V6 m outs c main_v45_1)).2.2 := by
  dsimp only [V7, hostOps3]; after_results_simp; rfl

end Cert.KernelIdeal.Hand

end
-- ==== Proof.Val.Spec.lean ====
/-
  The mathematics both programs compute between the pooled features and the class scores, as plain functions of indices
  over the extended reals. One dense layer maps a row `a r ·` of activations to  relu(∑_d a r d · w d e + b e)  for each
  output e; the network applies three of them — two square layers and, per head, one 4096 → 21 layer — with the weights
  read transposed (`w d e` is the stored `W e d`). The relu's zero is kept as the f32 word both programs print.
  A sum over a contraction axis cut into consecutive blocks is the sum of the blocks' sums: the law that joins a
  product accumulated block by block with the whole product (commutativity and associativity of + only, so it holds for
  every extended real, infinite ones included).
-/
import Idealize.ShloMosaic.PureOps.Ideal
import Idealize.ShloMosaic.PureOps.Ideal.Laws
import Idealize.ShloMosaic.Lib.ValueIdx

noncomputable section

namespace Cert.ValSpec

open Idealize.ShloMosaic

/-- The f32 zero word at the ideal instance (the relu's threshold and the accumulators' start). -/
abbrev zeroW : EReal := Ideal.ofBits .f32 0x00000000#32

/-- One dense layer with relu, read at row `r` and output `e`. -/
def dense {R D N : ℕ} (a : Fin R → Fin D → EReal) (w : Fin D → Fin N → EReal) (b : Fin N → EReal) (r : Fin R) (e : Fin N) : EReal :=
  max ((∑ d : Fin D, a r d * w d e) + b e) zeroW

/-- The three layers down to one head's 21 scores: the pooled features `Y`, the two square layers' stored weights and
    biases, the head's stored weights and bias. -/
def head (Y : Fin 2048 → Fin 4096 → EReal) (W6 : Fin 4096 → Fin 4096 → EReal) (b6 : Fin 4096 → EReal)
    (W7 : Fin 4096 → Fin 4096 → EReal) (b7 : Fin 4096 → EReal) (W8 : Fin 21 → Fin 4096 → EReal) (b8 : Fin 21 → EReal) :
    Fin 2048 → Fin 21 → EReal :=
  dense (dense (dense Y (fun d e => W6 e d) b6) (fun d e => W7 e d) b7) (fun d n => W8 n d) b8

/-- A sum over `Fin (n + n)` is the sum over its lower half plus the sum over its upper half. -/
theorem sum_two_blocks {n : ℕ} (f : Fin (n + n) → EReal) :
    ∑ d : Fin (n + n), f d = (∑ d : Fin n, f (Fin.castAdd n d)) + ∑ d : Fin n, f (Fin.natAdd n d) :=
  Fin.sum_univ_add f

end Cert.ValSpec

end
-- ==== Proof.Val.Final0.lean ====
/-
  The first dense layer's region, read as a value at the ideal instance: the output array after the region is
  relu(A · W + b) of the arrays the region finds — A the 2048×4096 activations, W the 4096×4096 weights as stored for
  the kernel (contraction index first), b the 1×4096 bias row. The grid is (4, 4, 2): the point t works on the row
  block t / 8 and the column block (t / 2) % 4 and takes the half t % 2 of the contraction axis 4096 = 2048 + 2048.
  At an index the body's arithmetic is: the zeros; the accumulator plus a row of the activations' block times a
  column of the weights' block; the accumulator plus the bias row, clamped below at the zero word. A block read at
  its own index is the array read at  block index × block size + index. The point with k = 1 writes back its block:
  there the accumulator holds the zeros plus the lower half-sum (left by the point before) plus the upper half-sum,
  and a sum over an axis cut in two consecutive halves is the sum of the halves' sums (commutativity and
  associativity of + only). Every index of the output lies in the block of one such point.
-/
import proofs.«142348_j11536282157274_1_alg».proof.Proof.KI.Region0
import proofs.«142348_j11536282157274_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

/-! ## The body's arithmetic at an index -/

/-- The accumulator's start is the zero word everywhere. -/
theorem pay1_0_apply (j : S512x1024.Idx) : k0_pay1 (F := Ideal) j = Cert.ValSpec.zeroW := by
  unfold k0_pay1
  rw [shapeCast_self]
  rfl

/-- The product's left operand is read at the output's row -/
theorem dot0_lhs_row (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

/-- and its right operand at the output's column. -/
theorem dot0_rhs_col (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- One step of the accumulation: what was there plus the row of the activations' block times the column of the
    weights' block. -/
theorem pay2_0_apply (s : Vec Ideal S512x1024 .f32) (a : Vec Ideal S512x2048 .bf16) (b : Vec Ideal S2048x1024 .bf16)
    (r : Fin 512) (n : Fin 1024) :
    k0_pay2 s a b (ix2 r n) = s (ix2 r n) + ∑ k : Fin 2048, a (ix2 r k) * b (ix2 k n) := by
  unfold k0_pay2
  rw [shapeCast_self, shapeCast_self, shapeCast_self, addf_apply]
  refine congrArg (s (ix2 r n) + ·) ?_
  simp only [matmul]
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r n) ((contrEquiv1 dot_S512x2048_S2048x1024_S512x1024_1_0_0_1_n_n 2048 rfl rfl).symm k) = ix2 r k :=
    funext fun ax => Fin.ext (by
      match ax with
      | ⟨0, _⟩ => exact dot0_lhs_row _ _
      | ⟨1, _⟩ => exact (dot_S512x2048_S2048x1024_S512x1024_1_0_0_1_n_n.lhsIdx_val_of_single rfl _ _).trans hk)
  have er : dot_S512x2048_S2048x1024_S512x1024_1_0_0_1_n_n.rhsIdx (ix2 r n) ((contrEquiv1 dot_S512x2048_S2048x1024_S512x1024_1_0_0_1_n_n 2048 rfl rfl).symm k) = ix2 k n :=
    funext fun ax => Fin.ext (by
      match ax with
      | ⟨0, _⟩ => exact (dot_S512x2048_S2048x1024_S512x1024_1_0_0_1_n_n.rhsIdx_val_of_single rfl _ _).trans hk
      | ⟨1, _⟩ => exact dot0_rhs_col _ _)
  rw [el, er]

/-- The output block: the accumulator plus the bias row, clamped below at the zero word. -/
theorem pay3_0_apply (acc : Vec Ideal S512x1024 .f32) (bias : Vec Ideal S1x1024 .f32) (r : Fin 512) (n : Fin 1024) :
    k0_pay3 acc bias (ix2 r n) = max (acc (ix2 r n) + bias (ix2 (0 : Fin 1) n)) Cert.ValSpec.zeroW := by
  unfold k0_pay3
  rw [shapeCast_self, truncf_apply, maximumf_apply, addf_apply, broadcast_apply]
  rw [broadcastTo_1b_ab_apply]
  rfl

/-! ## Where each window's block sits in its array -/

section Final0

variable (V : (c : Dev nD) → (b : Ref sig .tc) → Buf (Elt Ideal) ((c : Thread nD τ).loc b))

/-- The printed block indices over the grid (4, 4, 2): the point t has row block t / 8, column block (t / 2) % 4 and
    contraction step t % 2; the activations' block is (row, step), the weights' (step, column), the bias row's
    (0, column), the output's (row, column). -/
theorem idx_facts0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = (t.val / 2) % 4
    ∧ win0_2.index t (0 : Fin 2) = 0 ∧ win0_2.index t (1 : Fin 2) = (t.val / 2) % 4
    ∧ win0_3.index t (0 : Fin 2) = t.val / 8 ∧ win0_3.index t (1 : Fin 2) = (t.val / 2) % 4 :=
  (by decide +kernel : ∀ t : Fin grid0.N, _)

/-- The activations' block at a point, read at (p, k): the array at row (t / 8)·512 + p, column (t % 2)·2048 + k. -/
theorem iblk0_0_apply (c : Dev nD) (t : Fin cfg0.N) (p : Fin 512) (k : Fin 2048) (r : Fin 2048) (d : Fin 4096)
    (hr : r.val = (t.val / 8) * 512 + p.val) (hd : d.val = (t.val % 2) * 2048 + k.val) :
    iblk0 (F := Ideal) V c 0 t (ix2 p k) = (V c main_v30 : S2048x4096.Idx → EReal) (ix2 r d) := by
  obtain ⟨e0, e1, -⟩ := idx_facts0 t
  show V c main_v30 (((cfg0.win 0).blk t).view.emb (ix2 p k)) = V c main_v30 (ix2 r d)
  refine congrArg (V c main_v30) (funext fun a => Fin.ext ?_)
  match a with
  | ⟨0, _⟩ => show win0_0.index t (0 : Fin 2) * 512 + 1 * p.val = r.val; omega
  | ⟨1, _⟩ => show win0_0.index t (1 : Fin 2) * 2048 + 1 * k.val = d.val; omega

/-- The weights' block at a point, read at (k, q): the array at row (t % 2)·2048 + k, column ((t / 2) % 4)·1024 + q. -/
theorem iblk0_1_apply (c : Dev nD) (t : Fin cfg0.N) (k : Fin 2048) (q : Fin 1024) (d : Fin 4096) (e : Fin 4096)
    (hd : d.val = (t.val % 2) * 2048 + k.val) (he : e.val = ((t.val / 2) % 4) * 1024 + q.val) :
    iblk0 (F := Ideal) V c 1 t (ix2 k q) = (V c main_v32 : S4096x4096.Idx → EReal) (ix2 d e) := by
  obtain ⟨-, -, e0, e1, -⟩ := idx_facts0 t
  show V c main_v32 (((cfg0.win 1).blk t).view.emb (ix2 k q)) = V c main_v32 (ix2 d e)
  refine congrArg (V c main_v32) (funext fun a => Fin.ext ?_)
  match a with
  | ⟨0, _⟩ => show win0_1.index t (0 : Fin 2) * 2048 + 1 * k.val = d.val; omega
  | ⟨1, _⟩ => show win0_1.index t (1 : Fin 2) * 1024 + 1 * q.val = e.val; omega

/-- The bias row's block at a point, read at (0, q): the row at column ((t / 2) % 4)·1024 + q. -/
theorem iblk0_2_apply (c : Dev nD) (t : Fin cfg0.N) (q : Fin 1024) (e : Fin 4096)
    (he : e.val = ((t.val / 2) % 4) * 1024 + q.val) :
    iblk0 (F := Ideal) V c 2 t (ix2 (0 : Fin 1) q) = (V c main_v39 : S1x4096.Idx → EReal) (ix2 (0 : Fin 1) e) := by
  obtain ⟨-, -, -, -, e0, e1, -⟩ := idx_facts0 t
  show V c main_v39 (((cfg0.win 2).blk t).view.emb (ix2 (0 : Fin 1) q)) = V c main_v39 (ix2 (0 : Fin 1) e)
  refine congrArg (V c main_v39) (funext fun a => Fin.ext ?_)
  match a with
  | ⟨0, _⟩ => show win0_2.index t (0 : Fin 2) * 1 + 1 * 0 = 0; omega
  | ⟨1, _⟩ => show win0_2.index t (1 : Fin 2) * 1024 + 1 * q.val = e.val; omega

/-- The output's block at a point sits at row (t / 8)·512 + p, column ((t / 2) % 4)·1024 + q. -/
theorem oblk0_emb (t : Fin cfg0.N) (p : Fin 512) (q : Fin 1024) (r : Fin 2048) (e : Fin 4096)
    (hr : r.val = (t.val / 8) * 512 + p.val) (he : e.val = ((t.val / 2) % 4) * 1024 + q.val) :
    ((cfg0.win 3).blk t).view.emb (ix2 p q) = (ix2 r e : S2048x4096.Idx) := by
  obtain ⟨-, -, -, -, -, -, e0, e1⟩ := idx_facts0 t
  refine funext fun a => Fin.ext ?_
  match a with
  | ⟨0, _⟩ => show win0_3.index t (0 : Fin 2) * 512 + 1 * p.val = r.val; omega
  | ⟨1, _⟩ => show win0_3.index t (1 : Fin 2) * 1024 + 1 * q.val = e.val; omega

/-! ## The two steps of the contraction joined -/

/-- The accumulator after the two steps — the zeros, plus the products over the lower half of the contraction axis,
    plus those over the upper half — with the bias added and clamped, is the dense layer: a sum over an axis cut
    in two consecutive halves is the sum of the halves' sums, and the zero word is 0. -/
theorem dense_two_steps (a : Fin 2048 → Fin 4096 → EReal) (w : Fin 4096 → Fin 4096 → EReal) (b : Fin 4096 → EReal)
    (r : Fin 2048) (e : Fin 4096) :
    max (((Cert.ValSpec.zeroW + ∑ k : Fin 2048, a r (Fin.castAdd 2048 k) * w (Fin.castAdd 2048 k) e)
        + ∑ k : Fin 2048, a r (Fin.natAdd 2048 k) * w (Fin.natAdd 2048 k) e) + b e) Cert.ValSpec.zeroW
      = Cert.ValSpec.dense a w b r e := by
  have h := Cert.ValSpec.sum_two_blocks (n := 2048) (fun d => a r d * w d e)
  unfold Cert.ValSpec.dense
  rw [show (Cert.ValSpec.zeroW : EReal) = 0 from Ideal.ofBits_zero_f32, zero_add]
  exact congrArg (fun s => max (s + b e) 0) h.symm

/-! ## What the region leaves in the output array -/

/-- The dense layer of the arrays the region finds, as contents of the output array. -/
def G0 (c : Dev nD) : S2048x4096.Idx → EReal := fun i =>
  Cert.ValSpec.dense (fun r d => (V c main_v30 : S2048x4096.Idx → EReal) (ix2 r d))
    (fun d e => (V c main_v32 : S4096x4096.Idx → EReal) (ix2 d e))
    (fun e => (V c main_v39 : S1x4096.Idx → EReal) (ix2 (0 : Fin 1) e)) (i 0) (i 1)

/-- What a point with k = 1 writes back is its block of the dense layer: the accumulator there is the zeros plus the
    lower half-sum (left by the point before, at k = 0, over the same rows and columns) plus the upper half-sum. -/
theorem flushed0_eq (c : Dev nD) (t : Fin cfg0.N) (hf : (cfg0.win 3).flush t = true) :
    (dat0 (F := Ideal) V c).flushed 3 t = ((cfg0.win 3).blk t).view.read (Elt Ideal) (G0 V c) := by
  have hk : t.val % 2 = 1 := (flush0_3 t).mp hf
  have hN : cfg0.N = 32 := N_0
  have htl : t.val < 32 := by have := t.isLt; omega
  show (cfg0.win 3).cut (grid0.coords t) ((dat0 (F := Ideal) V c).after 3 t) = _
  rw [after0_3, acc0_odd V c t (by omega), acc0_even V c (prev0 t) (by show (t.val - 1) % 2 = 0; omega)]
  funext j
  obtain ⟨p, q, rfl⟩ : ∃ (p : Fin 512) (q : Fin 1024), j = ix2 p q := ⟨j 0, j 1, eq_ix2 j⟩
  have hp := p.isLt
  have hq := q.isLt
  obtain ⟨r, hr⟩ : ∃ r : Fin 2048, r.val = (t.val / 8) * 512 + p.val := ⟨⟨_, by omega⟩, rfl⟩
  obtain ⟨e, he⟩ : ∃ e : Fin 4096, e.val = ((t.val / 2) % 4) * 1024 + q.val := ⟨⟨_, by omega⟩, rfl⟩
  have hpv : (prev0 t).val = t.val - 1 := rfl
  -- the blocks of the point and of the point before, read in the arrays
  have hA1 : ∀ k : Fin 2048, iblk0 (F := Ideal) V c 0 t (ix2 p k)
      = (V c main_v30 : S2048x4096.Idx → EReal) (ix2 r (Fin.natAdd 2048 k)) :=
    fun k => iblk0_0_apply V c t p k r (Fin.natAdd 2048 k) hr (by rw [Fin.coe_natAdd]; omega)
  have hW1 : ∀ k : Fin 2048, iblk0 (F := Ideal) V c 1 t (ix2 k q)
      = (V c main_v32 : S4096x4096.Idx → EReal) (ix2 (Fin.natAdd 2048 k) e) :=
    fun k => iblk0_1_apply V c t k q (Fin.natAdd 2048 k) e (by rw [Fin.coe_natAdd]; omega) he
  have hA0 : ∀ k : Fin 2048, iblk0 (F := Ideal) V c 0 (prev0 t) (ix2 p k)
      = (V c main_v30 : S2048x4096.Idx → EReal) (ix2 r (Fin.castAdd 2048 k)) :=
    fun k => iblk0_0_apply V c (prev0 t) p k r (Fin.castAdd 2048 k) (by rw [hpv]; omega) (by rw [hpv, Fin.coe_castAdd]; omega)
  have hW0 : ∀ k : Fin 2048, iblk0 (F := Ideal) V c 1 (prev0 t) (ix2 k q)
      = (V c main_v32 : S4096x4096.Idx → EReal) (ix2 (Fin.castAdd 2048 k) e) :=
    fun k => iblk0_1_apply V c (prev0 t) k q (Fin.castAdd 2048 k) e (by rw [hpv, Fin.coe_castAdd]; omega) (by rw [hpv]; omega)
  have hB : iblk0 (F := Ideal) V c 2 t (ix2 (0 : Fin 1) q) = (V c main_v39 : S1x4096.Idx → EReal) (ix2 (0 : Fin 1) e) :=
    iblk0_2_apply V c t q e he
  show k0_pay3 (k0_pay2 (k0_pay2 (k0_pay1 (F := Ideal)) (iblk0 V c 0 (prev0 t)) (iblk0 V c 1 (prev0 t))) (iblk0 V c 0 t) (iblk0 V c 1 t))
      (iblk0 V c 2 t) (ix2 p q) = G0 V c (((cfg0.win 3).blk t).view.emb (ix2 p q))
  rw [oblk0_emb t p q r e hr he]
  refine (pay3_0_apply _ _ p q).trans ?_
  rw [hB]
  refine Eq.trans ?_ (dense_two_steps _ _ _ r e)
  refine congrArg (fun s => max (s + (V c main_v39 : S1x4096.Idx → EReal) (ix2 (0 : Fin 1) e)) Cert.ValSpec.zeroW) ?_
  refine (pay2_0_apply _ _ _ p q).trans ?_
  refine congr (congrArg HAdd.hAdd ?_) (Finset.sum_congr rfl fun k _ => by rw [hA1 k, hW1 k])
  refine (pay2_0_apply _ _ _ p q).trans ?_
  exact congr (congrArg HAdd.hAdd (pay1_0_apply _)) (Finset.sum_congr rfl fun k _ => by rw [hA0 k, hW0 k])

/-- Every index of the output array is in the block of a point that writes back: row r, column e in that of the
    point 8·(r / 512) + 2·(e / 1024) + 1. -/
theorem cover0 (i : S2048x4096.Idx) :
    ∃ t : Fin cfg0.N, (cfg0.win 3).flush t = true ∧ i ∈ ((cfg0.win 3).blk t).view.set := by
  have h0 : (i 0).val < 2048 := (i 0).isLt
  have h1 : (i 1).val < 4096 := (i 1).isLt
  have hN : cfg0.N = 32 := N_0
  obtain ⟨t, ht⟩ : ∃ t : Fin cfg0.N, t.val = 8 * ((i 0).val / 512) + 2 * ((i 1).val / 1024) + 1 := ⟨⟨_, by omega⟩, rfl⟩
  obtain ⟨-, -, -, -, -, -, e0, e1⟩ := idx_facts0 t
  refine ⟨t, (flush0_3 t).mpr (by omega), ?_⟩
  show i ∈ ((View.whole main_v40).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The output array after the region, read at an index, is one dense layer of the arrays the region found. -/
theorem final0 (c : Dev nD) (r : Fin 2048) (e : Fin 4096) :
    ((dat0 (F := Ideal) V c).arrAt 3 cfg0.N : S2048x4096.Idx → EReal) (ix2 r e)
      = Cert.ValSpec.dense (fun r d => (V c main_v30 : S2048x4096.Idx → EReal) (ix2 r d)) (fun d e => (V c main_v32 : S4096x4096.Idx → EReal) (ix2 d e))
          (fun e => (V c main_v39 : S1x4096.Idx → EReal) (ix2 0 e)) r e :=
  congrFun ((dat0 (F := Ideal) V c).arrAt_eq_of_cover 3 (G0 V c) (flushed0_eq V c) cover0) (ix2 r e)

end Final0

end Cert.KernelIdeal.Hand

end
-- ==== Proof.Val.Final1.lean ====
/-
  The second dense layer's region, read as a value at the ideal instance: the output array after the region is
  relu(A · W + b) of the arrays the region finds — A the 2048×4096 activations, W the 4096×4096 weights as stored for
  the kernel (contraction index first), b the 1×4096 bias row. The grid is (4, 4, 2): the point t works on the row
  block t / 8 and the column block (t / 2) % 4 and takes the half t % 2 of the contraction axis 4096 = 2048 + 2048.
  At an index the body's arithmetic is: the zeros; the accumulator plus a row of the activations' block times a
  column of the weights' block; the accumulator plus the bias row, clamped below at the zero word. A block read at
  its own index is the array read at  block index × block size + index. The point with k = 1 writes back its block:
  there the accumulator holds the zeros plus the lower half-sum (left by the point before) plus the upper half-sum,
  and a sum over an axis cut in two consecutive halves is the sum of the halves' sums (commutativity and
  associativity of + only). Every index of the output lies in the block of one such point.
-/
import proofs.«142348_j11536282157274_1_alg».proof.Proof.KI.Region1
import proofs.«142348_j11536282157274_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

/-! ## The body's arithmetic at an index -/

/-- The accumulator's start is the zero word everywhere. -/
theorem pay1_1_apply (j : S512x1024.Idx) : k1_pay1 (F := Ideal) j = Cert.ValSpec.zeroW := by
  unfold k1_pay1
  rw [shapeCast_self]
  rfl

/-- The product's left operand is read at the output's row -/
theorem dot1_lhs_row (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

/-- and its right operand at the output's column. -/
theorem dot1_rhs_col (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- One step of the accumulation: what was there plus the row of the activations' block times the column of the
    weights' block. -/
theorem pay2_1_apply (s : Vec Ideal S512x1024 .f32) (a : Vec Ideal S512x2048 .bf16) (b : Vec Ideal S2048x1024 .bf16)
    (r : Fin 512) (n : Fin 1024) :
    k1_pay2 s a b (ix2 r n) = s (ix2 r n) + ∑ k : Fin 2048, a (ix2 r k) * b (ix2 k n) := by
  unfold k1_pay2
  rw [shapeCast_self, shapeCast_self, shapeCast_self, addf_apply]
  refine congrArg (s (ix2 r n) + ·) ?_
  simp only [matmul]
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r n) ((contrEquiv1 dot_S512x2048_S2048x1024_S512x1024_1_0_0_1_n_n 2048 rfl rfl).symm k) = ix2 r k :=
    funext fun ax => Fin.ext (by
      match ax with
      | ⟨0, _⟩ => exact dot1_lhs_row _ _
      | ⟨1, _⟩ => exact (dot_S512x2048_S2048x1024_S512x1024_1_0_0_1_n_n.lhsIdx_val_of_single rfl _ _).trans hk)
  have er : dot_S512x2048_S2048x1024_S512x1024_1_0_0_1_n_n.rhsIdx (ix2 r n) ((contrEquiv1 dot_S512x2048_S2048x1024_S512x1024_1_0_0_1_n_n 2048 rfl rfl).symm k) = ix2 k n :=
    funext fun ax => Fin.ext (by
      match ax with
      | ⟨0, _⟩ => exact (dot_S512x2048_S2048x1024_S512x1024_1_0_0_1_n_n.rhsIdx_val_of_single rfl _ _).trans hk
      | ⟨1, _⟩ => exact dot1_rhs_col _ _)
  rw [el, er]

/-- The output block: the accumulator plus the bias row, clamped below at the zero word. -/
theorem pay3_1_apply (acc : Vec Ideal S512x1024 .f32) (bias : Vec Ideal S1x1024 .f32) (r : Fin 512) (n : Fin 1024) :
    k1_pay3 acc bias (ix2 r n) = max (acc (ix2 r n) + bias (ix2 (0 : Fin 1) n)) Cert.ValSpec.zeroW := by
  unfold k1_pay3
  rw [shapeCast_self, truncf_apply, maximumf_apply, addf_apply, broadcast_apply]
  rw [broadcastTo_1b_ab_apply]
  rfl

/-! ## Where each window's block sits in its array -/

section Final1

variable (V : (c : Dev nD) → (b : Ref sig .tc) → Buf (Elt Ideal) ((c : Thread nD τ).loc b))

/-- The printed block indices over the grid (4, 4, 2): the point t has row block t / 8, column block (t / 2) % 4 and
    contraction step t % 2; the activations' block is (row, step), the weights' (step, column), the bias row's
    (0, column), the output's (row, column). -/
theorem idx_facts1 : ∀ t : Fin cfg1.N,
    win1_0.index t (0 : Fin 2) = t.val / 8 ∧ win1_0.index t (1 : Fin 2) = t.val % 2
    ∧ win1_1.index t (0 : Fin 2) = t.val % 2 ∧ win1_1.index t (1 : Fin 2) = (t.val / 2) % 4
    ∧ win1_2.index t (0 : Fin 2) = 0 ∧ win1_2.index t (1 : Fin 2) = (t.val / 2) % 4
    ∧ win1_3.index t (0 : Fin 2) = t.val / 8 ∧ win1_3.index t (1 : Fin 2) = (t.val / 2) % 4 :=
  (by decide +kernel : ∀ t : Fin grid1.N, _)

/-- The activations' block at a point, read at (p, k): the array at row (t / 8)·512 + p, column (t % 2)·2048 + k. -/
theorem iblk1_0_apply (c : Dev nD) (t : Fin cfg1.N) (p : Fin 512) (k : Fin 2048) (r : Fin 2048) (d : Fin 4096)
    (hr : r.val = (t.val / 8) * 512 + p.val) (hd : d.val = (t.val % 2) * 2048 + k.val) :
    iblk1 (F := Ideal) V c 0 t (ix2 p k) = (V c main_v40 : S2048x4096.Idx → EReal) (ix2 r d) := by
  obtain ⟨e0, e1, -⟩ := idx_facts1 t
  show V c main_v40 (((cfg1.win 0).blk t).view.emb (ix2 p k)) = V c main_v40 (ix2 r d)
  refine congrArg (V c main_v40) (funext fun a => Fin.ext ?_)
  match a with
  | ⟨0, _⟩ => show win1_0.index t (0 : Fin 2) * 512 + 1 * p.val = r.val; omega
  | ⟨1, _⟩ => show win1_0.index t (1 : Fin 2) * 2048 + 1 * k.val = d.val; omega

/-- The weights' block at a point, read at (k, q): the array at row (t % 2)·2048 + k, column ((t / 2) % 4)·1024 + q. -/
theorem iblk1_1_apply (c : Dev nD) (t : Fin cfg1.N) (k : Fin 2048) (q : Fin 1024) (d : Fin 4096) (e : Fin 4096)
    (hd : d.val = (t.val % 2) * 2048 + k.val) (he : e.val = ((t.val / 2) % 4) * 1024 + q.val) :
    iblk1 (F := Ideal) V c 1 t (ix2 k q) = (V c main_v34 : S4096x4096.Idx → EReal) (ix2 d e) := by
  obtain ⟨-, -, e0, e1, -⟩ := idx_facts1 t
  show V c main_v34 (((cfg1.win 1).blk t).view.emb (ix2 k q)) = V c main_v34 (ix2 d e)
  refine congrArg (V c main_v34) (funext fun a => Fin.ext ?_)
  match a with
  | ⟨0, _⟩ => show win1_1.index t (0 : Fin 2) * 2048 + 1 * k.val = d.val; omega
  | ⟨1, _⟩ => show win1_1.index t (1 : Fin 2) * 1024 + 1 * q.val = e.val; omega

/-- The bias row's block at a point, read at (0, q): the row at column ((t / 2) % 4)·1024 + q. -/
theorem iblk1_2_apply (c : Dev nD) (t : Fin cfg1.N) (q : Fin 1024) (e : Fin 4096)
    (he : e.val = ((t.val / 2) % 4) * 1024 + q.val) :
    iblk1 (F := Ideal) V c 2 t (ix2 (0 : Fin 1) q) = (V c main_v41 : S1x4096.Idx → EReal) (ix2 (0 : Fin 1) e) := by
  obtain ⟨-, -, -, -, e0, e1, -⟩ := idx_facts1 t
  show V c main_v41 (((cfg1.win 2).blk t).view.emb (ix2 (0 : Fin 1) q)) = V c main_v41 (ix2 (0 : Fin 1) e)
  refine congrArg (V c main_v41) (funext fun a => Fin.ext ?_)
  match a with
  | ⟨0, _⟩ => show win1_2.index t (0 : Fin 2) * 1 + 1 * 0 = 0; omega
  | ⟨1, _⟩ => show win1_2.index t (1 : Fin 2) * 1024 + 1 * q.val = e.val; omega

/-- The output's block at a point sits at row (t / 8)·512 + p, column ((t / 2) % 4)·1024 + q. -/
theorem oblk1_emb (t : Fin cfg1.N) (p : Fin 512) (q : Fin 1024) (r : Fin 2048) (e : Fin 4096)
    (hr : r.val = (t.val / 8) * 512 + p.val) (he : e.val = ((t.val / 2) % 4) * 1024 + q.val) :
    ((cfg1.win 3).blk t).view.emb (ix2 p q) = (ix2 r e : S2048x4096.Idx) := by
  obtain ⟨-, -, -, -, -, -, e0, e1⟩ := idx_facts1 t
  refine funext fun a => Fin.ext ?_
  match a with
  | ⟨0, _⟩ => show win1_3.index t (0 : Fin 2) * 512 + 1 * p.val = r.val; omega
  | ⟨1, _⟩ => show win1_3.index t (1 : Fin 2) * 1024 + 1 * q.val = e.val; omega

/-! ## The two steps of the contraction joined -/

/-- The accumulator after the two steps — the zeros, plus the products over the lower half of the contraction axis,
    plus those over the upper half — with the bias added and clamped, is the dense layer: a sum over an axis cut
    in two consecutive halves is the sum of the halves' sums, and the zero word is 0. -/
theorem dense_two_steps1 (a : Fin 2048 → Fin 4096 → EReal) (w : Fin 4096 → Fin 4096 → EReal) (b : Fin 4096 → EReal)
    (r : Fin 2048) (e : Fin 4096) :
    max (((Cert.ValSpec.zeroW + ∑ k : Fin 2048, a r (Fin.castAdd 2048 k) * w (Fin.castAdd 2048 k) e)
        + ∑ k : Fin 2048, a r (Fin.natAdd 2048 k) * w (Fin.natAdd 2048 k) e) + b e) Cert.ValSpec.zeroW
      = Cert.ValSpec.dense a w b r e := by
  have h := Cert.ValSpec.sum_two_blocks (n := 2048) (fun d => a r d * w d e)
  unfold Cert.ValSpec.dense
  rw [show (Cert.ValSpec.zeroW : EReal) = 0 from Ideal.ofBits_zero_f32, zero_add]
  exact congrArg (fun s => max (s + b e) 0) h.symm

/-! ## What the region leaves in the output array -/

/-- The dense layer of the arrays the region finds, as contents of the output array. -/
def G1 (c : Dev nD) : S2048x4096.Idx → EReal := fun i =>
  Cert.ValSpec.dense (fun r d => (V c main_v40 : S2048x4096.Idx → EReal) (ix2 r d))
    (fun d e => (V c main_v34 : S4096x4096.Idx → EReal) (ix2 d e))
    (fun e => (V c main_v41 : S1x4096.Idx → EReal) (ix2 (0 : Fin 1) e)) (i 0) (i 1)

/-- What a point with k = 1 writes back is its block of the dense layer: the accumulator there is the zeros plus the
    lower half-sum (left by the point before, at k = 0, over the same rows and columns) plus the upper half-sum. -/
theorem flushed1_eq (c : Dev nD) (t : Fin cfg1.N) (hf : (cfg1.win 3).flush t = true) :
    (dat1 (F := Ideal) V c).flushed 3 t = ((cfg1.win 3).blk t).view.read (Elt Ideal) (G1 V c) := by
  have hk : t.val % 2 = 1 := (flush1_3 t).mp hf
  have hN : cfg1.N = 32 := N_1
  have htl : t.val < 32 := by have := t.isLt; omega
  show (cfg1.win 3).cut (grid1.coords t) ((dat1 (F := Ideal) V c).after 3 t) = _
  rw [after1_3, acc1_odd V c t (by omega), acc1_even V c (prev1 t) (by show (t.val - 1) % 2 = 0; omega)]
  funext j
  obtain ⟨p, q, rfl⟩ : ∃ (p : Fin 512) (q : Fin 1024), j = ix2 p q := ⟨j 0, j 1, eq_ix2 j⟩
  have hp := p.isLt
  have hq := q.isLt
  obtain ⟨r, hr⟩ : ∃ r : Fin 2048, r.val = (t.val / 8) * 512 + p.val := ⟨⟨_, by omega⟩, rfl⟩
  obtain ⟨e, he⟩ : ∃ e : Fin 4096, e.val = ((t.val / 2) % 4) * 1024 + q.val := ⟨⟨_, by omega⟩, rfl⟩
  have hpv : (prev1 t).val = t.val - 1 := rfl
  -- the blocks of the point and of the point before, read in the arrays
  have hA1 : ∀ k : Fin 2048, iblk1 (F := Ideal) V c 0 t (ix2 p k)
      = (V c main_v40 : S2048x4096.Idx → EReal) (ix2 r (Fin.natAdd 2048 k)) :=
    fun k => iblk1_0_apply V c t p k r (Fin.natAdd 2048 k) hr (by rw [Fin.coe_natAdd]; omega)
  have hW1 : ∀ k : Fin 2048, iblk1 (F := Ideal) V c 1 t (ix2 k q)
      = (V c main_v34 : S4096x4096.Idx → EReal) (ix2 (Fin.natAdd 2048 k) e) :=
    fun k => iblk1_1_apply V c t k q (Fin.natAdd 2048 k) e (by rw [Fin.coe_natAdd]; omega) he
  have hA0 : ∀ k : Fin 2048, iblk1 (F := Ideal) V c 0 (prev1 t) (ix2 p k)
      = (V c main_v40 : S2048x4096.Idx → EReal) (ix2 r (Fin.castAdd 2048 k)) :=
    fun k => iblk1_0_apply V c (prev1 t) p k r (Fin.castAdd 2048 k) (by rw [hpv]; omega) (by rw [hpv, Fin.coe_castAdd]; omega)
  have hW0 : ∀ k : Fin 2048, iblk1 (F := Ideal) V c 1 (prev1 t) (ix2 k q)
      = (V c main_v34 : S4096x4096.Idx → EReal) (ix2 (Fin.castAdd 2048 k) e) :=
    fun k => iblk1_1_apply V c (prev1 t) k q (Fin.castAdd 2048 k) e (by rw [hpv, Fin.coe_castAdd]; omega) (by rw [hpv]; omega)
  have hB : iblk1 (F := Ideal) V c 2 t (ix2 (0 : Fin 1) q) = (V c main_v41 : S1x4096.Idx → EReal) (ix2 (0 : Fin 1) e) :=
    iblk1_2_apply V c t q e he
  show k1_pay3 (k1_pay2 (k1_pay2 (k1_pay1 (F := Ideal)) (iblk1 V c 0 (prev1 t)) (iblk1 V c 1 (prev1 t))) (iblk1 V c 0 t) (iblk1 V c 1 t))
      (iblk1 V c 2 t) (ix2 p q) = G1 V c (((cfg1.win 3).blk t).view.emb (ix2 p q))
  rw [oblk1_emb t p q r e hr he]
  refine (pay3_1_apply _ _ p q).trans ?_
  rw [hB]
  refine Eq.trans ?_ (dense_two_steps1 _ _ _ r e)
  refine congrArg (fun s => max (s + (V c main_v41 : S1x4096.Idx → EReal) (ix2 (0 : Fin 1) e)) Cert.ValSpec.zeroW) ?_
  refine (pay2_1_apply _ _ _ p q).trans ?_
  refine congr (congrArg HAdd.hAdd ?_) (Finset.sum_congr rfl fun k _ => by rw [hA1 k, hW1 k])
  refine (pay2_1_apply _ _ _ p q).trans ?_
  exact congr (congrArg HAdd.hAdd (pay1_1_apply _)) (Finset.sum_congr rfl fun k _ => by rw [hA0 k, hW0 k])

/-- Every index of the output array is in the block of a point that writes back: row r, column e in that of the
    point 8·(r / 512) + 2·(e / 1024) + 1. -/
theorem cover1 (i : S2048x4096.Idx) :
    ∃ t : Fin cfg1.N, (cfg1.win 3).flush t = true ∧ i ∈ ((cfg1.win 3).blk t).view.set := by
  have h0 : (i 0).val < 2048 := (i 0).isLt
  have h1 : (i 1).val < 4096 := (i 1).isLt
  have hN : cfg1.N = 32 := N_1
  obtain ⟨t, ht⟩ : ∃ t : Fin cfg1.N, t.val = 8 * ((i 0).val / 512) + 2 * ((i 1).val / 1024) + 1 := ⟨⟨_, by omega⟩, rfl⟩
  obtain ⟨-, -, -, -, -, -, e0, e1⟩ := idx_facts1 t
  refine ⟨t, (flush1_3 t).mpr (by omega), ?_⟩
  show i ∈ ((View.whole main_v42).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The output array after the region, read at an index, is one dense layer of the arrays the region found. -/
theorem final1 (c : Dev nD) (r : Fin 2048) (e : Fin 4096) :
    ((dat1 (F := Ideal) V c).arrAt 3 cfg1.N : S2048x4096.Idx → EReal) (ix2 r e)
      = Cert.ValSpec.dense (fun r d => (V c main_v40 : S2048x4096.Idx → EReal) (ix2 r d)) (fun d e => (V c main_v34 : S4096x4096.Idx → EReal) (ix2 d e))
          (fun e => (V c main_v41 : S1x4096.Idx → EReal) (ix2 0 e)) r e :=
  congrFun ((dat1 (F := Ideal) V c).arrAt_eq_of_cover 3 (G1 V c) (flushed1_eq V c) cover1) (ix2 r e)

end Final1

end Cert.KernelIdeal.Hand

end
-- ==== Proof.Val.Final2.lean ====
/-
  The value of the two-headed classification kernel's region at the ideal instance: each head's 2048×21 output array,
  after the region, read at (r, n), is one dense layer of the arrays the region found —
      relu(∑_d A r d · W d n + b n)
  with A the 2048×4096 activations, W the head's 4096×21 weights (stored transposed), b its bias row, the relu's zero the
  f32 word the program prints. The grid is (4, 4): point t has row block i = t / 4 and contraction step k = t % 4. An
  accumulator starts at the zero word at k = 0 and at each k adds the product of the 512×1024 block (i, k) of A with the
  1024×21 block (k, 0) of W, so at k = 3 it holds the four blocks' shares of the contraction over 4096 = 4 × 1024
  positions, first to last; a sum over consecutive blocks is the sum of the blocks' sums, so that is the whole product.
  The point with k = 3 writes relu(accumulator + bias row) into rows 512·i … 512·i + 511 of the output; row r is
  written at the point 4·(r / 512) + 3, so the write-backs cover the array.
-/
import proofs.«142348_j11536282157274_1_alg».proof.Proof.KI.Region2
import proofs.«142348_j11536282157274_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ValSpec (zeroW dense)

/-! ## The payloads at an index, over the extended reals -/

/-- The accumulators' start is the zero word at every index. -/
theorem pay1_apply (r : Fin 512) (n : Fin 21) :
    (k2_pay1 (F := Ideal) : S512x21.Idx → EReal) (ix2 r n) = zeroW := by
  unfold k2_pay1
  rfl

theorem pay2_apply (r : Fin 512) (n : Fin 21) :
    (k2_pay2 (F := Ideal) : S512x21.Idx → EReal) (ix2 r n) = zeroW := by
  unfold k2_pay2
  rfl

/-- The dot's operand indices at an output index j and contraction index q, axis by axis: the left operand is read at
    (row of j, q), the right at (q, column of j). -/
theorem dot_lhs_0 (j : S512x21.Idx) (q : dot_S512x1024_S1024x21_S512x21_1_0_0_1_n_n.contr.Idx) :
    (dot_S512x1024_S1024x21_S512x21_1_0_0_1_n_n.lhsIdx j q 0).val = (j 0).val := by
  unfold DotDims.lhsIdx
  rw [dif_neg (show ¬(0 : Fin S512x1024.rank) ∈ dot_S512x1024_S1024x21_S512x21_1_0_0_1_n_n.lhsBatch by decide),
    dif_pos (show (0 : Fin S512x1024.rank) ∈ dot_S512x1024_S1024x21_S512x21_1_0_0_1_n_n.lhsNonContracting by decide)]
  rfl
theorem dot_lhs_1 (j : S512x21.Idx) (q : dot_S512x1024_S1024x21_S512x21_1_0_0_1_n_n.contr.Idx) :
    (dot_S512x1024_S1024x21_S512x21_1_0_0_1_n_n.lhsIdx j q 1).val = (q ⟨0, by decide⟩).val :=
  dot_S512x1024_S1024x21_S512x21_1_0_0_1_n_n.lhsIdx_val_of_single rfl j q
theorem dot_rhs_0 (j : S512x21.Idx) (q : dot_S512x1024_S1024x21_S512x21_1_0_0_1_n_n.contr.Idx) :
    (dot_S512x1024_S1024x21_S512x21_1_0_0_1_n_n.rhsIdx j q 0).val = (q ⟨0, by decide⟩).val :=
  dot_S512x1024_S1024x21_S512x21_1_0_0_1_n_n.rhsIdx_val_of_single rfl j q
theorem dot_rhs_1 (j : S512x21.Idx) (q : dot_S512x1024_S1024x21_S512x21_1_0_0_1_n_n.contr.Idx) :
    (dot_S512x1024_S1024x21_S512x21_1_0_0_1_n_n.rhsIdx j q 1).val = (j 1).val := by
  unfold DotDims.rhsIdx
  rw [dif_neg (show ¬(1 : Fin S1024x21.rank) ∈ dot_S512x1024_S1024x21_S512x21_1_0_0_1_n_n.rhsBatch by decide),
    dif_pos (show (1 : Fin S1024x21.rank) ∈ dot_S512x1024_S1024x21_S512x21_1_0_0_1_n_n.rhsNonContracting by decide)]
  rfl

/-- At output (r, n) and contraction position k: row r of the left block at column k, row k of the right block at
    column n. -/
theorem dot_lhs (r : Fin 512) (n : Fin 21) (k : Fin 1024) :
    dot_S512x1024_S1024x21_S512x21_1_0_0_1_n_n.lhsIdx (ix2 r n)
      ((contrEquiv1 dot_S512x1024_S1024x21_S512x21_1_0_0_1_n_n 1024 rfl rfl).symm k) = ix2 r k := by
  have hk := contrEquiv1_symm_val dot_S512x1024_S1024x21_S512x21_1_0_0_1_n_n 1024 rfl rfl k
  funext ax
  apply Fin.ext
  match ax with
  | ⟨0, _⟩ => exact dot_lhs_0 _ _
  | ⟨1, _⟩ => exact (dot_lhs_1 _ _).trans hk

theorem dot_rhs (r : Fin 512) (n : Fin 21) (k : Fin 1024) :
    dot_S512x1024_S1024x21_S512x21_1_0_0_1_n_n.rhsIdx (ix2 r n)
      ((contrEquiv1 dot_S512x1024_S1024x21_S512x21_1_0_0_1_n_n 1024 rfl rfl).symm k) = ix2 k n := by
  have hk := contrEquiv1_symm_val dot_S512x1024_S1024x21_S512x21_1_0_0_1_n_n 1024 rfl rfl k
  funext ax
  apply Fin.ext
  match ax with
  | ⟨0, _⟩ => exact (dot_rhs_0 _ _).trans hk
  | ⟨1, _⟩ => exact dot_rhs_1 _ _

/-- One step of an accumulator: what it held plus the product of the point's blocks, the contraction a sum over the
    1024 columns of the left block. -/
theorem pay3_apply (s : Vec Ideal S512x21 .f32) (a : Vec Ideal S512x1024 .bf16) (b : Vec Ideal S1024x21 .bf16) (r : Fin 512) (n : Fin 21) :
    (k2_pay3 (F := Ideal) s a b : S512x21.Idx → EReal) (ix2 r n)
      = (s : S512x21.Idx → EReal) (ix2 r n) + ∑ k : Fin 1024, (a : S512x1024.Idx → EReal) (ix2 r k) * (b : S1024x21.Idx → EReal) (ix2 k n) := by
  unfold k2_pay3
  rw [shapeCast_self, shapeCast_self, shapeCast_self]
  refine congrArg (fun x : EReal => (s : S512x21.Idx → EReal) (ix2 r n) + x) ?_
  refine (Ideal.matmul_constant_zero_apply (φ₁ := .bf16) (φ₂ := .bf16) dot_S512x1024_S1024x21_S512x21_1_0_0_1_n_n none a b (ix2 r n)).trans ?_
  rw [← Equiv.sum_comp (contrEquiv1 dot_S512x1024_S1024x21_S512x21_1_0_0_1_n_n 1024 rfl rfl).symm]
  refine Finset.sum_congr rfl fun k _ => ?_
  rw [dot_lhs, dot_rhs]

theorem pay4_apply (s : Vec Ideal S512x21 .f32) (a : Vec Ideal S512x1024 .bf16) (b : Vec Ideal S1024x21 .bf16) (r : Fin 512) (n : Fin 21) :
    (k2_pay4 (F := Ideal) s a b : S512x21.Idx → EReal) (ix2 r n)
      = (s : S512x21.Idx → EReal) (ix2 r n) + ∑ k : Fin 1024, (a : S512x1024.Idx → EReal) (ix2 r k) * (b : S1024x21.Idx → EReal) (ix2 k n) := by
  unfold k2_pay4
  rw [shapeCast_self, shapeCast_self, shapeCast_self]
  refine congrArg (fun x : EReal => (s : S512x21.Idx → EReal) (ix2 r n) + x) ?_
  refine (Ideal.matmul_constant_zero_apply (φ₁ := .bf16) (φ₂ := .bf16) dot_S512x1024_S1024x21_S512x21_1_0_0_1_n_n none a b (ix2 r n)).trans ?_
  rw [← Equiv.sum_comp (contrEquiv1 dot_S512x1024_S1024x21_S512x21_1_0_0_1_n_n 1024 rfl rfl).symm]
  refine Finset.sum_congr rfl fun k _ => ?_
  rw [dot_lhs, dot_rhs]

/-- An output block: the accumulator plus the bias row, cut below at the zero word. -/
theorem pay5_apply (acc : Vec Ideal S512x21 .f32) (bias : Vec Ideal S1x21 .f32) (r : Fin 512) (n : Fin 21) :
    (k2_pay5 (F := Ideal) acc bias : S512x21.Idx → EReal) (ix2 r n)
      = max ((acc : S512x21.Idx → EReal) (ix2 r n) + (bias : S1x21.Idx → EReal) (ix2 (0 : Fin 1) n)) zeroW := by
  unfold k2_pay5
  rw [shapeCast_self]
  refine congrArg (fun x : EReal => max ((acc : S512x21.Idx → EReal) (ix2 r n) + x) zeroW) ?_
  exact broadcastTo_1b_ab_apply bias broadcasts_S1x21_S512x21 r n

theorem pay6_apply (acc : Vec Ideal S512x21 .f32) (bias : Vec Ideal S1x21 .f32) (r : Fin 512) (n : Fin 21) :
    (k2_pay6 (F := Ideal) acc bias : S512x21.Idx → EReal) (ix2 r n)
      = max ((acc : S512x21.Idx → EReal) (ix2 r n) + (bias : S1x21.Idx → EReal) (ix2 (0 : Fin 1) n)) zeroW := by
  unfold k2_pay6
  rw [shapeCast_self]
  refine congrArg (fun x : EReal => max ((acc : S512x21.Idx → EReal) (ix2 r n) + x) zeroW) ?_
  exact broadcastTo_1b_ab_apply bias broadcasts_S1x21_S512x21 r n

/-! ## The index maps over the grid, and the blocks read where their rectangles say -/

/-- Point t has row block i = t / 4 and contraction step k = t % 4: the activations' block index is (i, k), each
    head's weights' (k, 0), each bias row's (0, 0), each output's (i, 0). -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val % 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0
    ∧ win2_6.index t (0 : Fin 2) = t.val / 4 ∧ win2_6.index t (1 : Fin 2) = 0 :=
  (by decide +kernel : ∀ t : Fin grid2.N, _)

section Blocks

variable (V : (c : Dev nD) → (b : Ref sig .tc) → Buf (Elt Ideal) ((c : Thread nD τ).loc b))

/-- The activations' block at point t: rows 512·(t/4) …, columns 1024·(t%4) … of the 2048×4096 array. -/
theorem blk0_apply (c : Dev nD) (t : Fin cfg2.N) (r : Fin 512) (k : Fin 1024) (R : Fin 2048) (K : Fin 4096)
    (hR : R.val = 512 * (t.val / 4) + r.val) (hK : K.val = 1024 * (t.val % 4) + k.val) :
    (iblk2 (F := Ideal) V c 0 t : S512x1024.Idx → EReal) (ix2 r k) = (V c main_v42 : S2048x4096.Idx → EReal) (ix2 R K) := by
  obtain ⟨e0, e1, -⟩ := idx2 t
  unfold iblk2
  rw [View.read_apply]
  show (V c main_v42 : S2048x4096.Idx → EReal) (((cfg2.win 0).blk t).view.emb (ix2 r k)) = _
  refine congrArg _ ?_
  funext a
  apply Fin.ext
  match a with
  | ⟨0, _⟩ => show win2_0.index t (0 : Fin 2) * 512 + 1 * r.val = R.val; rw [e0, hR]; omega
  | ⟨1, _⟩ => show win2_0.index t (1 : Fin 2) * 1024 + 1 * k.val = K.val; rw [e1, hK]; omega

/-- The first head's weights' block at point t: rows 1024·(t%4) … of the 4096×21 array. -/
theorem blk1_apply (c : Dev nD) (t : Fin cfg2.N) (k : Fin 1024) (n : Fin 21) (K : Fin 4096)
    (hK : K.val = 1024 * (t.val % 4) + k.val) :
    (iblk2 (F := Ideal) V c 1 t : S1024x21.Idx → EReal) (ix2 k n) = (V c main_v36 : S4096x21.Idx → EReal) (ix2 K n) := by
  obtain ⟨-, -, e0, e1, -⟩ := idx2 t
  unfold iblk2
  rw [View.read_apply]
  show (V c main_v36 : S4096x21.Idx → EReal) (((cfg2.win 1).blk t).view.emb (ix2 k n)) = _
  refine congrArg _ ?_
  funext a
  apply Fin.ext
  match a with
  | ⟨0, _⟩ => show win2_1.index t (0 : Fin 2) * 1024 + 1 * k.val = K.val; rw [e0, hK]; omega
  | ⟨1, _⟩ => show win2_1.index t (1 : Fin 2) * 21 + 1 * n.val = n.val; rw [e1]; omega

/-- The second head's weights' block at point t. -/
theorem blk2_apply (c : Dev nD) (t : Fin cfg2.N) (k : Fin 1024) (n : Fin 21) (K : Fin 4096)
    (hK : K.val = 1024 * (t.val % 4) + k.val) :
    (iblk2 (F := Ideal) V c 2 t : S1024x21.Idx → EReal) (ix2 k n) = (V c main_v38 : S4096x21.Idx → EReal) (ix2 K n) := by
  obtain ⟨-, -, -, -, e0, e1, -⟩ := idx2 t
  unfold iblk2
  rw [View.read_apply]
  show (V c main_v38 : S4096x21.Idx → EReal) (((cfg2.win 2).blk t).view.emb (ix2 k n)) = _
  refine congrArg _ ?_
  funext a
  apply Fin.ext
  match a with
  | ⟨0, _⟩ => show win2_2.index t (0 : Fin 2) * 1024 + 1 * k.val = K.val; rw [e0, hK]; omega
  | ⟨1, _⟩ => show win2_2.index t (1 : Fin 2) * 21 + 1 * n.val = n.val; rw [e1]; omega

/-- Each head's bias row is its whole 1×21 array at every point. -/
theorem blk3_apply (c : Dev nD) (t : Fin cfg2.N) (n : Fin 21) :
    (iblk2 (F := Ideal) V c 3 t : S1x21.Idx → EReal) (ix2 (0 : Fin 1) n) = (V c main_v43 : S1x21.Idx → EReal) (ix2 (0 : Fin 1) n) := by
  obtain ⟨-, -, -, -, -, -, e0, e1, -⟩ := idx2 t
  unfold iblk2
  rw [View.read_apply]
  show (V c main_v43 : S1x21.Idx → EReal) (((cfg2.win 3).blk t).view.emb (ix2 (0 : Fin 1) n)) = _
  refine congrArg _ ?_
  funext a
  apply Fin.ext
  match a with
  | ⟨0, _⟩ => show win2_3.index t (0 : Fin 2) * 1 + 1 * 0 = 0; rw [e0]
  | ⟨1, _⟩ => show win2_3.index t (1 : Fin 2) * 21 + 1 * n.val = n.val; rw [e1]; omega

theorem blk4_apply (c : Dev nD) (t : Fin cfg2.N) (n : Fin 21) :
    (iblk2 (F := Ideal) V c 4 t : S1x21.Idx → EReal) (ix2 (0 : Fin 1) n) = (V c main_v44 : S1x21.Idx → EReal) (ix2 (0 : Fin 1) n) := by
  obtain ⟨-, -, -, -, -, -, -, -, e0, e1, -⟩ := idx2 t
  unfold iblk2
  rw [View.read_apply]
  show (V c main_v44 : S1x21.Idx → EReal) (((cfg2.win 4).blk t).view.emb (ix2 (0 : Fin 1) n)) = _
  refine congrArg _ ?_
  funext a
  apply Fin.ext
  match a with
  | ⟨0, _⟩ => show win2_4.index t (0 : Fin 2) * 1 + 1 * 0 = 0; rw [e0]
  | ⟨1, _⟩ => show win2_4.index t (1 : Fin 2) * 21 + 1 * n.val = n.val; rw [e1]; omega

end Blocks

/-! ## The contraction in four blocks -/

/-- Column k of the m-th block of 1024 among the 4096 contraction positions. -/
def col (m : Fin 4) (k : Fin 1024) : Fin 4096 := ⟨1024 * m.val + k.val, by have := m.isLt; have := k.isLt; omega⟩

theorem col_val (m : Fin 4) (k : Fin 1024) : (col m k).val = 1024 * m.val + k.val := rfl

/-- A sum over the 4096 contraction positions is the sum of its four consecutive blocks' sums, first to last: the law
    that joins the product accumulated over the four steps of k with the whole product (associativity of + only). -/
theorem sum_four_blocks (f : Fin 4096 → EReal) :
    ∑ d : Fin 4096, f d = (((∑ k : Fin 1024, f (col 0 k)) + ∑ k : Fin 1024, f (col 1 k)) + ∑ k : Fin 1024, f (col 2 k)) + ∑ k : Fin 1024, f (col 3 k) := by
  have h := Cert.ValSpec.sum_two_blocks (n := 2048) f
  have hl := Cert.ValSpec.sum_two_blocks (n := 1024) (fun d : Fin (1024 + 1024) => f (Fin.castAdd 2048 d))
  have hr := Cert.ValSpec.sum_two_blocks (n := 1024) (fun d : Fin (1024 + 1024) => f (Fin.natAdd 2048 d))
  have e0 : ∀ k : Fin 1024, f (Fin.castAdd 2048 (Fin.castAdd 1024 k)) = f (col 0 k) := fun k => congrArg f (Fin.ext (by show k.val = 1024 * 0 + k.val; omega))
  have e1 : ∀ k : Fin 1024, f (Fin.castAdd 2048 (Fin.natAdd 1024 k)) = f (col 1 k) := fun k => congrArg f (Fin.ext (by show 1024 + k.val = 1024 * 1 + k.val; omega))
  have e2 : ∀ k : Fin 1024, f (Fin.natAdd 2048 (Fin.castAdd 1024 k)) = f (col 2 k) := fun k => congrArg f (Fin.ext (by show 2048 + k.val = 1024 * 2 + k.val; omega))
  have e3 : ∀ k : Fin 1024, f (Fin.natAdd 2048 (Fin.natAdd 1024 k)) = f (col 3 k) := fun k => congrArg f (Fin.ext (by show 2048 + (1024 + k.val) = 1024 * 3 + k.val; omega))
  refine h.trans ?_
  refine (congrArg₂ (· + ·) hl hr).trans ?_
  simp only [e0, e1, e2, e3]
  exact (add_assoc _ _ _).symm

/-- The m-th block's share of the product of row R of the activations with column n of the weights. -/
def part (A : S2048x4096.Idx → EReal) (W : S4096x21.Idx → EReal) (R : Fin 2048) (n : Fin 21) (m : Fin 4) : EReal :=
  ∑ k : Fin 1024, A (ix2 R (col m k)) * W (ix2 (col m k) n)

/-- The whole product is the four shares, first to last. -/
theorem parts_eq (A : S2048x4096.Idx → EReal) (W : S4096x21.Idx → EReal) (R : Fin 2048) (n : Fin 21) :
    ∑ d : Fin 4096, A (ix2 R d) * W (ix2 d n) = ((part A W R n 0 + part A W R n 1) + part A W R n 2) + part A W R n 3 :=
  sum_four_blocks fun d => A (ix2 R d) * W (ix2 d n)

/-! ## The arrays the region finds, as functions of indices over the extended reals -/

section Arrays

variable (V : (c : Dev nD) → (b : Ref sig .tc) → Buf (Elt Ideal) ((c : Thread nD τ).loc b))

/-- The 2048×4096 activations; each head's 4096×21 weights (stored transposed) and 1×21 bias row. -/
abbrev actA (c : Dev nD) : S2048x4096.Idx → EReal := V c main_v42
abbrev wgtC (c : Dev nD) : S4096x21.Idx → EReal := V c main_v36
abbrev wgtD (c : Dev nD) : S4096x21.Idx → EReal := V c main_v38
abbrev biasC (c : Dev nD) : S1x21.Idx → EReal := V c main_v43
abbrev biasD (c : Dev nD) : S1x21.Idx → EReal := V c main_v44

end Arrays

/-! ## The first head -/

section HeadC

variable (V : (c : Dev nD) → (b : Ref sig .tc) → Buf (Elt Ideal) ((c : Thread nD τ).loc b))

/-- One step's product of the point's blocks is that step's share of the whole product. -/
theorem stepC (c : Dev nD) (p : Fin cfg2.N) (m : Fin 4) (hm : p.val % 4 = m.val) (r : Fin 512) (n : Fin 21) (R : Fin 2048)
    (hR : R.val = 512 * (p.val / 4) + r.val) (a : Vec Ideal S512x1024 .bf16) (b : Vec Ideal S1024x21 .bf16)
    (ha : a = iblk2 V c 0 p) (hb : b = iblk2 V c 1 p) :
    ∑ k : Fin 1024, (a : S512x1024.Idx → EReal) (ix2 r k) * (b : S1024x21.Idx → EReal) (ix2 k n)
      = part (actA V c) (wgtC V c) R n m := by
  subst ha hb
  unfold part
  exact Finset.sum_congr rfl fun k _ => congrArg₂ (fun x y : EReal => x * y)
    (blk0_apply V c p r k R (col m k) hR (by rw [col_val, hm])) (blk1_apply V c p k n (col m k) (by rw [col_val, hm]))

/-- The accumulator after a point with k = 0: the zero word plus the first share; -/
theorem accC_0 (c : Dev nD) (p : Fin cfg2.N) (hp : p.val % 4 = 0) (r : Fin 512) (n : Fin 21) (R : Fin 2048)
    (hR : R.val = 512 * (p.val / 4) + r.val) :
    (accC2 (F := Ideal) V c p : S512x21.Idx → EReal) (ix2 r n) = zeroW + part (actA V c) (wgtC V c) R n 0 := by
  rw [accC2_first V c p hp]
  exact (pay3_apply _ (iblk2 V c 0 p) (iblk2 V c 1 p) r n).trans
    (congrArg₂ (fun x y : EReal => x + y) (pay1_apply r n) (stepC V c p 0 hp r n R hR _ _ rfl rfl))

/-- with k = 1: that plus the second share; -/
theorem accC_1 (c : Dev nD) (p : Fin cfg2.N) (hp : p.val % 4 = 1) (r : Fin 512) (n : Fin 21) (R : Fin 2048)
    (hR : R.val = 512 * (p.val / 4) + r.val) :
    (accC2 (F := Ideal) V c p : S512x21.Idx → EReal) (ix2 r n)
      = (zeroW + part (actA V c) (wgtC V c) R n 0) + part (actA V c) (wgtC V c) R n 1 := by
  have hq : (prev2 p).val = p.val - 1 := rfl
  rw [accC2_next V c p (by omega)]
  exact (pay3_apply (accC2 V c (prev2 p)) (iblk2 V c 0 p) (iblk2 V c 1 p) r n).trans
    (congrArg₂ (fun x y : EReal => x + y) (accC_0 V c (prev2 p) (by rw [hq]; omega) r n R (by rw [hq, hR]; omega))
      (stepC V c p 1 hp r n R hR _ _ rfl rfl))

/-- with k = 2: that plus the third; -/
theorem accC_2 (c : Dev nD) (p : Fin cfg2.N) (hp : p.val % 4 = 2) (r : Fin 512) (n : Fin 21) (R : Fin 2048)
    (hR : R.val = 512 * (p.val / 4) + r.val) :
    (accC2 (F := Ideal) V c p : S512x21.Idx → EReal) (ix2 r n)
      = ((zeroW + part (actA V c) (wgtC V c) R n 0) + part (actA V c) (wgtC V c) R n 1) + part (actA V c) (wgtC V c) R n 2 := by
  have hq : (prev2 p).val = p.val - 1 := rfl
  rw [accC2_next V c p (by omega)]
  exact (pay3_apply (accC2 V c (prev2 p)) (iblk2 V c 0 p) (iblk2 V c 1 p) r n).trans
    (congrArg₂ (fun x y : EReal => x + y) (accC_1 V c (prev2 p) (by rw [hq]; omega) r n R (by rw [hq, hR]; omega))
      (stepC V c p 2 hp r n R hR _ _ rfl rfl))

/-- with k = 3: that plus the fourth — the whole product of row R of the activations with column n of the weights. -/
theorem accC_3 (c : Dev nD) (p : Fin cfg2.N) (hp : p.val % 4 = 3) (r : Fin 512) (n : Fin 21) (R : Fin 2048)
    (hR : R.val = 512 * (p.val / 4) + r.val) :
    (accC2 (F := Ideal) V c p : S512x21.Idx → EReal) (ix2 r n) = ∑ d : Fin 4096, actA V c (ix2 R d) * wgtC V c (ix2 d n) := by
  have hq : (prev2 p).val = p.val - 1 := rfl
  rw [accC2_next V c p (by omega), parts_eq]
  refine (pay3_apply (accC2 V c (prev2 p)) (iblk2 V c 0 p) (iblk2 V c 1 p) r n).trans
    (congrArg₂ (fun x y : EReal => x + y) ((accC_2 V c (prev2 p) (by rw [hq]; omega) r n R (by rw [hq, hR]; omega)).trans ?_)
      (stepC V c p 3 hp r n R hR _ _ rfl rfl))
  show ((Ideal.ofBits .f32 0x00000000#32 + _) + _) + _ = _
  rw [Ideal.ofBits_zero_f32, zero_add]

/-- What the head's output array ends holding: one dense layer of the activations, the head's weights and its bias row. -/
def outC (c : Dev nD) : S2048x21.Idx → EReal := fun i =>
  dense (fun r d => actA V c (ix2 r d)) (fun d n => wgtC V c (ix2 d n)) (fun n => biasC V c (ix2 (0 : Fin 1) n)) (i 0 : Fin 2048) (i 1 : Fin 21)

/-- What a point with k = 3 writes back is its block of that array: rows 512·(t/4) …, all 21 columns. -/
theorem flushedC_eq (c : Dev nD) (t : Fin cfg2.N) (hf : (cfg2.win 5).flush t = true) :
    (dat2 (F := Ideal) V c).flushed 5 t = ((cfg2.win 5).blk t).view.read (Elt Ideal) (outC V c) := by
  have hk : t.val % 4 = 3 := (flush2_5 t).mp hf
  have hN : cfg2.N = 16 := N_2
  obtain ⟨-, -, -, -, -, -, -, -, -, -, e0, e1, -⟩ := idx2 t
  show (cfg2.win 5).cut (grid2.coords t) ((dat2 V c).after 5 t) = _
  rw [after2_5]
  funext j
  obtain ⟨r, n, rfl⟩ : ∃ (r : Fin 512) (n : Fin 21), j = ix2 r n := ⟨j 0, j 1, eq_ix2 j⟩
  have hr : 512 * (t.val / 4) + r.val < 2048 := by have := t.isLt; have := r.isLt; omega
  have hemb : ((cfg2.win 5).blk t).view.emb (ix2 r n) = (ix2 (⟨512 * (t.val / 4) + r.val, hr⟩ : Fin 2048) n : S2048x21.Idx) := by
    funext a
    apply Fin.ext
    match a with
    | ⟨0, _⟩ => show win2_5.index t (0 : Fin 2) * 512 + 1 * r.val = 512 * (t.val / 4) + r.val; rw [e0]; omega
    | ⟨1, _⟩ => show win2_5.index t (1 : Fin 2) * 21 + 1 * n.val = n.val; rw [e1]; omega
  show (k2_pay5 (accC2 V c t) (iblk2 V c 3 t) : S512x21.Idx → EReal) (ix2 r n) = outC V c (((cfg2.win 5).blk t).view.emb (ix2 r n))
  rw [hemb]
  refine (pay5_apply (accC2 V c t) (iblk2 V c 3 t) r n).trans ?_
  rw [accC_3 V c t hk r n ⟨_, hr⟩ rfl, blk3_apply V c t n]
  rfl

/-- Row r is written at the point 4·(r / 512) + 3, so the write-backs cover the array, which ends at the dense layer. -/
theorem finalC (c : Dev nD) : (dat2 (F := Ideal) V c).arrAt 5 cfg2.N = outC V c :=
  (dat2 V c).arrAt_eq_of_cover 5 (outC V c) (flushedC_eq V c) fun i => by
    have hN : cfg2.N = 16 := N_2
    have h0 : (i 0).val < 2048 := (i 0).isLt
    have h1 : (i 1).val < 21 := (i 1).isLt
    obtain ⟨t, ht⟩ : ∃ t : Fin cfg2.N, t.val = 4 * ((i 0).val / 512) + 3 := ⟨⟨4 * ((i 0).val / 512) + 3, by omega⟩, rfl⟩
    obtain ⟨-, -, -, -, -, -, -, -, -, -, e0, e1, -⟩ := idx2 t
    refine ⟨t, (flush2_5 t).mpr (by omega), ?_⟩
    show i ∈ ((View.whole main_v45_0).slice (win2_5.rect t)).set
    rw [View.set_slice_whole, Rect.mem_set_unit]
    intro a
    match a with
    | ⟨0, _⟩ =>
      show win2_5.index t (0 : Fin 2) * 512 ≤ (i 0).val ∧ (i 0).val < win2_5.index t (0 : Fin 2) * 512 + 512
      rw [e0]; omega
    | ⟨1, _⟩ =>
      show win2_5.index t (1 : Fin 2) * 21 ≤ (i 1).val ∧ (i 1).val < win2_5.index t (1 : Fin 2) * 21 + 21
      rw [e1]; omega

end HeadC

/-! ## The second head -/

section HeadD

variable (V : (c : Dev nD) → (b : Ref sig .tc) → Buf (Elt Ideal) ((c : Thread nD τ).loc b))

/-- One step's product of the point's blocks is that step's share of the whole product. -/
theorem stepD (c : Dev nD) (p : Fin cfg2.N) (m : Fin 4) (hm : p.val % 4 = m.val) (r : Fin 512) (n : Fin 21) (R : Fin 2048)
    (hR : R.val = 512 * (p.val / 4) + r.val) (a : Vec Ideal S512x1024 .bf16) (b : Vec Ideal S1024x21 .bf16)
    (ha : a = iblk2 V c 0 p) (hb : b = iblk2 V c 2 p) :
    ∑ k : Fin 1024, (a : S512x1024.Idx → EReal) (ix2 r k) * (b : S1024x21.Idx → EReal) (ix2 k n)
      = part (actA V c) (wgtD V c) R n m := by
  subst ha hb
  unfold part
  exact Finset.sum_congr rfl fun k _ => congrArg₂ (fun x y : EReal => x * y)
    (blk0_apply V c p r k R (col m k) hR (by rw [col_val, hm])) (blk2_apply V c p k n (col m k) (by rw [col_val, hm]))

/-- The accumulator after a point with k = 0: the zero word plus the first share; -/
theorem accD_0 (c : Dev nD) (p : Fin cfg2.N) (hp : p.val % 4 = 0) (r : Fin 512) (n : Fin 21) (R : Fin 2048)
    (hR : R.val = 512 * (p.val / 4) + r.val) :
    (accD2 (F := Ideal) V c p : S512x21.Idx → EReal) (ix2 r n) = zeroW + part (actA V c) (wgtD V c) R n 0 := by
  rw [accD2_first V c p hp]
  exact (pay4_apply _ (iblk2 V c 0 p) (iblk2 V c 2 p) r n).trans
    (congrArg₂ (fun x y : EReal => x + y) (pay2_apply r n) (stepD V c p 0 hp r n R hR _ _ rfl rfl))

/-- with k = 1: that plus the second share; -/
theorem accD_1 (c : Dev nD) (p : Fin cfg2.N) (hp : p.val % 4 = 1) (r : Fin 512) (n : Fin 21) (R : Fin 2048)
    (hR : R.val = 512 * (p.val / 4) + r.val) :
    (accD2 (F := Ideal) V c p : S512x21.Idx → EReal) (ix2 r n)
      = (zeroW + part (actA V c) (wgtD V c) R n 0) + part (actA V c) (wgtD V c) R n 1 := by
  have hq : (prev2 p).val = p.val - 1 := rfl
  rw [accD2_next V c p (by omega)]
  exact (pay4_apply (accD2 V c (prev2 p)) (iblk2 V c 0 p) (iblk2 V c 2 p) r n).trans
    (congrArg₂ (fun x y : EReal => x + y) (accD_0 V c (prev2 p) (by rw [hq]; omega) r n R (by rw [hq, hR]; omega))
      (stepD V c p 1 hp r n R hR _ _ rfl rfl))

/-- with k = 2: that plus the third; -/
theorem accD_2 (c : Dev nD) (p : Fin cfg2.N) (hp : p.val % 4 = 2) (r : Fin 512) (n : Fin 21) (R : Fin 2048)
    (hR : R.val = 512 * (p.val / 4) + r.val) :
    (accD2 (F := Ideal) V c p : S512x21.Idx → EReal) (ix2 r n)
      = ((zeroW + part (actA V c) (wgtD V c) R n 0) + part (actA V c) (wgtD V c) R n 1) + part (actA V c) (wgtD V c) R n 2 := by
  have hq : (prev2 p).val = p.val - 1 := rfl
  rw [accD2_next V c p (by omega)]
  exact (pay4_apply (accD2 V c (prev2 p)) (iblk2 V c 0 p) (iblk2 V c 2 p) r n).trans
    (congrArg₂ (fun x y : EReal => x + y) (accD_1 V c (prev2 p) (by rw [hq]; omega) r n R (by rw [hq, hR]; omega))
      (stepD V c p 2 hp r n R hR _ _ rfl rfl))

/-- with k = 3: that plus the fourth — the whole product of row R of the activations with column n of the weights. -/
theorem accD_3 (c : Dev nD) (p : Fin cfg2.N) (hp : p.val % 4 = 3) (r : Fin 512) (n : Fin 21) (R : Fin 2048)
    (hR : R.val = 512 * (p.val / 4) + r.val) :
    (accD2 (F := Ideal) V c p : S512x21.Idx → EReal) (ix2 r n) = ∑ d : Fin 4096, actA V c (ix2 R d) * wgtD V c (ix2 d n) := by
  have hq : (prev2 p).val = p.val - 1 := rfl
  rw [accD2_next V c p (by omega), parts_eq]
  refine (pay4_apply (accD2 V c (prev2 p)) (iblk2 V c 0 p) (iblk2 V c 2 p) r n).trans
    (congrArg₂ (fun x y : EReal => x + y) ((accD_2 V c (prev2 p) (by rw [hq]; omega) r n R (by rw [hq, hR]; omega)).trans ?_)
      (stepD V c p 3 hp r n R hR _ _ rfl rfl))
  show ((Ideal.ofBits .f32 0x00000000#32 + _) + _) + _ = _
  rw [Ideal.ofBits_zero_f32, zero_add]

/-- What the head's output array ends holding: one dense layer of the activations, the head's weights and its bias row. -/
def outD (c : Dev nD) : S2048x21.Idx → EReal := fun i =>
  dense (fun r d => actA V c (ix2 r d)) (fun d n => wgtD V c (ix2 d n)) (fun n => biasD V c (ix2 (0 : Fin 1) n)) (i 0 : Fin 2048) (i 1 : Fin 21)

/-- What a point with k = 3 writes back is its block of that array: rows 512·(t/4) …, all 21 columns. -/
theorem flushedD_eq (c : Dev nD) (t : Fin cfg2.N) (hf : (cfg2.win 6).flush t = true) :
    (dat2 (F := Ideal) V c).flushed 6 t = ((cfg2.win 6).blk t).view.read (Elt Ideal) (outD V c) := by
  have hk : t.val % 4 = 3 := (flush2_6 t).mp hf
  have hN : cfg2.N = 16 := N_2
  obtain ⟨-, -, -, -, -, -, -, -, -, -, -, -, e0, e1⟩ := idx2 t
  show (cfg2.win 6).cut (grid2.coords t) ((dat2 V c).after 6 t) = _
  rw [after2_6]
  funext j
  obtain ⟨r, n, rfl⟩ : ∃ (r : Fin 512) (n : Fin 21), j = ix2 r n := ⟨j 0, j 1, eq_ix2 j⟩
  have hr : 512 * (t.val / 4) + r.val < 2048 := by have := t.isLt; have := r.isLt; omega
  have hemb : ((cfg2.win 6).blk t).view.emb (ix2 r n) = (ix2 (⟨512 * (t.val / 4) + r.val, hr⟩ : Fin 2048) n : S2048x21.Idx) := by
    funext a
    apply Fin.ext
    match a with
    | ⟨0, _⟩ => show win2_6.index t (0 : Fin 2) * 512 + 1 * r.val = 512 * (t.val / 4) + r.val; rw [e0]; omega
    | ⟨1, _⟩ => show win2_6.index t (1 : Fin 2) * 21 + 1 * n.val = n.val; rw [e1]; omega
  show (k2_pay6 (accD2 V c t) (iblk2 V c 4 t) : S512x21.Idx → EReal) (ix2 r n) = outD V c (((cfg2.win 6).blk t).view.emb (ix2 r n))
  rw [hemb]
  refine (pay6_apply (accD2 V c t) (iblk2 V c 4 t) r n).trans ?_
  rw [accD_3 V c t hk r n ⟨_, hr⟩ rfl, blk4_apply V c t n]
  rfl

/-- Row r is written at the point 4·(r / 512) + 3, so the write-backs cover the array, which ends at the dense layer. -/
theorem finalD (c : Dev nD) : (dat2 (F := Ideal) V c).arrAt 6 cfg2.N = outD V c :=
  (dat2 V c).arrAt_eq_of_cover 6 (outD V c) (flushedD_eq V c) fun i => by
    have hN : cfg2.N = 16 := N_2
    have h0 : (i 0).val < 2048 := (i 0).isLt
    have h1 : (i 1).val < 21 := (i 1).isLt
    obtain ⟨t, ht⟩ : ∃ t : Fin cfg2.N, t.val = 4 * ((i 0).val / 512) + 3 := ⟨⟨4 * ((i 0).val / 512) + 3, by omega⟩, rfl⟩
    obtain ⟨-, -, -, -, -, -, -, -, -, -, -, -, e0, e1⟩ := idx2 t
    refine ⟨t, (flush2_6 t).mpr (by omega), ?_⟩
    show i ∈ ((View.whole main_v45_1).slice (win2_6.rect t)).set
    rw [View.set_slice_whole, Rect.mem_set_unit]
    intro a
    match a with
    | ⟨0, _⟩ =>
      show win2_6.index t (0 : Fin 2) * 512 ≤ (i 0).val ∧ (i 0).val < win2_6.index t (0 : Fin 2) * 512 + 512
      rw [e0]; omega
    | ⟨1, _⟩ =>
      show win2_6.index t (1 : Fin 2) * 21 ≤ (i 1).val ∧ (i 1).val < win2_6.index t (1 : Fin 2) * 21 + 21
      rw [e1]; omega

end HeadD

/-! ## The region's two output arrays -/

open Idealize.ShloMosaic.ValueIdx in
/-- After the region the first head's scores are one dense layer of the activations it found: relu of the row's
    product with the head's weights plus its bias. -/
theorem final2_c (V : (c : Dev nD) → (b : Ref sig .tc) → Buf (Elt Ideal) ((c : Thread nD τ).loc b)) (c : Dev nD) (r : Fin 2048) (n : Fin 21) :
    ((dat2 (F := Ideal) V c).arrAt 5 cfg2.N : S2048x21.Idx → EReal) (ix2 r n)
      = Cert.ValSpec.dense (fun r d => (V c main_v42 : S2048x4096.Idx → EReal) (ix2 r d)) (fun d n => (V c main_v36 : S4096x21.Idx → EReal) (ix2 d n))
          (fun n => (V c main_v43 : S1x21.Idx → EReal) (ix2 0 n)) r n :=
  congrFun (finalC V c) (ix2 r n)

open Idealize.ShloMosaic.ValueIdx in
/-- And the second head's, with its own weights and bias. -/
theorem final2_d (V : (c : Dev nD) → (b : Ref sig .tc) → Buf (Elt Ideal) ((c : Thread nD τ).loc b)) (c : Dev nD) (r : Fin 2048) (n : Fin 21) :
    ((dat2 (F := Ideal) V c).arrAt 6 cfg2.N : S2048x21.Idx → EReal) (ix2 r n)
      = Cert.ValSpec.dense (fun r d => (V c main_v42 : S2048x4096.Idx → EReal) (ix2 r d)) (fun d n => (V c main_v38 : S4096x21.Idx → EReal) (ix2 d n))
          (fun n => (V c main_v44 : S1x21.Idx → EReal) (ix2 0 n)) r n :=
  congrFun (finalD V c) (ix2 r n)

end Cert.KernelIdeal.Hand
end
-- ==== Proof.Val.KernelVal.lean ====
/-
  What the idealized kernel's run leaves in the arrays its three regions write, read at an index, at the ideal instance:
  region 0's output is one dense layer of the pooled features (the array the first host stretch hands it) with the
  first layer's stored weights read transposed and its bias; region 1's is a dense layer of that; each head's output
  in region 2 is a dense layer of region 1's output — so the two arrays the tail reads are the specification's `head`
  of the pooled features. Each step is the region's final-array lemma at the contents the region was entered from,
  with the host stretches' transposes and bias rows read at an index.
-/
import proofs.«142348_j11536282157274_1_alg».proof.Proof.KI.RunAll
import proofs.«142348_j11536282157274_1_alg».proof.Proof.Val.HostVals
import proofs.«142348_j11536282157274_1_alg».proof.Proof.Val.Final0
import proofs.«142348_j11536282157274_1_alg».proof.Proof.Val.Final1
import proofs.«142348_j11536282157274_1_alg».proof.Proof.Val.Final2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

section KernelVal

variable (m : (ℓ : Loc nD τ sig) → Buf (Elt Ideal) ℓ) (c : Dev nD)

/-- A dense layer depends on its three arguments only through their values. -/
theorem dense_congr {R D N : ℕ} {a a' : Fin R → Fin D → EReal} {w w' : Fin D → Fin N → EReal} {b b' : Fin N → EReal}
    (ha : ∀ r d, a r d = a' r d) (hw : ∀ d e, w d e = w' d e) (hb : ∀ e, b e = b' e) (r : Fin R) (e : Fin N) :
    ValSpec.dense a w b r e = ValSpec.dense a' w' b' r e := by
  have h1 : a = a' := funext fun r => funext (ha r)
  have h2 : w = w' := funext fun d => funext (hw d)
  have h3 : b = b' := funext hb
  rw [h1, h2, h3]

/-- The pooled features as region 0 finds them, as a function of row and feature. -/
def featV : Fin 2048 → Fin 4096 → EReal := fun r d => (V1 m c main_v30 : S2048x4096.Idx → EReal) (ix2 r d)

/-- Region 0's output array: the first dense layer of the pooled features. -/
theorem layer1 (r : Fin 2048) (e : Fin 4096) :
    (U3 m c main_v40 : S2048x4096.Idx → EReal) (ix2 r e)
      = ValSpec.dense (featV m c) (fun d e => (m ((c.tc : Thread nD τ).loc main_arg1) : S4096x4096.Idx → EReal) (ix2 e d)) (fun e => (m ((c.tc : Thread nD τ).loc main_arg2) : S4096.Idx → EReal) (ix1 e)) r e := by
  have e1 : U3 m c main_v40 = (dat0 (F := Ideal) (atTc (V1 m)) c).arrAt 3 cfg0.N :=
    (V3_of m (outsH m) c main_v40 (by decide)).trans (hF0_3 m c).symm
  refine (congrFun e1 _).trans ((final0 (atTc (V1 m)) c r e).trans ?_)
  exact dense_congr (fun _ _ => rfl) (fun d e => V1_main_v32 m c d e) (fun e => V1_main_v39 m c 0 e) r e

/-- Region 1's output array: the second dense layer, of region 0's output. -/
theorem layer2 (r : Fin 2048) (e : Fin 4096) :
    (U5 m c main_v42 : S2048x4096.Idx → EReal) (ix2 r e)
      = ValSpec.dense (fun r d => (U3 m c main_v40 : S2048x4096.Idx → EReal) (ix2 r d))
          (fun d e => (m ((c.tc : Thread nD τ).loc main_arg3) : S4096x4096.Idx → EReal) (ix2 e d)) (fun e => (m ((c.tc : Thread nD τ).loc main_arg4) : S4096.Idx → EReal) (ix1 e)) r e := by
  have e1 : U5 m c main_v42 = (dat1 (F := Ideal) (atTc (U3 m)) c).arrAt 3 cfg1.N :=
    (V5_of m (outsH m) c main_v42 (by decide)).trans (hF1_3 m c).symm
  refine (congrFun e1 _).trans ((final1 (atTc (U3 m)) c r e).trans ?_)
  exact dense_congr (fun _ _ => rfl)
    (fun d e => (congrFun (V3_main_v34 m (outsH m) c) _).trans (V1_main_v34 m c d e))
    (fun e => V3_main_v41 m (outsH m) c 0 e) r e

/-- The first head's output array: a dense layer of region 1's output. -/
theorem layer3c (r : Fin 2048) (n : Fin 21) :
    (V6 m (outsH m) c main_v45_0 : S2048x21.Idx → EReal) (ix2 r n)
      = ValSpec.dense (fun r d => (U5 m c main_v42 : S2048x4096.Idx → EReal) (ix2 r d))
          (fun d n => (m ((c.tc : Thread nD τ).loc main_arg5) : S21x4096.Idx → EReal) (ix2 n d)) (fun n => (m ((c.tc : Thread nD τ).loc main_arg6) : S21.Idx → EReal) (ix1 n)) r n := by
  refine (congrFun (hF2_5 m c).symm _).trans ((final2_c (atTc (U5 m)) c r n).trans ?_)
  exact dense_congr (fun _ _ => rfl)
    (fun d n => (congrFun (V5_main_v36 m (outsH m) c) _).trans (V1_main_v36 m c d n))
    (fun n => V5_main_v43 m (outsH m) c 0 n) r n

/-- The second head's output array. -/
theorem layer3d (r : Fin 2048) (n : Fin 21) :
    (V6 m (outsH m) c main_v45_1 : S2048x21.Idx → EReal) (ix2 r n)
      = ValSpec.dense (fun r d => (U5 m c main_v42 : S2048x4096.Idx → EReal) (ix2 r d))
          (fun d n => (m ((c.tc : Thread nD τ).loc main_arg7) : S21x4096.Idx → EReal) (ix2 n d)) (fun n => (m ((c.tc : Thread nD τ).loc main_arg8) : S21.Idx → EReal) (ix1 n)) r n := by
  refine (congrFun (hF2_6 m c).symm _).trans ((final2_d (atTc (U5 m)) c r n).trans ?_)
  exact dense_congr (fun _ _ => rfl)
    (fun d n => (congrFun (V5_main_v38 m (outsH m) c) _).trans (V1_main_v38 m c d n))
    (fun n => V5_main_v44 m (outsH m) c 0 n) r n

/-- The two arrays the tail reads are the specification's heads of the pooled features. -/
theorem head_c (r : Fin 2048) (n : Fin 21) :
    (V6 m (outsH m) c main_v45_0 : S2048x21.Idx → EReal) (ix2 r n)
      = ValSpec.head (featV m c) (fun e d => (m ((c.tc : Thread nD τ).loc main_arg1) : S4096x4096.Idx → EReal) (ix2 e d)) (fun e => (m ((c.tc : Thread nD τ).loc main_arg2) : S4096.Idx → EReal) (ix1 e))
          (fun e d => (m ((c.tc : Thread nD τ).loc main_arg3) : S4096x4096.Idx → EReal) (ix2 e d)) (fun e => (m ((c.tc : Thread nD τ).loc main_arg4) : S4096.Idx → EReal) (ix1 e))
          (fun n d => (m ((c.tc : Thread nD τ).loc main_arg5) : S21x4096.Idx → EReal) (ix2 n d)) (fun n => (m ((c.tc : Thread nD τ).loc main_arg6) : S21.Idx → EReal) (ix1 n)) r n := by
  rw [layer3c m c r n]
  unfold ValSpec.head
  exact dense_congr (fun r d => (layer2 m c r d).trans (dense_congr (fun r d => layer1 m c r d) (fun _ _ => rfl) (fun _ => rfl) r d))
    (fun _ _ => rfl) (fun _ => rfl) r n

theorem head_d (r : Fin 2048) (n : Fin 21) :
    (V6 m (outsH m) c main_v45_1 : S2048x21.Idx → EReal) (ix2 r n)
      = ValSpec.head (featV m c) (fun e d => (m ((c.tc : Thread nD τ).loc main_arg1) : S4096x4096.Idx → EReal) (ix2 e d)) (fun e => (m ((c.tc : Thread nD τ).loc main_arg2) : S4096.Idx → EReal) (ix1 e))
          (fun e d => (m ((c.tc : Thread nD τ).loc main_arg3) : S4096x4096.Idx → EReal) (ix2 e d)) (fun e => (m ((c.tc : Thread nD τ).loc main_arg4) : S4096.Idx → EReal) (ix1 e))
          (fun n d => (m ((c.tc : Thread nD τ).loc main_arg7) : S21x4096.Idx → EReal) (ix2 n d)) (fun n => (m ((c.tc : Thread nD τ).loc main_arg8) : S21.Idx → EReal) (ix1 n)) r n := by
  rw [layer3d m c r n]
  unfold ValSpec.head
  exact dense_congr (fun r d => (layer2 m c r d).trans (dense_congr (fun r d => layer1 m c r d) (fun _ _ => rfl) (fun _ => rfl) r d))
    (fun _ _ => rfl) (fun _ => rfl) r n

end KernelVal

end Cert.KernelIdeal.Hand

end
-- ==== Proof.Val.Glue.lean ====
/-
  Layout facts at literal coordinates, at the ideal instance, for comparing the two programs' last steps.
  An array with a leading unit axis is determined by its values at (0, r, n). Adding or dropping a leading unit
  axis by a reshape keeps the row-major position, so the 1×a×b array at (0, r, n) is the a×b array at (r, n).
  A broadcast of an a×b array into 1×a×b along the last two axes reads the operand at the same (r, n). Narrowing
  a float to a shorter format is the identity on the extended reals.
-/
import proofs.«142348_j11536282157274_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ## Extensionality over a leading unit axis -/

/-- Two 1×2048×21 arrays that agree at every (0, r, n) are equal: the first coordinate of an index is 0. -/
theorem ext_1x2048x21 {α : Type} (f g : S1x2048x21.Idx → α)
    (h : ∀ (r : Fin 2048) (n : Fin 21), f (ix3 0 r n) = g (ix3 0 r n)) : f = g := by
  funext j
  have h0 : j 0 = (0 : Fin 1) := Fin.ext (Nat.lt_one_iff.mp (j 0).isLt)
  rw [eq_ix3 j, h0]
  exact h _ _

/-- Two 1×2048×4096 arrays that agree at every (0, r, d) are equal. -/
theorem ext_1x2048x4096 {α : Type} (f g : S1x2048x4096.Idx → α)
    (h : ∀ (r : Fin 2048) (d : Fin 4096), f (ix3 0 r d) = g (ix3 0 r d)) : f = g := by
  funext j
  have h0 : j 0 = (0 : Fin 1) := Fin.ext (Nat.lt_one_iff.mp (j 0).isLt)
  rw [eq_ix3 j, h0]
  exact h _ _

/-! ## A leading unit axis added or dropped by a reshape -/

/-- The 2048×21 scores laid out 1×2048×21 read, at (0, r, n), the scores at (r, n). -/
theorem reshape_2048x21_apply (o : FVec Ideal S2048x21 .f32) (r : Fin 2048) (n : Fin 21) :
    (shapeCast S1x2048x21 o shapeCasts_S2048x21_S1x2048x21 : S1x2048x21.Idx → EReal) (ix3 0 r n) = o (ix2 r n) :=
  shapeCast_ab_1ab_apply o shapeCasts_S2048x21_S1x2048x21 0 r n

/-- A 1×2048×4096 array laid out 2048×4096 and narrowed reads, at (r, d), the array at (0, r, d). -/
theorem narrow_reshape_1x2048x4096_apply (z : FVec Ideal S1x2048x4096 .f32) (r : Fin 2048) (d : Fin 4096) :
    (truncf .bf16 (shapeCast S2048x4096 z shapeCasts_S1x2048x4096_S2048x4096) bitsLt_bf16_f32 : S2048x4096.Idx → EReal) (ix2 r d)
      = z (ix3 0 r d) :=
  (truncf_apply (ψ := .bf16) (shapeCast S2048x4096 z shapeCasts_S1x2048x4096_S2048x4096) bitsLt_bf16_f32 (ix2 r d)).trans
    (shapeCast_1ab_ab_apply z shapeCasts_S1x2048x4096_S2048x4096 r d)

/-! ## The broadcast into a leading unit axis -/

/-- A 2048×4096 array broadcast into 1×2048×4096 along the last two axes reads, at (0, r, d), the array at (r, d). -/
theorem bcast_2048x4096_apply (y : FVec Ideal S2048x4096 .f32) (r : Fin 2048) (d : Fin 4096) :
    (broadcastInDim S1x2048x4096 ![1, 2] bcast_S2048x4096_S1x2048x4096_1_2 y : S1x2048x4096.Idx → EReal) (ix3 0 r d)
      = y (ix2 r d) :=
  broadcastInDim_apply _ bcast_S2048x4096_S1x2048x4096_1_2 y (ix3 0 r d) (ix2 r d) (fun a => match a with
    | ⟨0, _⟩ => by show r.val = if (2048 : Nat) = 1 then 0 else r.val; rw [if_neg (by decide)]
    | ⟨1, _⟩ => by show d.val = if (4096 : Nat) = 1 then 0 else d.val; rw [if_neg (by decide)])

/-- The kernel's copy of the features — broadcast into 1×2048×4096, laid out 2048×4096 again, narrowed — reads, at
    (r, d), the features at (r, d). -/
theorem features_copy_apply (y : FVec Ideal S2048x4096 .f32) (r : Fin 2048) (d : Fin 4096) :
    (truncf .bf16 (shapeCast S2048x4096 (broadcastInDim S1x2048x4096 ![1, 2] bcast_S2048x4096_S1x2048x4096_1_2 y)
        shapeCasts_S1x2048x4096_S2048x4096) bitsLt_bf16_f32 : S2048x4096.Idx → EReal) (ix2 r d)
      = y (ix2 r d) :=
  (narrow_reshape_1x2048x4096_apply _ r d).trans (bcast_2048x4096_apply y r d)

end Cert.KernelIdeal.Hand

end
-- ==== Proof.Val.RefMid.lean ====
/-
  The reference's last three layers as one function of its operands: from the pooled 2048×4096 features y, the two
  square layers' stored 4096×4096 weights and 4096 biases, and one head's stored 21×4096 weights and 21 biases, the
  1×2048×21 scores — operation for operation as the reference prints them: the features given a leading unit axis; per
  layer a product contracting the features' last axis with the stored weights' last axis (so the weights are read
  transposed), the bias broadcast along the rows, their sum, and the maximum with a broadcast zero. Read at (0, r, n) over
  the extended reals it is three dense layers with relu, one inside the other.
-/
import proofs.«142348_j11536282157274_1_alg».proof.Proof.Gen.ReferenceIdeal
import proofs.«142348_j11536282157274_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.ValueIdx
open Cert.ValSpec (zeroW dense)

section Defs

variable {F : FTy → Type} [FloatOps F]

/-- One square layer as printed: the product with the stored weights (contracting both last axes), plus the bias
    broadcast to every row, cut below at a broadcast zero. -/
def layerR (x : FVec F S1x2048x4096 .f32) (w : FVec F S4096x4096 .f32) (b : FVec F S4096 .f32) : FVec F S1x2048x4096 .f32 :=
  maximumf
    (addf (Host.dotGeneral (F := F) dot_S1x2048x4096_S4096x4096_S1x2048x4096_2_1_01_0_n_n none x w)
      (broadcastInDim S1x2048x4096 ![0, 1, 2] bcast_S1x1x4096_S1x2048x4096_0_1_2 (broadcastInDim S1x1x4096 ![2] bcast_S4096_S1x1x4096_2 b)))
    (broadcastInDim S1x2048x4096 ![] bcast_S_S1x2048x4096 (constant (F := F) S_ .f32 0x00000000#32))

/-- One head's layer as printed: the same with 21 outputs. -/
def headR (x : FVec F S1x2048x4096 .f32) (w : FVec F S21x4096 .f32) (b : FVec F S21 .f32) : FVec F S1x2048x21 .f32 :=
  maximumf
    (addf (Host.dotGeneral (F := F) dot_S1x2048x4096_S21x4096_S1x2048x21_2_1_01_0_n_n none x w)
      (broadcastInDim S1x2048x21 ![0, 1, 2] bcast_S1x1x21_S1x2048x21_0_1_2 (broadcastInDim S1x1x21 ![2] bcast_S21_S1x1x21_2 b)))
    (broadcastInDim S1x2048x21 ![] bcast_S_S1x2048x21 (constant (F := F) S_ .f32 0x00000000#32))

/-- The three layers from the pooled features to one head's scores. -/
def midR (y : FVec F S2048x4096 .f32) (w6 : FVec F S4096x4096 .f32) (b6 : FVec F S4096 .f32) (w7 : FVec F S4096x4096 .f32)
    (b7 : FVec F S4096 .f32) (w8 : FVec F S21x4096 .f32) (b8 : FVec F S21 .f32) : FVec F S1x2048x21 .f32 :=
  headR (layerR (layerR (broadcastInDim S1x2048x4096 ![1, 2] bcast_S2048x4096_S1x2048x4096_1_2 y) w6 b6) w7 b7) w8 b8

/-- The same as one nested term of the printed operations. -/
theorem midR_eq (y : FVec F S2048x4096 .f32) (w6 : FVec F S4096x4096 .f32) (b6 : FVec F S4096 .f32) (w7 : FVec F S4096x4096 .f32)
    (b7 : FVec F S4096 .f32) (w8 : FVec F S21x4096 .f32) (b8 : FVec F S21 .f32) :
    midR y w6 b6 w7 b7 w8 b8
      = maximumf (addf (Host.dotGeneral (F := F) dot_S1x2048x4096_S21x4096_S1x2048x21_2_1_01_0_n_n none
          (maximumf (addf (Host.dotGeneral (F := F) dot_S1x2048x4096_S4096x4096_S1x2048x4096_2_1_01_0_n_n none
            (maximumf (addf (Host.dotGeneral (F := F) dot_S1x2048x4096_S4096x4096_S1x2048x4096_2_1_01_0_n_n none
                (broadcastInDim S1x2048x4096 ![1, 2] bcast_S2048x4096_S1x2048x4096_1_2 y) w6)
              (broadcastInDim S1x2048x4096 ![0, 1, 2] bcast_S1x1x4096_S1x2048x4096_0_1_2 (broadcastInDim S1x1x4096 ![2] bcast_S4096_S1x1x4096_2 b6)))
              (broadcastInDim S1x2048x4096 ![] bcast_S_S1x2048x4096 (constant (F := F) S_ .f32 0x00000000#32))) w7)
            (broadcastInDim S1x2048x4096 ![0, 1, 2] bcast_S1x1x4096_S1x2048x4096_0_1_2 (broadcastInDim S1x1x4096 ![2] bcast_S4096_S1x1x4096_2 b7)))
            (broadcastInDim S1x2048x4096 ![] bcast_S_S1x2048x4096 (constant (F := F) S_ .f32 0x00000000#32))) w8)
          (broadcastInDim S1x2048x21 ![0, 1, 2] bcast_S1x1x21_S1x2048x21_0_1_2 (broadcastInDim S1x1x21 ![2] bcast_S21_S1x1x21_2 b8)))
          (broadcastInDim S1x2048x21 ![] bcast_S_S1x2048x21 (constant (F := F) S_ .f32 0x00000000#32)) := rfl

end Defs

/-! ## The operations read at an index, over the extended reals -/

section Reads

/-- The features given a leading unit axis: (0, r, d) reads (r, d). -/
theorem lead_apply (y : FVec Ideal S2048x4096 .f32) (r : Fin 2048) (d : Fin 4096) :
    (broadcastInDim S1x2048x4096 ![1, 2] bcast_S2048x4096_S1x2048x4096_1_2 y : S1x2048x4096.Idx → EReal) (ix3 (0 : Fin 1) r d)
      = (y : S2048x4096.Idx → EReal) (ix2 r d) :=
  broadcastInDim_apply _ bcast_S2048x4096_S1x2048x4096_1_2 y (ix3 (0 : Fin 1) r d) (ix2 r d) (fun a => match a with
    | ⟨0, _⟩ => by show r.val = if (2048 : Nat) = 1 then 0 else r.val; rw [if_neg (by decide)]
    | ⟨1, _⟩ => by show d.val = if (4096 : Nat) = 1 then 0 else d.val; rw [if_neg (by decide)])

/-- A 4096 bias broadcast to 1×1×4096 and then to every row: (0, r, e) reads e. -/
theorem bias4096_apply (b : FVec Ideal S4096 .f32) (r : Fin 2048) (e : Fin 4096) :
    (broadcastInDim S1x2048x4096 ![0, 1, 2] bcast_S1x1x4096_S1x2048x4096_0_1_2 (broadcastInDim S1x1x4096 ![2] bcast_S4096_S1x1x4096_2 b) : S1x2048x4096.Idx → EReal)
        (ix3 (0 : Fin 1) r e) = (b : S4096.Idx → EReal) (ix1 e) :=
  (broadcastInDim_apply _ bcast_S1x1x4096_S1x2048x4096_0_1_2 (broadcastInDim S1x1x4096 ![2] bcast_S4096_S1x1x4096_2 b)
    (ix3 (0 : Fin 1) r e) (ix3 (0 : Fin 1) (0 : Fin 1) e) (fun a => match a with
    | ⟨0, _⟩ => by show 0 = if (1 : Nat) = 1 then 0 else 0; rw [if_pos rfl]
    | ⟨1, _⟩ => by show 0 = if (1 : Nat) = 1 then 0 else r.val; rw [if_pos rfl]
    | ⟨2, _⟩ => by show e.val = if (4096 : Nat) = 1 then 0 else e.val; rw [if_neg (by decide)])).trans
  (broadcastInDim_apply _ bcast_S4096_S1x1x4096_2 b (ix3 (0 : Fin 1) (0 : Fin 1) e) (ix1 e) (fun a => match a with
    | ⟨0, _⟩ => by show e.val = if (4096 : Nat) = 1 then 0 else e.val; rw [if_neg (by decide)]))

/-- A 21 bias likewise. -/
theorem bias21_apply (b : FVec Ideal S21 .f32) (r : Fin 2048) (n : Fin 21) :
    (broadcastInDim S1x2048x21 ![0, 1, 2] bcast_S1x1x21_S1x2048x21_0_1_2 (broadcastInDim S1x1x21 ![2] bcast_S21_S1x1x21_2 b) : S1x2048x21.Idx → EReal)
        (ix3 (0 : Fin 1) r n) = (b : S21.Idx → EReal) (ix1 n) :=
  (broadcastInDim_apply _ bcast_S1x1x21_S1x2048x21_0_1_2 (broadcastInDim S1x1x21 ![2] bcast_S21_S1x1x21_2 b)
    (ix3 (0 : Fin 1) r n) (ix3 (0 : Fin 1) (0 : Fin 1) n) (fun a => match a with
    | ⟨0, _⟩ => by show 0 = if (1 : Nat) = 1 then 0 else 0; rw [if_pos rfl]
    | ⟨1, _⟩ => by show 0 = if (1 : Nat) = 1 then 0 else r.val; rw [if_pos rfl]
    | ⟨2, _⟩ => by show n.val = if (21 : Nat) = 1 then 0 else n.val; rw [if_neg (by decide)])).trans
  (broadcastInDim_apply _ bcast_S21_S1x1x21_2 b (ix3 (0 : Fin 1) (0 : Fin 1) n) (ix1 n) (fun a => match a with
    | ⟨0, _⟩ => by show n.val = if (21 : Nat) = 1 then 0 else n.val; rw [if_neg (by decide)]))

/-- The square product's operand indices, axis by axis: the left operand is read at (batch, row, q), the stored weights at
    (output, q). -/
theorem dotS_lhs_0 (i : S1x2048x4096.Idx) (q : dot_S1x2048x4096_S4096x4096_S1x2048x4096_2_1_01_0_n_n.contr.Idx) :
    (dot_S1x2048x4096_S4096x4096_S1x2048x4096_2_1_01_0_n_n.lhsIdx i q 0).val = (i 0).val := by
  unfold DotDims.lhsIdx
  rw [dif_neg (show ¬(0 : Fin S1x2048x4096.rank) ∈ dot_S1x2048x4096_S4096x4096_S1x2048x4096_2_1_01_0_n_n.lhsBatch by decide),
    dif_pos (show (0 : Fin S1x2048x4096.rank) ∈ dot_S1x2048x4096_S4096x4096_S1x2048x4096_2_1_01_0_n_n.lhsNonContracting by decide)]
  rfl
theorem dotS_lhs_1 (i : S1x2048x4096.Idx) (q : dot_S1x2048x4096_S4096x4096_S1x2048x4096_2_1_01_0_n_n.contr.Idx) :
    (dot_S1x2048x4096_S4096x4096_S1x2048x4096_2_1_01_0_n_n.lhsIdx i q 1).val = (i 1).val := by
  unfold DotDims.lhsIdx
  rw [dif_neg (show ¬(1 : Fin S1x2048x4096.rank) ∈ dot_S1x2048x4096_S4096x4096_S1x2048x4096_2_1_01_0_n_n.lhsBatch by decide),
    dif_pos (show (1 : Fin S1x2048x4096.rank) ∈ dot_S1x2048x4096_S4096x4096_S1x2048x4096_2_1_01_0_n_n.lhsNonContracting by decide)]
  rfl
theorem dotS_lhs_2 (i : S1x2048x4096.Idx) (q : dot_S1x2048x4096_S4096x4096_S1x2048x4096_2_1_01_0_n_n.contr.Idx) :
    (dot_S1x2048x4096_S4096x4096_S1x2048x4096_2_1_01_0_n_n.lhsIdx i q 2).val = (q ⟨0, by decide⟩).val :=
  dot_S1x2048x4096_S4096x4096_S1x2048x4096_2_1_01_0_n_n.lhsIdx_val_of_single rfl i q
theorem dotS_rhs_0 (i : S1x2048x4096.Idx) (q : dot_S1x2048x4096_S4096x4096_S1x2048x4096_2_1_01_0_n_n.contr.Idx) :
    (dot_S1x2048x4096_S4096x4096_S1x2048x4096_2_1_01_0_n_n.rhsIdx i q 0).val = (i 2).val := by
  unfold DotDims.rhsIdx
  rw [dif_neg (show ¬(0 : Fin S4096x4096.rank) ∈ dot_S1x2048x4096_S4096x4096_S1x2048x4096_2_1_01_0_n_n.rhsBatch by decide),
    dif_pos (show (0 : Fin S4096x4096.rank) ∈ dot_S1x2048x4096_S4096x4096_S1x2048x4096_2_1_01_0_n_n.rhsNonContracting by decide)]
  rfl
theorem dotS_rhs_1 (i : S1x2048x4096.Idx) (q : dot_S1x2048x4096_S4096x4096_S1x2048x4096_2_1_01_0_n_n.contr.Idx) :
    (dot_S1x2048x4096_S4096x4096_S1x2048x4096_2_1_01_0_n_n.rhsIdx i q 1).val = (q ⟨0, by decide⟩).val :=
  dot_S1x2048x4096_S4096x4096_S1x2048x4096_2_1_01_0_n_n.rhsIdx_val_of_single rfl i q

/-- The square product at (0, r, e): row r of the left operand against row e of the stored weights. -/
theorem dotS_apply (x : FVec Ideal S1x2048x4096 .f32) (w : FVec Ideal S4096x4096 .f32) (r : Fin 2048) (e : Fin 4096) :
    (Host.dotGeneral (F := Ideal) dot_S1x2048x4096_S4096x4096_S1x2048x4096_2_1_01_0_n_n none x w : S1x2048x4096.Idx → EReal) (ix3 (0 : Fin 1) r e)
      = ∑ d : Fin 4096, (x : S1x2048x4096.Idx → EReal) (ix3 (0 : Fin 1) r d) * (w : S4096x4096.Idx → EReal) (ix2 e d) := by
  refine (Ideal.dotGeneral_apply (φ₁ := .f32) (φ₂ := .f32) dot_S1x2048x4096_S4096x4096_S1x2048x4096_2_1_01_0_n_n none .single x w (ix3 (0 : Fin 1) r e)).trans ?_
  rw [← Equiv.sum_comp (contrEquiv1 dot_S1x2048x4096_S4096x4096_S1x2048x4096_2_1_01_0_n_n 4096 rfl rfl).symm]
  refine Finset.sum_congr rfl fun k _ => ?_
  have hk := contrEquiv1_symm_val dot_S1x2048x4096_S4096x4096_S1x2048x4096_2_1_01_0_n_n 4096 rfl rfl k
  have el : dot_S1x2048x4096_S4096x4096_S1x2048x4096_2_1_01_0_n_n.lhsIdx (ix3 (0 : Fin 1) r e)
      ((contrEquiv1 dot_S1x2048x4096_S4096x4096_S1x2048x4096_2_1_01_0_n_n 4096 rfl rfl).symm k) = ix3 (0 : Fin 1) r k := funext fun a => Fin.ext (by
    match a with
    | ⟨0, _⟩ => exact dotS_lhs_0 _ _
    | ⟨1, _⟩ => exact dotS_lhs_1 _ _
    | ⟨2, _⟩ => exact (dotS_lhs_2 _ _).trans hk)
  have er : dot_S1x2048x4096_S4096x4096_S1x2048x4096_2_1_01_0_n_n.rhsIdx (ix3 (0 : Fin 1) r e)
      ((contrEquiv1 dot_S1x2048x4096_S4096x4096_S1x2048x4096_2_1_01_0_n_n 4096 rfl rfl).symm k) = ix2 e k := funext fun a => Fin.ext (by
    match a with
    | ⟨0, _⟩ => exact dotS_rhs_0 _ _
    | ⟨1, _⟩ => exact (dotS_rhs_1 _ _).trans hk)
  rw [el, er]

/-- The head's product's operand indices. -/
theorem dotH_lhs_0 (i : S1x2048x21.Idx) (q : dot_S1x2048x4096_S21x4096_S1x2048x21_2_1_01_0_n_n.contr.Idx) :
    (dot_S1x2048x4096_S21x4096_S1x2048x21_2_1_01_0_n_n.lhsIdx i q 0).val = (i 0).val := by
  unfold DotDims.lhsIdx
  rw [dif_neg (show ¬(0 : Fin S1x2048x4096.rank) ∈ dot_S1x2048x4096_S21x4096_S1x2048x21_2_1_01_0_n_n.lhsBatch by decide),
    dif_pos (show (0 : Fin S1x2048x4096.rank) ∈ dot_S1x2048x4096_S21x4096_S1x2048x21_2_1_01_0_n_n.lhsNonContracting by decide)]
  rfl
theorem dotH_lhs_1 (i : S1x2048x21.Idx) (q : dot_S1x2048x4096_S21x4096_S1x2048x21_2_1_01_0_n_n.contr.Idx) :
    (dot_S1x2048x4096_S21x4096_S1x2048x21_2_1_01_0_n_n.lhsIdx i q 1).val = (i 1).val := by
  unfold DotDims.lhsIdx
  rw [dif_neg (show ¬(1 : Fin S1x2048x4096.rank) ∈ dot_S1x2048x4096_S21x4096_S1x2048x21_2_1_01_0_n_n.lhsBatch by decide),
    dif_pos (show (1 : Fin S1x2048x4096.rank) ∈ dot_S1x2048x4096_S21x4096_S1x2048x21_2_1_01_0_n_n.lhsNonContracting by decide)]
  rfl
theorem dotH_lhs_2 (i : S1x2048x21.Idx) (q : dot_S1x2048x4096_S21x4096_S1x2048x21_2_1_01_0_n_n.contr.Idx) :
    (dot_S1x2048x4096_S21x4096_S1x2048x21_2_1_01_0_n_n.lhsIdx i q 2).val = (q ⟨0, by decide⟩).val :=
  dot_S1x2048x4096_S21x4096_S1x2048x21_2_1_01_0_n_n.lhsIdx_val_of_single rfl i q
theorem dotH_rhs_0 (i : S1x2048x21.Idx) (q : dot_S1x2048x4096_S21x4096_S1x2048x21_2_1_01_0_n_n.contr.Idx) :
    (dot_S1x2048x4096_S21x4096_S1x2048x21_2_1_01_0_n_n.rhsIdx i q 0).val = (i 2).val := by
  unfold DotDims.rhsIdx
  rw [dif_neg (show ¬(0 : Fin S21x4096.rank) ∈ dot_S1x2048x4096_S21x4096_S1x2048x21_2_1_01_0_n_n.rhsBatch by decide),
    dif_pos (show (0 : Fin S21x4096.rank) ∈ dot_S1x2048x4096_S21x4096_S1x2048x21_2_1_01_0_n_n.rhsNonContracting by decide)]
  rfl
theorem dotH_rhs_1 (i : S1x2048x21.Idx) (q : dot_S1x2048x4096_S21x4096_S1x2048x21_2_1_01_0_n_n.contr.Idx) :
    (dot_S1x2048x4096_S21x4096_S1x2048x21_2_1_01_0_n_n.rhsIdx i q 1).val = (q ⟨0, by decide⟩).val :=
  dot_S1x2048x4096_S21x4096_S1x2048x21_2_1_01_0_n_n.rhsIdx_val_of_single rfl i q

/-- The head's product at (0, r, n): row r of the left operand against row n of the stored weights. -/
theorem dotH_apply (x : FVec Ideal S1x2048x4096 .f32) (w : FVec Ideal S21x4096 .f32) (r : Fin 2048) (n : Fin 21) :
    (Host.dotGeneral (F := Ideal) dot_S1x2048x4096_S21x4096_S1x2048x21_2_1_01_0_n_n none x w : S1x2048x21.Idx → EReal) (ix3 (0 : Fin 1) r n)
      = ∑ d : Fin 4096, (x : S1x2048x4096.Idx → EReal) (ix3 (0 : Fin 1) r d) * (w : S21x4096.Idx → EReal) (ix2 n d) := by
  refine (Ideal.dotGeneral_apply (φ₁ := .f32) (φ₂ := .f32) dot_S1x2048x4096_S21x4096_S1x2048x21_2_1_01_0_n_n none .single x w (ix3 (0 : Fin 1) r n)).trans ?_
  rw [← Equiv.sum_comp (contrEquiv1 dot_S1x2048x4096_S21x4096_S1x2048x21_2_1_01_0_n_n 4096 rfl rfl).symm]
  refine Finset.sum_congr rfl fun k _ => ?_
  have hk := contrEquiv1_symm_val dot_S1x2048x4096_S21x4096_S1x2048x21_2_1_01_0_n_n 4096 rfl rfl k
  have el : dot_S1x2048x4096_S21x4096_S1x2048x21_2_1_01_0_n_n.lhsIdx (ix3 (0 : Fin 1) r n)
      ((contrEquiv1 dot_S1x2048x4096_S21x4096_S1x2048x21_2_1_01_0_n_n 4096 rfl rfl).symm k) = ix3 (0 : Fin 1) r k := funext fun a => Fin.ext (by
    match a with
    | ⟨0, _⟩ => exact dotH_lhs_0 _ _
    | ⟨1, _⟩ => exact dotH_lhs_1 _ _
    | ⟨2, _⟩ => exact (dotH_lhs_2 _ _).trans hk)
  have er : dot_S1x2048x4096_S21x4096_S1x2048x21_2_1_01_0_n_n.rhsIdx (ix3 (0 : Fin 1) r n)
      ((contrEquiv1 dot_S1x2048x4096_S21x4096_S1x2048x21_2_1_01_0_n_n 4096 rfl rfl).symm k) = ix2 n k := funext fun a => Fin.ext (by
    match a with
    | ⟨0, _⟩ => exact dotH_rhs_0 _ _
    | ⟨1, _⟩ => exact (dotH_rhs_1 _ _).trans hk)
  rw [el, er]

/-- A square layer read at (0, r, e) is one dense layer with relu of whatever its operand reads as. -/
theorem layerR_dense (x : FVec Ideal S1x2048x4096 .f32) (w : FVec Ideal S4096x4096 .f32) (b : FVec Ideal S4096 .f32)
    (a : Fin 2048 → Fin 4096 → EReal) (ha : ∀ r d, (x : S1x2048x4096.Idx → EReal) (ix3 (0 : Fin 1) r d) = a r d) (r : Fin 2048) (e : Fin 4096) :
    (layerR (F := Ideal) x w b : S1x2048x4096.Idx → EReal) (ix3 (0 : Fin 1) r e)
      = dense a (fun d e => (w : S4096x4096.Idx → EReal) (ix2 e d)) (fun e => (b : S4096.Idx → EReal) (ix1 e)) r e := by
  unfold layerR Cert.ValSpec.dense
  refine congrArg₂ (fun p q : EReal => max (p + q) zeroW) ((dotS_apply x w r e).trans ?_) (bias4096_apply b r e)
  exact Finset.sum_congr rfl fun d _ => congrArg (fun p : EReal => p * (w : S4096x4096.Idx → EReal) (ix2 e d)) (ha r d)

/-- The head's layer likewise. -/
theorem headR_dense (x : FVec Ideal S1x2048x4096 .f32) (w : FVec Ideal S21x4096 .f32) (b : FVec Ideal S21 .f32)
    (a : Fin 2048 → Fin 4096 → EReal) (ha : ∀ r d, (x : S1x2048x4096.Idx → EReal) (ix3 (0 : Fin 1) r d) = a r d) (r : Fin 2048) (n : Fin 21) :
    (headR (F := Ideal) x w b : S1x2048x21.Idx → EReal) (ix3 (0 : Fin 1) r n)
      = dense a (fun d n => (w : S21x4096.Idx → EReal) (ix2 n d)) (fun n => (b : S21.Idx → EReal) (ix1 n)) r n := by
  unfold headR Cert.ValSpec.dense
  refine congrArg₂ (fun p q : EReal => max (p + q) zeroW) ((dotH_apply x w r n).trans ?_) (bias21_apply b r n)
  exact Finset.sum_congr rfl fun d _ => congrArg (fun p : EReal => p * (w : S21x4096.Idx → EReal) (ix2 n d)) (ha r d)

/-- The three layers read at (0, r, n): the specification's head over the operands' entries. -/
theorem midR_apply (y : FVec Ideal S2048x4096 .f32) (w6 : FVec Ideal S4096x4096 .f32) (b6 : FVec Ideal S4096 .f32) (w7 : FVec Ideal S4096x4096 .f32)
    (b7 : FVec Ideal S4096 .f32) (w8 : FVec Ideal S21x4096 .f32) (b8 : FVec Ideal S21 .f32) (r : Fin 2048) (n : Fin 21) :
    (midR (F := Ideal) y w6 b6 w7 b7 w8 b8 : S1x2048x21.Idx → EReal) (ix3 0 r n)
      = Cert.ValSpec.head (fun r d => y (ix2 r d)) (fun e d => w6 (ix2 e d)) (fun e => b6 (ix1 e)) (fun e d => w7 (ix2 e d)) (fun e => b7 (ix1 e))
          (fun n d => w8 (ix2 n d)) (fun n => b8 (ix1 n)) r n := by
  unfold midR Cert.ValSpec.head
  exact headR_dense _ w8 b8 _ (fun r d => layerR_dense _ w7 b7 _ (fun r d => layerR_dense _ w6 b6 _ (fun r d => lead_apply y r d) r d) r d) r n

end Reads

end Cert.ReferenceIdeal.Hand
end
-- ==== Proof.Val.RefVals.lean ====
/-
  The reference's values stretch by stretch, over an arbitrary valuation `V` of the buffers before the stretch.
  The first stretch of @main's operations writes no argument; the second (the dense layers) leaves the two heads'
  1×2048×21 logits as the three-layer term `midR` of the pooled features and the weights it reads; the third leaves
  the product of the two softmaxes, the class softmax and the product's row sum as the term `tailR` of the two
  logits. Neither the layers nor the softmax are opened here.
-/
import proofs.«142348_j11536282157274_1_alg».proof.Proof.Val.RefOps
import proofs.«142348_j11536282157274_1_alg».proof.Proof.Val.RefMid

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-! ## The first stretch writes no argument -/

section StretchA
variable (V : Valuation τ sig (Elt F))

set_option maxRecDepth 8192 in
theorem afterA_arg0 : StableHlo.after opsA V (Proc.devRef .tc main_arg0) = V (Proc.devRef .tc main_arg0) := by
  after_results_simp <;> rfl
set_option maxRecDepth 8192 in
theorem afterA_arg1 : StableHlo.after opsA V (Proc.devRef .tc main_arg1) = V (Proc.devRef .tc main_arg1) := by
  after_results_simp <;> rfl
set_option maxRecDepth 8192 in
theorem afterA_arg2 : StableHlo.after opsA V (Proc.devRef .tc main_arg2) = V (Proc.devRef .tc main_arg2) := by
  after_results_simp <;> rfl
set_option maxRecDepth 8192 in
theorem afterA_arg3 : StableHlo.after opsA V (Proc.devRef .tc main_arg3) = V (Proc.devRef .tc main_arg3) := by
  after_results_simp <;> rfl
set_option maxRecDepth 8192 in
theorem afterA_arg4 : StableHlo.after opsA V (Proc.devRef .tc main_arg4) = V (Proc.devRef .tc main_arg4) := by
  after_results_simp <;> rfl
set_option maxRecDepth 8192 in
theorem afterA_arg5 : StableHlo.after opsA V (Proc.devRef .tc main_arg5) = V (Proc.devRef .tc main_arg5) := by
  after_results_simp <;> rfl
set_option maxRecDepth 8192 in
theorem afterA_arg6 : StableHlo.after opsA V (Proc.devRef .tc main_arg6) = V (Proc.devRef .tc main_arg6) := by
  after_results_simp <;> rfl
set_option maxRecDepth 8192 in
theorem afterA_arg7 : StableHlo.after opsA V (Proc.devRef .tc main_arg7) = V (Proc.devRef .tc main_arg7) := by
  after_results_simp <;> rfl
set_option maxRecDepth 8192 in
theorem afterA_arg8 : StableHlo.after opsA V (Proc.devRef .tc main_arg8) = V (Proc.devRef .tc main_arg8) := by
  after_results_simp <;> rfl
set_option maxRecDepth 8192 in
theorem afterA_arg9 : StableHlo.after opsA V (Proc.devRef .tc main_arg9) = V (Proc.devRef .tc main_arg9) := by
  after_results_simp <;> rfl

end StretchA

/-! ## The dense layers -/

section StretchB
variable (V : Valuation τ sig (Elt F))

/-- The class head's logits: the three dense layers over the pooled features, with the class weights. -/
theorem afterB_v43 : StableHlo.after opsB V (Proc.devRef .tc main_v43)
    = midR (V (Proc.devRef .tc main_v27)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp; rfl
/-- The detection head's logits: the same two hidden layers, then the detection weights. -/
theorem afterB_v48 : StableHlo.after opsB V (Proc.devRef .tc main_v48)
    = midR (V (Proc.devRef .tc main_v27)) (V (Proc.devRef .tc main_arg1)) (V (Proc.devRef .tc main_arg2)) (V (Proc.devRef .tc main_arg3)) (V (Proc.devRef .tc main_arg4)) (V (Proc.devRef .tc main_arg7)) (V (Proc.devRef .tc main_arg8)) := by
  after_results_simp; rfl

end StretchB

/-! ## The softmax tail -/

/-- The softmax tail over the two heads' logits `xc` (classes) and `xd` (detections): the softmax of `xc` along its
    last axis (`v59`), the softmax of `xd` along its middle axis (`v70`), their product (`v71`) and the product's
    sum over the middle axis (`v72`); each softmax is exp(x − max x) over its sum. -/
def tailR (xc xd : FVec F S1x2048x21 .f32) : FVec F S1x2048x21 .f32 × FVec F S1x2048x21 .f32 × FVec F S1x21 .f32 :=
  let v49 : FVec F S1x2048 .f32 := Host.reduce FloatOps.maximumf xc (constant (F := F) S_ .f32 0xFF800000#32) reducesTo_S1x2048x21_S1x2048_d2 h_S_
  let v51 : FVec F S1x2048 .f32 := maximumf (broadcastInDim S1x2048 ![] bcast_S_S1x2048 (constant (F := F) S_ .f32 0xFF800000#32)) v49
  let v53 : FVec F S1x2048x21 .f32 := broadcastInDim S1x2048x21 ![0, 1, 2] bcast_S1x2048x1_S1x2048x21_0_1_2 (broadcastInDim S1x2048x1 ![0, 1] bcast_S1x2048_S1x2048x1_0_1 v51)
  let v55 : FVec F S1x2048x21 .f32 := Host.exp (F := F) (subf xc v53)
  let v56 : FVec F S1x2048 .f32 := Host.reduceAdd (F := F) v55 (constant (F := F) S_ .f32 0x00000000#32) reducesTo_S1x2048x21_S1x2048_d2 h_S_
  let v58 : FVec F S1x2048x21 .f32 := broadcastInDim S1x2048x21 ![0, 1, 2] bcast_S1x2048x1_S1x2048x21_0_1_2 (broadcastInDim S1x2048x1 ![0, 1] bcast_S1x2048_S1x2048x1_0_1 v56)
  let v59 : FVec F S1x2048x21 .f32 := Host.divf (F := F) v55 v58
  let v60 : FVec F S1x21 .f32 := Host.reduce FloatOps.maximumf xd (constant (F := F) S_ .f32 0xFF800000#32) reducesTo_S1x2048x21_S1x21_d1 h_S_
  let v62 : FVec F S1x21 .f32 := maximumf (broadcastInDim S1x21 ![] bcast_S_S1x21 (constant (F := F) S_ .f32 0xFF800000#32)) v60
  let v64 : FVec F S1x2048x21 .f32 := broadcastInDim S1x2048x21 ![0, 1, 2] bcast_S1x1x21_S1x2048x21_0_1_2 (broadcastInDim S1x1x21 ![0, 2] bcast_S1x21_S1x1x21_0_2 v62)
  let v66 : FVec F S1x2048x21 .f32 := Host.exp (F := F) (subf xd v64)
  let v67 : FVec F S1x21 .f32 := Host.reduceAdd (F := F) v66 (constant (F := F) S_ .f32 0x00000000#32) reducesTo_S1x2048x21_S1x21_d1 h_S_
  let v69 : FVec F S1x2048x21 .f32 := broadcastInDim S1x2048x21 ![0, 1, 2] bcast_S1x1x21_S1x2048x21_0_1_2 (broadcastInDim S1x1x21 ![0, 2] bcast_S1x21_S1x1x21_0_2 v67)
  let v70 : FVec F S1x2048x21 .f32 := Host.divf (F := F) v66 v69
  let v71 : FVec F S1x2048x21 .f32 := mulf v59 v70
  let v72 : FVec F S1x21 .f32 := Host.reduceAdd (F := F) v71 (constant (F := F) S_ .f32 0x00000000#32) reducesTo_S1x2048x21_S1x21_d1 h_S_
  (v71, v59, v72)

section StretchC
variable (V : Valuation τ sig (Elt F))

set_option maxRecDepth 8192 in
theorem afterC_v71 : StableHlo.after opsC V (Proc.devRef .tc main_v71)
    = (tailR (V (Proc.devRef .tc main_v43)) (V (Proc.devRef .tc main_v48))).1 := by
  after_results_simp; rfl
set_option maxRecDepth 8192 in
theorem afterC_v59 : StableHlo.after opsC V (Proc.devRef .tc main_v59)
    = (tailR (V (Proc.devRef .tc main_v43)) (V (Proc.devRef .tc main_v48))).2.1 := by
  after_results_simp; rfl
set_option maxRecDepth 8192 in
theorem afterC_v72 : StableHlo.after opsC V (Proc.devRef .tc main_v72)
    = (tailR (V (Proc.devRef .tc main_v43)) (V (Proc.devRef .tc main_v48))).2.2 := by
  after_results_simp; rfl

end StretchC

end Cert.ReferenceIdeal.Hand

end
-- ==== Proof.Val.RefChain.lean ====
/-
  The reference's three results from a device's contents at launch, chained through the three stretches of @main:
  the softmax tail `tailR` of the two heads' logits, each head the three-layer term `midR` of the pooled features
  (what the first stretch leaves in `main_v27`) and of the weights and biases as they stand at launch — no stretch
  before a reader writes what it reads.
-/
import proofs.«142348_j11536282157274_1_alg».proof.Proof.Val.RefVals

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m' : (ℓ : Loc nD τ sig) → Buf (Elt F) ℓ) (c : Dev nD)

/-- The product of the two softmaxes. -/
theorem ref_v71 : StableHlo.after ops (launchContents m' c) (Proc.devRef .tc main_v71)
    = (tailR
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg7)) (m' ((c.tc : Thread nD τ).loc main_arg8)))).1 := by
  rw [after_ops, afterC_v71, afterB_v43, afterB_v48, afterA_arg1, afterA_arg2, afterA_arg3, afterA_arg4, afterA_arg5, afterA_arg6,
    afterA_arg7, afterA_arg8]

/-- The class softmax. -/
theorem ref_v59 : StableHlo.after ops (launchContents m' c) (Proc.devRef .tc main_v59)
    = (tailR
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg7)) (m' ((c.tc : Thread nD τ).loc main_arg8)))).2.1 := by
  rw [after_ops, afterC_v59, afterB_v43, afterB_v48, afterA_arg1, afterA_arg2, afterA_arg3, afterA_arg4, afterA_arg5, afterA_arg6,
    afterA_arg7, afterA_arg8]

/-- The product's row sum. -/
theorem ref_v72 : StableHlo.after ops (launchContents m' c) (Proc.devRef .tc main_v72)
    = (tailR
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
        (midR (StableHlo.after opsA (launchContents m' c) (Proc.devRef .tc main_v27)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg7)) (m' ((c.tc : Thread nD τ).loc main_arg8)))).2.2 := by
  rw [after_ops, afterC_v72, afterB_v43, afterB_v48, afterA_arg1, afterA_arg2, afterA_arg3, afterA_arg4, afterA_arg5, afterA_arg6,
    afterA_arg7, afterA_arg8]

end Cert.ReferenceIdeal.Hand

end
-- ==== Proof.Val.Bridge.lean ====
/-
  The two idealized programs end with equal results. The kernel's three results are the shared tail — two softmaxes,
  their product, its row sum — of the two score arrays its last region leaves, laid out 1×2048×21; the reference's
  are the same tail of its two score arrays. Read at an index, each score array is the specification's `head` (three
  dense layers with relu) of the pooled features and of the stored weights and biases: on the kernel's side by the
  regions' final arrays, each contraction accumulated block by block; on the reference's by reading its three
  `dot_general`s as sums. The pooled features are the same function of the two arguments they depend on, and the
  arguments agree, so the score arrays are equal, and so are the results.
-/
import proofs.«142348_j11536282157274_1_alg».proof.Proof.Val.KernelVal
import proofs.«142348_j11536282157274_1_alg».proof.Proof.Val.Glue
import proofs.«142348_j11536282157274_1_alg».proof.Proof.Val.RefChain
import proofs.«142348_j11536282157274_1_alg».proof.Proof.Gen.Pre_finite_inputs
import proofs.«142348_j11536282157274_1_alg».proof.Defs

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.Hand Cert.ReferenceIdeal.Hand

/-- The three-layer head depends on its arguments only through their values. -/
theorem head_congr {Y Y' : Fin 2048 → Fin 4096 → EReal} {W6 W6' W7 W7' : Fin 4096 → Fin 4096 → EReal} {b6 b6' b7 b7' : Fin 4096 → EReal}
    {W8 W8' : Fin 21 → Fin 4096 → EReal} {b8 b8' : Fin 21 → EReal}
    (hY : ∀ r d, Y r d = Y' r d) (h6 : ∀ e d, W6 e d = W6' e d) (hb6 : ∀ e, b6 e = b6' e) (h7 : ∀ e d, W7 e d = W7' e d) (hb7 : ∀ e, b7 e = b7' e)
    (h8 : ∀ n d, W8 n d = W8' n d) (hb8 : ∀ n, b8 n = b8' n) (r : Fin 2048) (n : Fin 21) :
    Cert.ValSpec.head Y W6 b6 W7 b7 W8 b8 r n = Cert.ValSpec.head Y' W6' b6' W7' b7' W8' b8' r n := by
  have e1 : Y = Y' := funext fun r => funext (hY r)
  have e2 : W6 = W6' := funext fun e => funext (h6 e)
  have e3 : b6 = b6' := funext hb6
  have e4 : W7 = W7' := funext fun e => funext (h7 e)
  have e5 : b7 = b7' := funext hb7
  have e6 : W8 = W8' := funext fun n => funext (h8 n)
  have e7 : b8 = b8' := funext hb8
  rw [e1, e2, e3, e4, e5, e6, e7]

/-- The tail is the same function in the two programs' spellings. -/
theorem tail_eq (a b : FVec Ideal Cert.KernelIdeal.S1x2048x21 .f32) :
    Cert.ReferenceIdeal.Hand.tailR (F := Ideal) a b = Cert.KernelIdeal.Hand.tail3K (F := Ideal) a b := rfl

section Scores

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (Y : FVec Ideal Cert.ReferenceIdeal.S2048x4096 .f32)
  (hY : ∀ (r : Fin 2048) (d : Fin 4096), (Y : Cert.ReferenceIdeal.S2048x4096.Idx → EReal) (ix2 r d) = featV m c r d)
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include hY h1 h2 h3 h4 h5 h6 in
/-- The reference's first score array is the kernel's, laid out 1×2048×21. -/
theorem scores_c :
    Cert.ReferenceIdeal.Hand.midR (F := Ideal) Y (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = shapeCast Cert.KernelIdeal.S1x2048x21 (Cert.KernelIdeal.Gen.V6 m (outsH m) c Cert.KernelIdeal.main_v45_0) Cert.KernelIdeal.Gen.shapeCasts_S2048x21_S1x2048x21 := by
  refine ext_1x2048x21 _ _ fun r n => ?_
  rw [midR_apply, reshape_2048x21_apply, head_c m c r n]
  exact head_congr (fun r d => hY r d) (fun e d => congrFun h1 _) (fun e => congrFun h2 _) (fun e d => congrFun h3 _) (fun e => congrFun h4 _)
    (fun n d => congrFun h5 _) (fun n => congrFun h6 _) r n

include hY h1 h2 h3 h4 h7 h8 in
/-- The second score array likewise. -/
theorem scores_d :
    Cert.ReferenceIdeal.Hand.midR (F := Ideal) Y (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = shapeCast Cert.KernelIdeal.S1x2048x21 (Cert.KernelIdeal.Gen.V6 m (outsH m) c Cert.KernelIdeal.main_v45_1) Cert.KernelIdeal.Gen.shapeCasts_S2048x21_S1x2048x21 := by
  refine ext_1x2048x21 _ _ fun r n => ?_
  rw [midR_apply, reshape_2048x21_apply, head_d m c r n]
  exact head_congr (fun r d => hY r d) (fun e d => congrFun h1 _) (fun e => congrFun h2 _) (fun e d => congrFun h3 _) (fun e => congrFun h4 _)
    (fun n d => congrFun h7 _) (fun n => congrFun h8 _) r n

end Scores

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hY : ∀ (r : Fin 2048) (d : Fin 4096), (StableHlo.after Cert.ReferenceIdeal.Hand.opsA (launchContents m' c) (Proc.devRef .tc Cert.ReferenceIdeal.main_v27) : Cert.ReferenceIdeal.S2048x4096.Idx → EReal) (ix2 r d) = featV m c r d)
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include hY h1 h2 h3 h4 h5 h6 h7 h8 in
/-- The reference's first result (the product of the two softmaxes) is the kernel's. -/
theorem res_prod :
    StableHlo.after Cert.ReferenceIdeal.Hand.ops (launchContents m' c) (Proc.devRef .tc Cert.ReferenceIdeal.main_v71) = Cert.KernelIdeal.Gen.V7 m (outsH m) c Cert.KernelIdeal.main_v70 := by
  rw [ref_v71 m' c, V7_main_v70 m (outsH m) c, scores_c m m' c _ hY h1 h2 h3 h4 h5 h6, scores_d m m' c _ hY h1 h2 h3 h4 h7 h8]
  exact congrArg Prod.fst (tail_eq _ _)

include hY h1 h2 h3 h4 h5 h6 h7 h8 in
/-- The second result (the class softmax). -/
theorem res_soft :
    StableHlo.after Cert.ReferenceIdeal.Hand.ops (launchContents m' c) (Proc.devRef .tc Cert.ReferenceIdeal.main_v59) = Cert.KernelIdeal.Gen.V7 m (outsH m) c Cert.KernelIdeal.main_v58 := by
  rw [ref_v59 m' c, V7_main_v58 m (outsH m) c, scores_c m m' c _ hY h1 h2 h3 h4 h5 h6, scores_d m m' c _ hY h1 h2 h3 h4 h7 h8]
  exact congrArg (fun p => p.2.1) (tail_eq _ _)

include hY h1 h2 h3 h4 h5 h6 h7 h8 in
/-- The third result (the product summed over rows). -/
theorem res_sum :
    StableHlo.after Cert.ReferenceIdeal.Hand.ops (launchContents m' c) (Proc.devRef .tc Cert.ReferenceIdeal.main_v72) = Cert.KernelIdeal.Gen.V7 m (outsH m) c Cert.KernelIdeal.main_v71 := by
  rw [ref_v72 m' c, V7_main_v71 m (outsH m) c, scores_c m m' c _ hY h1 h2 h3 h4 h5 h6, scores_d m m' c _ hY h1 h2 h3 h4 h7 h8]
  exact congrArg (fun p => p.2.2) (tail_eq _ _)

end Results

/-- An unscoped TensorCore reference is among the buffers the kernel's run names at the end. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- THE ALGEBRAIC CLAIM, given that the two programs' pooled features are the same function of the arguments they
    depend on: both programs run, end with equal results and unchanged arguments. -/
theorem algebraic_of_features
    (hfeat : ∀ (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD),
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) → m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) →
      ∀ (r : Fin 2048) (d : Fin 4096), (StableHlo.after Cert.ReferenceIdeal.Hand.opsA (launchContents m' c) (Proc.devRef .tc Cert.ReferenceIdeal.main_v27) : Cert.ReferenceIdeal.S2048x4096.Idx → EReal) (ix2 r d) = featV m c r d) :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.V7 m (outsH m) c Cert.KernelIdeal.main_v70, fun c => Cert.KernelIdeal.Gen.V7 m (outsH m) c Cert.KernelIdeal.main_v58,
    fun c => Cert.KernelIdeal.Gen.V7 m (outsH m) c Cert.KernelIdeal.main_v71, ?_, ?_⟩
  · exact (θ_run Cert.KernelIdeal.defs _ _).mono (fun r h c =>
      ⟨h c _ (mem_uc Cert.KernelIdeal.main_v70 (by decide)), h c _ (mem_uc Cert.KernelIdeal.main_v58 (by decide)), h c _ (mem_uc Cert.KernelIdeal.main_v71 (by decide)),
       (h c _ (mem_uc Cert.KernelIdeal.main_arg0 (by decide))).trans (Cert.KernelIdeal.Gen.V7_main_arg0 m (outsH m) c),
       (h c _ (mem_uc Cert.KernelIdeal.main_arg1 (by decide))).trans (Cert.KernelIdeal.Gen.V7_main_arg1 m (outsH m) c),
       (h c _ (mem_uc Cert.KernelIdeal.main_arg2 (by decide))).trans (Cert.KernelIdeal.Gen.V7_main_arg2 m (outsH m) c),
       (h c _ (mem_uc Cert.KernelIdeal.main_arg3 (by decide))).trans (Cert.KernelIdeal.Gen.V7_main_arg3 m (outsH m) c),
       (h c _ (mem_uc Cert.KernelIdeal.main_arg4 (by decide))).trans (Cert.KernelIdeal.Gen.V7_main_arg4 m (outsH m) c),
       (h c _ (mem_uc Cert.KernelIdeal.main_arg5 (by decide))).trans (Cert.KernelIdeal.Gen.V7_main_arg5 m (outsH m) c),
       (h c _ (mem_uc Cert.KernelIdeal.main_arg6 (by decide))).trans (Cert.KernelIdeal.Gen.V7_main_arg6 m (outsH m) c),
       (h c _ (mem_uc Cert.KernelIdeal.main_arg7 (by decide))).trans (Cert.KernelIdeal.Gen.V7_main_arg7 m (outsH m) c),
       (h c _ (mem_uc Cert.KernelIdeal.main_arg8 (by decide))).trans (Cert.KernelIdeal.Gen.V7_main_arg8 m (outsH m) c),
       (h c _ (mem_uc Cert.KernelIdeal.main_arg9 (by decide))).trans (Cert.KernelIdeal.Gen.V7_main_arg9 m (outsH m) c)⟩)
      (run_all (F := Ideal) m ρ)
  · exact (θ_run Cert.ReferenceIdeal.defs _ _).mono (fun r h c =>
      have ha := hagree c
      have hY := hfeat m m' c ha.1 ha.2.2.2.2.2.2.2.2.2
      ⟨(h c Cert.ReferenceIdeal.main_v71).trans (res_prod m m' c hY ha.2.1 ha.2.2.1 ha.2.2.2.1 ha.2.2.2.2.1 ha.2.2.2.2.2.1 ha.2.2.2.2.2.2.1 ha.2.2.2.2.2.2.2.1 ha.2.2.2.2.2.2.2.2.1),
       (h c Cert.ReferenceIdeal.main_v59).trans (res_soft m m' c hY ha.2.1 ha.2.2.1 ha.2.2.2.1 ha.2.2.2.2.1 ha.2.2.2.2.2.1 ha.2.2.2.2.2.2.1 ha.2.2.2.2.2.2.2.1 ha.2.2.2.2.2.2.2.2.1),
       (h c Cert.ReferenceIdeal.main_v72).trans (res_sum m m' c hY ha.2.1 ha.2.2.1 ha.2.2.2.1 ha.2.2.2.2.1 ha.2.2.2.2.2.1 ha.2.2.2.2.2.2.1 ha.2.2.2.2.2.2.2.1 ha.2.2.2.2.2.2.2.2.1),
       (h c Cert.ReferenceIdeal.main_arg0).trans (after_arg0 m' c),
       (h c Cert.ReferenceIdeal.main_arg1).trans (after_arg1 m' c),
       (h c Cert.ReferenceIdeal.main_arg2).trans (after_arg2 m' c),
       (h c Cert.ReferenceIdeal.main_arg3).trans (after_arg3 m' c),
       (h c Cert.ReferenceIdeal.main_arg4).trans (after_arg4 m' c),
       (h c Cert.ReferenceIdeal.main_arg5).trans (after_arg5 m' c),
       (h c Cert.ReferenceIdeal.main_arg6).trans (after_arg6 m' c),
       (h c Cert.ReferenceIdeal.main_arg7).trans (after_arg7 m' c),
       (h c Cert.ReferenceIdeal.main_arg8).trans (after_arg8 m' c),
       (h c Cert.ReferenceIdeal.main_arg9).trans (after_arg9 m' c)⟩)
      (run_fold (F := Ideal) m' ρ')

end Cert.Proof.Bridge

end
-- ==== Proof.LibNary3.lean ====
/-
  An operation with three operands, read at the buffer it writes. From a valuation `V` of the buffers, the operation
  `nary ![x, a, b] y f` leaves in `y` the value of its function `f` at the family of its operands' contents; for the
  literal family `![x, a, b]` that family is the three contents `V x`, `V a`, `V b`, in this order
  (`Fin.cons (V x) (Fin.cons (V a) (Fin.cons (V b) _))`). The three-operand companion of the four-operand statement
  `nary4_result`.
-/
import Idealize.ShloMosaic.Lib.StableHlo.Run

noncomputable section

namespace Idealize.ShloMosaic.StableHlo

variable {τ : Topo} {sig : RefSig} {Val : EltTy → Type}
variable {x a b y : Ref sig .tc}

/-- What `nary ![x, a, b] y f` writes to `y` from `V`: `f` at the three operands' contents `V x`, `V a`, `V b`, in order. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same equation, the buffer that is read carrying an indexing annotation only: the statement is unchanged. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold of a list of operations read at one buffer: at the buffer an operation writes, its function of its operands'
    contents (three- and four-operand families operand by operand); at any other buffer, what was there before it. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.Val.KernelFeat.lean ====
/-
  The kernel program's copy of the pooled features as ONE function of the image and the box table. The host operations
  before the first layer compute, from the 1×2048×4 box table, a 2048×3 index table — a zero column, then the table's
  columns 0 and 1, each with 64 added where negative —; gather from the image (without its unit axis) a 512×14×14
  window per row at those indices; take the maximum over each 7×7 cell of the window's 2×2 grid; lay the 512×2×2 maxima
  of each row out as a row of 2048; and set that 2048×2048 array twice side by side. Each stage is written as a function
  of the two arguments, and the contents of each stage's buffer after the operations is that function of the
  arguments' contents: a concatenation depends only on its operands, so the stages compose. The array the first layer
  reads is that 2048×4096 array given a leading unit axis, laid out 2048×4096 again and narrowed: at the ideal instance
  the same array, index by index.
-/
import proofs.«142348_j11536282157274_1_alg».proof.Proof.Gen.KernelIdeal.Regions
import proofs.«142348_j11536282157274_1_alg».proof.Proof.LibNary3
import proofs.«142348_j11536282157274_1_alg».proof.Proof.Val.Glue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## Equal operands give equal concatenations -/

/-- A concatenation of two arrays depends only on the arrays. -/
theorem concat2_congrK {α : Type} {t : Shape} {ax : Fin t.rank} {s0 s1 : Shape} {a0 a0' : s0.Idx → α} {a1 a1' : s1.Idx → α}
    (h : Shape.Concatenates [s0, s1] t ax) (h0 : a0 = a0') (h1 : a1 = a1') :
    concatenate t ax [⟨s0, a0⟩, ⟨s1, a1⟩] h = concatenate t ax [⟨s0, a0'⟩, ⟨s1, a1'⟩] h := by
  subst h0 h1; rfl

/-- A concatenation of three arrays depends only on the arrays. -/
theorem concat3_congrK {α : Type} {t : Shape} {ax : Fin t.rank} {s0 s1 s2 : Shape} {a0 a0' : s0.Idx → α} {a1 a1' : s1.Idx → α}
    {a2 a2' : s2.Idx → α} (h : Shape.Concatenates [s0, s1, s2] t ax) (h0 : a0 = a0') (h1 : a1 = a1') (h2 : a2 = a2') :
    concatenate t ax [⟨s0, a0⟩, ⟨s1, a1⟩, ⟨s2, a2⟩] h = concatenate t ax [⟨s0, a0'⟩, ⟨s1, a1'⟩, ⟨s2, a2'⟩] h := by
  subst h0 h1 h2; rfl

/-- Each buffer after a list of operations read as its operation's function of the operands' contents, down to the
    three-operand concatenation, which is left standing. -/
macro "after_results_upto_naryK" loc:(Lean.Parser.Tactic.location)? : tactic =>
  `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne'] $[$loc]?))

/-- Each buffer after a list of operations read as its operation's function of the operands' contents, all the way
    down (a three- or four-operand concatenation read operand by operand), in the goal or at a hypothesis. -/
macro "after_results_allK" loc:(Lean.Parser.Tactic.location)? : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne'] $[$loc]?))

/-! ## The stages of the pooled features, as functions of the image and the box table -/

/-- The index table's first column: zeros (the select of 512 or 0 on the comparison 0 < 0, broadcast down the rows). -/
def col19K : (⟨S2048x1, .i32⟩ : BufTy).Contents (Elt F) :=
  broadcastInDim S2048x1 ![] bcast_S_S2048x1
    (select (cmpi .slt (constantI S_ 32 0#32) (constantI S_ 32 0#32) : (⟨S_, .i1⟩ : BufTy).Contents (Elt F))
      (addi (constantI S_ 32 0#32) (constantI S_ 32 512#32) : (⟨S_, .i32⟩ : BufTy).Contents (Elt F)) (constantI S_ 32 0#32))

/-- The index table's second column: the box table's column 0, with 64 added where negative. -/
def col20K (x9 : (⟨S1x2048x4, .i32⟩ : BufTy).Contents (Elt F)) : (⟨S2048x1, .i32⟩ : BufTy).Contents (Elt F) :=
  broadcastInDim S2048x1 ![0] bcast_S2048_S2048x1_0
    (select
      (cmpi .slt
        (shapeCast S2048 (extractStridedSlice S2048x1 ![0, 0] (shapeCast S2048x4 x9 shapeCasts_S1x2048x4_S2048x4) slices_S2048x4_S2048x1_0_0) shapeCasts_S2048x1_S2048 : (⟨S2048, .i32⟩ : BufTy).Contents (Elt F))
        (broadcastInDim S2048 ![] bcast_S_S2048 (constantI S_ 32 0#32)) : (⟨S2048, .i1⟩ : BufTy).Contents (Elt F))
      (addi
        (shapeCast S2048 (extractStridedSlice S2048x1 ![0, 0] (shapeCast S2048x4 x9 shapeCasts_S1x2048x4_S2048x4) slices_S2048x4_S2048x1_0_0) shapeCasts_S2048x1_S2048 : (⟨S2048, .i32⟩ : BufTy).Contents (Elt F))
        (broadcastInDim S2048 ![] bcast_S_S2048 (constantI S_ 32 64#32)) : (⟨S2048, .i32⟩ : BufTy).Contents (Elt F))
      (shapeCast S2048 (extractStridedSlice S2048x1 ![0, 0] (shapeCast S2048x4 x9 shapeCasts_S1x2048x4_S2048x4) slices_S2048x4_S2048x1_0_0) shapeCasts_S2048x1_S2048))

/-- The index table's third column: the box table's column 1, with 64 added where negative. -/
def col21K (x9 : (⟨S1x2048x4, .i32⟩ : BufTy).Contents (Elt F)) : (⟨S2048x1, .i32⟩ : BufTy).Contents (Elt F) :=
  broadcastInDim S2048x1 ![0] bcast_S2048_S2048x1_0
    (select
      (cmpi .slt
        (shapeCast S2048 (extractStridedSlice S2048x1 ![0, 1] (shapeCast S2048x4 x9 shapeCasts_S1x2048x4_S2048x4) slices_S2048x4_S2048x1_0_1) shapeCasts_S2048x1_S2048 : (⟨S2048, .i32⟩ : BufTy).Contents (Elt F))
        (broadcastInDim S2048 ![] bcast_S_S2048 (constantI S_ 32 0#32)) : (⟨S2048, .i1⟩ : BufTy).Contents (Elt F))
      (addi
        (shapeCast S2048 (extractStridedSlice S2048x1 ![0, 1] (shapeCast S2048x4 x9 shapeCasts_S1x2048x4_S2048x4) slices_S2048x4_S2048x1_0_1) shapeCasts_S2048x1_S2048 : (⟨S2048, .i32⟩ : BufTy).Contents (Elt F))
        (broadcastInDim S2048 ![] bcast_S_S2048 (constantI S_ 32 64#32)) : (⟨S2048, .i32⟩ : BufTy).Contents (Elt F))
      (shapeCast S2048 (extractStridedSlice S2048x1 ![0, 1] (shapeCast S2048x4 x9 shapeCasts_S1x2048x4_S2048x4) slices_S2048x4_S2048x1_0_1) shapeCasts_S2048x1_S2048))

/-- The 2048×3 index table: the three columns side by side. -/
def idx22K (x9 : (⟨S1x2048x4, .i32⟩ : BufTy).Contents (Elt F)) : (⟨S2048x3, .i32⟩ : BufTy).Contents (Elt F) :=
  concatenate S2048x3 1 [⟨S2048x1, col19K (F := F)⟩, ⟨S2048x1, col20K x9⟩, ⟨S2048x1, col21K x9⟩] concatenates_S2048x1_S2048x1_S2048x1_S2048x3_d1

/-- The pooled 2048×2048 array: the image without its unit axis gathered at the index table (a 512×14×14 window per
    row), the maximum over each 7×7 cell of its 2×2 grid, laid out 2048×2048. -/
def pool26K (x0 : (⟨S1x512x64x64, .f32⟩ : BufTy).Contents (Elt F)) (x9 : (⟨S1x2048x4, .i32⟩ : BufTy).Contents (Elt F)) :
    (⟨S2048x2048, .f32⟩ : BufTy).Contents (Elt F) :=
  shapeCast S2048x2048
    (Host.reduce FloatOps.maximumf
      (shapeCast S2048x512x2x7x2x7
        (Host.gather gather_S512x64x64_S2048x3_S2048x512x14x14_123_n_n_n_012_1_5121414
          (shapeCast S512x64x64 x0 shapeCasts_S1x512x64x64_S512x64x64) (idx22K x9))
        shapeCasts_S2048x512x14x14_S2048x512x2x7x2x7)
      (constant S_ .f32 0xFF800000#32) reducesTo_S2048x512x2x7x2x7_S2048x512x2x2_d3_5 h_S_)
    shapeCasts_S2048x512x2x2_S2048x2048

/-- The pooled 2048×4096 features: the pooled array twice, side by side. -/
def featK (x0 : (⟨S1x512x64x64, .f32⟩ : BufTy).Contents (Elt F)) (x9 : (⟨S1x2048x4, .i32⟩ : BufTy).Contents (Elt F)) :
    (⟨S2048x4096, .f32⟩ : BufTy).Contents (Elt F) :=
  concatenate S2048x4096 1 [⟨S2048x2048, pool26K x0 x9⟩, ⟨S2048x2048, pool26K x0 x9⟩] concatenates_S2048x2048_S2048x2048_S2048x4096_d1

/-! ## The host operations before the first layer compute them -/

set_option maxRecDepth 8192 in
theorem afterK_v19 (V : Valuation τ sig (Elt F)) :
    StableHlo.after hostOps0 V (Proc.devRef .tc main_v19) = col19K (F := F) := by
  after_results_simp3
  rfl

set_option maxRecDepth 8192 in
theorem afterK_v20 (V : Valuation τ sig (Elt F)) :
    StableHlo.after hostOps0 V (Proc.devRef .tc main_v20) = col20K (V (Proc.devRef .tc main_arg9)) := by
  after_results_simp3
  rfl

set_option maxRecDepth 8192 in
theorem afterK_v21 (V : Valuation τ sig (Elt F)) :
    StableHlo.after hostOps0 V (Proc.devRef .tc main_v21) = col21K (V (Proc.devRef .tc main_arg9)) := by
  after_results_simp3
  rfl

set_option maxRecDepth 8192 in
theorem afterK_v22 (V : Valuation τ sig (Elt F)) :
    StableHlo.after hostOps0 V (Proc.devRef .tc main_v22) = idx22K (V (Proc.devRef .tc main_arg9)) := by
  after_results_simp3
  -- the three columns stand at the contents after the operations before the concatenation
  generalize hW : (unary main_v18 main_v21 _ _ _).result _ = W
  refine (concat3_congrK (a0' := col19K (F := F)) (a1' := col20K (V (Proc.devRef .tc main_arg9)))
    (a2' := col21K (V (Proc.devRef .tc main_arg9))) _ ?h0 ?h1 ?h2).trans rfl
  case h0 =>
    show W (Proc.devRef .tc main_v19) = _
    subst hW
    after_results_simp3
    rfl
  case h1 =>
    show W (Proc.devRef .tc main_v20) = _
    subst hW
    after_results_simp3
    rfl
  case h2 =>
    show W (Proc.devRef .tc main_v21) = _
    subst hW
    after_results_simp3
    rfl

set_option maxRecDepth 8192 in
theorem afterK_v26 (V : Valuation τ sig (Elt F)) :
    StableHlo.after hostOps0 V (Proc.devRef .tc main_v26) = pool26K (V (Proc.devRef .tc main_arg0)) (V (Proc.devRef .tc main_arg9)) := by
  have e22 := afterK_v22 (F := F) V
  after_results_upto_naryK at e22
  after_results_upto_naryK
  rw [e22]
  try rfl

set_option maxRecDepth 8192 in
/-- After the host operations the features' buffer holds ONE function of the image and the box table. -/
theorem afterK_v27 (V : Valuation τ sig (Elt F)) :
    StableHlo.after hostOps0 V (Proc.devRef .tc main_v27) = featK (V (Proc.devRef .tc main_arg0)) (V (Proc.devRef .tc main_arg9)) := by
  have e22 := afterK_v22 (F := F) V
  after_results_upto_naryK at e22
  after_results_simp3
  refine (concat2_congrK (a0' := pool26K (V (Proc.devRef .tc main_arg0)) (V (Proc.devRef .tc main_arg9)))
    (a1' := pool26K (V (Proc.devRef .tc main_arg0)) (V (Proc.devRef .tc main_arg9))) _ ?ha ?hb).trans rfl
  case ha =>
    after_results_upto_naryK
    rw [e22]
    try rfl
  case hb =>
    after_results_upto_naryK
    rw [e22]
    try rfl

/-! ## At the region's entry -/

section Entry

variable (m : (ℓ : Loc nD τ sig) → Buf (Elt F) ℓ) (c : Dev nD)

/-- The pooled features as the first layer's region finds them. -/
theorem V1_main_v27 :
    V1 m c main_v27 = featK (m ((c.tc : Thread nD τ).loc main_arg0)) (m ((c.tc : Thread nD τ).loc main_arg9)) :=
  afterK_v27 (V0 m c)

set_option maxRecDepth 8192 in
/-- The array the first layer reads: the features given a leading unit axis, laid out 2048×4096 again, narrowed. -/
theorem afterK_v30 (V : Valuation τ sig (Elt F)) :
    StableHlo.after hostOps0 V (Proc.devRef .tc main_v30)
      = truncf .bf16 (shapeCast S2048x4096 (broadcastInDim S1x2048x4096 ![1, 2] bcast_S2048x4096_S1x2048x4096_1_2
          (featK (V (Proc.devRef .tc main_arg0)) (V (Proc.devRef .tc main_arg9)))) shapeCasts_S1x2048x4096_S2048x4096) bitsLt_bf16_f32 := by
  have e27 := afterK_v27 (F := F) V
  after_results_allK at e27
  after_results_allK
  rw [e27]
  try rfl

theorem V1_main_v30 :
    V1 m c main_v30
      = truncf .bf16 (shapeCast S2048x4096 (broadcastInDim S1x2048x4096 ![1, 2] bcast_S2048x4096_S1x2048x4096_1_2
          (featK (m ((c.tc : Thread nD τ).loc main_arg0)) (m ((c.tc : Thread nD τ).loc main_arg9)))) shapeCasts_S1x2048x4096_S2048x4096) bitsLt_bf16_f32 :=
  afterK_v30 (V0 m c)

end Entry

section EntryIdeal

variable (m : (ℓ : Loc nD τ sig) → Buf (Elt Ideal) ℓ) (c : Dev nD)

/-- At the ideal instance the array the first layer reads is the pooled features, index by index. -/
theorem V1_main_v30_apply (r : Fin 2048) (d : Fin 4096) :
    (V1 m c main_v30 : S2048x4096.Idx → EReal) (ix2 r d)
      = featK (F := Ideal) (m ((c.tc : Thread nD τ).loc main_arg0)) (m ((c.tc : Thread nD τ).loc main_arg9)) (ix2 r d) := by
  rw [V1_main_v30]
  exact features_copy_apply _ r d

end EntryIdeal

end Cert.KernelIdeal.Hand

end
-- ==== Proof.Val.RefFeat.lean ====
/-
  The reference's pooled features as ONE function of the image and the box table. The first stretch of the reference's
  operations computes, from the 1×2048×4 box table, a 2048×3 index table — a zero column, then the table's columns 0 and
  1, each with 64 added where negative —; gathers from the image (without its unit axis) a 512×14×14 window per row at
  those indices; takes the maximum over each 7×7 cell of the window's 2×2 grid; lays the 512×2×2 maxima of each row
  out as a row of 2048; and sets that 2048×2048 array twice side by side. Each stage is written as a function of the
  two arguments, and the contents of each stage's buffer after the stretch is that function of the arguments'
  contents: a concatenation depends only on its operands, so the stages compose.
-/
import proofs.«142348_j11536282157274_1_alg».proof.Proof.Val.RefOps
import proofs.«142348_j11536282157274_1_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Equal operands give equal concatenations -/

/-- A concatenation of two arrays depends only on the arrays. -/
theorem concat2_congr {α : Type} {t : Shape} {ax : Fin t.rank} {s0 s1 : Shape} {a0 a0' : s0.Idx → α} {a1 a1' : s1.Idx → α}
    (h : Shape.Concatenates [s0, s1] t ax) (h0 : a0 = a0') (h1 : a1 = a1') :
    concatenate t ax [⟨s0, a0⟩, ⟨s1, a1⟩] h = concatenate t ax [⟨s0, a0'⟩, ⟨s1, a1'⟩] h := by
  subst h0 h1; rfl

/-- A concatenation of three arrays depends only on the arrays. -/
theorem concat3_congr {α : Type} {t : Shape} {ax : Fin t.rank} {s0 s1 s2 : Shape} {a0 a0' : s0.Idx → α} {a1 a1' : s1.Idx → α}
    {a2 a2' : s2.Idx → α} (h : Shape.Concatenates [s0, s1, s2] t ax) (h0 : a0 = a0') (h1 : a1 = a1') (h2 : a2 = a2') :
    concatenate t ax [⟨s0, a0⟩, ⟨s1, a1⟩, ⟨s2, a2⟩] h = concatenate t ax [⟨s0, a0'⟩, ⟨s1, a1'⟩, ⟨s2, a2'⟩] h := by
  subst h0 h1 h2; rfl

/-- Each buffer after a list of operations read as its operation's function of the operands' contents, down to the
    three-operand concatenation, which is left standing. -/
macro "after_results_upto_nary" loc:(Lean.Parser.Tactic.location)? : tactic =>
  `(tactic| (simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne'] $[$loc]?))

/-! ## The stages of the pooled features, as functions of the image and the box table -/

/-- The index table's first column: zeros (the select of 512 or 0 on the comparison 0 < 0, broadcast down the rows). -/
def col19 : (⟨S2048x1, .i32⟩ : BufTy).Contents (Elt F) :=
  broadcastInDim S2048x1 ![] bcast_S_S2048x1
    (select (cmpi .slt (constantI S_ 32 0#32) (constantI S_ 32 0#32) : (⟨S_, .i1⟩ : BufTy).Contents (Elt F))
      (addi (constantI S_ 32 0#32) (constantI S_ 32 512#32) : (⟨S_, .i32⟩ : BufTy).Contents (Elt F)) (constantI S_ 32 0#32))

/-- The index table's second column: the box table's column 0, with 64 added where negative. -/
def col20 (x9 : (⟨S1x2048x4, .i32⟩ : BufTy).Contents (Elt F)) : (⟨S2048x1, .i32⟩ : BufTy).Contents (Elt F) :=
  broadcastInDim S2048x1 ![0] bcast_S2048_S2048x1_0
    (select
      (cmpi .slt
        (shapeCast S2048 (extractStridedSlice S2048x1 ![0, 0] (shapeCast S2048x4 x9 shapeCasts_S1x2048x4_S2048x4) slices_S2048x4_S2048x1_0_0) shapeCasts_S2048x1_S2048 : (⟨S2048, .i32⟩ : BufTy).Contents (Elt F))
        (broadcastInDim S2048 ![] bcast_S_S2048 (constantI S_ 32 0#32)) : (⟨S2048, .i1⟩ : BufTy).Contents (Elt F))
      (addi
        (shapeCast S2048 (extractStridedSlice S2048x1 ![0, 0] (shapeCast S2048x4 x9 shapeCasts_S1x2048x4_S2048x4) slices_S2048x4_S2048x1_0_0) shapeCasts_S2048x1_S2048 : (⟨S2048, .i32⟩ : BufTy).Contents (Elt F))
        (broadcastInDim S2048 ![] bcast_S_S2048 (constantI S_ 32 64#32)) : (⟨S2048, .i32⟩ : BufTy).Contents (Elt F))
      (shapeCast S2048 (extractStridedSlice S2048x1 ![0, 0] (shapeCast S2048x4 x9 shapeCasts_S1x2048x4_S2048x4) slices_S2048x4_S2048x1_0_0) shapeCasts_S2048x1_S2048))

/-- The index table's third column: the box table's column 1, with 64 added where negative. -/
def col21 (x9 : (⟨S1x2048x4, .i32⟩ : BufTy).Contents (Elt F)) : (⟨S2048x1, .i32⟩ : BufTy).Contents (Elt F) :=
  broadcastInDim S2048x1 ![0] bcast_S2048_S2048x1_0
    (select
      (cmpi .slt
        (shapeCast S2048 (extractStridedSlice S2048x1 ![0, 1] (shapeCast S2048x4 x9 shapeCasts_S1x2048x4_S2048x4) slices_S2048x4_S2048x1_0_1) shapeCasts_S2048x1_S2048 : (⟨S2048, .i32⟩ : BufTy).Contents (Elt F))
        (broadcastInDim S2048 ![] bcast_S_S2048 (constantI S_ 32 0#32)) : (⟨S2048, .i1⟩ : BufTy).Contents (Elt F))
      (addi
        (shapeCast S2048 (extractStridedSlice S2048x1 ![0, 1] (shapeCast S2048x4 x9 shapeCasts_S1x2048x4_S2048x4) slices_S2048x4_S2048x1_0_1) shapeCasts_S2048x1_S2048 : (⟨S2048, .i32⟩ : BufTy).Contents (Elt F))
        (broadcastInDim S2048 ![] bcast_S_S2048 (constantI S_ 32 64#32)) : (⟨S2048, .i32⟩ : BufTy).Contents (Elt F))
      (shapeCast S2048 (extractStridedSlice S2048x1 ![0, 1] (shapeCast S2048x4 x9 shapeCasts_S1x2048x4_S2048x4) slices_S2048x4_S2048x1_0_1) shapeCasts_S2048x1_S2048))

/-- The 2048×3 index table: the three columns side by side. -/
def idx22 (x9 : (⟨S1x2048x4, .i32⟩ : BufTy).Contents (Elt F)) : (⟨S2048x3, .i32⟩ : BufTy).Contents (Elt F) :=
  concatenate S2048x3 1 [⟨S2048x1, col19 (F := F)⟩, ⟨S2048x1, col20 x9⟩, ⟨S2048x1, col21 x9⟩] concatenates_S2048x1_S2048x1_S2048x1_S2048x3_d1

/-- The pooled 2048×2048 array: the image without its unit axis gathered at the index table (a 512×14×14 window per
    row), the maximum over each 7×7 cell of its 2×2 grid, laid out 2048×2048. -/
def pool26 (x0 : (⟨S1x512x64x64, .f32⟩ : BufTy).Contents (Elt F)) (x9 : (⟨S1x2048x4, .i32⟩ : BufTy).Contents (Elt F)) :
    (⟨S2048x2048, .f32⟩ : BufTy).Contents (Elt F) :=
  shapeCast S2048x2048
    (Host.reduce FloatOps.maximumf
      (shapeCast S2048x512x2x7x2x7
        (Host.gather gather_S512x64x64_S2048x3_S2048x512x14x14_123_n_n_n_012_1_5121414
          (shapeCast S512x64x64 x0 shapeCasts_S1x512x64x64_S512x64x64) (idx22 x9))
        shapeCasts_S2048x512x14x14_S2048x512x2x7x2x7)
      (constant S_ .f32 0xFF800000#32) reducesTo_S2048x512x2x7x2x7_S2048x512x2x2_d3_5 h_S_)
    shapeCasts_S2048x512x2x2_S2048x2048

/-- The pooled 2048×4096 features: the pooled array twice, side by side. -/
def featR (x0 : (⟨S1x512x64x64, .f32⟩ : BufTy).Contents (Elt F)) (x9 : (⟨S1x2048x4, .i32⟩ : BufTy).Contents (Elt F)) :
    (⟨S2048x4096, .f32⟩ : BufTy).Contents (Elt F) :=
  concatenate S2048x4096 1 [⟨S2048x2048, pool26 x0 x9⟩, ⟨S2048x2048, pool26 x0 x9⟩] concatenates_S2048x2048_S2048x2048_S2048x4096_d1

/-! ## The first stretch of operations computes them -/

set_option maxRecDepth 8192 in
theorem after_opsA_v19 (V : Valuation τ sig (Elt F)) :
    StableHlo.after opsA V (Proc.devRef .tc main_v19) = col19 (F := F) := by
  after_results_simp3
  rfl

set_option maxRecDepth 8192 in
theorem after_opsA_v20 (V : Valuation τ sig (Elt F)) :
    StableHlo.after opsA V (Proc.devRef .tc main_v20) = col20 (V (Proc.devRef .tc main_arg9)) := by
  after_results_simp3
  rfl

set_option maxRecDepth 8192 in
theorem after_opsA_v21 (V : Valuation τ sig (Elt F)) :
    StableHlo.after opsA V (Proc.devRef .tc main_v21) = col21 (V (Proc.devRef .tc main_arg9)) := by
  after_results_simp3
  rfl

set_option maxRecDepth 8192 in
theorem after_opsA_v22 (V : Valuation τ sig (Elt F)) :
    StableHlo.after opsA V (Proc.devRef .tc main_v22) = idx22 (V (Proc.devRef .tc main_arg9)) := by
  after_results_simp3
  -- the three columns stand at the contents after the operations before the concatenation
  generalize hW : (unary main_v18 main_v21 _ _ _).result _ = W
  refine (concat3_congr (a0' := col19 (F := F)) (a1' := col20 (V (Proc.devRef .tc main_arg9)))
    (a2' := col21 (V (Proc.devRef .tc main_arg9))) _ ?h0 ?h1 ?h2).trans rfl
  case h0 =>
    show W (Proc.devRef .tc main_v19) = _
    subst hW
    after_results_simp3
    rfl
  case h1 =>
    show W (Proc.devRef .tc main_v20) = _
    subst hW
    after_results_simp3
    rfl
  case h2 =>
    show W (Proc.devRef .tc main_v21) = _
    subst hW
    after_results_simp3
    rfl

set_option maxRecDepth 8192 in
theorem after_opsA_v26 (V : Valuation τ sig (Elt F)) :
    StableHlo.after opsA V (Proc.devRef .tc main_v26) = pool26 (V (Proc.devRef .tc main_arg0)) (V (Proc.devRef .tc main_arg9)) := by
  have e22 := after_opsA_v22 (F := F) V
  after_results_upto_nary at e22
  after_results_upto_nary
  rw [e22]
  try rfl

set_option maxRecDepth 8192 in
/-- After the first stretch the features' buffer holds ONE function of the image and the box table. -/
theorem after_opsA_v27 (V : Valuation τ sig (Elt F)) :
    StableHlo.after opsA V (Proc.devRef .tc main_v27) = featR (V (Proc.devRef .tc main_arg0)) (V (Proc.devRef .tc main_arg9)) := by
  have e22 := after_opsA_v22 (F := F) V
  after_results_upto_nary at e22
  after_results_simp3
  refine (concat2_congr (a0' := pool26 (V (Proc.devRef .tc main_arg0)) (V (Proc.devRef .tc main_arg9)))
    (a1' := pool26 (V (Proc.devRef .tc main_arg0)) (V (Proc.devRef .tc main_arg9))) _ ?ha ?hb).trans rfl
  case ha =>
    after_results_upto_nary
    rw [e22]
    try rfl
  case hb =>
    after_results_upto_nary
    rw [e22]
    try rfl

end Cert.ReferenceIdeal.Hand

end
-- ==== Proof.Val.Features.lean ====
/-
  The two idealized programs' pooled features are the same function of the image and the box table: both print the
  same operations — the box table's first two columns, with 64 added where negative, beside a zero column; the image
  gathered at those indices, a 512×14×14 window per row; the maximum over each 7×7 cell of its 2×2 grid; the result
  twice, side by side — and the kernel's copy of it (broadcast to a leading unit axis, reshaped back, converted, which
  changes nothing at the ideal instance) reads the same value at every index. So from memories agreeing on the two
  arguments the reference's feature array and the array the kernel's first region is handed agree everywhere.
-/
import proofs.«142348_j11536282157274_1_alg».proof.Proof.Val.KernelFeat
import proofs.«142348_j11536282157274_1_alg».proof.Proof.Val.RefFeat
import proofs.«142348_j11536282157274_1_alg».proof.Proof.Val.Bridge

set_option maxRecDepth 16384

noncomputable section

namespace Cert.Proof.Bridge

open Idealize.ShloMosaic Idealize.ShloMosaic.TcCoe Idealize.SL.Sem Idealize.ShloMosaic.ValueIdx Idealize.ShloMosaic.StableHlo
open Cert.KernelIdeal.Hand Cert.ReferenceIdeal.Hand

/-- The pooled features are one function in the two programs' spellings. -/
theorem feat_fun_eq (x0 : (⟨Cert.KernelIdeal.S1x512x64x64, .f32⟩ : BufTy).Contents (Elt Ideal)) (x9 : (⟨Cert.KernelIdeal.S1x2048x4, .i32⟩ : BufTy).Contents (Elt Ideal)) :
    Cert.KernelIdeal.Hand.featK (F := Ideal) x0 x9 = Cert.ReferenceIdeal.Hand.featR (F := Ideal) x0 x9 := rfl

/-- From memories agreeing on the image and the box table, the reference's pooled features are what the kernel's first
    region is handed, at every index. -/
theorem features_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (r : Fin 2048) (d : Fin 4096) :
    (StableHlo.after Cert.ReferenceIdeal.Hand.opsA (launchContents m' c) (Proc.devRef .tc Cert.ReferenceIdeal.main_v27) : Cert.ReferenceIdeal.S2048x4096.Idx → EReal) (ix2 r d) = featV m c r d := by
  unfold featV
  rw [V1_main_v30_apply m c r d, after_opsA_v27]
  show Cert.ReferenceIdeal.Hand.featR (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (ix2 r d) = _
  rw [h0, h9, ← feat_fun_eq]

end Cert.Proof.Bridge

end
-- ==== Proof.lean ====
/-
  The certificate's five claims.
  The two kernel programs' frames (every weakly fair execution terminates, nothing faults, the argument arrays end as
  launched) are the run of @main's three kernel regions among its four host stretches (KB/Run.lean at the word level,
  KI/Run.lean at the ideal instance): each region's accumulator lives in a scratch buffer the region's invariant holds.
  The reference is a host program: its run is the fold of its operations, and no operation writes an argument.
  The idealization rewrote nothing, so `preserves` has no conjunct.
  At the ideal instance both programs compute, from the same pooled features, three dense layers with relu — the kernel
  accumulating each contraction block by block, the reference as one sum: equal because + on the extended reals is
  commutative and associative — and then the same two softmaxes, product and row sum.
-/
import proofs.«142348_j11536282157274_1_alg».proof.Defs
import proofs.«142348_j11536282157274_1_alg».proof.Proof.Gen.Kernel
import proofs.«142348_j11536282157274_1_alg».proof.Proof.Gen.KernelIdeal
import proofs.«142348_j11536282157274_1_alg».proof.Proof.Gen.ReferenceIdeal
import proofs.«142348_j11536282157274_1_alg».proof.Proof.Gen.Pre_finite_inputs
import proofs.«142348_j11536282157274_1_alg».proof.Proof.KB.Run
import proofs.«142348_j11536282157274_1_alg».proof.Proof.KI.Run
import proofs.«142348_j11536282157274_1_alg».proof.Proof.Val.RefOps
import proofs.«142348_j11536282157274_1_alg».proof.Proof.Val.Bridge
import proofs.«142348_j11536282157274_1_alg».proof.Proof.Val.Features
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.ReferenceIdeal.Hand.after_arg0 m c),
     (h c Cert.ReferenceIdeal.main_arg1).trans (Cert.ReferenceIdeal.Hand.after_arg1 m c),
     (h c Cert.ReferenceIdeal.main_arg2).trans (Cert.ReferenceIdeal.Hand.after_arg2 m c),
     (h c Cert.ReferenceIdeal.main_arg3).trans (Cert.ReferenceIdeal.Hand.after_arg3 m c),
     (h c Cert.ReferenceIdeal.main_arg4).trans (Cert.ReferenceIdeal.Hand.after_arg4 m c),
     (h c Cert.ReferenceIdeal.main_arg5).trans (Cert.ReferenceIdeal.Hand.after_arg5 m c),
     (h c Cert.ReferenceIdeal.main_arg6).trans (Cert.ReferenceIdeal.Hand.after_arg6 m c),
     (h c Cert.ReferenceIdeal.main_arg7).trans (Cert.ReferenceIdeal.Hand.after_arg7 m c),
     (h c Cert.ReferenceIdeal.main_arg8).trans (Cert.ReferenceIdeal.Hand.after_arg8 m c),
     (h c Cert.ReferenceIdeal.main_arg9).trans (Cert.ReferenceIdeal.Hand.after_arg9 m c)⟩)
    (Cert.ReferenceIdeal.Hand.run_fold (F := Ideal) m ρ)

theorem preserves : Cert.preserves_Kernel_KernelIdeal := trivial

theorem algebraic : @Cert.algebraic_KernelIdeal_ReferenceIdeal Cert.KernelIdeal.Gen.facts Cert.ReferenceIdeal.Gen.facts Cert.Pre_finite_inputs.Gen.facts :=
  Cert.Proof.Bridge.algebraic_of_features Cert.Proof.Bridge.features_agree

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
